-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  main_v3
-- ==== Kernel.lean ====
abbrev S8x4096x512 : Shape := ⟨3, ![8, 4096, 512]⟩
abbrev S1x4096x128 : Shape := ⟨3, ![1, 4096, 128]⟩
abbrev S4096x128 : Shape := ⟨2, ![4096, 128]⟩
abbrev S1x128 : Shape := ⟨2, ![1, 128]⟩
abbrev S1x256x128 : Shape := ⟨3, ![1, 256, 128]⟩
abbrev S256x128 : Shape := ⟨2, ![256, 128]⟩

abbrev nBuf : Space → Nat
  | .hbm => 2
  | .vmem => 6
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S4096x128, .i32⟩
  | .local _ .vmem, ⟨5, _⟩ => ⟨S4096x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  v8
def k0_off1 (k0_t1 : Fin k0_t1_loop.trips) : Fin 3 → Nat :=
  let c0 : Index := 0#32
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let v10 : Index := Scalar.indexCast v9
  let c0_6 : Index := 0#32
  ![0, v10.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let v100 : Index := Scalar.indexCast v9
  let c0_36 : Index := 0#32
  ![v100.toNat, 0]
@[reducible] def k0_t2_loop : Scf.Loop 32 :=
  let c0_i32_2 : BitVec 32 := 0#32
  let c16_i32_3 : BitVec 32 := 16#32
  let v6 : BitVec 32 := Scalar.addi c0_i32_2 c16_i32_3
  let c1_i32_4 : BitVec 32 := 1#32
  ⟨c0_i32_2, v6, c1_i32_4⟩
def k0_mult2 (k0_t2 : Fin k0_t2_loop.trips) : BitVec 32 :=
  let c15_i32 : BitVec 32 := 15#32
  let c0_i32_2 : BitVec 32 := 0#32
  let c1_i32_4 : BitVec 32 := 1#32
  let arg6 : BitVec 32 := Scf.iv c0_i32_2 c1_i32_4 k0_t2
  let v8 : BitVec 32 := Scalar.subi c15_i32 arg6
  let c256_i32 : BitVec 32 := 256#32
  let v9 : BitVec 32 := Scalar.muli v8 c256_i32
  v9
def k0_off3 (k0_t2 : Fin k0_t2_loop.trips) : Fin 3 → Nat :=
  let c0 : Index := 0#32
  let c15_i32 : BitVec 32 := 15#32
  let c0_i32_2 : BitVec 32 := 0#32
  let c1_i32_4 : BitVec 32 := 1#32
  let arg6 : BitVec 32 := Scf.iv c0_i32_2 c1_i32_4 k0_t2
  let v8 : BitVec 32 := Scalar.subi c15_i32 arg6
  let c256_i32 : BitVec 32 := 256#32
  let v9 : BitVec 32 := Scalar.muli v8 c256_i32
  let v10 : BitVec 32 := v9
  let v11 : Index := Scalar.indexCast v10
  let c0_6 : Index := 0#32
  ![0, v11.toNat, 0]
def k0_off4 (k0_t2 : Fin k0_t2_loop.trips) : Fin 2 → Nat :=
  let c15_i32 : BitVec 32 := 15#32
  let c0_i32_2 : BitVec 32 := 0#32
  let c1_i32_4 : BitVec 32 := 1#32
  let arg6 : BitVec 32 := Scf.iv c0_i32_2 c1_i32_4 k0_t2
  let v8 : BitVec 32 := Scalar.subi c15_i32 arg6
  let c256_i32 : BitVec 32 := 256#32
  let v9 : BitVec 32 := Scalar.muli v8 c256_i32
  let v10 : BitVec 32 := v9
  let v103 : Index := Scalar.indexCast v10
  let c0_34 : Index := 0#32
  ![v103.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x256x128 : 0 < S1x256x128.numel
  shapeCasts_S1x256x128_S256x128 : S1x256x128.ShapeCasts S256x128
  iota_S256x128_d0_w32 : S256x128.Iotas .tc 32 [0]
  rotates_S256x128_d0 : S256x128.Rotates 0 none
  shapeCasts_S1x128_S1x128 : S1x128.ShapeCasts S1x128
  broadcasts_S1x128_S256x128 : S1x128.Broadcasts S256x128
  h_S256x128 : 0 < S256x128.numel
  shapeCasts_S256x128_S256x128 : S256x128.ShapeCasts S256x128
  slices_S256x128_o255_0_S1x128 : S256x128.Slices ![255, 0] S1x128
  slices_S256x128_o0_0_S1x128 : S256x128.Slices ![0, 0] S1x128
  shapeCasts_S256x128_S1x256x128 : S256x128.ShapeCasts S1x256x128
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x128.size a ≤ S1x4096x128.size a
  k0_off2_inb : ∀ k0_t1 : Fin k0_t1_loop.trips, ∀ a, (k0_off2 k0_t1) a + S256x128.size a ≤ S4096x128.size a
  k0_t2_ok : k0_t2_loop.OK
  k0_mult2_dvd : ∀ k0_t2 : Fin k0_t2_loop.trips, 256 ∣ (k0_mult2 k0_t2).toNat
  k0_off3_inb : ∀ k0_t2 : Fin k0_t2_loop.trips, ∀ a, (k0_off3 k0_t2) a + S1x256x128.size a ≤ S1x4096x128.size a
  k0_off4_inb : ∀ k0_t2 : Fin k0_t2_loop.trips, ∀ a, (k0_off4 k0_t2) a + S256x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S8x4096x512.size a
  hwx0_0 : ∀ i : grid0.Coords, EltTy.bits .f32 = 32 ∨ (Rect.block (s := S8x4096x512) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S8x4096x512.size a
  hwx0_1 : ∀ i : grid0.Coords, EltTy.bits .f32 = 32 ∨ (Rect.block (s := S8x4096x512) S1x4096x128.size (cc0_transform_1 i) (hinb0_1 i)).WholeWords (EltTy.packing .f32)

variable [Facts₀]

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S_ : Shape := ⟨0, ![]⟩
abbrev S4096 : Shape := ⟨1, ![4096]⟩
abbrev S1x4096x1 : Shape := ⟨3, ![1, 4096, 1]⟩
abbrev S8x4096x512x1 : Shape := ⟨4, ![8, 4096, 512, 1]⟩
abbrev S1 : Shape := ⟨1, ![1]⟩
abbrev S1x1x1x1 : Shape := ⟨4, ![1, 1, 1, 1]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S_, .f32⟩
  | .hbm, ⟨2, _⟩ => ⟨S8x4096x512, .f32⟩
  | .hbm, ⟨3, _⟩ => ⟨S8x4096x512, .i1⟩
  | .hbm, ⟨4, _⟩ => ⟨S4096, .i32⟩
  | .hbm, ⟨5, _⟩ => ⟨S1x4096x1, .i32⟩
  | .hbm, ⟨6, _⟩ => ⟨S8x4096x512, .i32⟩
  | .hbm, ⟨7, _⟩ => ⟨S_, .i32⟩
  | .hbm, ⟨8, _⟩ => ⟨S_, .i32⟩
  | .hbm, ⟨9, _⟩ => ⟨S8x4096x512, .i32⟩
  | .hbm, ⟨10, _⟩ => ⟨S8x4096x512, .i32⟩
  | .hbm, ⟨11, _⟩ => ⟨S_, .i32⟩
  | .hbm, ⟨12, _⟩ => ⟨S_, .i32⟩
  | .hbm, ⟨13, _⟩ => ⟨S8x4096x512, .i32⟩
  | .hbm, ⟨14, _⟩ => ⟨S_, .i32⟩
  | .hbm, ⟨15, _⟩ => ⟨S_, .i32⟩
  | .hbm, ⟨16, _⟩ => ⟨S8x4096x512, .i32⟩
  | .hbm, ⟨17, _⟩ => ⟨S8x4096x512, .i32⟩
  | .hbm, ⟨18, _⟩ => ⟨S_, .i32⟩
  | .hbm, ⟨19, _⟩ => ⟨S_, .i32⟩
  | .hbm, ⟨20, _⟩ => ⟨S8x4096x512, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S8x4096x512, .i32⟩
  | .hbm, ⟨25, _⟩ => ⟨S8x4096x512, .i32⟩
  | .hbm, ⟨26, _⟩ => ⟨S_, .i32⟩
  | .hbm, ⟨27, _⟩ => ⟨S8x4096x512, .i32⟩
  | .hbm, ⟨28, _⟩ => ⟨S8x4096x512, .i32⟩
  | .hbm, ⟨29, _⟩ => ⟨S_, .i32⟩
  | .hbm, ⟨30, _⟩ => ⟨S8x4096x512, .i32⟩
  | .hbm, ⟨31, _⟩ => ⟨S8x4096x512, .i1⟩
  | .hbm, ⟨32, _⟩ => ⟨S_, .i32⟩
  | .hbm, ⟨33, _⟩ => ⟨S8x4096x512, .i32⟩
  | .hbm, ⟨34, _⟩ => ⟨S8x4096x512, .i32⟩
  | .hbm, ⟨35, _⟩ => ⟨S8x4096x512, .i32⟩
  | .hbm, ⟨36, _⟩ => ⟨S8x4096x512x1, .i32⟩
  | .hbm, ⟨37, _⟩ => ⟨S1, .i32⟩
  | .hbm, ⟨38, _⟩ => ⟨S_, .i32⟩
  | .hbm, ⟨39, _⟩ => ⟨S8x4096x512x1, .i32⟩
  | .hbm, ⟨40, _⟩ => ⟨S8x4096x512x1, .i1⟩
  | .hbm, ⟨41, _⟩ => ⟨S1x1x1x1, .i32⟩
  | .hbm, ⟨42, _⟩ => ⟨S8x4096x512x1, .i32⟩
  | .hbm, ⟨43, _⟩ => ⟨S8x4096x512x1, .i1⟩
  | .hbm, ⟨44, _⟩ => ⟨S8x4096x512x1, .i1⟩
  | .hbm, ⟨45, _⟩ => ⟨S_, .i1⟩
  | .hbm, ⟨46, _⟩ => ⟨S8x4096x512, .i1⟩
  | .hbm, ⟨47, _⟩ => ⟨S8x4096x512, .f32⟩
  | .hbm, ⟨48, _⟩ => ⟨S_, .f32⟩
  | .hbm, ⟨49, _⟩ => ⟨S8x4096x512, .f32⟩
  | .hbm, ⟨50, _⟩ => ⟨S8x4096x512, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S8x4096x512, .i32⟩
  | .hbm, ⟨55, _⟩ => ⟨S8x4096x512, .i32⟩
  | .hbm, ⟨56, _⟩ => ⟨S_, .i32⟩
  | .hbm, ⟨57, _⟩ => ⟨S8x4096x512, .i32⟩
  | .hbm, ⟨58, _⟩ => ⟨S8x4096x512, .i32⟩
  | .hbm, ⟨59, _⟩ => ⟨S_, .i32⟩
  | .hbm, ⟨60, _⟩ => ⟨S8x4096x512, .i32⟩
  | .hbm, ⟨61, _⟩ => ⟨S8x4096x512, .i1⟩
  | .hbm, ⟨62, _⟩ => ⟨S_, .i32⟩
  | .hbm, ⟨63, _⟩ => ⟨S8x4096x512, .i32⟩
  | .hbm, ⟨64, _⟩ => ⟨S8x4096x512, .i32⟩
  | .hbm, ⟨65, _⟩ => ⟨S8x4096x512, .i32⟩
  | .hbm, ⟨66, _⟩ => ⟨S8x4096x512x1, .i32⟩
  | .hbm, ⟨67, _⟩ => ⟨S1, .i32⟩
  | .hbm, ⟨68, _⟩ => ⟨S_, .i32⟩
  | .hbm, ⟨69, _⟩ => ⟨S8x4096x512x1, .i32⟩
  | .hbm, ⟨70, _⟩ => ⟨S8x4096x512x1, .i1⟩
  | .hbm, ⟨71, _⟩ => ⟨S1x1x1x1, .i32⟩
  | .hbm, ⟨72, _⟩ => ⟨S8x4096x512x1, .i32⟩
  | .hbm, ⟨73, _⟩ => ⟨S8x4096x512x1, .i1⟩
  | .hbm, ⟨74, _⟩ => ⟨S8x4096x512x1, .i1⟩
  | .hbm, ⟨75, _⟩ => ⟨S_, .i1⟩
  | .hbm, ⟨76, _⟩ => ⟨S8x4096x512, .i1⟩
  | .hbm, ⟨77, _⟩ => ⟨S8x4096x512, .f32⟩
  | .hbm, ⟨78, _⟩ => ⟨S_, .f32⟩
  | .hbm, ⟨79, _⟩ => ⟨S8x4096x512, .f32⟩
  | .hbm, ⟨80, _⟩ => ⟨S8x4096x512, .f32⟩
  | .hbm, ⟨81, _⟩ => ⟨S_, .i32⟩
  | .hbm, ⟨82, _⟩ => ⟨S8x4096x512, .i32⟩
  | .hbm, ⟨83, _⟩ => ⟨S8x4096x512, .i1⟩
  | .hbm, ⟨84, _⟩ => ⟨S_, .i32⟩
  | .hbm, ⟨85, _⟩ => ⟨S8x4096x512, .i32⟩
  | .hbm, ⟨86, _⟩ => ⟨S8x4096x512, .i1⟩
  | .hbm, ⟨87, _⟩ => ⟨S8x4096x512, .f32⟩
  | .hbm, ⟨88, _⟩ => ⟨S8x4096x512, .f32⟩
  | .hbm, ⟨89, _⟩ => ⟨S8x4096x512, .i1⟩
  | .hbm, ⟨90, _⟩ => ⟨S8x4096x512, .i1⟩
  | .hbm, ⟨91, _⟩ => ⟨S8x4096x512, .i1⟩
  | .hbm, ⟨92, _⟩ => ⟨S8x4096x512, .i32⟩
  | .hbm, ⟨93, _⟩ => ⟨S_, .i32⟩
  | .hbm, ⟨94, _⟩ => ⟨S8x4096x512, .i32⟩
  | .hbm, ⟨95, _⟩ => ⟨S8x4096x512, .i32⟩
  | .hbm, ⟨96, _⟩ => ⟨S8x4096x512, .f32⟩
  | .hbm, ⟨97, _⟩ => ⟨S8x4096x512, .i32⟩
  | .hbm, ⟨98, _⟩ => ⟨S8x4096x512, .f32⟩
  | .hbm, ⟨99, _⟩ => ⟨S8x4096x512, .f32⟩
  | .hbm, ⟨100, _⟩ => ⟨S_, .f32⟩
  | .hbm, ⟨101, _⟩ => ⟨S8x4096x512, .f32⟩
  | .hbm, ⟨102, _⟩ => ⟨S8x4096x512, .f32⟩
  | .hbm, ⟨103, _⟩ => ⟨S8x4096x512, .f32⟩
  | .hbm, ⟨104, _⟩ => ⟨S8x4096x512, .f32⟩
  | .hbm, ⟨105, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_call1_c : Ref sig .tc := ⟨.hbm, 11, rfl⟩
abbrev main_call1_v0 : Ref sig .tc := ⟨.hbm, 12, rfl⟩
abbrev main_v6 : Ref sig .tc := ⟨.hbm, 13, rfl⟩
abbrev main_c_0 : Ref sig .tc := ⟨.hbm, 14, rfl⟩
abbrev main_call2_v0 : Ref sig .tc := ⟨.hbm, 15, rfl⟩
abbrev main_call2_v1 : Ref sig .tc := ⟨.hbm, 16, rfl⟩
abbrev main_v7 : Ref sig .tc := ⟨.hbm, 17, rfl⟩
abbrev main_call3_c : Ref sig .tc := ⟨.hbm, 18, rfl⟩
abbrev main_call3_v0 : Ref sig .tc := ⟨.hbm, 19, rfl⟩
abbrev main_v8 : Ref sig .tc := ⟨.hbm, 20, rfl⟩
abbrev main_c_1 : Ref sig .tc := ⟨.hbm, 21, rfl⟩
abbrev main_c_2 : Ref sig .tc := ⟨.hbm, 22, rfl⟩
abbrev main_call4_v0 : Ref sig .tc := ⟨.hbm, 23, rfl⟩
abbrev main_call4_v1 : Ref sig .tc := ⟨.hbm, 24, rfl⟩
abbrev main_call4_v2 : Ref sig .tc := ⟨.hbm, 25, rfl⟩
abbrev main_call4_v3 : Ref sig .tc := ⟨.hbm, 26, rfl⟩
abbrev main_call4_v4 : Ref sig .tc := ⟨.hbm, 27, rfl⟩
abbrev main_v9 : Ref sig .tc := ⟨.hbm, 28, rfl⟩
abbrev main_call5_c : Ref sig .tc := ⟨.hbm, 29, rfl⟩
abbrev main_call5_v0 : Ref sig .tc := ⟨.hbm, 30, rfl⟩
abbrev main_call5_v1 : Ref sig .tc := ⟨.hbm, 31, rfl⟩
abbrev main_call5_c_0 : Ref sig .tc := ⟨.hbm, 32, rfl⟩
abbrev main_call5_v2 : Ref sig .tc := ⟨.hbm, 33, rfl⟩
abbrev main_call5_v3 : Ref sig .tc := ⟨.hbm, 34, rfl⟩
abbrev main_call5_v4 : Ref sig .tc := ⟨.hbm, 35, rfl⟩
abbrev main_call5_v5 : Ref sig .tc := ⟨.hbm, 36, rfl⟩
abbrev main_call5_c_1 : Ref sig .tc := ⟨.hbm, 37, rfl⟩
abbrev main_call5_c_2 : Ref sig .tc := ⟨.hbm, 38, rfl⟩
abbrev main_call5_v6 : Ref sig .tc := ⟨.hbm, 39, rfl⟩
abbrev main_call5_v7 : Ref sig .tc := ⟨.hbm, 40, rfl⟩
abbrev main_call5_v8 : Ref sig .tc := ⟨.hbm, 41, rfl⟩
abbrev main_call5_v9 : Ref sig .tc := ⟨.hbm, 42, rfl⟩
abbrev main_call5_v10 : Ref sig .tc := ⟨.hbm, 43, rfl⟩
abbrev main_call5_v11 : Ref sig .tc := ⟨.hbm, 44, rfl⟩
abbrev main_call5_c_3 : Ref sig .tc := ⟨.hbm, 45, rfl⟩
abbrev main_call5_v12 : Ref sig .tc := ⟨.hbm, 46, rfl⟩
abbrev main_call5_v13 : Ref sig .tc := ⟨.hbm, 47, rfl⟩
abbrev main_call5_cst : Ref sig .tc := ⟨.hbm, 48, rfl⟩
abbrev main_call5_v14 : Ref sig .tc := ⟨.hbm, 49, rfl⟩
abbrev main_v10 : Ref sig .tc := ⟨.hbm, 50, rfl⟩
abbrev main_c_3 : Ref sig .tc := ⟨.hbm, 51, rfl⟩
abbrev main_c_4 : Ref sig .tc := ⟨.hbm, 52, rfl⟩
abbrev main_call6_v0 : Ref sig .tc := ⟨.hbm, 53, rfl⟩
abbrev main_call6_v1 : Ref sig .tc := ⟨.hbm, 54, rfl⟩
abbrev main_call6_v2 : Ref sig .tc := ⟨.hbm, 55, rfl⟩
abbrev main_call6_v3 : Ref sig .tc := ⟨.hbm, 56, rfl⟩
abbrev main_call6_v4 : Ref sig .tc := ⟨.hbm, 57, rfl⟩
abbrev main_v11 : Ref sig .tc := ⟨.hbm, 58, rfl⟩
abbrev main_call7_c : Ref sig .tc := ⟨.hbm, 59, rfl⟩
abbrev main_call7_v0 : Ref sig .tc := ⟨.hbm, 60, rfl⟩
abbrev main_call7_v1 : Ref sig .tc := ⟨.hbm, 61, rfl⟩
abbrev main_call7_c_0 : Ref sig .tc := ⟨.hbm, 62, rfl⟩
abbrev main_call7_v2 : Ref sig .tc := ⟨.hbm, 63, rfl⟩
abbrev main_call7_v3 : Ref sig .tc := ⟨.hbm, 64, rfl⟩
abbrev main_call7_v4 : Ref sig .tc := ⟨.hbm, 65, rfl⟩
abbrev main_call7_v5 : Ref sig .tc := ⟨.hbm, 66, rfl⟩
abbrev main_call7_c_1 : Ref sig .tc := ⟨.hbm, 67, rfl⟩
abbrev main_call7_c_2 : Ref sig .tc := ⟨.hbm, 68, rfl⟩
abbrev main_call7_v6 : Ref sig .tc := ⟨.hbm, 69, rfl⟩
abbrev main_call7_v7 : Ref sig .tc := ⟨.hbm, 70, rfl⟩
abbrev main_call7_v8 : Ref sig .tc := ⟨.hbm, 71, rfl⟩
abbrev main_call7_v9 : Ref sig .tc := ⟨.hbm, 72, rfl⟩
abbrev main_call7_v10 : Ref sig .tc := ⟨.hbm, 73, rfl⟩
abbrev main_call7_v11 : Ref sig .tc := ⟨.hbm, 74, rfl⟩
abbrev main_call7_c_3 : Ref sig .tc := ⟨.hbm, 75, rfl⟩
abbrev main_call7_v12 : Ref sig .tc := ⟨.hbm, 76, rfl⟩
abbrev main_call7_v13 : Ref sig .tc := ⟨.hbm, 77, rfl⟩
abbrev main_call7_cst : Ref sig .tc := ⟨.hbm, 78, rfl⟩
abbrev main_call7_v14 : Ref sig .tc := ⟨.hbm, 79, rfl⟩
abbrev main_v12 : Ref sig .tc := ⟨.hbm, 80, rfl⟩
abbrev main_c_5 : Ref sig .tc := ⟨.hbm, 81, rfl⟩
abbrev main_v13 : Ref sig .tc := ⟨.hbm, 82, rfl⟩
abbrev main_v14 : Ref sig .tc := ⟨.hbm, 83, rfl⟩
abbrev main_c_6 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_c_7 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_cst_8 : Ref sig .tc := ⟨.hbm, 100, rfl⟩
abbrev main_call10_v0 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩

abbrev nD : Nat := 1
abbrev τ : Topo := Topo.v7x

variable {F : FTy → Type} [FloatOps F]

class Facts₀ : Prop where
  bcast_S_S8x4096x512 : S_.BroadcastsInDim S8x4096x512 (![] : Fin 0 → Fin S8x4096x512.rank)
  bcast_S4096_S1x4096x1_1 : S4096.BroadcastsInDim S1x4096x1 (![1] : Fin 1 → Fin S1x4096x1.rank)
  bcast_S1x4096x1_S8x4096x512_0_1_2 : S1x4096x1.BroadcastsInDim S8x4096x512 (![0, 1, 2] : Fin 3 → Fin S8x4096x512.rank)
  bcast_S_S_ : S_.BroadcastsInDim S_ (![] : Fin 0 → Fin S_.rank)
  reduceWindows_S8x4096x512_S8x4096x512_w1s1p0_0_w4096s1p4095_0_w1s1p0_0 : S8x4096x512.ReduceWindows (![1, 4096, 1] : Fin 3 → Nat) ![1, 1, 1] ![0, 4095, 0] ![0, 0, 0] S8x4096x512
  h_S_ : 0 < S_.numel
  reduceWindows_S8x4096x512_S8x4096x512_w1s1p0_0_w4096s1p0_4095_w1s1p0_0 : S8x4096x512.ReduceWindows (![1, 4096, 1] : Fin 3 → Nat) ![1, 1, 1] ![0, 0, 0] ![0, 4095, 0] S8x4096x512
  shapeCasts_S8x4096x512_S8x4096x512x1 : S8x4096x512.ShapeCasts S8x4096x512x1
  bcast_S_S8x4096x512x1 : S_.BroadcastsInDim S8x4096x512x1 (![] : Fin 0 → Fin S8x4096x512x1.rank)
  bcast_S1_S1x1x1x1_3 : S1.BroadcastsInDim S1x1x1x1 (![3] : Fin 1 → Fin S1x1x1x1.rank)
  bcast_S1x1x1x1_S8x4096x512x1_0_1_2_3 : S1x1x1x1.BroadcastsInDim S8x4096x512x1 (![0, 1, 2, 3] : Fin 4 → Fin S8x4096x512x1.rank)
  reducesTo_S8x4096x512x1_S8x4096x512_d3 : S8x4096x512x1.ReducesTo [3] S8x4096x512
  gather_S8x4096x512_S8x4096x512x1_S8x4096x512_n_1_02_02_1_3_111_wf : GatherDims.WF S8x4096x512 S8x4096x512x1 S8x4096x512 [] [1] [0, 2] [1] [0, 2] 3 ![1, 1, 1]

variable [Facts₀]

def gather_S8x4096x512_S8x4096x512x1_S8x4096x512_n_1_02_02_1_3_111 : GatherDims S8x4096x512 S8x4096x512x1 S8x4096x512 where
  offsetDims := []
  collapsedSliceDims := [1]
  operandBatchingDims := [0, 2]
  startIndicesBatchingDims := [0, 2]
  startIndexMap := [1]
  indexVectorDim := 3
  sliceSizes := ![1, 1, 1]
  wf := gather_S8x4096x512_S8x4096x512x1_S8x4096x512_n_1_02_02_1_3_111_wf

class Facts : Prop extends Facts₀ where

variable [Facts]
-- ==== Proof.RunK.lean ====
/-
  The kernel body's run at one grid point, loop by loop.

  The body is two counted loops over the sixteen 256-row chunks of the point's block. The first fills the two
  scratch buffers (positions and values of the nearest non-gap at or before each row), chunk by chunk, top to
  bottom; the second reads them back, chunk by chunk from the bottom, and stores the interpolated rows. Between
  the loops the scratch buffers are restated as "the first loop's sixteen stores over nothing": the stores tile
  the buffers, so what they held before the body is nowhere read, and what the second loop leaves in the output
  names no prior contents of the scratch.
-/
import proofs.«173454_j55009941127452_2_alg».proof.Proof.Gen.Kernel.Frame.Runs

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer after stores that cover its shape holds those stores over nothing: what it held before is
    nowhere read. -/
theorem pointsTo_writes_junk_of_cover {sp : Space} {s : Shape} {e : EltTy} (c : Dev nD)
    (M : Memref sig .tc sp s e) (f : Buf (Elt F) (M.view.loc (c : Thread nD τ))) (L : List (View.Piece (Elt F) s e))
    (hcov : ∀ y : s.Idx, ∃ p ∈ L, y ∈ p.1.set) :
    (M.view.loc (c : Thread nD τ) ↦[M.view.set]{fullShare} M.view.writes (Elt F) f L : sProp 𝕄)
      = M.view.loc (c : Thread nD τ) ↦[M.view.set]{fullShare} M.view.writes (Elt F) M.view.junk L :=
  pointsTo_congr fun i hi => by
    obtain ⟨y, -, rfl⟩ := Finset.mem_map.mp hi
    have h := View.read_writes_apply_eq M.view f M.view M.view.junk y L (hcov y)
    rw [View.read_apply, View.read_apply] at h
    simpa only [cast_cast, cast_eq] using congrArg (_root_.cast (congrArg (Elt F) M.view.elt_eq).symm) h

/-- The first loop's state after its sixteen trips, from the input block's contents. -/
abbrev st1 (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole)
    (X : BufTy.Contents (Elt F) arg2.view.ty) :=
  st_k0_t1 (F := F) Variants.none c none i arg2 harg2 arg3 harg3 arg4 harg4 arg5 harg5 X (k0_pay1, k0_pay2) (Scf.trips k0_t1_loop.lb k0_t1_loop.ub k0_t1_loop.st)

/-- The first loop's sixteen position stores tile the position scratch buffer. -/
theorem cover1_4 (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole) (X : BufTy.Contents (Elt F) arg2.view.ty) (y : S4096x128.Idx) :
    ∃ pc ∈ (st1 (F := F) c i arg2 harg2 arg3 harg3 arg4 harg4 arg5 harg5 X).2.1, y ∈ pc.1.set :=
  View.cover_of_tiledL (st1 (F := F) c i arg2 harg2 arg3 harg3 arg4 harg4 arg5 harg5 X).2.1 S256x128.size (by sl_kernel_rfl) y

/-- The first loop's sixteen value stores tile the value scratch buffer. -/
theorem cover1_5 (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole) (X : BufTy.Contents (Elt F) arg2.view.ty) (y : S4096x128.Idx) :
    ∃ pc ∈ (st1 (F := F) c i arg2 harg2 arg3 harg3 arg4 harg4 arg5 harg5 X).2.2, y ∈ pc.1.set :=
  View.cover_of_tiledL (st1 (F := F) c i arg2 harg2 arg3 harg3 arg4 harg4 arg5 harg5 X).2.2 S256x128.size (by sl_kernel_rfl) y

/-- THE FIRST LOOP, followed by anything: from the input block at `X` and the scratch buffers at anything, the
    loop ends with the scratch buffers at its stores over nothing, and hands its carried rows on. -/
theorem loop1_bind (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole)
    (X : BufTy.Contents (Elt F) arg2.view.ty) (f4 : BufTy.Contents (Elt F) arg4.view.ty) (f5 : BufTy.Contents (Elt F) arg5.view.ty)
    (E : Set ℕ) {α : Type} (k : IVec S1x128 32 × FVec F S1x128 .f32 → Prog (TpuEff nD τ sig (Elt F) Λ₀ .tc) α) (K : α → sProp 𝕄) :
    iprop((arg2.view.loc (c : Thread nD τ) ↦[arg2.view.set]{fullShare} X) ∗ (arg4.view.loc (c : Thread nD τ) ↦[arg4.view.set]{fullShare} f4) ∗ (arg5.view.loc (c : Thread nD τ) ↦[arg5.view.set]{fullShare} f5)
        ∗ (iprop((arg2.view.loc (c : Thread nD τ) ↦[arg2.view.set]{fullShare} X)
            ∗ (arg4.view.loc (c : Thread nD τ) ↦[arg4.view.set]{fullShare} arg4.view.writes (Elt F) arg4.view.junk (st1 c i arg2 harg2 arg3 harg3 arg4 harg4 arg5 harg5 X).2.1)
            ∗ (arg5.view.loc (c : Thread nD τ) ↦[arg5.view.set]{fullShare} arg5.view.writes (Elt F) arg5.view.junk (st1 c i arg2 harg2 arg3 harg3 arg4 harg4 arg5 harg5 X).2.2))
          -∗ wp frame (wpE (defs₀ (F := F)) Variants.none c none) E (k (st1 c i arg2 harg2 arg3 harg3 arg4 harg4 arg5 harg5 X).1) K))
      ⊢ wp frame (wpE (defs₀ (F := F)) Variants.none c none) E
          (Scf.Loop.for k0_t1_loop k0_t1_ok (k0_pay1, k0_pay2 (F := F)) (k0_t1_body i arg2 harg2 arg3 harg3 arg4 harg4 arg5 harg5) >>= k) K := by
  rw [wp_bind, ← pointsTo_writes_junk_of_cover c arg4 f4 _ (cover1_4 c i arg2 harg2 arg3 harg3 arg4 harg4 arg5 harg5 X),
    ← pointsTo_writes_junk_of_cover c arg5 f5 _ (cover1_5 c i arg2 harg2 arg3 harg3 arg4 harg4 arg5 harg5 X)]
  iintro ⟨H0, HS0, HS1, Hk⟩
  sl_exec
  iapply Hk
  isplitl [H0]; · iexact H0
  isplitl [HS0]; · iexact HS0
  iexact HS1

set_option maxHeartbeats 4000000 in
/-- What the body's stores leave in the output's staging memref, as pieces (last first), with the proof that on
    whole staging memrefs — the input's at its contents, the output's and the scratch buffers at anything — the
    body runs to the continuation holding the input's as it was, the scratch at some contents, the output's
    buffer with the pieces written. -/
noncomputable def kernelRun0_A (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole)
    (x0 : Vec F S1x4096x128 .f32) :
    { L1 : List (View.Piece (Elt F) S1x4096x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ (∃ d, owns (c : Thread nD τ) arg4 fullShare d) ∗ (∃ d, owns (c : Thread nD τ) arg5 fullShare d)) -∗ K ⟨⟩))
          ⊢ wp frame (wpE (defs₀ (F := F)) Variants.none c none) E (cc0__interp_kernel i arg2 harg2 arg3 harg3 arg4 harg4 arg5 harg5) K } := by
  refine ⟨?_, fun E K => ?run⟩
  case run =>
    simp only [cc0__interp_kernel_eq_skeleton]; unfold cc0__interp_kernel_skel
    unfold owns
    iintro ⟨⟨%f0, %hf0, H0⟩, ⟨%d1, %f1, -, H1⟩, ⟨%ds0, %fs0, -, HS0⟩, ⟨%ds1, %fs1, -, HS1⟩, Hk⟩
    obtain rfl := harg2.eq_unread hf0
    iapply (loop1_bind c i arg2 harg2 arg3 harg3 arg4 harg4 arg5 harg5 (harg2.unread x0) fs0 fs1 E _ K)
    isplitl [H0]; · iexact H0
    isplitl [HS0]; · iexact HS0
    isplitl [HS1]; · iexact HS1
    iintro ⟨H0, HS0, HS1⟩
    sl_exec
    sl_step
    iapply Hk
    isplitl [H0]
    · iexists _; isplitr; · ipureintro; exact harg2.read_unread _
      iexact H0
    isplitl [H1]; · iexists _; iexact H1
    isplitl [HS0]
    · iexists _, _; isplitr; swap; · iexact HS0
      ipureintro; rfl
    iexists _, _; isplitr; swap; · iexact HS1
    ipureintro; rfl

end Cert.Kernel.Gen

end
-- ==== Proof.RunKI.lean ====
/-
  The kernel body's run at one grid point, loop by loop.

  The body is two counted loops over the sixteen 256-row chunks of the point's block. The first fills the two
  scratch buffers (positions and values of the nearest non-gap at or before each row), chunk by chunk, top to
  bottom; the second reads them back, chunk by chunk from the bottom, and stores the interpolated rows. Between
  the loops the scratch buffers are restated as "the first loop's sixteen stores over nothing": the stores tile
  the buffers, so what they held before the body is nowhere read, and what the second loop leaves in the output
  names no prior contents of the scratch.
-/
import proofs.«173454_j55009941127452_2_alg».proof.Proof.Gen.KernelIdeal.Frame.Runs

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer after stores that cover its shape holds those stores over nothing: what it held before is
    nowhere read. -/
theorem pointsTo_writes_junk_of_cover {sp : Space} {s : Shape} {e : EltTy} (c : Dev nD)
    (M : Memref sig .tc sp s e) (f : Buf (Elt F) (M.view.loc (c : Thread nD τ))) (L : List (View.Piece (Elt F) s e))
    (hcov : ∀ y : s.Idx, ∃ p ∈ L, y ∈ p.1.set) :
    (M.view.loc (c : Thread nD τ) ↦[M.view.set]{fullShare} M.view.writes (Elt F) f L : sProp 𝕄)
      = M.view.loc (c : Thread nD τ) ↦[M.view.set]{fullShare} M.view.writes (Elt F) M.view.junk L :=
  pointsTo_congr fun i hi => by
    obtain ⟨y, -, rfl⟩ := Finset.mem_map.mp hi
    have h := View.read_writes_apply_eq M.view f M.view M.view.junk y L (hcov y)
    rw [View.read_apply, View.read_apply] at h
    simpa only [cast_cast, cast_eq] using congrArg (_root_.cast (congrArg (Elt F) M.view.elt_eq).symm) h

/-- The first loop's state after its sixteen trips, from the input block's contents. -/
abbrev st1 (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole)
    (X : BufTy.Contents (Elt F) arg2.view.ty) :=
  st_k0_t1 (F := F) Variants.none c none i arg2 harg2 arg3 harg3 arg4 harg4 arg5 harg5 X (k0_pay1, k0_pay2) (Scf.trips k0_t1_loop.lb k0_t1_loop.ub k0_t1_loop.st)

/-- The first loop's sixteen position stores tile the position scratch buffer. -/
theorem cover1_4 (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole) (X : BufTy.Contents (Elt F) arg2.view.ty) (y : S4096x128.Idx) :
    ∃ pc ∈ (st1 (F := F) c i arg2 harg2 arg3 harg3 arg4 harg4 arg5 harg5 X).2.1, y ∈ pc.1.set :=
  View.cover_of_tiledL (st1 (F := F) c i arg2 harg2 arg3 harg3 arg4 harg4 arg5 harg5 X).2.1 S256x128.size (by sl_kernel_rfl) y

/-- The first loop's sixteen value stores tile the value scratch buffer. -/
theorem cover1_5 (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole) (X : BufTy.Contents (Elt F) arg2.view.ty) (y : S4096x128.Idx) :
    ∃ pc ∈ (st1 (F := F) c i arg2 harg2 arg3 harg3 arg4 harg4 arg5 harg5 X).2.2, y ∈ pc.1.set :=
  View.cover_of_tiledL (st1 (F := F) c i arg2 harg2 arg3 harg3 arg4 harg4 arg5 harg5 X).2.2 S256x128.size (by sl_kernel_rfl) y

/-- THE FIRST LOOP, followed by anything: from the input block at `X` and the scratch buffers at anything, the
    loop ends with the scratch buffers at its stores over nothing, and hands its carried rows on. -/
theorem loop1_bind (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole)
    (X : BufTy.Contents (Elt F) arg2.view.ty) (f4 : BufTy.Contents (Elt F) arg4.view.ty) (f5 : BufTy.Contents (Elt F) arg5.view.ty)
    (E : Set ℕ) {α : Type} (k : IVec S1x128 32 × FVec F S1x128 .f32 → Prog (TpuEff nD τ sig (Elt F) Λ₀ .tc) α) (K : α → sProp 𝕄) :
    iprop((arg2.view.loc (c : Thread nD τ) ↦[arg2.view.set]{fullShare} X) ∗ (arg4.view.loc (c : Thread nD τ) ↦[arg4.view.set]{fullShare} f4) ∗ (arg5.view.loc (c : Thread nD τ) ↦[arg5.view.set]{fullShare} f5)
        ∗ (iprop((arg2.view.loc (c : Thread nD τ) ↦[arg2.view.set]{fullShare} X)
            ∗ (arg4.view.loc (c : Thread nD τ) ↦[arg4.view.set]{fullShare} arg4.view.writes (Elt F) arg4.view.junk (st1 c i arg2 harg2 arg3 harg3 arg4 harg4 arg5 harg5 X).2.1)
            ∗ (arg5.view.loc (c : Thread nD τ) ↦[arg5.view.set]{fullShare} arg5.view.writes (Elt F) arg5.view.junk (st1 c i arg2 harg2 arg3 harg3 arg4 harg4 arg5 harg5 X).2.2))
          -∗ wp frame (wpE (defs₀ (F := F)) Variants.none c none) E (k (st1 c i arg2 harg2 arg3 harg3 arg4 harg4 arg5 harg5 X).1) K))
      ⊢ wp frame (wpE (defs₀ (F := F)) Variants.none c none) E
          (Scf.Loop.for k0_t1_loop k0_t1_ok (k0_pay1, k0_pay2 (F := F)) (k0_t1_body i arg2 harg2 arg3 harg3 arg4 harg4 arg5 harg5) >>= k) K := by
  rw [wp_bind, ← pointsTo_writes_junk_of_cover c arg4 f4 _ (cover1_4 c i arg2 harg2 arg3 harg3 arg4 harg4 arg5 harg5 X),
    ← pointsTo_writes_junk_of_cover c arg5 f5 _ (cover1_5 c i arg2 harg2 arg3 harg3 arg4 harg4 arg5 harg5 X)]
  iintro ⟨H0, HS0, HS1, Hk⟩
  sl_exec
  iapply Hk
  isplitl [H0]; · iexact H0
  isplitl [HS0]; · iexact HS0
  iexact HS1

set_option maxHeartbeats 4000000 in
/-- What the body's stores leave in the output's staging memref, as pieces (last first), with the proof that on
    whole staging memrefs — the input's at its contents, the output's and the scratch buffers at anything — the
    body runs to the continuation holding the input's as it was, the scratch at some contents, the output's
    buffer with the pieces written. -/
noncomputable def kernelRun0_A (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole)
    (x0 : Vec F S1x4096x128 .f32) :
    { L1 : List (View.Piece (Elt F) S1x4096x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ (∃ d, owns (c : Thread nD τ) arg4 fullShare d) ∗ (∃ d, owns (c : Thread nD τ) arg5 fullShare d)) -∗ K ⟨⟩))
          ⊢ wp frame (wpE (defs₀ (F := F)) Variants.none c none) E (cc0__interp_kernel i arg2 harg2 arg3 harg3 arg4 harg4 arg5 harg5) K } := by
  refine ⟨?_, fun E K => ?run⟩
  case run =>
    simp only [cc0__interp_kernel_eq_skeleton]; unfold cc0__interp_kernel_skel
    unfold owns
    iintro ⟨⟨%f0, %hf0, H0⟩, ⟨%d1, %f1, -, H1⟩, ⟨%ds0, %fs0, -, HS0⟩, ⟨%ds1, %fs1, -, HS1⟩, Hk⟩
    obtain rfl := harg2.eq_unread hf0
    iapply (loop1_bind c i arg2 harg2 arg3 harg3 arg4 harg4 arg5 harg5 (harg2.unread x0) fs0 fs1 E _ K)
    isplitl [H0]; · iexact H0
    isplitl [HS0]; · iexact HS0
    isplitl [HS1]; · iexact HS1
    iintro ⟨H0, HS0, HS1⟩
    sl_exec
    sl_step
    iapply Hk
    isplitl [H0]
    · iexists _; isplitr; · ipureintro; exact harg2.read_unread _
      iexact H0
    isplitl [H1]; · iexists _; iexact H1
    isplitl [HS0]
    · iexists _, _; isplitr; swap; · iexact HS0
      ipureintro; rfl
    iexists _, _; isplitr; swap; · iexact HS1
    ipureintro; rfl

end Cert.KernelIdeal.Gen

end
-- ==== Proof.RefRun2.lean ====
/-
  The reference program's run, one operation at a time.

  The program is a straight line of 105 host operations. `W k V` is what the device's buffers hold after the first
  `k` of them from contents `V`; `spec_k` says that each buffer written so far and still read later holds the
  stage of the same name (the value of that operation as a function of the argument array), and that the argument
  array is untouched. Each step reads the new buffer from the stages of its operands, already known, so no
  composed term of the whole program is ever formed. The last step gives the run: every execution terminates with
  the result buffer at the last stage of the argument and the argument unchanged.
-/
import proofs.«173454_j55009941127452_2_alg».proof.Proof.RefRead
import Idealize.ShloMosaic.Lib.StableHlo.Run

noncomputable section

namespace Cert.Interp.RefRun2

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

attribute [local irreducible] Host.reduceWindow Host.reduce Host.gather Host.divf shapeCast broadcastInDim iotaInDim
  cmpi cmpf andi noti select addi subi maxsi minsi sitofp addf subf mulf

/-- The program's 105 host operations, in order (a called function's operations stand at its call). -/
abbrev ops : List (HloOp τ sig (Elt F)) :=
  [ nullary main_cst (constant S_ .f32 0x00000000#32),
    unary main_cst main_v0 (broadcastInDim S8x4096x512 ![] bcast_S_S8x4096x512 : (⟨S_, .f32⟩ : BufTy).Contents (Elt F) → (⟨S8x4096x512, .f32⟩ : BufTy).Contents (Elt F)),
    binary main_arg0 main_v0 main_v1 (cmpf .une : (⟨S8x4096x512, .f32⟩ : BufTy).Contents (Elt F) → (⟨S8x4096x512, .f32⟩ : BufTy).Contents (Elt F) → (⟨S8x4096x512, .i1⟩ : BufTy).Contents (Elt F)),
    nullary main_v2 (iotaInDim S4096 32 0),
    unary main_v2 main_v3 (broadcastInDim S1x4096x1 ![1] bcast_S4096_S1x4096x1_1 : (⟨S4096, .i32⟩ : BufTy).Contents (Elt F) → (⟨S1x4096x1, .i32⟩ : BufTy).Contents (Elt F)),
    unary main_v3 main_v4 (broadcastInDim S8x4096x512 ![0, 1, 2] bcast_S1x4096x1_S8x4096x512_0_1_2 : (⟨S1x4096x1, .i32⟩ : BufTy).Contents (Elt F) → (⟨S8x4096x512, .i32⟩ : BufTy).Contents (Elt F)),
    nullary main_c (constantI S_ 32 4294967295#32),
    TRef.unary (TRef.of (T := ⟨S_, .i32⟩) main_c) (TRef.of (T := ⟨S_, .i32⟩) main_call0_v0) id,
    TRef.unary (TRef.of (T := ⟨S_, .i32⟩) main_call0_v0) (TRef.of (T := ⟨S8x4096x512, .i32⟩) main_call0_v1) (broadcastInDim S8x4096x512 ![] bcast_S_S8x4096x512),
    TRef.ternary (TRef.of (T := ⟨S8x4096x512, .i1⟩) main_v1) (TRef.of (T := ⟨S8x4096x512, .i32⟩) main_v4) (TRef.of (T := ⟨S8x4096x512, .i32⟩) main_call0_v1) (TRef.of (T := ⟨S8x4096x512, .i32⟩) main_v5) select,
    TRef.nullary (TRef.of (T := ⟨S_, .i32⟩) main_call1_c) (constantI S_ 32 2147483648#32),
    TRef.unary (TRef.of (T := ⟨S_, .i32⟩) main_call1_c) (TRef.of (T := ⟨S_, .i32⟩) main_call1_v0) (broadcastInDim S_ ![] bcast_S_S_),
    TRef.binary (TRef.of (T := ⟨S8x4096x512, .i32⟩) main_v5) (TRef.of (T := ⟨S_, .i32⟩) main_call1_v0) (TRef.of (T := ⟨S8x4096x512, .i32⟩) main_v6) (fun x v => Host.reduceWindow IntOp.maxsi ![1, 4096, 1] ![1, 1, 1] ![0, 4095, 0] ![0, 0, 0] x v reduceWindows_S8x4096x512_S8x4096x512_w1s1p0_0_w4096s1p4095_0_w1s1p0_0 h_S_),
    nullary main_c_0 (constantI S_ 32 4096#32),
    TRef.unary (TRef.of (T := ⟨S_, .i32⟩) main_c_0) (TRef.of (T := ⟨S_, .i32⟩) main_call2_v0) id,
    TRef.unary (TRef.of (T := ⟨S_, .i32⟩) main_call2_v0) (TRef.of (T := ⟨S8x4096x512, .i32⟩) main_call2_v1) (broadcastInDim S8x4096x512 ![] bcast_S_S8x4096x512),
    TRef.ternary (TRef.of (T := ⟨S8x4096x512, .i1⟩) main_v1) (TRef.of (T := ⟨S8x4096x512, .i32⟩) main_v4) (TRef.of (T := ⟨S8x4096x512, .i32⟩) main_call2_v1) (TRef.of (T := ⟨S8x4096x512, .i32⟩) main_v7) select,
    TRef.nullary (TRef.of (T := ⟨S_, .i32⟩) main_call3_c) (constantI S_ 32 2147483647#32),
    TRef.unary (TRef.of (T := ⟨S_, .i32⟩) main_call3_c) (TRef.of (T := ⟨S_, .i32⟩) main_call3_v0) (broadcastInDim S_ ![] bcast_S_S_),
    TRef.binary (TRef.of (T := ⟨S8x4096x512, .i32⟩) main_v7) (TRef.of (T := ⟨S_, .i32⟩) main_call3_v0) (TRef.of (T := ⟨S8x4096x512, .i32⟩) main_v8) (fun x v => Host.reduceWindow IntOp.minsi ![1, 4096, 1] ![1, 1, 1] ![0, 0, 0] ![0, 4095, 0] x v reduceWindows_S8x4096x512_S8x4096x512_w1s1p0_0_w4096s1p0_4095_w1s1p0_0 h_S_),
    nullary main_c_1 (constantI S_ 32 0#32),
    nullary main_c_2 (constantI S_ 32 4095#32),
    TRef.unary (TRef.of (T := ⟨S_, .i32⟩) main_c_1) (TRef.of (T := ⟨S_, .i32⟩) main_call4_v0) id,
    TRef.unary (TRef.of (T := ⟨S_, .i32⟩) main_call4_v0) (TRef.of (T := ⟨S8x4096x512, .i32⟩) main_call4_v1) (broadcastInDim S8x4096x512 ![] bcast_S_S8x4096x512),
    TRef.binary (TRef.of (T := ⟨S8x4096x512, .i32⟩) main_call4_v1) (TRef.of (T := ⟨S8x4096x512, .i32⟩) main_v6) (TRef.of (T := ⟨S8x4096x512, .i32⟩) main_call4_v2) maxsi,
    TRef.unary (TRef.of (T := ⟨S_, .i32⟩) main_c_2) (TRef.of (T := ⟨S_, .i32⟩) main_call4_v3) id,
    TRef.unary (TRef.of (T := ⟨S_, .i32⟩) main_call4_v3) (TRef.of (T := ⟨S8x4096x512, .i32⟩) main_call4_v4) (broadcastInDim S8x4096x512 ![] bcast_S_S8x4096x512),
    TRef.binary (TRef.of (T := ⟨S8x4096x512, .i32⟩) main_call4_v4) (TRef.of (T := ⟨S8x4096x512, .i32⟩) main_call4_v2) (TRef.of (T := ⟨S8x4096x512, .i32⟩) main_v9) minsi,
    TRef.nullary (TRef.of (T := ⟨S_, .i32⟩) main_call5_c) (constantI S_ 32 0#32),
    TRef.unary (TRef.of (T := ⟨S_, .i32⟩) main_call5_c) (TRef.of (T := ⟨S8x4096x512, .i32⟩) main_call5_v0) (broadcastInDim S8x4096x512 ![] bcast_S_S8x4096x512),
    TRef.binary (TRef.of (T := ⟨S8x4096x512, .i32⟩) main_v9) (TRef.of (T := ⟨S8x4096x512, .i32⟩) main_call5_v0) (TRef.of (T := ⟨S8x4096x512, .i1⟩) main_call5_v1) (cmpi .slt),
    TRef.nullary (TRef.of (T := ⟨S_, .i32⟩) main_call5_c_0) (constantI S_ 32 4096#32),
    TRef.unary (TRef.of (T := ⟨S_, .i32⟩) main_call5_c_0) (TRef.of (T := ⟨S8x4096x512, .i32⟩) main_call5_v2) (broadcastInDim S8x4096x512 ![] bcast_S_S8x4096x512),
    TRef.binary (TRef.of (T := ⟨S8x4096x512, .i32⟩) main_v9) (TRef.of (T := ⟨S8x4096x512, .i32⟩) main_call5_v2) (TRef.of (T := ⟨S8x4096x512, .i32⟩) main_call5_v3) addi,
    TRef.ternary (TRef.of (T := ⟨S8x4096x512, .i1⟩) main_call5_v1) (TRef.of (T := ⟨S8x4096x512, .i32⟩) main_call5_v3) (TRef.of (T := ⟨S8x4096x512, .i32⟩) main_v9) (TRef.of (T := ⟨S8x4096x512, .i32⟩) main_call5_v4) select,
    TRef.reshape (TRef.of (T := ⟨S8x4096x512, .i32⟩) main_call5_v4) (TRef.of (T := ⟨S8x4096x512x1, .i32⟩) main_call5_v5) rfl shapeCasts_S8x4096x512_S8x4096x512x1,
    TRef.nullary (TRef.of (T := ⟨S1, .i32⟩) main_call5_c_1) (constantI S1 32 4095#32),
    TRef.nullary (TRef.of (T := ⟨S_, .i32⟩) main_call5_c_2) (constantI S_ 32 0#32),
    TRef.unary (TRef.of (T := ⟨S_, .i32⟩) main_call5_c_2) (TRef.of (T := ⟨S8x4096x512x1, .i32⟩) main_call5_v6) (broadcastInDim S8x4096x512x1 ![] bcast_S_S8x4096x512x1),
    TRef.binary (TRef.of (T := ⟨S8x4096x512x1, .i32⟩) main_call5_v5) (TRef.of (T := ⟨S8x4096x512x1, .i32⟩) main_call5_v6) (TRef.of (T := ⟨S8x4096x512x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S8x4096x512x1, .i32⟩) main_call5_v9) (broadcastInDim S8x4096x512x1 ![0, 1, 2, 3] bcast_S1x1x1x1_S8x4096x512x1_0_1_2_3),
    TRef.binary (TRef.of (T := ⟨S8x4096x512x1, .i32⟩) main_call5_v5) (TRef.of (T := ⟨S8x4096x512x1, .i32⟩) main_call5_v9) (TRef.of (T := ⟨S8x4096x512x1, .i1⟩) main_call5_v10) (cmpi .sle),
    TRef.binary (TRef.of (T := ⟨S8x4096x512x1, .i1⟩) main_call5_v7) (TRef.of (T := ⟨S8x4096x512x1, .i1⟩) main_call5_v10) (TRef.of (T := ⟨S8x4096x512x1, .i1⟩) main_call5_v11) andi,
    TRef.nullary (TRef.of (T := ⟨S_, .i1⟩) main_call5_c_3) (constantI S_ 1 1#1),
    TRef.binary (TRef.of (T := ⟨S8x4096x512x1, .i1⟩) main_call5_v11) (TRef.of (T := ⟨S_, .i1⟩) main_call5_c_3) (TRef.of (T := ⟨S8x4096x512, .i1⟩) main_call5_v12) (fun x v => Host.reduce IntOp.andi x v reducesTo_S8x4096x512x1_S8x4096x512_d3 h_S_),
    TRef.binary (TRef.of (T := ⟨S8x4096x512, .f32⟩) main_arg0) (TRef.of (T := ⟨S8x4096x512x1, .i32⟩) main_call5_v5) (TRef.of (T := ⟨S8x4096x512, .f32⟩) main_call5_v13) (fun x i => Host.gather gather_S8x4096x512_S8x4096x512x1_S8x4096x512_n_1_02_02_1_3_111 x i),
    TRef.nullary (TRef.of (T := ⟨S_, .f32⟩) main_call5_cst) (constant S_ .f32 0x7FC00000#32),
    TRef.unary (TRef.of (T := ⟨S_, .f32⟩) main_call5_cst) (TRef.of (T := ⟨S8x4096x512, .f32⟩) main_call5_v14) (broadcastInDim S8x4096x512 ![] bcast_S_S8x4096x512),
    TRef.ternary (TRef.of (T := ⟨S8x4096x512, .i1⟩) main_call5_v12) (TRef.of (T := ⟨S8x4096x512, .f32⟩) main_call5_v13) (TRef.of (T := ⟨S8x4096x512, .f32⟩) main_call5_v14) (TRef.of (T := ⟨S8x4096x512, .f32⟩) main_v10) select,
    nullary main_c_3 (constantI S_ 32 0#32),
    nullary main_c_4 (constantI S_ 32 4095#32),
    TRef.unary (TRef.of (T := ⟨S_, .i32⟩) main_c_3) (TRef.of (T := ⟨S_, .i32⟩) main_call6_v0) id,
    TRef.unary (TRef.of (T := ⟨S_, .i32⟩) main_call6_v0) (TRef.of (T := ⟨S8x4096x512, .i32⟩) main_call6_v1) (broadcastInDim S8x4096x512 ![] bcast_S_S8x4096x512),
    TRef.binary (TRef.of (T := ⟨S8x4096x512, .i32⟩) main_call6_v1) (TRef.of (T := ⟨S8x4096x512, .i32⟩) main_v8) (TRef.of (T := ⟨S8x4096x512, .i32⟩) main_call6_v2) maxsi,
    TRef.unary (TRef.of (T := ⟨S_, .i32⟩) main_c_4) (TRef.of (T := ⟨S_, .i32⟩) main_call6_v3) id,
    TRef.unary (TRef.of (T := ⟨S_, .i32⟩) main_call6_v3) (TRef.of (T := ⟨S8x4096x512, .i32⟩) main_call6_v4) (broadcastInDim S8x4096x512 ![] bcast_S_S8x4096x512),
    TRef.binary (TRef.of (T := ⟨S8x4096x512, .i32⟩) main_call6_v4) (TRef.of (T := ⟨S8x4096x512, .i32⟩) main_call6_v2) (TRef.of (T := ⟨S8x4096x512, .i32⟩) main_v11) minsi,
    TRef.nullary (TRef.of (T := ⟨S_, .i32⟩) main_call7_c) (constantI S_ 32 0#32),
    TRef.unary (TRef.of (T := ⟨S_, .i32⟩) main_call7_c) (TRef.of (T := ⟨S8x4096x512, .i32⟩) main_call7_v0) (broadcastInDim S8x4096x512 ![] bcast_S_S8x4096x512),
    TRef.binary (TRef.of (T := ⟨S8x4096x512, .i32⟩) main_v11) (TRef.of (T := ⟨S8x4096x512, .i32⟩) main_call7_v0) (TRef.of (T := ⟨S8x4096x512, .i1⟩) main_call7_v1) (cmpi .slt),
    TRef.nullary (TRef.of (T := ⟨S_, .i32⟩) main_call7_c_0) (constantI S_ 32 4096#32),
    TRef.unary (TRef.of (T := ⟨S_, .i32⟩) main_call7_c_0) (TRef.of (T := ⟨S8x4096x512, .i32⟩) main_call7_v2) (broadcastInDim S8x4096x512 ![] bcast_S_S8x4096x512),
    TRef.binary (TRef.of (T := ⟨S8x4096x512, .i32⟩) main_v11) (TRef.of (T := ⟨S8x4096x512, .i32⟩) main_call7_v2) (TRef.of (T := ⟨S8x4096x512, .i32⟩) main_call7_v3) addi,
    TRef.ternary (TRef.of (T := ⟨S8x4096x512, .i1⟩) main_call7_v1) (TRef.of (T := ⟨S8x4096x512, .i32⟩) main_call7_v3) (TRef.of (T := ⟨S8x4096x512, .i32⟩) main_v11) (TRef.of (T := ⟨S8x4096x512, .i32⟩) main_call7_v4) select,
    TRef.reshape (TRef.of (T := ⟨S8x4096x512, .i32⟩) main_call7_v4) (TRef.of (T := ⟨S8x4096x512x1, .i32⟩) main_call7_v5) rfl shapeCasts_S8x4096x512_S8x4096x512x1,
    TRef.nullary (TRef.of (T := ⟨S1, .i32⟩) main_call7_c_1) (constantI S1 32 4095#32),
    TRef.nullary (TRef.of (T := ⟨S_, .i32⟩) main_call7_c_2) (constantI S_ 32 0#32),
    TRef.unary (TRef.of (T := ⟨S_, .i32⟩) main_call7_c_2) (TRef.of (T := ⟨S8x4096x512x1, .i32⟩) main_call7_v6) (broadcastInDim S8x4096x512x1 ![] bcast_S_S8x4096x512x1),
    TRef.binary (TRef.of (T := ⟨S8x4096x512x1, .i32⟩) main_call7_v5) (TRef.of (T := ⟨S8x4096x512x1, .i32⟩) main_call7_v6) (TRef.of (T := ⟨S8x4096x512x1, .i1⟩) main_call7_v7) (cmpi .sge),
    TRef.unary (TRef.of (T := ⟨S1, .i32⟩) main_call7_c_1) (TRef.of (T := ⟨S1x1x1x1, .i32⟩) main_call7_v8) (broadcastInDim S1x1x1x1 ![3] bcast_S1_S1x1x1x1_3),
    TRef.unary (TRef.of (T := ⟨S1x1x1x1, .i32⟩) main_call7_v8) (TRef.of (T := ⟨S8x4096x512x1, .i32⟩) main_call7_v9) (broadcastInDim S8x4096x512x1 ![0, 1, 2, 3] bcast_S1x1x1x1_S8x4096x512x1_0_1_2_3),
    TRef.binary (TRef.of (T := ⟨S8x4096x512x1, .i32⟩) main_call7_v5) (TRef.of (T := ⟨S8x4096x512x1, .i32⟩) main_call7_v9) (TRef.of (T := ⟨S8x4096x512x1, .i1⟩) main_call7_v10) (cmpi .sle),
    TRef.binary (TRef.of (T := ⟨S8x4096x512x1, .i1⟩) main_call7_v7) (TRef.of (T := ⟨S8x4096x512x1, .i1⟩) main_call7_v10) (TRef.of (T := ⟨S8x4096x512x1, .i1⟩) main_call7_v11) andi,
    TRef.nullary (TRef.of (T := ⟨S_, .i1⟩) main_call7_c_3) (constantI S_ 1 1#1),
    TRef.binary (TRef.of (T := ⟨S8x4096x512x1, .i1⟩) main_call7_v11) (TRef.of (T := ⟨S_, .i1⟩) main_call7_c_3) (TRef.of (T := ⟨S8x4096x512, .i1⟩) main_call7_v12) (fun x v => Host.reduce IntOp.andi x v reducesTo_S8x4096x512x1_S8x4096x512_d3 h_S_),
    TRef.binary (TRef.of (T := ⟨S8x4096x512, .f32⟩) main_arg0) (TRef.of (T := ⟨S8x4096x512x1, .i32⟩) main_call7_v5) (TRef.of (T := ⟨S8x4096x512, .f32⟩) main_call7_v13) (fun x i => Host.gather gather_S8x4096x512_S8x4096x512x1_S8x4096x512_n_1_02_02_1_3_111 x i),
    TRef.nullary (TRef.of (T := ⟨S_, .f32⟩) main_call7_cst) (constant S_ .f32 0x7FC00000#32),
    TRef.unary (TRef.of (T := ⟨S_, .f32⟩) main_call7_cst) (TRef.of (T := ⟨S8x4096x512, .f32⟩) main_call7_v14) (broadcastInDim S8x4096x512 ![] bcast_S_S8x4096x512),
    TRef.ternary (TRef.of (T := ⟨S8x4096x512, .i1⟩) main_call7_v12) (TRef.of (T := ⟨S8x4096x512, .f32⟩) main_call7_v13) (TRef.of (T := ⟨S8x4096x512, .f32⟩) main_call7_v14) (TRef.of (T := ⟨S8x4096x512, .f32⟩) main_v12) select,
    nullary main_c_5 (constantI S_ 32 0#32),
    unary main_c_5 main_v13 (broadcastInDim S8x4096x512 ![] bcast_S_S8x4096x512 : (⟨S_, .i32⟩ : BufTy).Contents (Elt F) → (⟨S8x4096x512, .i32⟩ : BufTy).Contents (Elt F)),
    binary main_v6 main_v13 main_v14 (cmpi .sge : (⟨S8x4096x512, .i32⟩ : BufTy).Contents (Elt F) → (⟨S8x4096x512, .i32⟩ : BufTy).Contents (Elt F) → (⟨S8x4096x512, .i1⟩ : BufTy).Contents (Elt F)),
    nullary main_c_6 (constantI S_ 32 4096#32),
    unary main_c_6 main_v15 (broadcastInDim S8x4096x512 ![] bcast_S_S8x4096x512 : (⟨S_, .i32⟩ : BufTy).Contents (Elt F) → (⟨S8x4096x512, .i32⟩ : BufTy).Contents (Elt F)),
    binary main_v8 main_v15 main_v16 (cmpi .slt : (⟨S8x4096x512, .i32⟩ : BufTy).Contents (Elt F) → (⟨S8x4096x512, .i32⟩ : BufTy).Contents (Elt F) → (⟨S8x4096x512, .i1⟩ : BufTy).Contents (Elt F)),
    TRef.ternary (TRef.of (T := ⟨S8x4096x512, .i1⟩) main_v14) (TRef.of (T := ⟨S8x4096x512, .f32⟩) main_v10) (TRef.of (T := ⟨S8x4096x512, .f32⟩) main_v12) (TRef.of (T := ⟨S8x4096x512, .f32⟩) main_v17) select,
    TRef.ternary (TRef.of (T := ⟨S8x4096x512, .i1⟩) main_v16) (TRef.of (T := ⟨S8x4096x512, .f32⟩) main_v12) (TRef.of (T := ⟨S8x4096x512, .f32⟩) main_v10) (TRef.of (T := ⟨S8x4096x512, .f32⟩) main_v18) select,
    unary main_v1 main_v19 (noti : (⟨S8x4096x512, .i1⟩ : BufTy).Contents (Elt F) → (⟨S8x4096x512, .i1⟩ : BufTy).Contents (Elt F)),
    binary main_v19 main_v14 main_v20 (andi : (⟨S8x4096x512, .i1⟩ : BufTy).Contents (Elt F) → (⟨S8x4096x512, .i1⟩ : BufTy).Contents (Elt F) → (⟨S8x4096x512, .i1⟩ : BufTy).Contents (Elt F)),
    binary main_v20 main_v16 main_v21 (andi : (⟨S8x4096x512, .i1⟩ : BufTy).Contents (Elt F) → (⟨S8x4096x512, .i1⟩ : BufTy).Contents (Elt F) → (⟨S8x4096x512, .i1⟩ : BufTy).Contents (Elt F)),
    binary main_v8 main_v6 main_v22 (subi : (⟨S8x4096x512, .i32⟩ : BufTy).Contents (Elt F) → (⟨S8x4096x512, .i32⟩ : BufTy).Contents (Elt F) → (⟨S8x4096x512, .i32⟩ : BufTy).Contents (Elt F)),
    nullary main_c_7 (constantI S_ 32 1#32),
    unary main_c_7 main_v23 (broadcastInDim S8x4096x512 ![] bcast_S_S8x4096x512 : (⟨S_, .i32⟩ : BufTy).Contents (Elt F) → (⟨S8x4096x512, .i32⟩ : BufTy).Contents (Elt F)),
    binary main_v22 main_v23 main_v24 (maxsi : (⟨S8x4096x512, .i32⟩ : BufTy).Contents (Elt F) → (⟨S8x4096x512, .i32⟩ : BufTy).Contents (Elt F) → (⟨S8x4096x512, .i32⟩ : BufTy).Contents (Elt F)),
    unary main_v24 main_v25 (sitofp .f32 : (⟨S8x4096x512, .i32⟩ : BufTy).Contents (Elt F) → (⟨S8x4096x512, .f32⟩ : BufTy).Contents (Elt F)),
    binary main_v4 main_v6 main_v26 (subi : (⟨S8x4096x512, .i32⟩ : BufTy).Contents (Elt F) → (⟨S8x4096x512, .i32⟩ : BufTy).Contents (Elt F) → (⟨S8x4096x512, .i32⟩ : BufTy).Contents (Elt F)),
    unary main_v26 main_v27 (sitofp .f32 : (⟨S8x4096x512, .i32⟩ : BufTy).Contents (Elt F) → (⟨S8x4096x512, .f32⟩ : BufTy).Contents (Elt F)),
    binary main_v27 main_v25 main_v28 (Host.divf : (⟨S8x4096x512, .f32⟩ : BufTy).Contents (Elt F) → (⟨S8x4096x512, .f32⟩ : BufTy).Contents (Elt F) → (⟨S8x4096x512, .f32⟩ : BufTy).Contents (Elt F)),
    nullary main_cst_8 (constant S_ .f32 0x00000000#32),
    TRef.unary (TRef.of (T := ⟨S_, .f32⟩) main_cst_8) (TRef.of (T := ⟨S8x4096x512, .f32⟩) main_call10_v0) (broadcastInDim S8x4096x512 ![] bcast_S_S8x4096x512),
    TRef.ternary (TRef.of (T := ⟨S8x4096x512, .i1⟩) main_v21) (TRef.of (T := ⟨S8x4096x512, .f32⟩) main_v28) (TRef.of (T := ⟨S8x4096x512, .f32⟩) main_call10_v0) (TRef.of (T := ⟨S8x4096x512, .f32⟩) main_v29) select,
    binary main_v18 main_v17 main_v30 (subf : (⟨S8x4096x512, .f32⟩ : BufTy).Contents (Elt F) → (⟨S8x4096x512, .f32⟩ : BufTy).Contents (Elt F) → (⟨S8x4096x512, .f32⟩ : BufTy).Contents (Elt F)),
    binary main_v29 main_v30 main_v31 (mulf : (⟨S8x4096x512, .f32⟩ : BufTy).Contents (Elt F) → (⟨S8x4096x512, .f32⟩ : BufTy).Contents (Elt F) → (⟨S8x4096x512, .f32⟩ : BufTy).Contents (Elt F)),
    binary main_v17 main_v31 main_v32 (addf : (⟨S8x4096x512, .f32⟩ : BufTy).Contents (Elt F) → (⟨S8x4096x512, .f32⟩ : BufTy).Contents (Elt F) → (⟨S8x4096x512, .f32⟩ : BufTy).Contents (Elt F)) ]

set_option maxRecDepth 65536 in
set_option maxHeartbeats 4000000 in
/-- The program is that straight line: the called functions' bodies unfolded at their calls and sequencing reassociated. -/
theorem main_eq (c : Dev nD) : main (F := F) c = seq ops := by
  simp only [main, fn_where.body, fn_cummax.body, fn_cummin.body, fn_clip.body, fn_take_along_axis.body, fn_where_0.body,
    fn_where_1.body, seq, bind_assoc, pure_bind]

/-- The buffers after the first `k` operations of the program, one definition per operation. -/
def W0 (V : Valuation τ sig (Elt F)) : Valuation τ sig (Elt F) := V
def W1 (V : Valuation τ sig (Elt F)) : Valuation τ sig (Elt F) :=
  (nullary main_cst (constant S_ .f32 0x00000000#32)).result (W0 V)
def W2 (V : Valuation τ sig (Elt F)) : Valuation τ sig (Elt F) :=
  (unary main_cst main_v0 (broadcastInDim S8x4096x512 ![] bcast_S_S8x4096x512 : (⟨S_, .f32⟩ : BufTy).Contents (Elt F) → (⟨S8x4096x512, .f32⟩ : BufTy).Contents (Elt F))).result (W1 V)
def W3 (V : Valuation τ sig (Elt F)) : Valuation τ sig (Elt F) :=
  (binary main_arg0 main_v0 main_v1 (cmpf .une : (⟨S8x4096x512, .f32⟩ : BufTy).Contents (Elt F) → (⟨S8x4096x512, .f32⟩ : BufTy).Contents (Elt F) → (⟨S8x4096x512, .i1⟩ : BufTy).Contents (Elt F))).result (W2 V)
def W4 (V : Valuation τ sig (Elt F)) : Valuation τ sig (Elt F) :=
  (nullary main_v2 (iotaInDim S4096 32 0)).result (W3 V)
def W5 (V : Valuation τ sig (Elt F)) : Valuation τ sig (Elt F) :=
  (unary main_v2 main_v3 (broadcastInDim S1x4096x1 ![1] bcast_S4096_S1x4096x1_1 : (⟨S4096, .i32⟩ : BufTy).Contents (Elt F) → (⟨S1x4096x1, .i32⟩ : BufTy).Contents (Elt F))).result (W4 V)
def W6 (V : Valuation τ sig (Elt F)) : Valuation τ sig (Elt F) :=
  (unary main_v3 main_v4 (broadcastInDim S8x4096x512 ![0, 1, 2] bcast_S1x4096x1_S8x4096x512_0_1_2 : (⟨S1x4096x1, .i32⟩ : BufTy).Contents (Elt F) → (⟨S8x4096x512, .i32⟩ : BufTy).Contents (Elt F))).result (W5 V)
def W7 (V : Valuation τ sig (Elt F)) : Valuation τ sig (Elt F) :=
  (nullary main_c (constantI S_ 32 4294967295#32)).result (W6 V)
def W8 (V : Valuation τ sig (Elt F)) : Valuation τ sig (Elt F) :=
  (TRef.unary (TRef.of (T := ⟨S_, .i32⟩) main_c) (TRef.of (T := ⟨S_, .i32⟩) main_call0_v0) id).result (W7 V)
def W9 (V : Valuation τ sig (Elt F)) : Valuation τ sig (Elt F) :=
  (TRef.unary (TRef.of (T := ⟨S_, .i32⟩) main_call0_v0) (TRef.of (T := ⟨S8x4096x512, .i32⟩) main_call0_v1) (broadcastInDim S8x4096x512 ![] bcast_S_S8x4096x512)).result (W8 V)
def W10 (V : Valuation τ sig (Elt F)) : Valuation τ sig (Elt F) :=
  (TRef.ternary (TRef.of (T := ⟨S8x4096x512, .i1⟩) main_v1) (TRef.of (T := ⟨S8x4096x512, .i32⟩) main_v4) (TRef.of (T := ⟨S8x4096x512, .i32⟩) main_call0_v1) (TRef.of (T := ⟨S8x4096x512, .i32⟩) main_v5) select).result (W9 V)
def W11 (V : Valuation τ sig (Elt F)) : Valuation τ sig (Elt F) :=
  (TRef.nullary (TRef.of (T := ⟨S_, .i32⟩) main_call1_c) (constantI S_ 32 2147483648#32)).result (W10 V)
def W12 (V : Valuation τ sig (Elt F)) : Valuation τ sig (Elt F) :=
  (TRef.unary (TRef.of (T := ⟨S_, .i32⟩) main_call1_c) (TRef.of (T := ⟨S_, .i32⟩) main_call1_v0) (broadcastInDim S_ ![] bcast_S_S_)).result (W11 V)
def W13 (V : Valuation τ sig (Elt F)) : Valuation τ sig (Elt F) :=
  (TRef.binary (TRef.of (T := ⟨S8x4096x512, .i32⟩) main_v5) (TRef.of (T := ⟨S_, .i32⟩) main_call1_v0) (TRef.of (T := ⟨S8x4096x512, .i32⟩) main_v6) (fun x v => Host.reduceWindow IntOp.maxsi ![1, 4096, 1] ![1, 1, 1] ![0, 4095, 0] ![0, 0, 0] x v reduceWindows_S8x4096x512_S8x4096x512_w1s1p0_0_w4096s1p4095_0_w1s1p0_0 h_S_)).result (W12 V)
def W14 (V : Valuation τ sig (Elt F)) : Valuation τ sig (Elt F) :=
  (nullary main_c_0 (constantI S_ 32 4096#32)).result (W13 V)
def W15 (V : Valuation τ sig (Elt F)) : Valuation τ sig (Elt F) :=
  (TRef.unary (TRef.of (T := ⟨S_, .i32⟩) main_c_0) (TRef.of (T := ⟨S_, .i32⟩) main_call2_v0) id).result (W14 V)
def W16 (V : Valuation τ sig (Elt F)) : Valuation τ sig (Elt F) :=
  (TRef.unary (TRef.of (T := ⟨S_, .i32⟩) main_call2_v0) (TRef.of (T := ⟨S8x4096x512, .i32⟩) main_call2_v1) (broadcastInDim S8x4096x512 ![] bcast_S_S8x4096x512)).result (W15 V)
def W17 (V : Valuation τ sig (Elt F)) : Valuation τ sig (Elt F) :=
  (TRef.ternary (TRef.of (T := ⟨S8x4096x512, .i1⟩) main_v1) (TRef.of (T := ⟨S8x4096x512, .i32⟩) main_v4) (TRef.of (T := ⟨S8x4096x512, .i32⟩) main_call2_v1) (TRef.of (T := ⟨S8x4096x512, .i32⟩) main_v7) select).result (W16 V)
def W18 (V : Valuation τ sig (Elt F)) : Valuation τ sig (Elt F) :=
  (TRef.nullary (TRef.of (T := ⟨S_, .i32⟩) main_call3_c) (constantI S_ 32 2147483647#32)).result (W17 V)
def W19 (V : Valuation τ sig (Elt F)) : Valuation τ sig (Elt F) :=
  (TRef.unary (TRef.of (T := ⟨S_, .i32⟩) main_call3_c) (TRef.of (T := ⟨S_, .i32⟩) main_call3_v0) (broadcastInDim S_ ![] bcast_S_S_)).result (W18 V)
def W20 (V : Valuation τ sig (Elt F)) : Valuation τ sig (Elt F) :=
  (TRef.binary (TRef.of (T := ⟨S8x4096x512, .i32⟩) main_v7) (TRef.of (T := ⟨S_, .i32⟩) main_call3_v0) (TRef.of (T := ⟨S8x4096x512, .i32⟩) main_v8) (fun x v => Host.reduceWindow IntOp.minsi ![1, 4096, 1] ![1, 1, 1] ![0, 0, 0] ![0, 4095, 0] x v reduceWindows_S8x4096x512_S8x4096x512_w1s1p0_0_w4096s1p0_4095_w1s1p0_0 h_S_)).result (W19 V)
def W21 (V : Valuation τ sig (Elt F)) : Valuation τ sig (Elt F) :=
  (nullary main_c_1 (constantI S_ 32 0#32)).result (W20 V)
def W22 (V : Valuation τ sig (Elt F)) : Valuation τ sig (Elt F) :=
  (nullary main_c_2 (constantI S_ 32 4095#32)).result (W21 V)
def W23 (V : Valuation τ sig (Elt F)) : Valuation τ sig (Elt F) :=
  (TRef.unary (TRef.of (T := ⟨S_, .i32⟩) main_c_1) (TRef.of (T := ⟨S_, .i32⟩) main_call4_v0) id).result (W22 V)
def W24 (V : Valuation τ sig (Elt F)) : Valuation τ sig (Elt F) :=
  (TRef.unary (TRef.of (T := ⟨S_, .i32⟩) main_call4_v0) (TRef.of (T := ⟨S8x4096x512, .i32⟩) main_call4_v1) (broadcastInDim S8x4096x512 ![] bcast_S_S8x4096x512)).result (W23 V)
def W25 (V : Valuation τ sig (Elt F)) : Valuation τ sig (Elt F) :=
  (TRef.binary (TRef.of (T := ⟨S8x4096x512, .i32⟩) main_call4_v1) (TRef.of (T := ⟨S8x4096x512, .i32⟩) main_v6) (TRef.of (T := ⟨S8x4096x512, .i32⟩) main_call4_v2) maxsi).result (W24 V)
def W26 (V : Valuation τ sig (Elt F)) : Valuation τ sig (Elt F) :=
  (TRef.unary (TRef.of (T := ⟨S_, .i32⟩) main_c_2) (TRef.of (T := ⟨S_, .i32⟩) main_call4_v3) id).result (W25 V)
def W27 (V : Valuation τ sig (Elt F)) : Valuation τ sig (Elt F) :=
  (TRef.unary (TRef.of (T := ⟨S_, .i32⟩) main_call4_v3) (TRef.of (T := ⟨S8x4096x512, .i32⟩) main_call4_v4) (broadcastInDim S8x4096x512 ![] bcast_S_S8x4096x512)).result (W26 V)
def W28 (V : Valuation τ sig (Elt F)) : Valuation τ sig (Elt F) :=
  (TRef.binary (TRef.of (T := ⟨S8x4096x512, .i32⟩) main_call4_v4) (TRef.of (T := ⟨S8x4096x512, .i32⟩) main_call4_v2) (TRef.of (T := ⟨S8x4096x512, .i32⟩) main_v9) minsi).result (W27 V)
def W29 (V : Valuation τ sig (Elt F)) : Valuation τ sig (Elt F) :=
  (TRef.nullary (TRef.of (T := ⟨S_, .i32⟩) main_call5_c) (constantI S_ 32 0#32)).result (W28 V)
def W30 (V : Valuation τ sig (Elt F)) : Valuation τ sig (Elt F) :=
  (TRef.unary (TRef.of (T := ⟨S_, .i32⟩) main_call5_c) (TRef.of (T := ⟨S8x4096x512, .i32⟩) main_call5_v0) (broadcastInDim S8x4096x512 ![] bcast_S_S8x4096x512)).result (W29 V)
def W31 (V : Valuation τ sig (Elt F)) : Valuation τ sig (Elt F) :=
  (TRef.binary (TRef.of (T := ⟨S8x4096x512, .i32⟩) main_v9) (TRef.of (T := ⟨S8x4096x512, .i32⟩) main_call5_v0) (TRef.of (T := ⟨S8x4096x512, .i1⟩) main_call5_v1) (cmpi .slt)).result (W30 V)
def W32 (V : Valuation τ sig (Elt F)) : Valuation τ sig (Elt F) :=
  (TRef.nullary (TRef.of (T := ⟨S_, .i32⟩) main_call5_c_0) (constantI S_ 32 4096#32)).result (W31 V)
def W33 (V : Valuation τ sig (Elt F)) : Valuation τ sig (Elt F) :=
  (TRef.unary (TRef.of (T := ⟨S_, .i32⟩) main_call5_c_0) (TRef.of (T := ⟨S8x4096x512, .i32⟩) main_call5_v2) (broadcastInDim S8x4096x512 ![] bcast_S_S8x4096x512)).result (W32 V)
def W34 (V : Valuation τ sig (Elt F)) : Valuation τ sig (Elt F) :=
  (TRef.binary (TRef.of (T := ⟨S8x4096x512, .i32⟩) main_v9) (TRef.of (T := ⟨S8x4096x512, .i32⟩) main_call5_v2) (TRef.of (T := ⟨S8x4096x512, .i32⟩) main_call5_v3) addi).result (W33 V)
def W35 (V : Valuation τ sig (Elt F)) : Valuation τ sig (Elt F) :=
  (TRef.ternary (TRef.of (T := ⟨S8x4096x512, .i1⟩) main_call5_v1) (TRef.of (T := ⟨S8x4096x512, .i32⟩) main_call5_v3) (TRef.of (T := ⟨S8x4096x512, .i32⟩) main_v9) (TRef.of (T := ⟨S8x4096x512, .i32⟩) main_call5_v4) select).result (W34 V)
def W36 (V : Valuation τ sig (Elt F)) : Valuation τ sig (Elt F) :=
  (TRef.reshape (TRef.of (T := ⟨S8x4096x512, .i32⟩) main_call5_v4) (TRef.of (T := ⟨S8x4096x512x1, .i32⟩) main_call5_v5) rfl shapeCasts_S8x4096x512_S8x4096x512x1).result (W35 V)
def W37 (V : Valuation τ sig (Elt F)) : Valuation τ sig (Elt F) :=
  (TRef.nullary (TRef.of (T := ⟨S1, .i32⟩) main_call5_c_1) (constantI S1 32 4095#32)).result (W36 V)
def W38 (V : Valuation τ sig (Elt F)) : Valuation τ sig (Elt F) :=
  (TRef.nullary (TRef.of (T := ⟨S_, .i32⟩) main_call5_c_2) (constantI S_ 32 0#32)).result (W37 V)
def W39 (V : Valuation τ sig (Elt F)) : Valuation τ sig (Elt F) :=
  (TRef.unary (TRef.of (T := ⟨S_, .i32⟩) main_call5_c_2) (TRef.of (T := ⟨S8x4096x512x1, .i32⟩) main_call5_v6) (broadcastInDim S8x4096x512x1 ![] bcast_S_S8x4096x512x1)).result (W38 V)
def W40 (V : Valuation τ sig (Elt F)) : Valuation τ sig (Elt F) :=
  (TRef.binary (TRef.of (T := ⟨S8x4096x512x1, .i32⟩) main_call5_v5) (TRef.of (T := ⟨S8x4096x512x1, .i32⟩) main_call5_v6) (TRef.of (T := ⟨S8x4096x512x1, .i1⟩) main_call5_v7) (cmpi .sge)).result (W39 V)
def W41 (V : Valuation τ sig (Elt F)) : Valuation τ sig (Elt F) :=
  (TRef.unary (TRef.of (T := ⟨S1, .i32⟩) main_call5_c_1) (TRef.of (T := ⟨S1x1x1x1, .i32⟩) main_call5_v8) (broadcastInDim S1x1x1x1 ![3] bcast_S1_S1x1x1x1_3)).result (W40 V)
def W42 (V : Valuation τ sig (Elt F)) : Valuation τ sig (Elt F) :=
  (TRef.unary (TRef.of (T := ⟨S1x1x1x1, .i32⟩) main_call5_v8) (TRef.of (T := ⟨S8x4096x512x1, .i32⟩) main_call5_v9) (broadcastInDim S8x4096x512x1 ![0, 1, 2, 3] bcast_S1x1x1x1_S8x4096x512x1_0_1_2_3)).result (W41 V)
def W43 (V : Valuation τ sig (Elt F)) : Valuation τ sig (Elt F) :=
  (TRef.binary (TRef.of (T := ⟨S8x4096x512x1, .i32⟩) main_call5_v5) (TRef.of (T := ⟨S8x4096x512x1, .i32⟩) main_call5_v9) (TRef.of (T := ⟨S8x4096x512x1, .i1⟩) main_call5_v10) (cmpi .sle)).result (W42 V)
def W44 (V : Valuation τ sig (Elt F)) : Valuation τ sig (Elt F) :=
  (TRef.binary (TRef.of (T := ⟨S8x4096x512x1, .i1⟩) main_call5_v7) (TRef.of (T := ⟨S8x4096x512x1, .i1⟩) main_call5_v10) (TRef.of (T := ⟨S8x4096x512x1, .i1⟩) main_call5_v11) andi).result (W43 V)
def W45 (V : Valuation τ sig (Elt F)) : Valuation τ sig (Elt F) :=
  (TRef.nullary (TRef.of (T := ⟨S_, .i1⟩) main_call5_c_3) (constantI S_ 1 1#1)).result (W44 V)
def W46 (V : Valuation τ sig (Elt F)) : Valuation τ sig (Elt F) :=
  (TRef.binary (TRef.of (T := ⟨S8x4096x512x1, .i1⟩) main_call5_v11) (TRef.of (T := ⟨S_, .i1⟩) main_call5_c_3) (TRef.of (T := ⟨S8x4096x512, .i1⟩) main_call5_v12) (fun x v => Host.reduce IntOp.andi x v reducesTo_S8x4096x512x1_S8x4096x512_d3 h_S_)).result (W45 V)
def W47 (V : Valuation τ sig (Elt F)) : Valuation τ sig (Elt F) :=
  (TRef.binary (TRef.of (T := ⟨S8x4096x512, .f32⟩) main_arg0) (TRef.of (T := ⟨S8x4096x512x1, .i32⟩) main_call5_v5) (TRef.of (T := ⟨S8x4096x512, .f32⟩) main_call5_v13) (fun x i => Host.gather gather_S8x4096x512_S8x4096x512x1_S8x4096x512_n_1_02_02_1_3_111 x i)).result (W46 V)
def W48 (V : Valuation τ sig (Elt F)) : Valuation τ sig (Elt F) :=
  (TRef.nullary (TRef.of (T := ⟨S_, .f32⟩) main_call5_cst) (constant S_ .f32 0x7FC00000#32)).result (W47 V)
def W49 (V : Valuation τ sig (Elt F)) : Valuation τ sig (Elt F) :=
  (TRef.unary (TRef.of (T := ⟨S_, .f32⟩) main_call5_cst) (TRef.of (T := ⟨S8x4096x512, .f32⟩) main_call5_v14) (broadcastInDim S8x4096x512 ![] bcast_S_S8x4096x512)).result (W48 V)
def W50 (V : Valuation τ sig (Elt F)) : Valuation τ sig (Elt F) :=
  (TRef.ternary (TRef.of (T := ⟨S8x4096x512, .i1⟩) main_call5_v12) (TRef.of (T := ⟨S8x4096x512, .f32⟩) main_call5_v13) (TRef.of (T := ⟨S8x4096x512, .f32⟩) main_call5_v14) (TRef.of (T := ⟨S8x4096x512, .f32⟩) main_v10) select).result (W49 V)
def W51 (V : Valuation τ sig (Elt F)) : Valuation τ sig (Elt F) :=
  (nullary main_c_3 (constantI S_ 32 0#32)).result (W50 V)
def W52 (V : Valuation τ sig (Elt F)) : Valuation τ sig (Elt F) :=
  (nullary main_c_4 (constantI S_ 32 4095#32)).result (W51 V)
def W53 (V : Valuation τ sig (Elt F)) : Valuation τ sig (Elt F) :=
  (TRef.unary (TRef.of (T := ⟨S_, .i32⟩) main_c_3) (TRef.of (T := ⟨S_, .i32⟩) main_call6_v0) id).result (W52 V)
def W54 (V : Valuation τ sig (Elt F)) : Valuation τ sig (Elt F) :=
  (TRef.unary (TRef.of (T := ⟨S_, .i32⟩) main_call6_v0) (TRef.of (T := ⟨S8x4096x512, .i32⟩) main_call6_v1) (broadcastInDim S8x4096x512 ![] bcast_S_S8x4096x512)).result (W53 V)
def W55 (V : Valuation τ sig (Elt F)) : Valuation τ sig (Elt F) :=
  (TRef.binary (TRef.of (T := ⟨S8x4096x512, .i32⟩) main_call6_v1) (TRef.of (T := ⟨S8x4096x512, .i32⟩) main_v8) (TRef.of (T := ⟨S8x4096x512, .i32⟩) main_call6_v2) maxsi).result (W54 V)
def W56 (V : Valuation τ sig (Elt F)) : Valuation τ sig (Elt F) :=
  (TRef.unary (TRef.of (T := ⟨S_, .i32⟩) main_c_4) (TRef.of (T := ⟨S_, .i32⟩) main_call6_v3) id).result (W55 V)
def W57 (V : Valuation τ sig (Elt F)) : Valuation τ sig (Elt F) :=
  (TRef.unary (TRef.of (T := ⟨S_, .i32⟩) main_call6_v3) (TRef.of (T := ⟨S8x4096x512, .i32⟩) main_call6_v4) (broadcastInDim S8x4096x512 ![] bcast_S_S8x4096x512)).result (W56 V)
def W58 (V : Valuation τ sig (Elt F)) : Valuation τ sig (Elt F) :=
  (TRef.binary (TRef.of (T := ⟨S8x4096x512, .i32⟩) main_call6_v4) (TRef.of (T := ⟨S8x4096x512, .i32⟩) main_call6_v2) (TRef.of (T := ⟨S8x4096x512, .i32⟩) main_v11) minsi).result (W57 V)
def W59 (V : Valuation τ sig (Elt F)) : Valuation τ sig (Elt F) :=
  (TRef.nullary (TRef.of (T := ⟨S_, .i32⟩) main_call7_c) (constantI S_ 32 0#32)).result (W58 V)
def W60 (V : Valuation τ sig (Elt F)) : Valuation τ sig (Elt F) :=
  (TRef.unary (TRef.of (T := ⟨S_, .i32⟩) main_call7_c) (TRef.of (T := ⟨S8x4096x512, .i32⟩) main_call7_v0) (broadcastInDim S8x4096x512 ![] bcast_S_S8x4096x512)).result (W59 V)
def W61 (V : Valuation τ sig (Elt F)) : Valuation τ sig (Elt F) :=
  (TRef.binary (TRef.of (T := ⟨S8x4096x512, .i32⟩) main_v11) (TRef.of (T := ⟨S8x4096x512, .i32⟩) main_call7_v0) (TRef.of (T := ⟨S8x4096x512, .i1⟩) main_call7_v1) (cmpi .slt)).result (W60 V)
def W62 (V : Valuation τ sig (Elt F)) : Valuation τ sig (Elt F) :=
  (TRef.nullary (TRef.of (T := ⟨S_, .i32⟩) main_call7_c_0) (constantI S_ 32 4096#32)).result (W61 V)
def W63 (V : Valuation τ sig (Elt F)) : Valuation τ sig (Elt F) :=
  (TRef.unary (TRef.of (T := ⟨S_, .i32⟩) main_call7_c_0) (TRef.of (T := ⟨S8x4096x512, .i32⟩) main_call7_v2) (broadcastInDim S8x4096x512 ![] bcast_S_S8x4096x512)).result (W62 V)
def W64 (V : Valuation τ sig (Elt F)) : Valuation τ sig (Elt F) :=
  (TRef.binary (TRef.of (T := ⟨S8x4096x512, .i32⟩) main_v11) (TRef.of (T := ⟨S8x4096x512, .i32⟩) main_call7_v2) (TRef.of (T := ⟨S8x4096x512, .i32⟩) main_call7_v3) addi).result (W63 V)
def W65 (V : Valuation τ sig (Elt F)) : Valuation τ sig (Elt F) :=
  (TRef.ternary (TRef.of (T := ⟨S8x4096x512, .i1⟩) main_call7_v1) (TRef.of (T := ⟨S8x4096x512, .i32⟩) main_call7_v3) (TRef.of (T := ⟨S8x4096x512, .i32⟩) main_v11) (TRef.of (T := ⟨S8x4096x512, .i32⟩) main_call7_v4) select).result (W64 V)
def W66 (V : Valuation τ sig (Elt F)) : Valuation τ sig (Elt F) :=
  (TRef.reshape (TRef.of (T := ⟨S8x4096x512, .i32⟩) main_call7_v4) (TRef.of (T := ⟨S8x4096x512x1, .i32⟩) main_call7_v5) rfl shapeCasts_S8x4096x512_S8x4096x512x1).result (W65 V)
def W67 (V : Valuation τ sig (Elt F)) : Valuation τ sig (Elt F) :=
  (TRef.nullary (TRef.of (T := ⟨S1, .i32⟩) main_call7_c_1) (constantI S1 32 4095#32)).result (W66 V)
def W68 (V : Valuation τ sig (Elt F)) : Valuation τ sig (Elt F) :=
  (TRef.nullary (TRef.of (T := ⟨S_, .i32⟩) main_call7_c_2) (constantI S_ 32 0#32)).result (W67 V)
def W69 (V : Valuation τ sig (Elt F)) : Valuation τ sig (Elt F) :=
  (TRef.unary (TRef.of (T := ⟨S_, .i32⟩) main_call7_c_2) (TRef.of (T := ⟨S8x4096x512x1, .i32⟩) main_call7_v6) (broadcastInDim S8x4096x512x1 ![] bcast_S_S8x4096x512x1)).result (W68 V)
def W70 (V : Valuation τ sig (Elt F)) : Valuation τ sig (Elt F) :=
  (TRef.binary (TRef.of (T := ⟨S8x4096x512x1, .i32⟩) main_call7_v5) (TRef.of (T := ⟨S8x4096x512x1, .i32⟩) main_call7_v6) (TRef.of (T := ⟨S8x4096x512x1, .i1⟩) main_call7_v7) (cmpi .sge)).result (W69 V)
def W71 (V : Valuation τ sig (Elt F)) : Valuation τ sig (Elt F) :=
  (TRef.unary (TRef.of (T := ⟨S1, .i32⟩) main_call7_c_1) (TRef.of (T := ⟨S1x1x1x1, .i32⟩) main_call7_v8) (broadcastInDim S1x1x1x1 ![3] bcast_S1_S1x1x1x1_3)).result (W70 V)
def W72 (V : Valuation τ sig (Elt F)) : Valuation τ sig (Elt F) :=
  (TRef.unary (TRef.of (T := ⟨S1x1x1x1, .i32⟩) main_call7_v8) (TRef.of (T := ⟨S8x4096x512x1, .i32⟩) main_call7_v9) (broadcastInDim S8x4096x512x1 ![0, 1, 2, 3] bcast_S1x1x1x1_S8x4096x512x1_0_1_2_3)).result (W71 V)
def W73 (V : Valuation τ sig (Elt F)) : Valuation τ sig (Elt F) :=
  (TRef.binary (TRef.of (T := ⟨S8x4096x512x1, .i32⟩) main_call7_v5) (TRef.of (T := ⟨S8x4096x512x1, .i32⟩) main_call7_v9) (TRef.of (T := ⟨S8x4096x512x1, .i1⟩) main_call7_v10) (cmpi .sle)).result (W72 V)
def W74 (V : Valuation τ sig (Elt F)) : Valuation τ sig (Elt F) :=
  (TRef.binary (TRef.of (T := ⟨S8x4096x512x1, .i1⟩) main_call7_v7) (TRef.of (T := ⟨S8x4096x512x1, .i1⟩) main_call7_v10) (TRef.of (T := ⟨S8x4096x512x1, .i1⟩) main_call7_v11) andi).result (W73 V)
def W75 (V : Valuation τ sig (Elt F)) : Valuation τ sig (Elt F) :=
  (TRef.nullary (TRef.of (T := ⟨S_, .i1⟩) main_call7_c_3) (constantI S_ 1 1#1)).result (W74 V)
def W76 (V : Valuation τ sig (Elt F)) : Valuation τ sig (Elt F) :=
  (TRef.binary (TRef.of (T := ⟨S8x4096x512x1, .i1⟩) main_call7_v11) (TRef.of (T := ⟨S_, .i1⟩) main_call7_c_3) (TRef.of (T := ⟨S8x4096x512, .i1⟩) main_call7_v12) (fun x v => Host.reduce IntOp.andi x v reducesTo_S8x4096x512x1_S8x4096x512_d3 h_S_)).result (W75 V)
def W77 (V : Valuation τ sig (Elt F)) : Valuation τ sig (Elt F) :=
  (TRef.binary (TRef.of (T := ⟨S8x4096x512, .f32⟩) main_arg0) (TRef.of (T := ⟨S8x4096x512x1, .i32⟩) main_call7_v5) (TRef.of (T := ⟨S8x4096x512, .f32⟩) main_call7_v13) (fun x i => Host.gather gather_S8x4096x512_S8x4096x512x1_S8x4096x512_n_1_02_02_1_3_111 x i)).result (W76 V)
def W78 (V : Valuation τ sig (Elt F)) : Valuation τ sig (Elt F) :=
  (TRef.nullary (TRef.of (T := ⟨S_, .f32⟩) main_call7_cst) (constant S_ .f32 0x7FC00000#32)).result (W77 V)
def W79 (V : Valuation τ sig (Elt F)) : Valuation τ sig (Elt F) :=
  (TRef.unary (TRef.of (T := ⟨S_, .f32⟩) main_call7_cst) (TRef.of (T := ⟨S8x4096x512, .f32⟩) main_call7_v14) (broadcastInDim S8x4096x512 ![] bcast_S_S8x4096x512)).result (W78 V)
def W80 (V : Valuation τ sig (Elt F)) : Valuation τ sig (Elt F) :=
  (TRef.ternary (TRef.of (T := ⟨S8x4096x512, .i1⟩) main_call7_v12) (TRef.of (T := ⟨S8x4096x512, .f32⟩) main_call7_v13) (TRef.of (T := ⟨S8x4096x512, .f32⟩) main_call7_v14) (TRef.of (T := ⟨S8x4096x512, .f32⟩) main_v12) select).result (W79 V)
def W81 (V : Valuation τ sig (Elt F)) : Valuation τ sig (Elt F) :=
  (nullary main_c_5 (constantI S_ 32 0#32)).result (W80 V)
def W82 (V : Valuation τ sig (Elt F)) : Valuation τ sig (Elt F) :=
  (unary main_c_5 main_v13 (broadcastInDim S8x4096x512 ![] bcast_S_S8x4096x512 : (⟨S_, .i32⟩ : BufTy).Contents (Elt F) → (⟨S8x4096x512, .i32⟩ : BufTy).Contents (Elt F))).result (W81 V)
def W83 (V : Valuation τ sig (Elt F)) : Valuation τ sig (Elt F) :=
  (binary main_v6 main_v13 main_v14 (cmpi .sge : (⟨S8x4096x512, .i32⟩ : BufTy).Contents (Elt F) → (⟨S8x4096x512, .i32⟩ : BufTy).Contents (Elt F) → (⟨S8x4096x512, .i1⟩ : BufTy).Contents (Elt F))).result (W82 V)
def W84 (V : Valuation τ sig (Elt F)) : Valuation τ sig (Elt F) :=
  (nullary main_c_6 (constantI S_ 32 4096#32)).result (W83 V)
def W85 (V : Valuation τ sig (Elt F)) : Valuation τ sig (Elt F) :=
  (unary main_c_6 main_v15 (broadcastInDim S8x4096x512 ![] bcast_S_S8x4096x512 : (⟨S_, .i32⟩ : BufTy).Contents (Elt F) → (⟨S8x4096x512, .i32⟩ : BufTy).Contents (Elt F))).result (W84 V)
def W86 (V : Valuation τ sig (Elt F)) : Valuation τ sig (Elt F) :=
  (binary main_v8 main_v15 main_v16 (cmpi .slt : (⟨S8x4096x512, .i32⟩ : BufTy).Contents (Elt F) → (⟨S8x4096x512, .i32⟩ : BufTy).Contents (Elt F) → (⟨S8x4096x512, .i1⟩ : BufTy).Contents (Elt F))).result (W85 V)
def W87 (V : Valuation τ sig (Elt F)) : Valuation τ sig (Elt F) :=
  (TRef.ternary (TRef.of (T := ⟨S8x4096x512, .i1⟩) main_v14) (TRef.of (T := ⟨S8x4096x512, .f32⟩) main_v10) (TRef.of (T := ⟨S8x4096x512, .f32⟩) main_v12) (TRef.of (T := ⟨S8x4096x512, .f32⟩) main_v17) select).result (W86 V)
def W88 (V : Valuation τ sig (Elt F)) : Valuation τ sig (Elt F) :=
  (TRef.ternary (TRef.of (T := ⟨S8x4096x512, .i1⟩) main_v16) (TRef.of (T := ⟨S8x4096x512, .f32⟩) main_v12) (TRef.of (T := ⟨S8x4096x512, .f32⟩) main_v10) (TRef.of (T := ⟨S8x4096x512, .f32⟩) main_v18) select).result (W87 V)
def W89 (V : Valuation τ sig (Elt F)) : Valuation τ sig (Elt F) :=
  (unary main_v1 main_v19 (noti : (⟨S8x4096x512, .i1⟩ : BufTy).Contents (Elt F) → (⟨S8x4096x512, .i1⟩ : BufTy).Contents (Elt F))).result (W88 V)
def W90 (V : Valuation τ sig (Elt F)) : Valuation τ sig (Elt F) :=
  (binary main_v19 main_v14 main_v20 (andi : (⟨S8x4096x512, .i1⟩ : BufTy).Contents (Elt F) → (⟨S8x4096x512, .i1⟩ : BufTy).Contents (Elt F) → (⟨S8x4096x512, .i1⟩ : BufTy).Contents (Elt F))).result (W89 V)
def W91 (V : Valuation τ sig (Elt F)) : Valuation τ sig (Elt F) :=
  (binary main_v20 main_v16 main_v21 (andi : (⟨S8x4096x512, .i1⟩ : BufTy).Contents (Elt F) → (⟨S8x4096x512, .i1⟩ : BufTy).Contents (Elt F) → (⟨S8x4096x512, .i1⟩ : BufTy).Contents (Elt F))).result (W90 V)
def W92 (V : Valuation τ sig (Elt F)) : Valuation τ sig (Elt F) :=
  (binary main_v8 main_v6 main_v22 (subi : (⟨S8x4096x512, .i32⟩ : BufTy).Contents (Elt F) → (⟨S8x4096x512, .i32⟩ : BufTy).Contents (Elt F) → (⟨S8x4096x512, .i32⟩ : BufTy).Contents (Elt F))).result (W91 V)
def W93 (V : Valuation τ sig (Elt F)) : Valuation τ sig (Elt F) :=
  (nullary main_c_7 (constantI S_ 32 1#32)).result (W92 V)
def W94 (V : Valuation τ sig (Elt F)) : Valuation τ sig (Elt F) :=
  (unary main_c_7 main_v23 (broadcastInDim S8x4096x512 ![] bcast_S_S8x4096x512 : (⟨S_, .i32⟩ : BufTy).Contents (Elt F) → (⟨S8x4096x512, .i32⟩ : BufTy).Contents (Elt F))).result (W93 V)
def W95 (V : Valuation τ sig (Elt F)) : Valuation τ sig (Elt F) :=
  (binary main_v22 main_v23 main_v24 (maxsi : (⟨S8x4096x512, .i32⟩ : BufTy).Contents (Elt F) → (⟨S8x4096x512, .i32⟩ : BufTy).Contents (Elt F) → (⟨S8x4096x512, .i32⟩ : BufTy).Contents (Elt F))).result (W94 V)
def W96 (V : Valuation τ sig (Elt F)) : Valuation τ sig (Elt F) :=
  (unary main_v24 main_v25 (sitofp .f32 : (⟨S8x4096x512, .i32⟩ : BufTy).Contents (Elt F) → (⟨S8x4096x512, .f32⟩ : BufTy).Contents (Elt F))).result (W95 V)
def W97 (V : Valuation τ sig (Elt F)) : Valuation τ sig (Elt F) :=
  (binary main_v4 main_v6 main_v26 (subi : (⟨S8x4096x512, .i32⟩ : BufTy).Contents (Elt F) → (⟨S8x4096x512, .i32⟩ : BufTy).Contents (Elt F) → (⟨S8x4096x512, .i32⟩ : BufTy).Contents (Elt F))).result (W96 V)
def W98 (V : Valuation τ sig (Elt F)) : Valuation τ sig (Elt F) :=
  (unary main_v26 main_v27 (sitofp .f32 : (⟨S8x4096x512, .i32⟩ : BufTy).Contents (Elt F) → (⟨S8x4096x512, .f32⟩ : BufTy).Contents (Elt F))).result (W97 V)
def W99 (V : Valuation τ sig (Elt F)) : Valuation τ sig (Elt F) :=
  (binary main_v27 main_v25 main_v28 (Host.divf : (⟨S8x4096x512, .f32⟩ : BufTy).Contents (Elt F) → (⟨S8x4096x512, .f32⟩ : BufTy).Contents (Elt F) → (⟨S8x4096x512, .f32⟩ : BufTy).Contents (Elt F))).result (W98 V)
def W100 (V : Valuation τ sig (Elt F)) : Valuation τ sig (Elt F) :=
  (nullary main_cst_8 (constant S_ .f32 0x00000000#32)).result (W99 V)
def W101 (V : Valuation τ sig (Elt F)) : Valuation τ sig (Elt F) :=
  (TRef.unary (TRef.of (T := ⟨S_, .f32⟩) main_cst_8) (TRef.of (T := ⟨S8x4096x512, .f32⟩) main_call10_v0) (broadcastInDim S8x4096x512 ![] bcast_S_S8x4096x512)).result (W100 V)
def W102 (V : Valuation τ sig (Elt F)) : Valuation τ sig (Elt F) :=
  (TRef.ternary (TRef.of (T := ⟨S8x4096x512, .i1⟩) main_v21) (TRef.of (T := ⟨S8x4096x512, .f32⟩) main_v28) (TRef.of (T := ⟨S8x4096x512, .f32⟩) main_call10_v0) (TRef.of (T := ⟨S8x4096x512, .f32⟩) main_v29) select).result (W101 V)
def W103 (V : Valuation τ sig (Elt F)) : Valuation τ sig (Elt F) :=
  (binary main_v18 main_v17 main_v30 (subf : (⟨S8x4096x512, .f32⟩ : BufTy).Contents (Elt F) → (⟨S8x4096x512, .f32⟩ : BufTy).Contents (Elt F) → (⟨S8x4096x512, .f32⟩ : BufTy).Contents (Elt F))).result (W102 V)
def W104 (V : Valuation τ sig (Elt F)) : Valuation τ sig (Elt F) :=
  (binary main_v29 main_v30 main_v31 (mulf : (⟨S8x4096x512, .f32⟩ : BufTy).Contents (Elt F) → (⟨S8x4096x512, .f32⟩ : BufTy).Contents (Elt F) → (⟨S8x4096x512, .f32⟩ : BufTy).Contents (Elt F))).result (W103 V)
def W105 (V : Valuation τ sig (Elt F)) : Valuation τ sig (Elt F) :=
  (binary main_v17 main_v31 main_v32 (addf : (⟨S8x4096x512, .f32⟩ : BufTy).Contents (Elt F) → (⟨S8x4096x512, .f32⟩ : BufTy).Contents (Elt F) → (⟨S8x4096x512, .f32⟩ : BufTy).Contents (Elt F))).result (W104 V)

/-- Before any operation the argument is as launched. -/
theorem spec_0 (V : Valuation τ sig (Elt F)) : W0 V (Proc.devRef .tc main_arg0) = (V (Proc.devRef .tc main_arg0)) := rfl

theorem spec_1 (V : Valuation τ sig (Elt F)) :
    W1 V (Proc.devRef .tc main_arg0) = (V (Proc.devRef .tc main_arg0))
    ∧ W1 V (Proc.devRef .tc main_cst) = val_main_cst (F := F) := by
  have h_main_arg0 := spec_0 V
  unfold W1
  refine ⟨?_, ?_⟩
  · simp (disch := decide) only [nullary_result', unary_result', binary_result', ternary_result', reshape_result', nullary_result_ne', unary_result_ne', binary_result_ne', ternary_result_ne', reshape_result_ne', h_main_arg0]
  · unfold val_main_cst
    generalize W0 V = U
    (simp (disch := decide) only [nullary_result', unary_result', binary_result', ternary_result', reshape_result', nullary_result_ne', unary_result_ne', binary_result_ne', ternary_result_ne', reshape_result_ne']) <;> rfl

theorem spec_2 (V : Valuation τ sig (Elt F)) :
    W2 V (Proc.devRef .tc main_arg0) = (V (Proc.devRef .tc main_arg0))
    ∧ W2 V (Proc.devRef .tc main_v0) = val_main_v0 (F := F) := by
  obtain ⟨h_main_arg0, h_main_cst⟩ := spec_1 V
  unfold W2
  refine ⟨?_, ?_⟩
  · simp (disch := decide) only [nullary_result', unary_result', binary_result', ternary_result', reshape_result', nullary_result_ne', unary_result_ne', binary_result_ne', ternary_result_ne', reshape_result_ne', h_main_arg0, h_main_cst]
  · unfold val_main_v0
    rw [← h_main_cst]
    generalize W1 V = U
    (simp (disch := decide) only [nullary_result', unary_result', binary_result', ternary_result', reshape_result', nullary_result_ne', unary_result_ne', binary_result_ne', ternary_result_ne', reshape_result_ne']) <;> rfl

theorem spec_3 (V : Valuation τ sig (Elt F)) :
    W3 V (Proc.devRef .tc main_arg0) = (V (Proc.devRef .tc main_arg0))
    ∧ W3 V (Proc.devRef .tc main_v1) = val_main_v1 (F := F) (V (Proc.devRef .tc main_arg0)) := by
  obtain ⟨h_main_arg0, h_main_v0⟩ := spec_2 V
  unfold W3
  refine ⟨?_, ?_⟩
  · simp (disch := decide) only [nullary_result', unary_result', binary_result', ternary_result', reshape_result', nullary_result_ne', unary_result_ne', binary_result_ne', ternary_result_ne', reshape_result_ne', h_main_arg0, h_main_v0]
  · unfold val_main_v1
    rw [← h_main_v0, ← h_main_arg0]
    generalize W2 V = U
    (simp (disch := decide) only [nullary_result', unary_result', binary_result', ternary_result', reshape_result', nullary_result_ne', unary_result_ne', binary_result_ne', ternary_result_ne', reshape_result_ne']) <;> rfl

theorem spec_4 (V : Valuation τ sig (Elt F)) :
    W4 V (Proc.devRef .tc main_arg0) = (V (Proc.devRef .tc main_arg0))
    ∧ W4 V (Proc.devRef .tc main_v1) = val_main_v1 (F := F) (V (Proc.devRef .tc main_arg0))
    ∧ W4 V (Proc.devRef .tc main_v2) = val_main_v2 (F := F) := by
  obtain ⟨h_main_arg0, h_main_v1⟩ := spec_3 V
  unfold W4
  refine ⟨?_, ?_, ?_⟩
  · simp (disch := decide) only [nullary_result', unary_result', binary_result', ternary_result', reshape_result', nullary_result_ne', unary_result_ne', binary_result_ne', ternary_result_ne', reshape_result_ne', h_main_arg0, h_main_v1]
  · simp (disch := decide) only [nullary_result', unary_result', binary_result', ternary_result', reshape_result', nullary_result_ne', unary_result_ne', binary_result_ne', ternary_result_ne', reshape_result_ne', h_main_arg0, h_main_v1]
  · unfold val_main_v2
    generalize W3 V = U
    (simp (disch := decide) only [nullary_result', unary_result', binary_result', ternary_result', reshape_result', nullary_result_ne', unary_result_ne', binary_result_ne', ternary_result_ne', reshape_result_ne']) <;> rfl

theorem spec_5 (V : Valuation τ sig (Elt F)) :
    W5 V (Proc.devRef .tc main_arg0) = (V (Proc.devRef .tc main_arg0))
    ∧ W5 V (Proc.devRef .tc main_v1) = val_main_v1 (F := F) (V (Proc.devRef .tc main_arg0))
    ∧ W5 V (Proc.devRef .tc main_v3) = val_main_v3 (F := F) := by
  obtain ⟨h_main_arg0, h_main_v1, h_main_v2⟩ := spec_4 V
  unfold W5
  refine ⟨?_, ?_, ?_⟩
  · simp (disch := decide) only [nullary_result', unary_result', binary_result', ternary_result', reshape_result', nullary_result_ne', unary_result_ne', binary_result_ne', ternary_result_ne', reshape_result_ne', h_main_arg0, h_main_v1, h_main_v2]
  · simp (disch := decide) only [nullary_result', unary_result', binary_result', ternary_result', reshape_result', nullary_result_ne', unary_result_ne', binary_result_ne', ternary_result_ne', reshape_result_ne', h_main_arg0, h_main_v1, h_main_v2]
  · unfold val_main_v3
    rw [← h_main_v2]
    generalize W4 V = U
    (simp (disch := decide) only [nullary_result', unary_result', binary_result', ternary_result', reshape_result', nullary_result_ne', unary_result_ne', binary_result_ne', ternary_result_ne', reshape_result_ne']) <;> rfl

theorem spec_6 (V : Valuation τ sig (Elt F)) :
    W6 V (Proc.devRef .tc main_arg0) = (V (Proc.devRef .tc main_arg0))
    ∧ W6 V (Proc.devRef .tc main_v1) = val_main_v1 (F := F) (V (Proc.devRef .tc main_arg0))
    ∧ W6 V (Proc.devRef .tc main_v4) = val_main_v4 (F := F) := by
  obtain ⟨h_main_arg0, h_main_v1, h_main_v3⟩ := spec_5 V
  unfold W6
  refine ⟨?_, ?_, ?_⟩
  · simp (disch := decide) only [nullary_result', unary_result', binary_result', ternary_result', reshape_result', nullary_result_ne', unary_result_ne', binary_result_ne', ternary_result_ne', reshape_result_ne', h_main_arg0, h_main_v1, h_main_v3]
  · simp (disch := decide) only [nullary_result', unary_result', binary_result', ternary_result', reshape_result', nullary_result_ne', unary_result_ne', binary_result_ne', ternary_result_ne', reshape_result_ne', h_main_arg0, h_main_v1, h_main_v3]
  · unfold val_main_v4
    rw [← h_main_v3]
    generalize W5 V = U
    (simp (disch := decide) only [nullary_result', unary_result', binary_result', ternary_result', reshape_result', nullary_result_ne', unary_result_ne', binary_result_ne', ternary_result_ne', reshape_result_ne']) <;> rfl

theorem spec_7 (V : Valuation τ sig (Elt F)) :
    W7 V (Proc.devRef .tc main_arg0) = (V (Proc.devRef .tc main_arg0))
    ∧ W7 V (Proc.devRef .tc main_v1) = val_main_v1 (F := F) (V (Proc.devRef .tc main_arg0))
    ∧ W7 V (Proc.devRef .tc main_v4) = val_main_v4 (F := F)
    ∧ W7 V (Proc.devRef .tc main_c) = val_main_c (F := F) := by
  obtain ⟨h_main_arg0, h_main_v1, h_main_v4⟩ := spec_6 V
  unfold W7
  refine ⟨?_, ?_, ?_, ?_⟩
  · simp (disch := decide) only [nullary_result', unary_result', binary_result', ternary_result', reshape_result', nullary_result_ne', unary_result_ne', binary_result_ne', ternary_result_ne', reshape_result_ne', h_main_arg0, h_main_v1, h_main_v4]
  · simp (disch := decide) only [nullary_result', unary_result', binary_result', ternary_result', reshape_result', nullary_result_ne', unary_result_ne', binary_result_ne', ternary_result_ne', reshape_result_ne', h_main_arg0, h_main_v1, h_main_v4]
  · simp (disch := decide) only [nullary_result', unary_result', binary_result', ternary_result', reshape_result', nullary_result_ne', unary_result_ne', binary_result_ne', ternary_result_ne', reshape_result_ne', h_main_arg0, h_main_v1, h_main_v4]
  · unfold val_main_c
    generalize W6 V = U
    (simp (disch := decide) only [nullary_result', unary_result', binary_result', ternary_result', reshape_result', nullary_result_ne', unary_result_ne', binary_result_ne', ternary_result_ne', reshape_result_ne']) <;> rfl

theorem spec_8 (V : Valuation τ sig (Elt F)) :
    W8 V (Proc.devRef .tc main_arg0) = (V (Proc.devRef .tc main_arg0))
    ∧ W8 V (Proc.devRef .tc main_v1) = val_main_v1 (F := F) (V (Proc.devRef .tc main_arg0))
    ∧ W8 V (Proc.devRef .tc main_v4) = val_main_v4 (F := F)
    ∧ W8 V (Proc.devRef .tc main_call0_v0) = val_main_call0_v0 (F := F) := by
  obtain ⟨h_main_arg0, h_main_v1, h_main_v4, h_main_c⟩ := spec_7 V
  unfold W8
  refine ⟨?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_c]
  · simp (disch := decide) only [nullary_result', unary_result', binary_result', ternary_result', reshape_result', nullary_result_ne', unary_result_ne', binary_result_ne', ternary_result_ne', reshape_result_ne', h_main_arg0, h_main_v1, h_main_v4, h_main_c]
  · simp (disch := decide) only [nullary_result', unary_result', binary_result', ternary_result', reshape_result', nullary_result_ne', unary_result_ne', binary_result_ne', ternary_result_ne', reshape_result_ne', h_main_arg0, h_main_v1, h_main_v4, h_main_c]
  · unfold val_main_call0_v0
    rw [← h_main_c]
    generalize W7 V = U
    (simp (disch := decide) only [nullary_result', unary_result', binary_result', ternary_result', reshape_result', nullary_result_ne', unary_result_ne', binary_result_ne', ternary_result_ne', reshape_result_ne']) <;> rfl

theorem spec_9 (V : Valuation τ sig (Elt F)) :
    W9 V (Proc.devRef .tc main_arg0) = (V (Proc.devRef .tc main_arg0))
    ∧ W9 V (Proc.devRef .tc main_v1) = val_main_v1 (F := F) (V (Proc.devRef .tc main_arg0))
    ∧ W9 V (Proc.devRef .tc main_v4) = val_main_v4 (F := F)
    ∧ W9 V (Proc.devRef .tc main_call0_v1) = val_main_call0_v1 (F := F) := by
  obtain ⟨h_main_arg0, h_main_v1, h_main_v4, h_main_call0_v0⟩ := spec_8 V
  unfold W9
  refine ⟨?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_call0_v0]
  · simp (disch := decide) only [nullary_result', unary_result', binary_result', ternary_result', reshape_result', nullary_result_ne', unary_result_ne', binary_result_ne', ternary_result_ne', reshape_result_ne', h_main_arg0, h_main_v1, h_main_v4, h_main_call0_v0]
  · simp (disch := decide) only [nullary_result', unary_result', binary_result', ternary_result', reshape_result', nullary_result_ne', unary_result_ne', binary_result_ne', ternary_result_ne', reshape_result_ne', h_main_arg0, h_main_v1, h_main_v4, h_main_call0_v0]
  · unfold val_main_call0_v1
    rw [← h_main_call0_v0]
    generalize W8 V = U
    (simp (disch := decide) only [nullary_result', unary_result', binary_result', ternary_result', reshape_result', nullary_result_ne', unary_result_ne', binary_result_ne', ternary_result_ne', reshape_result_ne']) <;> rfl

theorem spec_10 (V : Valuation τ sig (Elt F)) :
    W10 V (Proc.devRef .tc main_arg0) = (V (Proc.devRef .tc main_arg0))
    ∧ W10 V (Proc.devRef .tc main_v1) = val_main_v1 (F := F) (V (Proc.devRef .tc main_arg0))
    ∧ W10 V (Proc.devRef .tc main_v4) = val_main_v4 (F := F)
    ∧ W10 V (Proc.devRef .tc main_v5) = val_main_v5 (F := F) (V (Proc.devRef .tc main_arg0)) := by
  obtain ⟨h_main_arg0, h_main_v1, h_main_v4, h_main_call0_v1⟩ := spec_9 V
  unfold W10
  refine ⟨?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_call0_v1]
  · simp (disch := decide) only [nullary_result', unary_result', binary_result', ternary_result', reshape_result', nullary_result_ne', unary_result_ne', binary_result_ne', ternary_result_ne', reshape_result_ne', h_main_arg0, h_main_v1, h_main_v4, h_main_call0_v1]
  · simp (disch := decide) only [nullary_result', unary_result', binary_result', ternary_result', reshape_result', nullary_result_ne', unary_result_ne', binary_result_ne', ternary_result_ne', reshape_result_ne', h_main_arg0, h_main_v1, h_main_v4, h_main_call0_v1]
  · unfold val_main_v5
    rw [← h_main_v1, ← h_main_v4, ← h_main_call0_v1]
    generalize W9 V = U
    (simp (disch := decide) only [nullary_result', unary_result', binary_result', ternary_result', reshape_result', nullary_result_ne', unary_result_ne', binary_result_ne', ternary_result_ne', reshape_result_ne']) <;> rfl

theorem spec_11 (V : Valuation τ sig (Elt F)) :
    W11 V (Proc.devRef .tc main_arg0) = (V (Proc.devRef .tc main_arg0))
    ∧ W11 V (Proc.devRef .tc main_v1) = val_main_v1 (F := F) (V (Proc.devRef .tc main_arg0))
    ∧ W11 V (Proc.devRef .tc main_v4) = val_main_v4 (F := F)
    ∧ W11 V (Proc.devRef .tc main_v5) = val_main_v5 (F := F) (V (Proc.devRef .tc main_arg0))
    ∧ W11 V (Proc.devRef .tc main_call1_c) = val_main_call1_c (F := F) := by
  obtain ⟨h_main_arg0, h_main_v1, h_main_v4, h_main_v5⟩ := spec_10 V
  unfold W11
  refine ⟨?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v5]
  · simp (disch := decide) only [nullary_result', unary_result', binary_result', ternary_result', reshape_result', nullary_result_ne', unary_result_ne', binary_result_ne', ternary_result_ne', reshape_result_ne', h_main_arg0, h_main_v1, h_main_v4, h_main_v5]
  · simp (disch := decide) only [nullary_result', unary_result', binary_result', ternary_result', reshape_result', nullary_result_ne', unary_result_ne', binary_result_ne', ternary_result_ne', reshape_result_ne', h_main_arg0, h_main_v1, h_main_v4, h_main_v5]
  · simp (disch := decide) only [nullary_result', unary_result', binary_result', ternary_result', reshape_result', nullary_result_ne', unary_result_ne', binary_result_ne', ternary_result_ne', reshape_result_ne', h_main_arg0, h_main_v1, h_main_v4, h_main_v5]
  · unfold val_main_call1_c
    generalize W10 V = U
    (simp (disch := decide) only [nullary_result', unary_result', binary_result', ternary_result', reshape_result', nullary_result_ne', unary_result_ne', binary_result_ne', ternary_result_ne', reshape_result_ne']) <;> rfl

theorem spec_12 (V : Valuation τ sig (Elt F)) :
    W12 V (Proc.devRef .tc main_arg0) = (V (Proc.devRef .tc main_arg0))
    ∧ W12 V (Proc.devRef .tc main_v1) = val_main_v1 (F := F) (V (Proc.devRef .tc main_arg0))
    ∧ W12 V (Proc.devRef .tc main_v4) = val_main_v4 (F := F)
    ∧ W12 V (Proc.devRef .tc main_v5) = val_main_v5 (F := F) (V (Proc.devRef .tc main_arg0))
    ∧ W12 V (Proc.devRef .tc main_call1_v0) = val_main_call1_v0 (F := F) := by
  obtain ⟨h_main_arg0, h_main_v1, h_main_v4, h_main_v5, h_main_call1_c⟩ := spec_11 V
  unfold W12
  refine ⟨?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v5, h_main_call1_c]
  · simp (disch := decide) only [nullary_result', unary_result', binary_result', ternary_result', reshape_result', nullary_result_ne', unary_result_ne', binary_result_ne', ternary_result_ne', reshape_result_ne', h_main_arg0, h_main_v1, h_main_v4, h_main_v5, h_main_call1_c]
  · simp (disch := decide) only [nullary_result', unary_result', binary_result', ternary_result', reshape_result', nullary_result_ne', unary_result_ne', binary_result_ne', ternary_result_ne', reshape_result_ne', h_main_arg0, h_main_v1, h_main_v4, h_main_v5, h_main_call1_c]
  · simp (disch := decide) only [nullary_result', unary_result', binary_result', ternary_result', reshape_result', nullary_result_ne', unary_result_ne', binary_result_ne', ternary_result_ne', reshape_result_ne', h_main_arg0, h_main_v1, h_main_v4, h_main_v5, h_main_call1_c]
  · unfold val_main_call1_v0
    rw [← h_main_call1_c]
    generalize W11 V = U
    (simp (disch := decide) only [nullary_result', unary_result', binary_result', ternary_result', reshape_result', nullary_result_ne', unary_result_ne', binary_result_ne', ternary_result_ne', reshape_result_ne']) <;> rfl

theorem spec_13 (V : Valuation τ sig (Elt F)) :
    W13 V (Proc.devRef .tc main_arg0) = (V (Proc.devRef .tc main_arg0))
    ∧ W13 V (Proc.devRef .tc main_v1) = val_main_v1 (F := F) (V (Proc.devRef .tc main_arg0))
    ∧ W13 V (Proc.devRef .tc main_v4) = val_main_v4 (F := F)
    ∧ W13 V (Proc.devRef .tc main_v6) = val_main_v6 (F := F) (V (Proc.devRef .tc main_arg0)) := by
  obtain ⟨h_main_arg0, h_main_v1, h_main_v4, h_main_v5, h_main_call1_v0⟩ := spec_12 V
  unfold W13
  refine ⟨?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v5, h_main_call1_v0]
  · simp (disch := decide) only [nullary_result', unary_result', binary_result', ternary_result', reshape_result', nullary_result_ne', unary_result_ne', binary_result_ne', ternary_result_ne', reshape_result_ne', h_main_arg0, h_main_v1, h_main_v4, h_main_v5, h_main_call1_v0]
  · simp (disch := decide) only [nullary_result', unary_result', binary_result', ternary_result', reshape_result', nullary_result_ne', unary_result_ne', binary_result_ne', ternary_result_ne', reshape_result_ne', h_main_arg0, h_main_v1, h_main_v4, h_main_v5, h_main_call1_v0]
  · unfold val_main_v6
    rw [← h_main_v5, ← h_main_call1_v0]
    generalize W12 V = U
    (simp (disch := decide) only [nullary_result', unary_result', binary_result', ternary_result', reshape_result', nullary_result_ne', unary_result_ne', binary_result_ne', ternary_result_ne', reshape_result_ne']) <;> rfl

theorem spec_14 (V : Valuation τ sig (Elt F)) :
    W14 V (Proc.devRef .tc main_arg0) = (V (Proc.devRef .tc main_arg0))
    ∧ W14 V (Proc.devRef .tc main_v1) = val_main_v1 (F := F) (V (Proc.devRef .tc main_arg0))
    ∧ W14 V (Proc.devRef .tc main_v4) = val_main_v4 (F := F)
    ∧ W14 V (Proc.devRef .tc main_v6) = val_main_v6 (F := F) (V (Proc.devRef .tc main_arg0))
    ∧ W14 V (Proc.devRef .tc main_c_0) = val_main_c_0 (F := F) := by
  obtain ⟨h_main_arg0, h_main_v1, h_main_v4, h_main_v6⟩ := spec_13 V
  unfold W14
  refine ⟨?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6]
  · simp (disch := decide) only [nullary_result', unary_result', binary_result', ternary_result', reshape_result', nullary_result_ne', unary_result_ne', binary_result_ne', ternary_result_ne', reshape_result_ne', h_main_arg0, h_main_v1, h_main_v4, h_main_v6]
  · simp (disch := decide) only [nullary_result', unary_result', binary_result', ternary_result', reshape_result', nullary_result_ne', unary_result_ne', binary_result_ne', ternary_result_ne', reshape_result_ne', h_main_arg0, h_main_v1, h_main_v4, h_main_v6]
  · simp (disch := decide) only [nullary_result', unary_result', binary_result', ternary_result', reshape_result', nullary_result_ne', unary_result_ne', binary_result_ne', ternary_result_ne', reshape_result_ne', h_main_arg0, h_main_v1, h_main_v4, h_main_v6]
  · unfold val_main_c_0
    generalize W13 V = U
    (simp (disch := decide) only [nullary_result', unary_result', binary_result', ternary_result', reshape_result', nullary_result_ne', unary_result_ne', binary_result_ne', ternary_result_ne', reshape_result_ne']) <;> rfl

theorem spec_15 (V : Valuation τ sig (Elt F)) :
    W15 V (Proc.devRef .tc main_arg0) = (V (Proc.devRef .tc main_arg0))
    ∧ W15 V (Proc.devRef .tc main_v1) = val_main_v1 (F := F) (V (Proc.devRef .tc main_arg0))
    ∧ W15 V (Proc.devRef .tc main_v4) = val_main_v4 (F := F)
    ∧ W15 V (Proc.devRef .tc main_v6) = val_main_v6 (F := F) (V (Proc.devRef .tc main_arg0))
    ∧ W15 V (Proc.devRef .tc main_call2_v0) = val_main_call2_v0 (F := F) := by
  obtain ⟨h_main_arg0, h_main_v1, h_main_v4, h_main_v6, h_main_c_0⟩ := spec_14 V
  unfold W15
  refine ⟨?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_c_0]
  · simp (disch := decide) only [nullary_result', unary_result', binary_result', ternary_result', reshape_result', nullary_result_ne', unary_result_ne', binary_result_ne', ternary_result_ne', reshape_result_ne', h_main_arg0, h_main_v1, h_main_v4, h_main_v6, h_main_c_0]
  · simp (disch := decide) only [nullary_result', unary_result', binary_result', ternary_result', reshape_result', nullary_result_ne', unary_result_ne', binary_result_ne', ternary_result_ne', reshape_result_ne', h_main_arg0, h_main_v1, h_main_v4, h_main_v6, h_main_c_0]
  · simp (disch := decide) only [nullary_result', unary_result', binary_result', ternary_result', reshape_result', nullary_result_ne', unary_result_ne', binary_result_ne', ternary_result_ne', reshape_result_ne', h_main_arg0, h_main_v1, h_main_v4, h_main_v6, h_main_c_0]
  · unfold val_main_call2_v0
    rw [← h_main_c_0]
    generalize W14 V = U
    (simp (disch := decide) only [nullary_result', unary_result', binary_result', ternary_result', reshape_result', nullary_result_ne', unary_result_ne', binary_result_ne', ternary_result_ne', reshape_result_ne']) <;> rfl

theorem spec_16 (V : Valuation τ sig (Elt F)) :
    W16 V (Proc.devRef .tc main_arg0) = (V (Proc.devRef .tc main_arg0))
    ∧ W16 V (Proc.devRef .tc main_v1) = val_main_v1 (F := F) (V (Proc.devRef .tc main_arg0))
    ∧ W16 V (Proc.devRef .tc main_v4) = val_main_v4 (F := F)
    ∧ W16 V (Proc.devRef .tc main_v6) = val_main_v6 (F := F) (V (Proc.devRef .tc main_arg0))
    ∧ W16 V (Proc.devRef .tc main_call2_v1) = val_main_call2_v1 (F := F) := by
  obtain ⟨h_main_arg0, h_main_v1, h_main_v4, h_main_v6, h_main_call2_v0⟩ := spec_15 V
  unfold W16
  refine ⟨?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_call2_v0]
  · simp (disch := decide) only [nullary_result', unary_result', binary_result', ternary_result', reshape_result', nullary_result_ne', unary_result_ne', binary_result_ne', ternary_result_ne', reshape_result_ne', h_main_arg0, h_main_v1, h_main_v4, h_main_v6, h_main_call2_v0]
  · simp (disch := decide) only [nullary_result', unary_result', binary_result', ternary_result', reshape_result', nullary_result_ne', unary_result_ne', binary_result_ne', ternary_result_ne', reshape_result_ne', h_main_arg0, h_main_v1, h_main_v4, h_main_v6, h_main_call2_v0]
  · simp (disch := decide) only [nullary_result', unary_result', binary_result', ternary_result', reshape_result', nullary_result_ne', unary_result_ne', binary_result_ne', ternary_result_ne', reshape_result_ne', h_main_arg0, h_main_v1, h_main_v4, h_main_v6, h_main_call2_v0]
  · unfold val_main_call2_v1
    rw [← h_main_call2_v0]
    generalize W15 V = U
    (simp (disch := decide) only [nullary_result', unary_result', binary_result', ternary_result', reshape_result', nullary_result_ne', unary_result_ne', binary_result_ne', ternary_result_ne', reshape_result_ne']) <;> rfl

theorem spec_17 (V : Valuation τ sig (Elt F)) :
    W17 V (Proc.devRef .tc main_arg0) = (V (Proc.devRef .tc main_arg0))
    ∧ W17 V (Proc.devRef .tc main_v1) = val_main_v1 (F := F) (V (Proc.devRef .tc main_arg0))
    ∧ W17 V (Proc.devRef .tc main_v4) = val_main_v4 (F := F)
    ∧ W17 V (Proc.devRef .tc main_v6) = val_main_v6 (F := F) (V (Proc.devRef .tc main_arg0))
    ∧ W17 V (Proc.devRef .tc main_v7) = val_main_v7 (F := F) (V (Proc.devRef .tc main_arg0)) := by
  obtain ⟨h_main_arg0, h_main_v1, h_main_v4, h_main_v6, h_main_call2_v1⟩ := spec_16 V
  unfold W17
  refine ⟨?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_call2_v1]
  · simp (disch := decide) only [nullary_result', unary_result', binary_result', ternary_result', reshape_result', nullary_result_ne', unary_result_ne', binary_result_ne', ternary_result_ne', reshape_result_ne', h_main_arg0, h_main_v1, h_main_v4, h_main_v6, h_main_call2_v1]
  · simp (disch := decide) only [nullary_result', unary_result', binary_result', ternary_result', reshape_result', nullary_result_ne', unary_result_ne', binary_result_ne', ternary_result_ne', reshape_result_ne', h_main_arg0, h_main_v1, h_main_v4, h_main_v6, h_main_call2_v1]
  · simp (disch := decide) only [nullary_result', unary_result', binary_result', ternary_result', reshape_result', nullary_result_ne', unary_result_ne', binary_result_ne', ternary_result_ne', reshape_result_ne', h_main_arg0, h_main_v1, h_main_v4, h_main_v6, h_main_call2_v1]
  · unfold val_main_v7
    rw [← h_main_v1, ← h_main_v4, ← h_main_call2_v1]
    generalize W16 V = U
    (simp (disch := decide) only [nullary_result', unary_result', binary_result', ternary_result', reshape_result', nullary_result_ne', unary_result_ne', binary_result_ne', ternary_result_ne', reshape_result_ne']) <;> rfl

theorem spec_18 (V : Valuation τ sig (Elt F)) :
    W18 V (Proc.devRef .tc main_arg0) = (V (Proc.devRef .tc main_arg0))
    ∧ W18 V (Proc.devRef .tc main_v1) = val_main_v1 (F := F) (V (Proc.devRef .tc main_arg0))
    ∧ W18 V (Proc.devRef .tc main_v4) = val_main_v4 (F := F)
    ∧ W18 V (Proc.devRef .tc main_v6) = val_main_v6 (F := F) (V (Proc.devRef .tc main_arg0))
    ∧ W18 V (Proc.devRef .tc main_v7) = val_main_v7 (F := F) (V (Proc.devRef .tc main_arg0))
    ∧ W18 V (Proc.devRef .tc main_call3_c) = val_main_call3_c (F := F) := by
  obtain ⟨h_main_arg0, h_main_v1, h_main_v4, h_main_v6, h_main_v7⟩ := spec_17 V
  unfold W18
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v7]
  · simp (disch := decide) only [nullary_result', unary_result', binary_result', ternary_result', reshape_result', nullary_result_ne', unary_result_ne', binary_result_ne', ternary_result_ne', reshape_result_ne', h_main_arg0, h_main_v1, h_main_v4, h_main_v6, h_main_v7]
  · simp (disch := decide) only [nullary_result', unary_result', binary_result', ternary_result', reshape_result', nullary_result_ne', unary_result_ne', binary_result_ne', ternary_result_ne', reshape_result_ne', h_main_arg0, h_main_v1, h_main_v4, h_main_v6, h_main_v7]
  · simp (disch := decide) only [nullary_result', unary_result', binary_result', ternary_result', reshape_result', nullary_result_ne', unary_result_ne', binary_result_ne', ternary_result_ne', reshape_result_ne', h_main_arg0, h_main_v1, h_main_v4, h_main_v6, h_main_v7]
  · simp (disch := decide) only [nullary_result', unary_result', binary_result', ternary_result', reshape_result', nullary_result_ne', unary_result_ne', binary_result_ne', ternary_result_ne', reshape_result_ne', h_main_arg0, h_main_v1, h_main_v4, h_main_v6, h_main_v7]
  · unfold val_main_call3_c
    generalize W17 V = U
    (simp (disch := decide) only [nullary_result', unary_result', binary_result', ternary_result', reshape_result', nullary_result_ne', unary_result_ne', binary_result_ne', ternary_result_ne', reshape_result_ne']) <;> rfl

theorem spec_19 (V : Valuation τ sig (Elt F)) :
    W19 V (Proc.devRef .tc main_arg0) = (V (Proc.devRef .tc main_arg0))
    ∧ W19 V (Proc.devRef .tc main_v1) = val_main_v1 (F := F) (V (Proc.devRef .tc main_arg0))
    ∧ W19 V (Proc.devRef .tc main_v4) = val_main_v4 (F := F)
    ∧ W19 V (Proc.devRef .tc main_v6) = val_main_v6 (F := F) (V (Proc.devRef .tc main_arg0))
    ∧ W19 V (Proc.devRef .tc main_v7) = val_main_v7 (F := F) (V (Proc.devRef .tc main_arg0))
    ∧ W19 V (Proc.devRef .tc main_call3_v0) = val_main_call3_v0 (F := F) := by
  obtain ⟨h_main_arg0, h_main_v1, h_main_v4, h_main_v6, h_main_v7, h_main_call3_c⟩ := spec_18 V
  unfold W19
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v7, h_main_call3_c]
  · simp (disch := decide) only [nullary_result', unary_result', binary_result', ternary_result', reshape_result', nullary_result_ne', unary_result_ne', binary_result_ne', ternary_result_ne', reshape_result_ne', h_main_arg0, h_main_v1, h_main_v4, h_main_v6, h_main_v7, h_main_call3_c]
  · simp (disch := decide) only [nullary_result', unary_result', binary_result', ternary_result', reshape_result', nullary_result_ne', unary_result_ne', binary_result_ne', ternary_result_ne', reshape_result_ne', h_main_arg0, h_main_v1, h_main_v4, h_main_v6, h_main_v7, h_main_call3_c]
  · simp (disch := decide) only [nullary_result', unary_result', binary_result', ternary_result', reshape_result', nullary_result_ne', unary_result_ne', binary_result_ne', ternary_result_ne', reshape_result_ne', h_main_arg0, h_main_v1, h_main_v4, h_main_v6, h_main_v7, h_main_call3_c]
  · simp (disch := decide) only [nullary_result', unary_result', binary_result', ternary_result', reshape_result', nullary_result_ne', unary_result_ne', binary_result_ne', ternary_result_ne', reshape_result_ne', h_main_arg0, h_main_v1, h_main_v4, h_main_v6, h_main_v7, h_main_call3_c]
  · unfold val_main_call3_v0
    rw [← h_main_call3_c]
    generalize W18 V = U
    (simp (disch := decide) only [nullary_result', unary_result', binary_result', ternary_result', reshape_result', nullary_result_ne', unary_result_ne', binary_result_ne', ternary_result_ne', reshape_result_ne']) <;> rfl

theorem spec_20 (V : Valuation τ sig (Elt F)) :
    W20 V (Proc.devRef .tc main_arg0) = (V (Proc.devRef .tc main_arg0))
    ∧ W20 V (Proc.devRef .tc main_v1) = val_main_v1 (F := F) (V (Proc.devRef .tc main_arg0))
    ∧ W20 V (Proc.devRef .tc main_v4) = val_main_v4 (F := F)
    ∧ W20 V (Proc.devRef .tc main_v6) = val_main_v6 (F := F) (V (Proc.devRef .tc main_arg0))
    ∧ W20 V (Proc.devRef .tc main_v8) = val_main_v8 (F := F) (V (Proc.devRef .tc main_arg0)) := by
  obtain ⟨h_main_arg0, h_main_v1, h_main_v4, h_main_v6, h_main_v7, h_main_call3_v0⟩ := spec_19 V
  unfold W20
  refine ⟨?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v7, h_main_call3_v0]
  · simp (disch := decide) only [nullary_result', unary_result', binary_result', ternary_result', reshape_result', nullary_result_ne', unary_result_ne', binary_result_ne', ternary_result_ne', reshape_result_ne', h_main_arg0, h_main_v1, h_main_v4, h_main_v6, h_main_v7, h_main_call3_v0]
  · simp (disch := decide) only [nullary_result', unary_result', binary_result', ternary_result', reshape_result', nullary_result_ne', unary_result_ne', binary_result_ne', ternary_result_ne', reshape_result_ne', h_main_arg0, h_main_v1, h_main_v4, h_main_v6, h_main_v7, h_main_call3_v0]
  · simp (disch := decide) only [nullary_result', unary_result', binary_result', ternary_result', reshape_result', nullary_result_ne', unary_result_ne', binary_result_ne', ternary_result_ne', reshape_result_ne', h_main_arg0, h_main_v1, h_main_v4, h_main_v6, h_main_v7, h_main_call3_v0]
  · unfold val_main_v8
    rw [← h_main_v7, ← h_main_call3_v0]
    generalize W19 V = U
    (simp (disch := decide) only [nullary_result', unary_result', binary_result', ternary_result', reshape_result', nullary_result_ne', unary_result_ne', binary_result_ne', ternary_result_ne', reshape_result_ne']) <;> rfl

theorem spec_21 (V : Valuation τ sig (Elt F)) :
    W21 V (Proc.devRef .tc main_arg0) = (V (Proc.devRef .tc main_arg0))
    ∧ W21 V (Proc.devRef .tc main_v1) = val_main_v1 (F := F) (V (Proc.devRef .tc main_arg0))
    ∧ W21 V (Proc.devRef .tc main_v4) = val_main_v4 (F := F)
    ∧ W21 V (Proc.devRef .tc main_v6) = val_main_v6 (F := F) (V (Proc.devRef .tc main_arg0))
    ∧ W21 V (Proc.devRef .tc main_v8) = val_main_v8 (F := F) (V (Proc.devRef .tc main_arg0))
    ∧ W21 V (Proc.devRef .tc main_c_1) = val_main_c_1 (F := F) := by
  obtain ⟨h_main_arg0, h_main_v1, h_main_v4, h_main_v6, h_main_v8⟩ := spec_20 V
  unfold W21
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8]
  · simp (disch := decide) only [nullary_result', unary_result', binary_result', ternary_result', reshape_result', nullary_result_ne', unary_result_ne', binary_result_ne', ternary_result_ne', reshape_result_ne', h_main_arg0, h_main_v1, h_main_v4, h_main_v6, h_main_v8]
  · simp (disch := decide) only [nullary_result', unary_result', binary_result', ternary_result', reshape_result', nullary_result_ne', unary_result_ne', binary_result_ne', ternary_result_ne', reshape_result_ne', h_main_arg0, h_main_v1, h_main_v4, h_main_v6, h_main_v8]
  · simp (disch := decide) only [nullary_result', unary_result', binary_result', ternary_result', reshape_result', nullary_result_ne', unary_result_ne', binary_result_ne', ternary_result_ne', reshape_result_ne', h_main_arg0, h_main_v1, h_main_v4, h_main_v6, h_main_v8]
  · simp (disch := decide) only [nullary_result', unary_result', binary_result', ternary_result', reshape_result', nullary_result_ne', unary_result_ne', binary_result_ne', ternary_result_ne', reshape_result_ne', h_main_arg0, h_main_v1, h_main_v4, h_main_v6, h_main_v8]
  · unfold val_main_c_1
    generalize W20 V = U
    (simp (disch := decide) only [nullary_result', unary_result', binary_result', ternary_result', reshape_result', nullary_result_ne', unary_result_ne', binary_result_ne', ternary_result_ne', reshape_result_ne']) <;> rfl

theorem spec_22 (V : Valuation τ sig (Elt F)) :
    W22 V (Proc.devRef .tc main_arg0) = (V (Proc.devRef .tc main_arg0))
    ∧ W22 V (Proc.devRef .tc main_v1) = val_main_v1 (F := F) (V (Proc.devRef .tc main_arg0))
    ∧ W22 V (Proc.devRef .tc main_v4) = val_main_v4 (F := F)
    ∧ W22 V (Proc.devRef .tc main_v6) = val_main_v6 (F := F) (V (Proc.devRef .tc main_arg0))
    ∧ W22 V (Proc.devRef .tc main_v8) = val_main_v8 (F := F) (V (Proc.devRef .tc main_arg0))
    ∧ W22 V (Proc.devRef .tc main_c_1) = val_main_c_1 (F := F)
    ∧ W22 V (Proc.devRef .tc main_c_2) = val_main_c_2 (F := F) := by
  obtain ⟨h_main_arg0, h_main_v1, h_main_v4, h_main_v6, h_main_v8, h_main_c_1⟩ := spec_21 V
  unfold W22
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1]
  · unfold val_main_c_2
    generalize W21 V = U
    (simp (disch := decide) only [nullary_result', unary_result', binary_result', ternary_result', reshape_result', nullary_result_ne', unary_result_ne', binary_result_ne', ternary_result_ne', reshape_result_ne']) <;> rfl

theorem spec_23 (V : Valuation τ sig (Elt F)) :
    W23 V (Proc.devRef .tc main_arg0) = (V (Proc.devRef .tc main_arg0))
    ∧ W23 V (Proc.devRef .tc main_v1) = val_main_v1 (F := F) (V (Proc.devRef .tc main_arg0))
    ∧ W23 V (Proc.devRef .tc main_v4) = val_main_v4 (F := F)
    ∧ W23 V (Proc.devRef .tc main_v6) = val_main_v6 (F := F) (V (Proc.devRef .tc main_arg0))
    ∧ W23 V (Proc.devRef .tc main_v8) = val_main_v8 (F := F) (V (Proc.devRef .tc main_arg0))
    ∧ W23 V (Proc.devRef .tc main_c_2) = val_main_c_2 (F := F)
    ∧ W23 V (Proc.devRef .tc main_call4_v0) = val_main_call4_v0 (F := F) := by
  obtain ⟨h_main_arg0, h_main_v1, h_main_v4, h_main_v6, h_main_v8, h_main_c_1, h_main_c_2⟩ := spec_22 V
  unfold W23
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1, h_main_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1, h_main_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1, h_main_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1, h_main_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1, h_main_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_1, h_main_c_2]
  · unfold val_main_call4_v0
    rw [← h_main_c_1]
    generalize W22 V = U
    (simp (disch := decide) only [nullary_result', unary_result', binary_result', ternary_result', reshape_result', nullary_result_ne', unary_result_ne', binary_result_ne', ternary_result_ne', reshape_result_ne']) <;> rfl

theorem spec_24 (V : Valuation τ sig (Elt F)) :
    W24 V (Proc.devRef .tc main_arg0) = (V (Proc.devRef .tc main_arg0))
    ∧ W24 V (Proc.devRef .tc main_v1) = val_main_v1 (F := F) (V (Proc.devRef .tc main_arg0))
    ∧ W24 V (Proc.devRef .tc main_v4) = val_main_v4 (F := F)
    ∧ W24 V (Proc.devRef .tc main_v6) = val_main_v6 (F := F) (V (Proc.devRef .tc main_arg0))
    ∧ W24 V (Proc.devRef .tc main_v8) = val_main_v8 (F := F) (V (Proc.devRef .tc main_arg0))
    ∧ W24 V (Proc.devRef .tc main_c_2) = val_main_c_2 (F := F)
    ∧ W24 V (Proc.devRef .tc main_call4_v1) = val_main_call4_v1 (F := F) := by
  obtain ⟨h_main_arg0, h_main_v1, h_main_v4, h_main_v6, h_main_v8, h_main_c_2, h_main_call4_v0⟩ := spec_23 V
  unfold W24
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v0]
  · unfold val_main_call4_v1
    rw [← h_main_call4_v0]
    generalize W23 V = U
    (simp (disch := decide) only [nullary_result', unary_result', binary_result', ternary_result', reshape_result', nullary_result_ne', unary_result_ne', binary_result_ne', ternary_result_ne', reshape_result_ne']) <;> rfl

theorem spec_25 (V : Valuation τ sig (Elt F)) :
    W25 V (Proc.devRef .tc main_arg0) = (V (Proc.devRef .tc main_arg0))
    ∧ W25 V (Proc.devRef .tc main_v1) = val_main_v1 (F := F) (V (Proc.devRef .tc main_arg0))
    ∧ W25 V (Proc.devRef .tc main_v4) = val_main_v4 (F := F)
    ∧ W25 V (Proc.devRef .tc main_v6) = val_main_v6 (F := F) (V (Proc.devRef .tc main_arg0))
    ∧ W25 V (Proc.devRef .tc main_v8) = val_main_v8 (F := F) (V (Proc.devRef .tc main_arg0))
    ∧ W25 V (Proc.devRef .tc main_c_2) = val_main_c_2 (F := F)
    ∧ W25 V (Proc.devRef .tc main_call4_v2) = val_main_call4_v2 (F := F) (V (Proc.devRef .tc main_arg0)) := by
  obtain ⟨h_main_arg0, h_main_v1, h_main_v4, h_main_v6, h_main_v8, h_main_c_2, h_main_call4_v1⟩ := spec_24 V
  unfold W25
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v1]
  · unfold val_main_call4_v2
    rw [← h_main_call4_v1, ← h_main_v6]
    generalize W24 V = U
    (simp (disch := decide) only [nullary_result', unary_result', binary_result', ternary_result', reshape_result', nullary_result_ne', unary_result_ne', binary_result_ne', ternary_result_ne', reshape_result_ne']) <;> rfl

theorem spec_26 (V : Valuation τ sig (Elt F)) :
    W26 V (Proc.devRef .tc main_arg0) = (V (Proc.devRef .tc main_arg0))
    ∧ W26 V (Proc.devRef .tc main_v1) = val_main_v1 (F := F) (V (Proc.devRef .tc main_arg0))
    ∧ W26 V (Proc.devRef .tc main_v4) = val_main_v4 (F := F)
    ∧ W26 V (Proc.devRef .tc main_v6) = val_main_v6 (F := F) (V (Proc.devRef .tc main_arg0))
    ∧ W26 V (Proc.devRef .tc main_v8) = val_main_v8 (F := F) (V (Proc.devRef .tc main_arg0))
    ∧ W26 V (Proc.devRef .tc main_call4_v2) = val_main_call4_v2 (F := F) (V (Proc.devRef .tc main_arg0))
    ∧ W26 V (Proc.devRef .tc main_call4_v3) = val_main_call4_v3 (F := F) := by
  obtain ⟨h_main_arg0, h_main_v1, h_main_v4, h_main_v6, h_main_v8, h_main_c_2, h_main_call4_v2⟩ := spec_25 V
  unfold W26
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_c_2, h_main_call4_v2]
  · unfold val_main_call4_v3
    rw [← h_main_c_2]
    generalize W25 V = U
    (simp (disch := decide) only [nullary_result', unary_result', binary_result', ternary_result', reshape_result', nullary_result_ne', unary_result_ne', binary_result_ne', ternary_result_ne', reshape_result_ne']) <;> rfl

theorem spec_27 (V : Valuation τ sig (Elt F)) :
    W27 V (Proc.devRef .tc main_arg0) = (V (Proc.devRef .tc main_arg0))
    ∧ W27 V (Proc.devRef .tc main_v1) = val_main_v1 (F := F) (V (Proc.devRef .tc main_arg0))
    ∧ W27 V (Proc.devRef .tc main_v4) = val_main_v4 (F := F)
    ∧ W27 V (Proc.devRef .tc main_v6) = val_main_v6 (F := F) (V (Proc.devRef .tc main_arg0))
    ∧ W27 V (Proc.devRef .tc main_v8) = val_main_v8 (F := F) (V (Proc.devRef .tc main_arg0))
    ∧ W27 V (Proc.devRef .tc main_call4_v2) = val_main_call4_v2 (F := F) (V (Proc.devRef .tc main_arg0))
    ∧ W27 V (Proc.devRef .tc main_call4_v4) = val_main_call4_v4 (F := F) := by
  obtain ⟨h_main_arg0, h_main_v1, h_main_v4, h_main_v6, h_main_v8, h_main_call4_v2, h_main_call4_v3⟩ := spec_26 V
  unfold W27
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v3]
  · unfold val_main_call4_v4
    rw [← h_main_call4_v3]
    generalize W26 V = U
    (simp (disch := decide) only [nullary_result', unary_result', binary_result', ternary_result', reshape_result', nullary_result_ne', unary_result_ne', binary_result_ne', ternary_result_ne', reshape_result_ne']) <;> rfl

theorem spec_28 (V : Valuation τ sig (Elt F)) :
    W28 V (Proc.devRef .tc main_arg0) = (V (Proc.devRef .tc main_arg0))
    ∧ W28 V (Proc.devRef .tc main_v1) = val_main_v1 (F := F) (V (Proc.devRef .tc main_arg0))
    ∧ W28 V (Proc.devRef .tc main_v4) = val_main_v4 (F := F)
    ∧ W28 V (Proc.devRef .tc main_v6) = val_main_v6 (F := F) (V (Proc.devRef .tc main_arg0))
    ∧ W28 V (Proc.devRef .tc main_v8) = val_main_v8 (F := F) (V (Proc.devRef .tc main_arg0))
    ∧ W28 V (Proc.devRef .tc main_v9) = val_main_v9 (F := F) (V (Proc.devRef .tc main_arg0)) := by
  obtain ⟨h_main_arg0, h_main_v1, h_main_v4, h_main_v6, h_main_v8, h_main_call4_v2, h_main_call4_v4⟩ := spec_27 V
  unfold W28
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call4_v2, h_main_call4_v4]
  · unfold val_main_v9
    rw [← h_main_call4_v4, ← h_main_call4_v2]
    generalize W27 V = U
    (simp (disch := decide) only [nullary_result', unary_result', binary_result', ternary_result', reshape_result', nullary_result_ne', unary_result_ne', binary_result_ne', ternary_result_ne', reshape_result_ne']) <;> rfl

theorem spec_29 (V : Valuation τ sig (Elt F)) :
    W29 V (Proc.devRef .tc main_arg0) = (V (Proc.devRef .tc main_arg0))
    ∧ W29 V (Proc.devRef .tc main_v1) = val_main_v1 (F := F) (V (Proc.devRef .tc main_arg0))
    ∧ W29 V (Proc.devRef .tc main_v4) = val_main_v4 (F := F)
    ∧ W29 V (Proc.devRef .tc main_v6) = val_main_v6 (F := F) (V (Proc.devRef .tc main_arg0))
    ∧ W29 V (Proc.devRef .tc main_v8) = val_main_v8 (F := F) (V (Proc.devRef .tc main_arg0))
    ∧ W29 V (Proc.devRef .tc main_v9) = val_main_v9 (F := F) (V (Proc.devRef .tc main_arg0))
    ∧ W29 V (Proc.devRef .tc main_call5_c) = val_main_call5_c (F := F) := by
  obtain ⟨h_main_arg0, h_main_v1, h_main_v4, h_main_v6, h_main_v8, h_main_v9⟩ := spec_28 V
  unfold W29
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9]
  · unfold val_main_call5_c
    generalize W28 V = U
    (simp (disch := decide) only [nullary_result', unary_result', binary_result', ternary_result', reshape_result', nullary_result_ne', unary_result_ne', binary_result_ne', ternary_result_ne', reshape_result_ne']) <;> rfl

theorem spec_30 (V : Valuation τ sig (Elt F)) :
    W30 V (Proc.devRef .tc main_arg0) = (V (Proc.devRef .tc main_arg0))
    ∧ W30 V (Proc.devRef .tc main_v1) = val_main_v1 (F := F) (V (Proc.devRef .tc main_arg0))
    ∧ W30 V (Proc.devRef .tc main_v4) = val_main_v4 (F := F)
    ∧ W30 V (Proc.devRef .tc main_v6) = val_main_v6 (F := F) (V (Proc.devRef .tc main_arg0))
    ∧ W30 V (Proc.devRef .tc main_v8) = val_main_v8 (F := F) (V (Proc.devRef .tc main_arg0))
    ∧ W30 V (Proc.devRef .tc main_v9) = val_main_v9 (F := F) (V (Proc.devRef .tc main_arg0))
    ∧ W30 V (Proc.devRef .tc main_call5_v0) = val_main_call5_v0 (F := F) := by
  obtain ⟨h_main_arg0, h_main_v1, h_main_v4, h_main_v6, h_main_v8, h_main_v9, h_main_call5_c⟩ := spec_29 V
  unfold W30
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_c]
  · unfold val_main_call5_v0
    rw [← h_main_call5_c]
    generalize W29 V = U
    (simp (disch := decide) only [nullary_result', unary_result', binary_result', ternary_result', reshape_result', nullary_result_ne', unary_result_ne', binary_result_ne', ternary_result_ne', reshape_result_ne']) <;> rfl

theorem spec_31 (V : Valuation τ sig (Elt F)) :
    W31 V (Proc.devRef .tc main_arg0) = (V (Proc.devRef .tc main_arg0))
    ∧ W31 V (Proc.devRef .tc main_v1) = val_main_v1 (F := F) (V (Proc.devRef .tc main_arg0))
    ∧ W31 V (Proc.devRef .tc main_v4) = val_main_v4 (F := F)
    ∧ W31 V (Proc.devRef .tc main_v6) = val_main_v6 (F := F) (V (Proc.devRef .tc main_arg0))
    ∧ W31 V (Proc.devRef .tc main_v8) = val_main_v8 (F := F) (V (Proc.devRef .tc main_arg0))
    ∧ W31 V (Proc.devRef .tc main_v9) = val_main_v9 (F := F) (V (Proc.devRef .tc main_arg0))
    ∧ W31 V (Proc.devRef .tc main_call5_v1) = val_main_call5_v1 (F := F) (V (Proc.devRef .tc main_arg0)) := by
  obtain ⟨h_main_arg0, h_main_v1, h_main_v4, h_main_v6, h_main_v8, h_main_v9, h_main_call5_v0⟩ := spec_30 V
  unfold W31
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v0]
  · unfold val_main_call5_v1
    rw [← h_main_v9, ← h_main_call5_v0]
    generalize W30 V = U
    (simp (disch := decide) only [nullary_result', unary_result', binary_result', ternary_result', reshape_result', nullary_result_ne', unary_result_ne', binary_result_ne', ternary_result_ne', reshape_result_ne']) <;> rfl

theorem spec_32 (V : Valuation τ sig (Elt F)) :
    W32 V (Proc.devRef .tc main_arg0) = (V (Proc.devRef .tc main_arg0))
    ∧ W32 V (Proc.devRef .tc main_v1) = val_main_v1 (F := F) (V (Proc.devRef .tc main_arg0))
    ∧ W32 V (Proc.devRef .tc main_v4) = val_main_v4 (F := F)
    ∧ W32 V (Proc.devRef .tc main_v6) = val_main_v6 (F := F) (V (Proc.devRef .tc main_arg0))
    ∧ W32 V (Proc.devRef .tc main_v8) = val_main_v8 (F := F) (V (Proc.devRef .tc main_arg0))
    ∧ W32 V (Proc.devRef .tc main_v9) = val_main_v9 (F := F) (V (Proc.devRef .tc main_arg0))
    ∧ W32 V (Proc.devRef .tc main_call5_v1) = val_main_call5_v1 (F := F) (V (Proc.devRef .tc main_arg0))
    ∧ W32 V (Proc.devRef .tc main_call5_c_0) = val_main_call5_c_0 (F := F) := by
  obtain ⟨h_main_arg0, h_main_v1, h_main_v4, h_main_v6, h_main_v8, h_main_v9, h_main_call5_v1⟩ := spec_31 V
  unfold W32
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1]
  · unfold val_main_call5_c_0
    generalize W31 V = U
    (simp (disch := decide) only [nullary_result', unary_result', binary_result', ternary_result', reshape_result', nullary_result_ne', unary_result_ne', binary_result_ne', ternary_result_ne', reshape_result_ne']) <;> rfl

theorem spec_33 (V : Valuation τ sig (Elt F)) :
    W33 V (Proc.devRef .tc main_arg0) = (V (Proc.devRef .tc main_arg0))
    ∧ W33 V (Proc.devRef .tc main_v1) = val_main_v1 (F := F) (V (Proc.devRef .tc main_arg0))
    ∧ W33 V (Proc.devRef .tc main_v4) = val_main_v4 (F := F)
    ∧ W33 V (Proc.devRef .tc main_v6) = val_main_v6 (F := F) (V (Proc.devRef .tc main_arg0))
    ∧ W33 V (Proc.devRef .tc main_v8) = val_main_v8 (F := F) (V (Proc.devRef .tc main_arg0))
    ∧ W33 V (Proc.devRef .tc main_v9) = val_main_v9 (F := F) (V (Proc.devRef .tc main_arg0))
    ∧ W33 V (Proc.devRef .tc main_call5_v1) = val_main_call5_v1 (F := F) (V (Proc.devRef .tc main_arg0))
    ∧ W33 V (Proc.devRef .tc main_call5_v2) = val_main_call5_v2 (F := F) := by
  obtain ⟨h_main_arg0, h_main_v1, h_main_v4, h_main_v6, h_main_v8, h_main_v9, h_main_call5_v1, h_main_call5_c_0⟩ := spec_32 V
  unfold W33
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_c_0]
  · unfold val_main_call5_v2
    rw [← h_main_call5_c_0]
    generalize W32 V = U
    (simp (disch := decide) only [nullary_result', unary_result', binary_result', ternary_result', reshape_result', nullary_result_ne', unary_result_ne', binary_result_ne', ternary_result_ne', reshape_result_ne']) <;> rfl

theorem spec_34 (V : Valuation τ sig (Elt F)) :
    W34 V (Proc.devRef .tc main_arg0) = (V (Proc.devRef .tc main_arg0))
    ∧ W34 V (Proc.devRef .tc main_v1) = val_main_v1 (F := F) (V (Proc.devRef .tc main_arg0))
    ∧ W34 V (Proc.devRef .tc main_v4) = val_main_v4 (F := F)
    ∧ W34 V (Proc.devRef .tc main_v6) = val_main_v6 (F := F) (V (Proc.devRef .tc main_arg0))
    ∧ W34 V (Proc.devRef .tc main_v8) = val_main_v8 (F := F) (V (Proc.devRef .tc main_arg0))
    ∧ W34 V (Proc.devRef .tc main_v9) = val_main_v9 (F := F) (V (Proc.devRef .tc main_arg0))
    ∧ W34 V (Proc.devRef .tc main_call5_v1) = val_main_call5_v1 (F := F) (V (Proc.devRef .tc main_arg0))
    ∧ W34 V (Proc.devRef .tc main_call5_v3) = val_main_call5_v3 (F := F) (V (Proc.devRef .tc main_arg0)) := by
  obtain ⟨h_main_arg0, h_main_v1, h_main_v4, h_main_v6, h_main_v8, h_main_v9, h_main_call5_v1, h_main_call5_v2⟩ := spec_33 V
  unfold W34
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v2]
  · unfold val_main_call5_v3
    rw [← h_main_v9, ← h_main_call5_v2]
    generalize W33 V = U
    (simp (disch := decide) only [nullary_result', unary_result', binary_result', ternary_result', reshape_result', nullary_result_ne', unary_result_ne', binary_result_ne', ternary_result_ne', reshape_result_ne']) <;> rfl

theorem spec_35 (V : Valuation τ sig (Elt F)) :
    W35 V (Proc.devRef .tc main_arg0) = (V (Proc.devRef .tc main_arg0))
    ∧ W35 V (Proc.devRef .tc main_v1) = val_main_v1 (F := F) (V (Proc.devRef .tc main_arg0))
    ∧ W35 V (Proc.devRef .tc main_v4) = val_main_v4 (F := F)
    ∧ W35 V (Proc.devRef .tc main_v6) = val_main_v6 (F := F) (V (Proc.devRef .tc main_arg0))
    ∧ W35 V (Proc.devRef .tc main_v8) = val_main_v8 (F := F) (V (Proc.devRef .tc main_arg0))
    ∧ W35 V (Proc.devRef .tc main_call5_v4) = val_main_call5_v4 (F := F) (V (Proc.devRef .tc main_arg0)) := by
  obtain ⟨h_main_arg0, h_main_v1, h_main_v4, h_main_v6, h_main_v8, h_main_v9, h_main_call5_v1, h_main_call5_v3⟩ := spec_34 V
  unfold W35
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v9, h_main_call5_v1, h_main_call5_v3]
  · unfold val_main_call5_v4
    rw [← h_main_call5_v1, ← h_main_call5_v3, ← h_main_v9]
    generalize W34 V = U
    (simp (disch := decide) only [nullary_result', unary_result', binary_result', ternary_result', reshape_result', nullary_result_ne', unary_result_ne', binary_result_ne', ternary_result_ne', reshape_result_ne']) <;> rfl

theorem spec_36 (V : Valuation τ sig (Elt F)) :
    W36 V (Proc.devRef .tc main_arg0) = (V (Proc.devRef .tc main_arg0))
    ∧ W36 V (Proc.devRef .tc main_v1) = val_main_v1 (F := F) (V (Proc.devRef .tc main_arg0))
    ∧ W36 V (Proc.devRef .tc main_v4) = val_main_v4 (F := F)
    ∧ W36 V (Proc.devRef .tc main_v6) = val_main_v6 (F := F) (V (Proc.devRef .tc main_arg0))
    ∧ W36 V (Proc.devRef .tc main_v8) = val_main_v8 (F := F) (V (Proc.devRef .tc main_arg0))
    ∧ W36 V (Proc.devRef .tc main_call5_v5) = val_main_call5_v5 (F := F) (V (Proc.devRef .tc main_arg0)) := by
  obtain ⟨h_main_arg0, h_main_v1, h_main_v4, h_main_v6, h_main_v8, h_main_call5_v4⟩ := spec_35 V
  unfold W36
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v4]
  · unfold val_main_call5_v5
    rw [← h_main_call5_v4]
    generalize W35 V = U
    (simp (disch := decide) only [nullary_result', unary_result', binary_result', ternary_result', reshape_result', nullary_result_ne', unary_result_ne', binary_result_ne', ternary_result_ne', reshape_result_ne']) <;> rfl

theorem spec_37 (V : Valuation τ sig (Elt F)) :
    W37 V (Proc.devRef .tc main_arg0) = (V (Proc.devRef .tc main_arg0))
    ∧ W37 V (Proc.devRef .tc main_v1) = val_main_v1 (F := F) (V (Proc.devRef .tc main_arg0))
    ∧ W37 V (Proc.devRef .tc main_v4) = val_main_v4 (F := F)
    ∧ W37 V (Proc.devRef .tc main_v6) = val_main_v6 (F := F) (V (Proc.devRef .tc main_arg0))
    ∧ W37 V (Proc.devRef .tc main_v8) = val_main_v8 (F := F) (V (Proc.devRef .tc main_arg0))
    ∧ W37 V (Proc.devRef .tc main_call5_v5) = val_main_call5_v5 (F := F) (V (Proc.devRef .tc main_arg0))
    ∧ W37 V (Proc.devRef .tc main_call5_c_1) = val_main_call5_c_1 (F := F) := by
  obtain ⟨h_main_arg0, h_main_v1, h_main_v4, h_main_v6, h_main_v8, h_main_call5_v5⟩ := spec_36 V
  unfold W37
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5]
  · unfold val_main_call5_c_1
    generalize W36 V = U
    (simp (disch := decide) only [nullary_result', unary_result', binary_result', ternary_result', reshape_result', nullary_result_ne', unary_result_ne', binary_result_ne', ternary_result_ne', reshape_result_ne']) <;> rfl

theorem spec_38 (V : Valuation τ sig (Elt F)) :
    W38 V (Proc.devRef .tc main_arg0) = (V (Proc.devRef .tc main_arg0))
    ∧ W38 V (Proc.devRef .tc main_v1) = val_main_v1 (F := F) (V (Proc.devRef .tc main_arg0))
    ∧ W38 V (Proc.devRef .tc main_v4) = val_main_v4 (F := F)
    ∧ W38 V (Proc.devRef .tc main_v6) = val_main_v6 (F := F) (V (Proc.devRef .tc main_arg0))
    ∧ W38 V (Proc.devRef .tc main_v8) = val_main_v8 (F := F) (V (Proc.devRef .tc main_arg0))
    ∧ W38 V (Proc.devRef .tc main_call5_v5) = val_main_call5_v5 (F := F) (V (Proc.devRef .tc main_arg0))
    ∧ W38 V (Proc.devRef .tc main_call5_c_1) = val_main_call5_c_1 (F := F)
    ∧ W38 V (Proc.devRef .tc main_call5_c_2) = val_main_call5_c_2 (F := F) := by
  obtain ⟨h_main_arg0, h_main_v1, h_main_v4, h_main_v6, h_main_v8, h_main_call5_v5, h_main_call5_c_1⟩ := spec_37 V
  unfold W38
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1]
  · unfold val_main_call5_c_2
    generalize W37 V = U
    (simp (disch := decide) only [nullary_result', unary_result', binary_result', ternary_result', reshape_result', nullary_result_ne', unary_result_ne', binary_result_ne', ternary_result_ne', reshape_result_ne']) <;> rfl

theorem spec_39 (V : Valuation τ sig (Elt F)) :
    W39 V (Proc.devRef .tc main_arg0) = (V (Proc.devRef .tc main_arg0))
    ∧ W39 V (Proc.devRef .tc main_v1) = val_main_v1 (F := F) (V (Proc.devRef .tc main_arg0))
    ∧ W39 V (Proc.devRef .tc main_v4) = val_main_v4 (F := F)
    ∧ W39 V (Proc.devRef .tc main_v6) = val_main_v6 (F := F) (V (Proc.devRef .tc main_arg0))
    ∧ W39 V (Proc.devRef .tc main_v8) = val_main_v8 (F := F) (V (Proc.devRef .tc main_arg0))
    ∧ W39 V (Proc.devRef .tc main_call5_v5) = val_main_call5_v5 (F := F) (V (Proc.devRef .tc main_arg0))
    ∧ W39 V (Proc.devRef .tc main_call5_c_1) = val_main_call5_c_1 (F := F)
    ∧ W39 V (Proc.devRef .tc main_call5_v6) = val_main_call5_v6 (F := F) := by
  obtain ⟨h_main_arg0, h_main_v1, h_main_v4, h_main_v6, h_main_v8, h_main_call5_v5, h_main_call5_c_1, h_main_call5_c_2⟩ := spec_38 V
  unfold W39
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_c_2]
  · unfold val_main_call5_v6
    rw [← h_main_call5_c_2]
    generalize W38 V = U
    (simp (disch := decide) only [nullary_result', unary_result', binary_result', ternary_result', reshape_result', nullary_result_ne', unary_result_ne', binary_result_ne', ternary_result_ne', reshape_result_ne']) <;> rfl

theorem spec_40 (V : Valuation τ sig (Elt F)) :
    W40 V (Proc.devRef .tc main_arg0) = (V (Proc.devRef .tc main_arg0))
    ∧ W40 V (Proc.devRef .tc main_v1) = val_main_v1 (F := F) (V (Proc.devRef .tc main_arg0))
    ∧ W40 V (Proc.devRef .tc main_v4) = val_main_v4 (F := F)
    ∧ W40 V (Proc.devRef .tc main_v6) = val_main_v6 (F := F) (V (Proc.devRef .tc main_arg0))
    ∧ W40 V (Proc.devRef .tc main_v8) = val_main_v8 (F := F) (V (Proc.devRef .tc main_arg0))
    ∧ W40 V (Proc.devRef .tc main_call5_v5) = val_main_call5_v5 (F := F) (V (Proc.devRef .tc main_arg0))
    ∧ W40 V (Proc.devRef .tc main_call5_c_1) = val_main_call5_c_1 (F := F)
    ∧ W40 V (Proc.devRef .tc main_call5_v7) = val_main_call5_v7 (F := F) (V (Proc.devRef .tc main_arg0)) := by
  obtain ⟨h_main_arg0, h_main_v1, h_main_v4, h_main_v6, h_main_v8, h_main_call5_v5, h_main_call5_c_1, h_main_call5_v6⟩ := spec_39 V
  unfold W40
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v6]
  · unfold val_main_call5_v7
    rw [← h_main_call5_v5, ← h_main_call5_v6]
    generalize W39 V = U
    (simp (disch := decide) only [nullary_result', unary_result', binary_result', ternary_result', reshape_result', nullary_result_ne', unary_result_ne', binary_result_ne', ternary_result_ne', reshape_result_ne']) <;> rfl

theorem spec_41 (V : Valuation τ sig (Elt F)) :
    W41 V (Proc.devRef .tc main_arg0) = (V (Proc.devRef .tc main_arg0))
    ∧ W41 V (Proc.devRef .tc main_v1) = val_main_v1 (F := F) (V (Proc.devRef .tc main_arg0))
    ∧ W41 V (Proc.devRef .tc main_v4) = val_main_v4 (F := F)
    ∧ W41 V (Proc.devRef .tc main_v6) = val_main_v6 (F := F) (V (Proc.devRef .tc main_arg0))
    ∧ W41 V (Proc.devRef .tc main_v8) = val_main_v8 (F := F) (V (Proc.devRef .tc main_arg0))
    ∧ W41 V (Proc.devRef .tc main_call5_v5) = val_main_call5_v5 (F := F) (V (Proc.devRef .tc main_arg0))
    ∧ W41 V (Proc.devRef .tc main_call5_v7) = val_main_call5_v7 (F := F) (V (Proc.devRef .tc main_arg0))
    ∧ W41 V (Proc.devRef .tc main_call5_v8) = val_main_call5_v8 (F := F) := by
  obtain ⟨h_main_arg0, h_main_v1, h_main_v4, h_main_v6, h_main_v8, h_main_call5_v5, h_main_call5_c_1, h_main_call5_v7⟩ := spec_40 V
  unfold W41
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_c_1, h_main_call5_v7]
  · unfold val_main_call5_v8
    rw [← h_main_call5_c_1]
    generalize W40 V = U
    (simp (disch := decide) only [nullary_result', unary_result', binary_result', ternary_result', reshape_result', nullary_result_ne', unary_result_ne', binary_result_ne', ternary_result_ne', reshape_result_ne']) <;> rfl

theorem spec_42 (V : Valuation τ sig (Elt F)) :
    W42 V (Proc.devRef .tc main_arg0) = (V (Proc.devRef .tc main_arg0))
    ∧ W42 V (Proc.devRef .tc main_v1) = val_main_v1 (F := F) (V (Proc.devRef .tc main_arg0))
    ∧ W42 V (Proc.devRef .tc main_v4) = val_main_v4 (F := F)
    ∧ W42 V (Proc.devRef .tc main_v6) = val_main_v6 (F := F) (V (Proc.devRef .tc main_arg0))
    ∧ W42 V (Proc.devRef .tc main_v8) = val_main_v8 (F := F) (V (Proc.devRef .tc main_arg0))
    ∧ W42 V (Proc.devRef .tc main_call5_v5) = val_main_call5_v5 (F := F) (V (Proc.devRef .tc main_arg0))
    ∧ W42 V (Proc.devRef .tc main_call5_v7) = val_main_call5_v7 (F := F) (V (Proc.devRef .tc main_arg0))
    ∧ W42 V (Proc.devRef .tc main_call5_v9) = val_main_call5_v9 (F := F) := by
  obtain ⟨h_main_arg0, h_main_v1, h_main_v4, h_main_v6, h_main_v8, h_main_call5_v5, h_main_call5_v7, h_main_call5_v8⟩ := spec_41 V
  unfold W42
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v8]
  · unfold val_main_call5_v9
    rw [← h_main_call5_v8]
    generalize W41 V = U
    (simp (disch := decide) only [nullary_result', unary_result', binary_result', ternary_result', reshape_result', nullary_result_ne', unary_result_ne', binary_result_ne', ternary_result_ne', reshape_result_ne']) <;> rfl

theorem spec_43 (V : Valuation τ sig (Elt F)) :
    W43 V (Proc.devRef .tc main_arg0) = (V (Proc.devRef .tc main_arg0))
    ∧ W43 V (Proc.devRef .tc main_v1) = val_main_v1 (F := F) (V (Proc.devRef .tc main_arg0))
    ∧ W43 V (Proc.devRef .tc main_v4) = val_main_v4 (F := F)
    ∧ W43 V (Proc.devRef .tc main_v6) = val_main_v6 (F := F) (V (Proc.devRef .tc main_arg0))
    ∧ W43 V (Proc.devRef .tc main_v8) = val_main_v8 (F := F) (V (Proc.devRef .tc main_arg0))
    ∧ W43 V (Proc.devRef .tc main_call5_v5) = val_main_call5_v5 (F := F) (V (Proc.devRef .tc main_arg0))
    ∧ W43 V (Proc.devRef .tc main_call5_v7) = val_main_call5_v7 (F := F) (V (Proc.devRef .tc main_arg0))
    ∧ W43 V (Proc.devRef .tc main_call5_v10) = val_main_call5_v10 (F := F) (V (Proc.devRef .tc main_arg0)) := by
  obtain ⟨h_main_arg0, h_main_v1, h_main_v4, h_main_v6, h_main_v8, h_main_call5_v5, h_main_call5_v7, h_main_call5_v9⟩ := spec_42 V
  unfold W43
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v9]
  · unfold val_main_call5_v10
    rw [← h_main_call5_v5, ← h_main_call5_v9]
    generalize W42 V = U
    (simp (disch := decide) only [nullary_result', unary_result', binary_result', ternary_result', reshape_result', nullary_result_ne', unary_result_ne', binary_result_ne', ternary_result_ne', reshape_result_ne']) <;> rfl

theorem spec_44 (V : Valuation τ sig (Elt F)) :
    W44 V (Proc.devRef .tc main_arg0) = (V (Proc.devRef .tc main_arg0))
    ∧ W44 V (Proc.devRef .tc main_v1) = val_main_v1 (F := F) (V (Proc.devRef .tc main_arg0))
    ∧ W44 V (Proc.devRef .tc main_v4) = val_main_v4 (F := F)
    ∧ W44 V (Proc.devRef .tc main_v6) = val_main_v6 (F := F) (V (Proc.devRef .tc main_arg0))
    ∧ W44 V (Proc.devRef .tc main_v8) = val_main_v8 (F := F) (V (Proc.devRef .tc main_arg0))
    ∧ W44 V (Proc.devRef .tc main_call5_v5) = val_main_call5_v5 (F := F) (V (Proc.devRef .tc main_arg0))
    ∧ W44 V (Proc.devRef .tc main_call5_v11) = val_main_call5_v11 (F := F) (V (Proc.devRef .tc main_arg0)) := by
  obtain ⟨h_main_arg0, h_main_v1, h_main_v4, h_main_v6, h_main_v8, h_main_call5_v5, h_main_call5_v7, h_main_call5_v10⟩ := spec_43 V
  unfold W44
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v7, h_main_call5_v10]
  · unfold val_main_call5_v11
    rw [← h_main_call5_v7, ← h_main_call5_v10]
    generalize W43 V = U
    (simp (disch := decide) only [nullary_result', unary_result', binary_result', ternary_result', reshape_result', nullary_result_ne', unary_result_ne', binary_result_ne', ternary_result_ne', reshape_result_ne']) <;> rfl

theorem spec_45 (V : Valuation τ sig (Elt F)) :
    W45 V (Proc.devRef .tc main_arg0) = (V (Proc.devRef .tc main_arg0))
    ∧ W45 V (Proc.devRef .tc main_v1) = val_main_v1 (F := F) (V (Proc.devRef .tc main_arg0))
    ∧ W45 V (Proc.devRef .tc main_v4) = val_main_v4 (F := F)
    ∧ W45 V (Proc.devRef .tc main_v6) = val_main_v6 (F := F) (V (Proc.devRef .tc main_arg0))
    ∧ W45 V (Proc.devRef .tc main_v8) = val_main_v8 (F := F) (V (Proc.devRef .tc main_arg0))
    ∧ W45 V (Proc.devRef .tc main_call5_v5) = val_main_call5_v5 (F := F) (V (Proc.devRef .tc main_arg0))
    ∧ W45 V (Proc.devRef .tc main_call5_v11) = val_main_call5_v11 (F := F) (V (Proc.devRef .tc main_arg0))
    ∧ W45 V (Proc.devRef .tc main_call5_c_3) = val_main_call5_c_3 (F := F) := by
  obtain ⟨h_main_arg0, h_main_v1, h_main_v4, h_main_v6, h_main_v8, h_main_call5_v5, h_main_call5_v11⟩ := spec_44 V
  unfold W45
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11]
  · unfold val_main_call5_c_3
    generalize W44 V = U
    (simp (disch := decide) only [nullary_result', unary_result', binary_result', ternary_result', reshape_result', nullary_result_ne', unary_result_ne', binary_result_ne', ternary_result_ne', reshape_result_ne']) <;> rfl

theorem spec_46 (V : Valuation τ sig (Elt F)) :
    W46 V (Proc.devRef .tc main_arg0) = (V (Proc.devRef .tc main_arg0))
    ∧ W46 V (Proc.devRef .tc main_v1) = val_main_v1 (F := F) (V (Proc.devRef .tc main_arg0))
    ∧ W46 V (Proc.devRef .tc main_v4) = val_main_v4 (F := F)
    ∧ W46 V (Proc.devRef .tc main_v6) = val_main_v6 (F := F) (V (Proc.devRef .tc main_arg0))
    ∧ W46 V (Proc.devRef .tc main_v8) = val_main_v8 (F := F) (V (Proc.devRef .tc main_arg0))
    ∧ W46 V (Proc.devRef .tc main_call5_v5) = val_main_call5_v5 (F := F) (V (Proc.devRef .tc main_arg0))
    ∧ W46 V (Proc.devRef .tc main_call5_v12) = val_main_call5_v12 (F := F) (V (Proc.devRef .tc main_arg0)) := by
  obtain ⟨h_main_arg0, h_main_v1, h_main_v4, h_main_v6, h_main_v8, h_main_call5_v5, h_main_call5_v11, h_main_call5_c_3⟩ := spec_45 V
  unfold W46
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11, h_main_call5_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11, h_main_call5_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11, h_main_call5_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11, h_main_call5_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11, h_main_call5_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v11, h_main_call5_c_3]
  · unfold val_main_call5_v12
    rw [← h_main_call5_v11, ← h_main_call5_c_3]
    generalize W45 V = U
    (simp (disch := decide) only [nullary_result', unary_result', binary_result', ternary_result', reshape_result', nullary_result_ne', unary_result_ne', binary_result_ne', ternary_result_ne', reshape_result_ne']) <;> rfl

theorem spec_47 (V : Valuation τ sig (Elt F)) :
    W47 V (Proc.devRef .tc main_arg0) = (V (Proc.devRef .tc main_arg0))
    ∧ W47 V (Proc.devRef .tc main_v1) = val_main_v1 (F := F) (V (Proc.devRef .tc main_arg0))
    ∧ W47 V (Proc.devRef .tc main_v4) = val_main_v4 (F := F)
    ∧ W47 V (Proc.devRef .tc main_v6) = val_main_v6 (F := F) (V (Proc.devRef .tc main_arg0))
    ∧ W47 V (Proc.devRef .tc main_v8) = val_main_v8 (F := F) (V (Proc.devRef .tc main_arg0))
    ∧ W47 V (Proc.devRef .tc main_call5_v12) = val_main_call5_v12 (F := F) (V (Proc.devRef .tc main_arg0))
    ∧ W47 V (Proc.devRef .tc main_call5_v13) = val_main_call5_v13 (F := F) (V (Proc.devRef .tc main_arg0)) := by
  obtain ⟨h_main_arg0, h_main_v1, h_main_v4, h_main_v6, h_main_v8, h_main_call5_v5, h_main_call5_v12⟩ := spec_46 V
  unfold W47
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v5, h_main_call5_v12]
  · unfold val_main_call5_v13
    rw [← h_main_call5_v5, ← h_main_arg0]
    generalize W46 V = U
    (simp (disch := decide) only [nullary_result', unary_result', binary_result', ternary_result', reshape_result', nullary_result_ne', unary_result_ne', binary_result_ne', ternary_result_ne', reshape_result_ne']) <;> rfl

theorem spec_48 (V : Valuation τ sig (Elt F)) :
    W48 V (Proc.devRef .tc main_arg0) = (V (Proc.devRef .tc main_arg0))
    ∧ W48 V (Proc.devRef .tc main_v1) = val_main_v1 (F := F) (V (Proc.devRef .tc main_arg0))
    ∧ W48 V (Proc.devRef .tc main_v4) = val_main_v4 (F := F)
    ∧ W48 V (Proc.devRef .tc main_v6) = val_main_v6 (F := F) (V (Proc.devRef .tc main_arg0))
    ∧ W48 V (Proc.devRef .tc main_v8) = val_main_v8 (F := F) (V (Proc.devRef .tc main_arg0))
    ∧ W48 V (Proc.devRef .tc main_call5_v12) = val_main_call5_v12 (F := F) (V (Proc.devRef .tc main_arg0))
    ∧ W48 V (Proc.devRef .tc main_call5_v13) = val_main_call5_v13 (F := F) (V (Proc.devRef .tc main_arg0))
    ∧ W48 V (Proc.devRef .tc main_call5_cst) = val_main_call5_cst (F := F) := by
  obtain ⟨h_main_arg0, h_main_v1, h_main_v4, h_main_v6, h_main_v8, h_main_call5_v12, h_main_call5_v13⟩ := spec_47 V
  unfold W48
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13]
  · unfold val_main_call5_cst
    generalize W47 V = U
    (simp (disch := decide) only [nullary_result', unary_result', binary_result', ternary_result', reshape_result', nullary_result_ne', unary_result_ne', binary_result_ne', ternary_result_ne', reshape_result_ne']) <;> rfl

theorem spec_49 (V : Valuation τ sig (Elt F)) :
    W49 V (Proc.devRef .tc main_arg0) = (V (Proc.devRef .tc main_arg0))
    ∧ W49 V (Proc.devRef .tc main_v1) = val_main_v1 (F := F) (V (Proc.devRef .tc main_arg0))
    ∧ W49 V (Proc.devRef .tc main_v4) = val_main_v4 (F := F)
    ∧ W49 V (Proc.devRef .tc main_v6) = val_main_v6 (F := F) (V (Proc.devRef .tc main_arg0))
    ∧ W49 V (Proc.devRef .tc main_v8) = val_main_v8 (F := F) (V (Proc.devRef .tc main_arg0))
    ∧ W49 V (Proc.devRef .tc main_call5_v12) = val_main_call5_v12 (F := F) (V (Proc.devRef .tc main_arg0))
    ∧ W49 V (Proc.devRef .tc main_call5_v13) = val_main_call5_v13 (F := F) (V (Proc.devRef .tc main_arg0))
    ∧ W49 V (Proc.devRef .tc main_call5_v14) = val_main_call5_v14 (F := F) := by
  obtain ⟨h_main_arg0, h_main_v1, h_main_v4, h_main_v6, h_main_v8, h_main_call5_v12, h_main_call5_v13, h_main_call5_cst⟩ := spec_48 V
  unfold W49
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_cst]
  · unfold val_main_call5_v14
    rw [← h_main_call5_cst]
    generalize W48 V = U
    (simp (disch := decide) only [nullary_result', unary_result', binary_result', ternary_result', reshape_result', nullary_result_ne', unary_result_ne', binary_result_ne', ternary_result_ne', reshape_result_ne']) <;> rfl

theorem spec_50 (V : Valuation τ sig (Elt F)) :
    W50 V (Proc.devRef .tc main_arg0) = (V (Proc.devRef .tc main_arg0))
    ∧ W50 V (Proc.devRef .tc main_v1) = val_main_v1 (F := F) (V (Proc.devRef .tc main_arg0))
    ∧ W50 V (Proc.devRef .tc main_v4) = val_main_v4 (F := F)
    ∧ W50 V (Proc.devRef .tc main_v6) = val_main_v6 (F := F) (V (Proc.devRef .tc main_arg0))
    ∧ W50 V (Proc.devRef .tc main_v8) = val_main_v8 (F := F) (V (Proc.devRef .tc main_arg0))
    ∧ W50 V (Proc.devRef .tc main_v10) = val_main_v10 (F := F) (V (Proc.devRef .tc main_arg0)) := by
  obtain ⟨h_main_arg0, h_main_v1, h_main_v4, h_main_v6, h_main_v8, h_main_call5_v12, h_main_call5_v13, h_main_call5_v14⟩ := spec_49 V
  unfold W50
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_call5_v12, h_main_call5_v13, h_main_call5_v14]
  · unfold val_main_v10
    rw [← h_main_call5_v12, ← h_main_call5_v13, ← h_main_call5_v14]
    generalize W49 V = U
    (simp (disch := decide) only [nullary_result', unary_result', binary_result', ternary_result', reshape_result', nullary_result_ne', unary_result_ne', binary_result_ne', ternary_result_ne', reshape_result_ne']) <;> rfl

theorem spec_51 (V : Valuation τ sig (Elt F)) :
    W51 V (Proc.devRef .tc main_arg0) = (V (Proc.devRef .tc main_arg0))
    ∧ W51 V (Proc.devRef .tc main_v1) = val_main_v1 (F := F) (V (Proc.devRef .tc main_arg0))
    ∧ W51 V (Proc.devRef .tc main_v4) = val_main_v4 (F := F)
    ∧ W51 V (Proc.devRef .tc main_v6) = val_main_v6 (F := F) (V (Proc.devRef .tc main_arg0))
    ∧ W51 V (Proc.devRef .tc main_v8) = val_main_v8 (F := F) (V (Proc.devRef .tc main_arg0))
    ∧ W51 V (Proc.devRef .tc main_v10) = val_main_v10 (F := F) (V (Proc.devRef .tc main_arg0))
    ∧ W51 V (Proc.devRef .tc main_c_3) = val_main_c_3 (F := F) := by
  obtain ⟨h_main_arg0, h_main_v1, h_main_v4, h_main_v6, h_main_v8, h_main_v10⟩ := spec_50 V
  unfold W51
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10]
  · unfold val_main_c_3
    generalize W50 V = U
    (simp (disch := decide) only [nullary_result', unary_result', binary_result', ternary_result', reshape_result', nullary_result_ne', unary_result_ne', binary_result_ne', ternary_result_ne', reshape_result_ne']) <;> rfl

theorem spec_52 (V : Valuation τ sig (Elt F)) :
    W52 V (Proc.devRef .tc main_arg0) = (V (Proc.devRef .tc main_arg0))
    ∧ W52 V (Proc.devRef .tc main_v1) = val_main_v1 (F := F) (V (Proc.devRef .tc main_arg0))
    ∧ W52 V (Proc.devRef .tc main_v4) = val_main_v4 (F := F)
    ∧ W52 V (Proc.devRef .tc main_v6) = val_main_v6 (F := F) (V (Proc.devRef .tc main_arg0))
    ∧ W52 V (Proc.devRef .tc main_v8) = val_main_v8 (F := F) (V (Proc.devRef .tc main_arg0))
    ∧ W52 V (Proc.devRef .tc main_v10) = val_main_v10 (F := F) (V (Proc.devRef .tc main_arg0))
    ∧ W52 V (Proc.devRef .tc main_c_3) = val_main_c_3 (F := F)
    ∧ W52 V (Proc.devRef .tc main_c_4) = val_main_c_4 (F := F) := by
  obtain ⟨h_main_arg0, h_main_v1, h_main_v4, h_main_v6, h_main_v8, h_main_v10, h_main_c_3⟩ := spec_51 V
  unfold W52
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3]
  · unfold val_main_c_4
    generalize W51 V = U
    (simp (disch := decide) only [nullary_result', unary_result', binary_result', ternary_result', reshape_result', nullary_result_ne', unary_result_ne', binary_result_ne', ternary_result_ne', reshape_result_ne']) <;> rfl

theorem spec_53 (V : Valuation τ sig (Elt F)) :
    W53 V (Proc.devRef .tc main_arg0) = (V (Proc.devRef .tc main_arg0))
    ∧ W53 V (Proc.devRef .tc main_v1) = val_main_v1 (F := F) (V (Proc.devRef .tc main_arg0))
    ∧ W53 V (Proc.devRef .tc main_v4) = val_main_v4 (F := F)
    ∧ W53 V (Proc.devRef .tc main_v6) = val_main_v6 (F := F) (V (Proc.devRef .tc main_arg0))
    ∧ W53 V (Proc.devRef .tc main_v8) = val_main_v8 (F := F) (V (Proc.devRef .tc main_arg0))
    ∧ W53 V (Proc.devRef .tc main_v10) = val_main_v10 (F := F) (V (Proc.devRef .tc main_arg0))
    ∧ W53 V (Proc.devRef .tc main_c_4) = val_main_c_4 (F := F)
    ∧ W53 V (Proc.devRef .tc main_call6_v0) = val_main_call6_v0 (F := F) := by
  obtain ⟨h_main_arg0, h_main_v1, h_main_v4, h_main_v6, h_main_v8, h_main_v10, h_main_c_3, h_main_c_4⟩ := spec_52 V
  unfold W53
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3, h_main_c_4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3, h_main_c_4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3, h_main_c_4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3, h_main_c_4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3, h_main_c_4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3, h_main_c_4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_3, h_main_c_4]
  · unfold val_main_call6_v0
    rw [← h_main_c_3]
    generalize W52 V = U
    (simp (disch := decide) only [nullary_result', unary_result', binary_result', ternary_result', reshape_result', nullary_result_ne', unary_result_ne', binary_result_ne', ternary_result_ne', reshape_result_ne']) <;> rfl

theorem spec_54 (V : Valuation τ sig (Elt F)) :
    W54 V (Proc.devRef .tc main_arg0) = (V (Proc.devRef .tc main_arg0))
    ∧ W54 V (Proc.devRef .tc main_v1) = val_main_v1 (F := F) (V (Proc.devRef .tc main_arg0))
    ∧ W54 V (Proc.devRef .tc main_v4) = val_main_v4 (F := F)
    ∧ W54 V (Proc.devRef .tc main_v6) = val_main_v6 (F := F) (V (Proc.devRef .tc main_arg0))
    ∧ W54 V (Proc.devRef .tc main_v8) = val_main_v8 (F := F) (V (Proc.devRef .tc main_arg0))
    ∧ W54 V (Proc.devRef .tc main_v10) = val_main_v10 (F := F) (V (Proc.devRef .tc main_arg0))
    ∧ W54 V (Proc.devRef .tc main_c_4) = val_main_c_4 (F := F)
    ∧ W54 V (Proc.devRef .tc main_call6_v1) = val_main_call6_v1 (F := F) := by
  obtain ⟨h_main_arg0, h_main_v1, h_main_v4, h_main_v6, h_main_v8, h_main_v10, h_main_c_4, h_main_call6_v0⟩ := spec_53 V
  unfold W54
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v0]
  · unfold val_main_call6_v1
    rw [← h_main_call6_v0]
    generalize W53 V = U
    (simp (disch := decide) only [nullary_result', unary_result', binary_result', ternary_result', reshape_result', nullary_result_ne', unary_result_ne', binary_result_ne', ternary_result_ne', reshape_result_ne']) <;> rfl

theorem spec_55 (V : Valuation τ sig (Elt F)) :
    W55 V (Proc.devRef .tc main_arg0) = (V (Proc.devRef .tc main_arg0))
    ∧ W55 V (Proc.devRef .tc main_v1) = val_main_v1 (F := F) (V (Proc.devRef .tc main_arg0))
    ∧ W55 V (Proc.devRef .tc main_v4) = val_main_v4 (F := F)
    ∧ W55 V (Proc.devRef .tc main_v6) = val_main_v6 (F := F) (V (Proc.devRef .tc main_arg0))
    ∧ W55 V (Proc.devRef .tc main_v8) = val_main_v8 (F := F) (V (Proc.devRef .tc main_arg0))
    ∧ W55 V (Proc.devRef .tc main_v10) = val_main_v10 (F := F) (V (Proc.devRef .tc main_arg0))
    ∧ W55 V (Proc.devRef .tc main_c_4) = val_main_c_4 (F := F)
    ∧ W55 V (Proc.devRef .tc main_call6_v2) = val_main_call6_v2 (F := F) (V (Proc.devRef .tc main_arg0)) := by
  obtain ⟨h_main_arg0, h_main_v1, h_main_v4, h_main_v6, h_main_v8, h_main_v10, h_main_c_4, h_main_call6_v1⟩ := spec_54 V
  unfold W55
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v1]
  · unfold val_main_call6_v2
    rw [← h_main_call6_v1, ← h_main_v8]
    generalize W54 V = U
    (simp (disch := decide) only [nullary_result', unary_result', binary_result', ternary_result', reshape_result', nullary_result_ne', unary_result_ne', binary_result_ne', ternary_result_ne', reshape_result_ne']) <;> rfl

theorem spec_56 (V : Valuation τ sig (Elt F)) :
    W56 V (Proc.devRef .tc main_arg0) = (V (Proc.devRef .tc main_arg0))
    ∧ W56 V (Proc.devRef .tc main_v1) = val_main_v1 (F := F) (V (Proc.devRef .tc main_arg0))
    ∧ W56 V (Proc.devRef .tc main_v4) = val_main_v4 (F := F)
    ∧ W56 V (Proc.devRef .tc main_v6) = val_main_v6 (F := F) (V (Proc.devRef .tc main_arg0))
    ∧ W56 V (Proc.devRef .tc main_v8) = val_main_v8 (F := F) (V (Proc.devRef .tc main_arg0))
    ∧ W56 V (Proc.devRef .tc main_v10) = val_main_v10 (F := F) (V (Proc.devRef .tc main_arg0))
    ∧ W56 V (Proc.devRef .tc main_call6_v2) = val_main_call6_v2 (F := F) (V (Proc.devRef .tc main_arg0))
    ∧ W56 V (Proc.devRef .tc main_call6_v3) = val_main_call6_v3 (F := F) := by
  obtain ⟨h_main_arg0, h_main_v1, h_main_v4, h_main_v6, h_main_v8, h_main_v10, h_main_c_4, h_main_call6_v2⟩ := spec_55 V
  unfold W56
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_c_4, h_main_call6_v2]
  · unfold val_main_call6_v3
    rw [← h_main_c_4]
    generalize W55 V = U
    (simp (disch := decide) only [nullary_result', unary_result', binary_result', ternary_result', reshape_result', nullary_result_ne', unary_result_ne', binary_result_ne', ternary_result_ne', reshape_result_ne']) <;> rfl

theorem spec_57 (V : Valuation τ sig (Elt F)) :
    W57 V (Proc.devRef .tc main_arg0) = (V (Proc.devRef .tc main_arg0))
    ∧ W57 V (Proc.devRef .tc main_v1) = val_main_v1 (F := F) (V (Proc.devRef .tc main_arg0))
    ∧ W57 V (Proc.devRef .tc main_v4) = val_main_v4 (F := F)
    ∧ W57 V (Proc.devRef .tc main_v6) = val_main_v6 (F := F) (V (Proc.devRef .tc main_arg0))
    ∧ W57 V (Proc.devRef .tc main_v8) = val_main_v8 (F := F) (V (Proc.devRef .tc main_arg0))
    ∧ W57 V (Proc.devRef .tc main_v10) = val_main_v10 (F := F) (V (Proc.devRef .tc main_arg0))
    ∧ W57 V (Proc.devRef .tc main_call6_v2) = val_main_call6_v2 (F := F) (V (Proc.devRef .tc main_arg0))
    ∧ W57 V (Proc.devRef .tc main_call6_v4) = val_main_call6_v4 (F := F) := by
  obtain ⟨h_main_arg0, h_main_v1, h_main_v4, h_main_v6, h_main_v8, h_main_v10, h_main_call6_v2, h_main_call6_v3⟩ := spec_56 V
  unfold W57
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v3]
  · unfold val_main_call6_v4
    rw [← h_main_call6_v3]
    generalize W56 V = U
    (simp (disch := decide) only [nullary_result', unary_result', binary_result', ternary_result', reshape_result', nullary_result_ne', unary_result_ne', binary_result_ne', ternary_result_ne', reshape_result_ne']) <;> rfl

theorem spec_58 (V : Valuation τ sig (Elt F)) :
    W58 V (Proc.devRef .tc main_arg0) = (V (Proc.devRef .tc main_arg0))
    ∧ W58 V (Proc.devRef .tc main_v1) = val_main_v1 (F := F) (V (Proc.devRef .tc main_arg0))
    ∧ W58 V (Proc.devRef .tc main_v4) = val_main_v4 (F := F)
    ∧ W58 V (Proc.devRef .tc main_v6) = val_main_v6 (F := F) (V (Proc.devRef .tc main_arg0))
    ∧ W58 V (Proc.devRef .tc main_v8) = val_main_v8 (F := F) (V (Proc.devRef .tc main_arg0))
    ∧ W58 V (Proc.devRef .tc main_v10) = val_main_v10 (F := F) (V (Proc.devRef .tc main_arg0))
    ∧ W58 V (Proc.devRef .tc main_v11) = val_main_v11 (F := F) (V (Proc.devRef .tc main_arg0)) := by
  obtain ⟨h_main_arg0, h_main_v1, h_main_v4, h_main_v6, h_main_v8, h_main_v10, h_main_call6_v2, h_main_call6_v4⟩ := spec_57 V
  unfold W58
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call6_v2, h_main_call6_v4]
  · unfold val_main_v11
    rw [← h_main_call6_v4, ← h_main_call6_v2]
    generalize W57 V = U
    (simp (disch := decide) only [nullary_result', unary_result', binary_result', ternary_result', reshape_result', nullary_result_ne', unary_result_ne', binary_result_ne', ternary_result_ne', reshape_result_ne']) <;> rfl

theorem spec_59 (V : Valuation τ sig (Elt F)) :
    W59 V (Proc.devRef .tc main_arg0) = (V (Proc.devRef .tc main_arg0))
    ∧ W59 V (Proc.devRef .tc main_v1) = val_main_v1 (F := F) (V (Proc.devRef .tc main_arg0))
    ∧ W59 V (Proc.devRef .tc main_v4) = val_main_v4 (F := F)
    ∧ W59 V (Proc.devRef .tc main_v6) = val_main_v6 (F := F) (V (Proc.devRef .tc main_arg0))
    ∧ W59 V (Proc.devRef .tc main_v8) = val_main_v8 (F := F) (V (Proc.devRef .tc main_arg0))
    ∧ W59 V (Proc.devRef .tc main_v10) = val_main_v10 (F := F) (V (Proc.devRef .tc main_arg0))
    ∧ W59 V (Proc.devRef .tc main_v11) = val_main_v11 (F := F) (V (Proc.devRef .tc main_arg0))
    ∧ W59 V (Proc.devRef .tc main_call7_c) = val_main_call7_c (F := F) := by
  obtain ⟨h_main_arg0, h_main_v1, h_main_v4, h_main_v6, h_main_v8, h_main_v10, h_main_v11⟩ := spec_58 V
  unfold W59
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11]
  · unfold val_main_call7_c
    generalize W58 V = U
    (simp (disch := decide) only [nullary_result', unary_result', binary_result', ternary_result', reshape_result', nullary_result_ne', unary_result_ne', binary_result_ne', ternary_result_ne', reshape_result_ne']) <;> rfl

theorem spec_60 (V : Valuation τ sig (Elt F)) :
    W60 V (Proc.devRef .tc main_arg0) = (V (Proc.devRef .tc main_arg0))
    ∧ W60 V (Proc.devRef .tc main_v1) = val_main_v1 (F := F) (V (Proc.devRef .tc main_arg0))
    ∧ W60 V (Proc.devRef .tc main_v4) = val_main_v4 (F := F)
    ∧ W60 V (Proc.devRef .tc main_v6) = val_main_v6 (F := F) (V (Proc.devRef .tc main_arg0))
    ∧ W60 V (Proc.devRef .tc main_v8) = val_main_v8 (F := F) (V (Proc.devRef .tc main_arg0))
    ∧ W60 V (Proc.devRef .tc main_v10) = val_main_v10 (F := F) (V (Proc.devRef .tc main_arg0))
    ∧ W60 V (Proc.devRef .tc main_v11) = val_main_v11 (F := F) (V (Proc.devRef .tc main_arg0))
    ∧ W60 V (Proc.devRef .tc main_call7_v0) = val_main_call7_v0 (F := F) := by
  obtain ⟨h_main_arg0, h_main_v1, h_main_v4, h_main_v6, h_main_v8, h_main_v10, h_main_v11, h_main_call7_c⟩ := spec_59 V
  unfold W60
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_c]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_c]
  · unfold val_main_call7_v0
    rw [← h_main_call7_c]
    generalize W59 V = U
    (simp (disch := decide) only [nullary_result', unary_result', binary_result', ternary_result', reshape_result', nullary_result_ne', unary_result_ne', binary_result_ne', ternary_result_ne', reshape_result_ne']) <;> rfl

theorem spec_61 (V : Valuation τ sig (Elt F)) :
    W61 V (Proc.devRef .tc main_arg0) = (V (Proc.devRef .tc main_arg0))
    ∧ W61 V (Proc.devRef .tc main_v1) = val_main_v1 (F := F) (V (Proc.devRef .tc main_arg0))
    ∧ W61 V (Proc.devRef .tc main_v4) = val_main_v4 (F := F)
    ∧ W61 V (Proc.devRef .tc main_v6) = val_main_v6 (F := F) (V (Proc.devRef .tc main_arg0))
    ∧ W61 V (Proc.devRef .tc main_v8) = val_main_v8 (F := F) (V (Proc.devRef .tc main_arg0))
    ∧ W61 V (Proc.devRef .tc main_v10) = val_main_v10 (F := F) (V (Proc.devRef .tc main_arg0))
    ∧ W61 V (Proc.devRef .tc main_v11) = val_main_v11 (F := F) (V (Proc.devRef .tc main_arg0))
    ∧ W61 V (Proc.devRef .tc main_call7_v1) = val_main_call7_v1 (F := F) (V (Proc.devRef .tc main_arg0)) := by
  obtain ⟨h_main_arg0, h_main_v1, h_main_v4, h_main_v6, h_main_v8, h_main_v10, h_main_v11, h_main_call7_v0⟩ := spec_60 V
  unfold W61
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v0]
  · unfold val_main_call7_v1
    rw [← h_main_v11, ← h_main_call7_v0]
    generalize W60 V = U
    (simp (disch := decide) only [nullary_result', unary_result', binary_result', ternary_result', reshape_result', nullary_result_ne', unary_result_ne', binary_result_ne', ternary_result_ne', reshape_result_ne']) <;> rfl

theorem spec_62 (V : Valuation τ sig (Elt F)) :
    W62 V (Proc.devRef .tc main_arg0) = (V (Proc.devRef .tc main_arg0))
    ∧ W62 V (Proc.devRef .tc main_v1) = val_main_v1 (F := F) (V (Proc.devRef .tc main_arg0))
    ∧ W62 V (Proc.devRef .tc main_v4) = val_main_v4 (F := F)
    ∧ W62 V (Proc.devRef .tc main_v6) = val_main_v6 (F := F) (V (Proc.devRef .tc main_arg0))
    ∧ W62 V (Proc.devRef .tc main_v8) = val_main_v8 (F := F) (V (Proc.devRef .tc main_arg0))
    ∧ W62 V (Proc.devRef .tc main_v10) = val_main_v10 (F := F) (V (Proc.devRef .tc main_arg0))
    ∧ W62 V (Proc.devRef .tc main_v11) = val_main_v11 (F := F) (V (Proc.devRef .tc main_arg0))
    ∧ W62 V (Proc.devRef .tc main_call7_v1) = val_main_call7_v1 (F := F) (V (Proc.devRef .tc main_arg0))
    ∧ W62 V (Proc.devRef .tc main_call7_c_0) = val_main_call7_c_0 (F := F) := by
  obtain ⟨h_main_arg0, h_main_v1, h_main_v4, h_main_v6, h_main_v8, h_main_v10, h_main_v11, h_main_call7_v1⟩ := spec_61 V
  unfold W62
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1]
  · unfold val_main_call7_c_0
    generalize W61 V = U
    (simp (disch := decide) only [nullary_result', unary_result', binary_result', ternary_result', reshape_result', nullary_result_ne', unary_result_ne', binary_result_ne', ternary_result_ne', reshape_result_ne']) <;> rfl

theorem spec_63 (V : Valuation τ sig (Elt F)) :
    W63 V (Proc.devRef .tc main_arg0) = (V (Proc.devRef .tc main_arg0))
    ∧ W63 V (Proc.devRef .tc main_v1) = val_main_v1 (F := F) (V (Proc.devRef .tc main_arg0))
    ∧ W63 V (Proc.devRef .tc main_v4) = val_main_v4 (F := F)
    ∧ W63 V (Proc.devRef .tc main_v6) = val_main_v6 (F := F) (V (Proc.devRef .tc main_arg0))
    ∧ W63 V (Proc.devRef .tc main_v8) = val_main_v8 (F := F) (V (Proc.devRef .tc main_arg0))
    ∧ W63 V (Proc.devRef .tc main_v10) = val_main_v10 (F := F) (V (Proc.devRef .tc main_arg0))
    ∧ W63 V (Proc.devRef .tc main_v11) = val_main_v11 (F := F) (V (Proc.devRef .tc main_arg0))
    ∧ W63 V (Proc.devRef .tc main_call7_v1) = val_main_call7_v1 (F := F) (V (Proc.devRef .tc main_arg0))
    ∧ W63 V (Proc.devRef .tc main_call7_v2) = val_main_call7_v2 (F := F) := by
  obtain ⟨h_main_arg0, h_main_v1, h_main_v4, h_main_v6, h_main_v8, h_main_v10, h_main_v11, h_main_call7_v1, h_main_call7_c_0⟩ := spec_62 V
  unfold W63
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_c_0]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_c_0]
  · unfold val_main_call7_v2
    rw [← h_main_call7_c_0]
    generalize W62 V = U
    (simp (disch := decide) only [nullary_result', unary_result', binary_result', ternary_result', reshape_result', nullary_result_ne', unary_result_ne', binary_result_ne', ternary_result_ne', reshape_result_ne']) <;> rfl

theorem spec_64 (V : Valuation τ sig (Elt F)) :
    W64 V (Proc.devRef .tc main_arg0) = (V (Proc.devRef .tc main_arg0))
    ∧ W64 V (Proc.devRef .tc main_v1) = val_main_v1 (F := F) (V (Proc.devRef .tc main_arg0))
    ∧ W64 V (Proc.devRef .tc main_v4) = val_main_v4 (F := F)
    ∧ W64 V (Proc.devRef .tc main_v6) = val_main_v6 (F := F) (V (Proc.devRef .tc main_arg0))
    ∧ W64 V (Proc.devRef .tc main_v8) = val_main_v8 (F := F) (V (Proc.devRef .tc main_arg0))
    ∧ W64 V (Proc.devRef .tc main_v10) = val_main_v10 (F := F) (V (Proc.devRef .tc main_arg0))
    ∧ W64 V (Proc.devRef .tc main_v11) = val_main_v11 (F := F) (V (Proc.devRef .tc main_arg0))
    ∧ W64 V (Proc.devRef .tc main_call7_v1) = val_main_call7_v1 (F := F) (V (Proc.devRef .tc main_arg0))
    ∧ W64 V (Proc.devRef .tc main_call7_v3) = val_main_call7_v3 (F := F) (V (Proc.devRef .tc main_arg0)) := by
  obtain ⟨h_main_arg0, h_main_v1, h_main_v4, h_main_v6, h_main_v8, h_main_v10, h_main_v11, h_main_call7_v1, h_main_call7_v2⟩ := spec_63 V
  unfold W64
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v2]
  · unfold val_main_call7_v3
    rw [← h_main_v11, ← h_main_call7_v2]
    generalize W63 V = U
    (simp (disch := decide) only [nullary_result', unary_result', binary_result', ternary_result', reshape_result', nullary_result_ne', unary_result_ne', binary_result_ne', ternary_result_ne', reshape_result_ne']) <;> rfl

theorem spec_65 (V : Valuation τ sig (Elt F)) :
    W65 V (Proc.devRef .tc main_arg0) = (V (Proc.devRef .tc main_arg0))
    ∧ W65 V (Proc.devRef .tc main_v1) = val_main_v1 (F := F) (V (Proc.devRef .tc main_arg0))
    ∧ W65 V (Proc.devRef .tc main_v4) = val_main_v4 (F := F)
    ∧ W65 V (Proc.devRef .tc main_v6) = val_main_v6 (F := F) (V (Proc.devRef .tc main_arg0))
    ∧ W65 V (Proc.devRef .tc main_v8) = val_main_v8 (F := F) (V (Proc.devRef .tc main_arg0))
    ∧ W65 V (Proc.devRef .tc main_v10) = val_main_v10 (F := F) (V (Proc.devRef .tc main_arg0))
    ∧ W65 V (Proc.devRef .tc main_call7_v4) = val_main_call7_v4 (F := F) (V (Proc.devRef .tc main_arg0)) := by
  obtain ⟨h_main_arg0, h_main_v1, h_main_v4, h_main_v6, h_main_v8, h_main_v10, h_main_v11, h_main_call7_v1, h_main_call7_v3⟩ := spec_64 V
  unfold W65
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v11, h_main_call7_v1, h_main_call7_v3]
  · unfold val_main_call7_v4
    rw [← h_main_call7_v1, ← h_main_call7_v3, ← h_main_v11]
    generalize W64 V = U
    (simp (disch := decide) only [nullary_result', unary_result', binary_result', ternary_result', reshape_result', nullary_result_ne', unary_result_ne', binary_result_ne', ternary_result_ne', reshape_result_ne']) <;> rfl

theorem spec_66 (V : Valuation τ sig (Elt F)) :
    W66 V (Proc.devRef .tc main_arg0) = (V (Proc.devRef .tc main_arg0))
    ∧ W66 V (Proc.devRef .tc main_v1) = val_main_v1 (F := F) (V (Proc.devRef .tc main_arg0))
    ∧ W66 V (Proc.devRef .tc main_v4) = val_main_v4 (F := F)
    ∧ W66 V (Proc.devRef .tc main_v6) = val_main_v6 (F := F) (V (Proc.devRef .tc main_arg0))
    ∧ W66 V (Proc.devRef .tc main_v8) = val_main_v8 (F := F) (V (Proc.devRef .tc main_arg0))
    ∧ W66 V (Proc.devRef .tc main_v10) = val_main_v10 (F := F) (V (Proc.devRef .tc main_arg0))
    ∧ W66 V (Proc.devRef .tc main_call7_v5) = val_main_call7_v5 (F := F) (V (Proc.devRef .tc main_arg0)) := by
  obtain ⟨h_main_arg0, h_main_v1, h_main_v4, h_main_v6, h_main_v8, h_main_v10, h_main_call7_v4⟩ := spec_65 V
  unfold W66
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v4]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v4]
  · unfold val_main_call7_v5
    rw [← h_main_call7_v4]
    generalize W65 V = U
    (simp (disch := decide) only [nullary_result', unary_result', binary_result', ternary_result', reshape_result', nullary_result_ne', unary_result_ne', binary_result_ne', ternary_result_ne', reshape_result_ne']) <;> rfl

theorem spec_67 (V : Valuation τ sig (Elt F)) :
    W67 V (Proc.devRef .tc main_arg0) = (V (Proc.devRef .tc main_arg0))
    ∧ W67 V (Proc.devRef .tc main_v1) = val_main_v1 (F := F) (V (Proc.devRef .tc main_arg0))
    ∧ W67 V (Proc.devRef .tc main_v4) = val_main_v4 (F := F)
    ∧ W67 V (Proc.devRef .tc main_v6) = val_main_v6 (F := F) (V (Proc.devRef .tc main_arg0))
    ∧ W67 V (Proc.devRef .tc main_v8) = val_main_v8 (F := F) (V (Proc.devRef .tc main_arg0))
    ∧ W67 V (Proc.devRef .tc main_v10) = val_main_v10 (F := F) (V (Proc.devRef .tc main_arg0))
    ∧ W67 V (Proc.devRef .tc main_call7_v5) = val_main_call7_v5 (F := F) (V (Proc.devRef .tc main_arg0))
    ∧ W67 V (Proc.devRef .tc main_call7_c_1) = val_main_call7_c_1 (F := F) := by
  obtain ⟨h_main_arg0, h_main_v1, h_main_v4, h_main_v6, h_main_v8, h_main_v10, h_main_call7_v5⟩ := spec_66 V
  unfold W67
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5]
  · unfold val_main_call7_c_1
    generalize W66 V = U
    (simp (disch := decide) only [nullary_result', unary_result', binary_result', ternary_result', reshape_result', nullary_result_ne', unary_result_ne', binary_result_ne', ternary_result_ne', reshape_result_ne']) <;> rfl

theorem spec_68 (V : Valuation τ sig (Elt F)) :
    W68 V (Proc.devRef .tc main_arg0) = (V (Proc.devRef .tc main_arg0))
    ∧ W68 V (Proc.devRef .tc main_v1) = val_main_v1 (F := F) (V (Proc.devRef .tc main_arg0))
    ∧ W68 V (Proc.devRef .tc main_v4) = val_main_v4 (F := F)
    ∧ W68 V (Proc.devRef .tc main_v6) = val_main_v6 (F := F) (V (Proc.devRef .tc main_arg0))
    ∧ W68 V (Proc.devRef .tc main_v8) = val_main_v8 (F := F) (V (Proc.devRef .tc main_arg0))
    ∧ W68 V (Proc.devRef .tc main_v10) = val_main_v10 (F := F) (V (Proc.devRef .tc main_arg0))
    ∧ W68 V (Proc.devRef .tc main_call7_v5) = val_main_call7_v5 (F := F) (V (Proc.devRef .tc main_arg0))
    ∧ W68 V (Proc.devRef .tc main_call7_c_1) = val_main_call7_c_1 (F := F)
    ∧ W68 V (Proc.devRef .tc main_call7_c_2) = val_main_call7_c_2 (F := F) := by
  obtain ⟨h_main_arg0, h_main_v1, h_main_v4, h_main_v6, h_main_v8, h_main_v10, h_main_call7_v5, h_main_call7_c_1⟩ := spec_67 V
  unfold W68
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1]
  · unfold val_main_call7_c_2
    generalize W67 V = U
    (simp (disch := decide) only [nullary_result', unary_result', binary_result', ternary_result', reshape_result', nullary_result_ne', unary_result_ne', binary_result_ne', ternary_result_ne', reshape_result_ne']) <;> rfl

theorem spec_69 (V : Valuation τ sig (Elt F)) :
    W69 V (Proc.devRef .tc main_arg0) = (V (Proc.devRef .tc main_arg0))
    ∧ W69 V (Proc.devRef .tc main_v1) = val_main_v1 (F := F) (V (Proc.devRef .tc main_arg0))
    ∧ W69 V (Proc.devRef .tc main_v4) = val_main_v4 (F := F)
    ∧ W69 V (Proc.devRef .tc main_v6) = val_main_v6 (F := F) (V (Proc.devRef .tc main_arg0))
    ∧ W69 V (Proc.devRef .tc main_v8) = val_main_v8 (F := F) (V (Proc.devRef .tc main_arg0))
    ∧ W69 V (Proc.devRef .tc main_v10) = val_main_v10 (F := F) (V (Proc.devRef .tc main_arg0))
    ∧ W69 V (Proc.devRef .tc main_call7_v5) = val_main_call7_v5 (F := F) (V (Proc.devRef .tc main_arg0))
    ∧ W69 V (Proc.devRef .tc main_call7_c_1) = val_main_call7_c_1 (F := F)
    ∧ W69 V (Proc.devRef .tc main_call7_v6) = val_main_call7_v6 (F := F) := by
  obtain ⟨h_main_arg0, h_main_v1, h_main_v4, h_main_v6, h_main_v8, h_main_v10, h_main_call7_v5, h_main_call7_c_1, h_main_call7_c_2⟩ := spec_68 V
  unfold W69
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_c_2]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_c_2]
  · unfold val_main_call7_v6
    rw [← h_main_call7_c_2]
    generalize W68 V = U
    (simp (disch := decide) only [nullary_result', unary_result', binary_result', ternary_result', reshape_result', nullary_result_ne', unary_result_ne', binary_result_ne', ternary_result_ne', reshape_result_ne']) <;> rfl

theorem spec_70 (V : Valuation τ sig (Elt F)) :
    W70 V (Proc.devRef .tc main_arg0) = (V (Proc.devRef .tc main_arg0))
    ∧ W70 V (Proc.devRef .tc main_v1) = val_main_v1 (F := F) (V (Proc.devRef .tc main_arg0))
    ∧ W70 V (Proc.devRef .tc main_v4) = val_main_v4 (F := F)
    ∧ W70 V (Proc.devRef .tc main_v6) = val_main_v6 (F := F) (V (Proc.devRef .tc main_arg0))
    ∧ W70 V (Proc.devRef .tc main_v8) = val_main_v8 (F := F) (V (Proc.devRef .tc main_arg0))
    ∧ W70 V (Proc.devRef .tc main_v10) = val_main_v10 (F := F) (V (Proc.devRef .tc main_arg0))
    ∧ W70 V (Proc.devRef .tc main_call7_v5) = val_main_call7_v5 (F := F) (V (Proc.devRef .tc main_arg0))
    ∧ W70 V (Proc.devRef .tc main_call7_c_1) = val_main_call7_c_1 (F := F)
    ∧ W70 V (Proc.devRef .tc main_call7_v7) = val_main_call7_v7 (F := F) (V (Proc.devRef .tc main_arg0)) := by
  obtain ⟨h_main_arg0, h_main_v1, h_main_v4, h_main_v6, h_main_v8, h_main_v10, h_main_call7_v5, h_main_call7_c_1, h_main_call7_v6⟩ := spec_69 V
  unfold W70
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v6]
  · unfold val_main_call7_v7
    rw [← h_main_call7_v5, ← h_main_call7_v6]
    generalize W69 V = U
    (simp (disch := decide) only [nullary_result', unary_result', binary_result', ternary_result', reshape_result', nullary_result_ne', unary_result_ne', binary_result_ne', ternary_result_ne', reshape_result_ne']) <;> rfl

theorem spec_71 (V : Valuation τ sig (Elt F)) :
    W71 V (Proc.devRef .tc main_arg0) = (V (Proc.devRef .tc main_arg0))
    ∧ W71 V (Proc.devRef .tc main_v1) = val_main_v1 (F := F) (V (Proc.devRef .tc main_arg0))
    ∧ W71 V (Proc.devRef .tc main_v4) = val_main_v4 (F := F)
    ∧ W71 V (Proc.devRef .tc main_v6) = val_main_v6 (F := F) (V (Proc.devRef .tc main_arg0))
    ∧ W71 V (Proc.devRef .tc main_v8) = val_main_v8 (F := F) (V (Proc.devRef .tc main_arg0))
    ∧ W71 V (Proc.devRef .tc main_v10) = val_main_v10 (F := F) (V (Proc.devRef .tc main_arg0))
    ∧ W71 V (Proc.devRef .tc main_call7_v5) = val_main_call7_v5 (F := F) (V (Proc.devRef .tc main_arg0))
    ∧ W71 V (Proc.devRef .tc main_call7_v7) = val_main_call7_v7 (F := F) (V (Proc.devRef .tc main_arg0))
    ∧ W71 V (Proc.devRef .tc main_call7_v8) = val_main_call7_v8 (F := F) := by
  obtain ⟨h_main_arg0, h_main_v1, h_main_v4, h_main_v6, h_main_v8, h_main_v10, h_main_call7_v5, h_main_call7_c_1, h_main_call7_v7⟩ := spec_70 V
  unfold W71
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v7]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_c_1, h_main_call7_v7]
  · unfold val_main_call7_v8
    rw [← h_main_call7_c_1]
    generalize W70 V = U
    (simp (disch := decide) only [nullary_result', unary_result', binary_result', ternary_result', reshape_result', nullary_result_ne', unary_result_ne', binary_result_ne', ternary_result_ne', reshape_result_ne']) <;> rfl

theorem spec_72 (V : Valuation τ sig (Elt F)) :
    W72 V (Proc.devRef .tc main_arg0) = (V (Proc.devRef .tc main_arg0))
    ∧ W72 V (Proc.devRef .tc main_v1) = val_main_v1 (F := F) (V (Proc.devRef .tc main_arg0))
    ∧ W72 V (Proc.devRef .tc main_v4) = val_main_v4 (F := F)
    ∧ W72 V (Proc.devRef .tc main_v6) = val_main_v6 (F := F) (V (Proc.devRef .tc main_arg0))
    ∧ W72 V (Proc.devRef .tc main_v8) = val_main_v8 (F := F) (V (Proc.devRef .tc main_arg0))
    ∧ W72 V (Proc.devRef .tc main_v10) = val_main_v10 (F := F) (V (Proc.devRef .tc main_arg0))
    ∧ W72 V (Proc.devRef .tc main_call7_v5) = val_main_call7_v5 (F := F) (V (Proc.devRef .tc main_arg0))
    ∧ W72 V (Proc.devRef .tc main_call7_v7) = val_main_call7_v7 (F := F) (V (Proc.devRef .tc main_arg0))
    ∧ W72 V (Proc.devRef .tc main_call7_v9) = val_main_call7_v9 (F := F) := by
  obtain ⟨h_main_arg0, h_main_v1, h_main_v4, h_main_v6, h_main_v8, h_main_v10, h_main_call7_v5, h_main_call7_v7, h_main_call7_v8⟩ := spec_71 V
  unfold W72
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v8]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v8]
  · unfold val_main_call7_v9
    rw [← h_main_call7_v8]
    generalize W71 V = U
    (simp (disch := decide) only [nullary_result', unary_result', binary_result', ternary_result', reshape_result', nullary_result_ne', unary_result_ne', binary_result_ne', ternary_result_ne', reshape_result_ne']) <;> rfl

theorem spec_73 (V : Valuation τ sig (Elt F)) :
    W73 V (Proc.devRef .tc main_arg0) = (V (Proc.devRef .tc main_arg0))
    ∧ W73 V (Proc.devRef .tc main_v1) = val_main_v1 (F := F) (V (Proc.devRef .tc main_arg0))
    ∧ W73 V (Proc.devRef .tc main_v4) = val_main_v4 (F := F)
    ∧ W73 V (Proc.devRef .tc main_v6) = val_main_v6 (F := F) (V (Proc.devRef .tc main_arg0))
    ∧ W73 V (Proc.devRef .tc main_v8) = val_main_v8 (F := F) (V (Proc.devRef .tc main_arg0))
    ∧ W73 V (Proc.devRef .tc main_v10) = val_main_v10 (F := F) (V (Proc.devRef .tc main_arg0))
    ∧ W73 V (Proc.devRef .tc main_call7_v5) = val_main_call7_v5 (F := F) (V (Proc.devRef .tc main_arg0))
    ∧ W73 V (Proc.devRef .tc main_call7_v7) = val_main_call7_v7 (F := F) (V (Proc.devRef .tc main_arg0))
    ∧ W73 V (Proc.devRef .tc main_call7_v10) = val_main_call7_v10 (F := F) (V (Proc.devRef .tc main_arg0)) := by
  obtain ⟨h_main_arg0, h_main_v1, h_main_v4, h_main_v6, h_main_v8, h_main_v10, h_main_call7_v5, h_main_call7_v7, h_main_call7_v9⟩ := spec_72 V
  unfold W73
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v9]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v9]
  · unfold val_main_call7_v10
    rw [← h_main_call7_v5, ← h_main_call7_v9]
    generalize W72 V = U
    (simp (disch := decide) only [nullary_result', unary_result', binary_result', ternary_result', reshape_result', nullary_result_ne', unary_result_ne', binary_result_ne', ternary_result_ne', reshape_result_ne']) <;> rfl

theorem spec_74 (V : Valuation τ sig (Elt F)) :
    W74 V (Proc.devRef .tc main_arg0) = (V (Proc.devRef .tc main_arg0))
    ∧ W74 V (Proc.devRef .tc main_v1) = val_main_v1 (F := F) (V (Proc.devRef .tc main_arg0))
    ∧ W74 V (Proc.devRef .tc main_v4) = val_main_v4 (F := F)
    ∧ W74 V (Proc.devRef .tc main_v6) = val_main_v6 (F := F) (V (Proc.devRef .tc main_arg0))
    ∧ W74 V (Proc.devRef .tc main_v8) = val_main_v8 (F := F) (V (Proc.devRef .tc main_arg0))
    ∧ W74 V (Proc.devRef .tc main_v10) = val_main_v10 (F := F) (V (Proc.devRef .tc main_arg0))
    ∧ W74 V (Proc.devRef .tc main_call7_v5) = val_main_call7_v5 (F := F) (V (Proc.devRef .tc main_arg0))
    ∧ W74 V (Proc.devRef .tc main_call7_v11) = val_main_call7_v11 (F := F) (V (Proc.devRef .tc main_arg0)) := by
  obtain ⟨h_main_arg0, h_main_v1, h_main_v4, h_main_v6, h_main_v8, h_main_v10, h_main_call7_v5, h_main_call7_v7, h_main_call7_v10⟩ := spec_73 V
  unfold W74
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v10]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v7, h_main_call7_v10]
  · unfold val_main_call7_v11
    rw [← h_main_call7_v7, ← h_main_call7_v10]
    generalize W73 V = U
    (simp (disch := decide) only [nullary_result', unary_result', binary_result', ternary_result', reshape_result', nullary_result_ne', unary_result_ne', binary_result_ne', ternary_result_ne', reshape_result_ne']) <;> rfl

theorem spec_75 (V : Valuation τ sig (Elt F)) :
    W75 V (Proc.devRef .tc main_arg0) = (V (Proc.devRef .tc main_arg0))
    ∧ W75 V (Proc.devRef .tc main_v1) = val_main_v1 (F := F) (V (Proc.devRef .tc main_arg0))
    ∧ W75 V (Proc.devRef .tc main_v4) = val_main_v4 (F := F)
    ∧ W75 V (Proc.devRef .tc main_v6) = val_main_v6 (F := F) (V (Proc.devRef .tc main_arg0))
    ∧ W75 V (Proc.devRef .tc main_v8) = val_main_v8 (F := F) (V (Proc.devRef .tc main_arg0))
    ∧ W75 V (Proc.devRef .tc main_v10) = val_main_v10 (F := F) (V (Proc.devRef .tc main_arg0))
    ∧ W75 V (Proc.devRef .tc main_call7_v5) = val_main_call7_v5 (F := F) (V (Proc.devRef .tc main_arg0))
    ∧ W75 V (Proc.devRef .tc main_call7_v11) = val_main_call7_v11 (F := F) (V (Proc.devRef .tc main_arg0))
    ∧ W75 V (Proc.devRef .tc main_call7_c_3) = val_main_call7_c_3 (F := F) := by
  obtain ⟨h_main_arg0, h_main_v1, h_main_v4, h_main_v6, h_main_v8, h_main_v10, h_main_call7_v5, h_main_call7_v11⟩ := spec_74 V
  unfold W75
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11]
  · unfold val_main_call7_c_3
    generalize W74 V = U
    (simp (disch := decide) only [nullary_result', unary_result', binary_result', ternary_result', reshape_result', nullary_result_ne', unary_result_ne', binary_result_ne', ternary_result_ne', reshape_result_ne']) <;> rfl

theorem spec_76 (V : Valuation τ sig (Elt F)) :
    W76 V (Proc.devRef .tc main_arg0) = (V (Proc.devRef .tc main_arg0))
    ∧ W76 V (Proc.devRef .tc main_v1) = val_main_v1 (F := F) (V (Proc.devRef .tc main_arg0))
    ∧ W76 V (Proc.devRef .tc main_v4) = val_main_v4 (F := F)
    ∧ W76 V (Proc.devRef .tc main_v6) = val_main_v6 (F := F) (V (Proc.devRef .tc main_arg0))
    ∧ W76 V (Proc.devRef .tc main_v8) = val_main_v8 (F := F) (V (Proc.devRef .tc main_arg0))
    ∧ W76 V (Proc.devRef .tc main_v10) = val_main_v10 (F := F) (V (Proc.devRef .tc main_arg0))
    ∧ W76 V (Proc.devRef .tc main_call7_v5) = val_main_call7_v5 (F := F) (V (Proc.devRef .tc main_arg0))
    ∧ W76 V (Proc.devRef .tc main_call7_v12) = val_main_call7_v12 (F := F) (V (Proc.devRef .tc main_arg0)) := by
  obtain ⟨h_main_arg0, h_main_v1, h_main_v4, h_main_v6, h_main_v8, h_main_v10, h_main_call7_v5, h_main_call7_v11, h_main_call7_c_3⟩ := spec_75 V
  unfold W76
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11, h_main_call7_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11, h_main_call7_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11, h_main_call7_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11, h_main_call7_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11, h_main_call7_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11, h_main_call7_c_3]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v11, h_main_call7_c_3]
  · unfold val_main_call7_v12
    rw [← h_main_call7_v11, ← h_main_call7_c_3]
    generalize W75 V = U
    (simp (disch := decide) only [nullary_result', unary_result', binary_result', ternary_result', reshape_result', nullary_result_ne', unary_result_ne', binary_result_ne', ternary_result_ne', reshape_result_ne']) <;> rfl

theorem spec_77 (V : Valuation τ sig (Elt F)) :
    W77 V (Proc.devRef .tc main_arg0) = (V (Proc.devRef .tc main_arg0))
    ∧ W77 V (Proc.devRef .tc main_v1) = val_main_v1 (F := F) (V (Proc.devRef .tc main_arg0))
    ∧ W77 V (Proc.devRef .tc main_v4) = val_main_v4 (F := F)
    ∧ W77 V (Proc.devRef .tc main_v6) = val_main_v6 (F := F) (V (Proc.devRef .tc main_arg0))
    ∧ W77 V (Proc.devRef .tc main_v8) = val_main_v8 (F := F) (V (Proc.devRef .tc main_arg0))
    ∧ W77 V (Proc.devRef .tc main_v10) = val_main_v10 (F := F) (V (Proc.devRef .tc main_arg0))
    ∧ W77 V (Proc.devRef .tc main_call7_v12) = val_main_call7_v12 (F := F) (V (Proc.devRef .tc main_arg0))
    ∧ W77 V (Proc.devRef .tc main_call7_v13) = val_main_call7_v13 (F := F) (V (Proc.devRef .tc main_arg0)) := by
  obtain ⟨h_main_arg0, h_main_v1, h_main_v4, h_main_v6, h_main_v8, h_main_v10, h_main_call7_v5, h_main_call7_v12⟩ := spec_76 V
  unfold W77
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v5, h_main_call7_v12]
  · unfold val_main_call7_v13
    rw [← h_main_call7_v5, ← h_main_arg0]
    generalize W76 V = U
    (simp (disch := decide) only [nullary_result', unary_result', binary_result', ternary_result', reshape_result', nullary_result_ne', unary_result_ne', binary_result_ne', ternary_result_ne', reshape_result_ne']) <;> rfl

theorem spec_78 (V : Valuation τ sig (Elt F)) :
    W78 V (Proc.devRef .tc main_arg0) = (V (Proc.devRef .tc main_arg0))
    ∧ W78 V (Proc.devRef .tc main_v1) = val_main_v1 (F := F) (V (Proc.devRef .tc main_arg0))
    ∧ W78 V (Proc.devRef .tc main_v4) = val_main_v4 (F := F)
    ∧ W78 V (Proc.devRef .tc main_v6) = val_main_v6 (F := F) (V (Proc.devRef .tc main_arg0))
    ∧ W78 V (Proc.devRef .tc main_v8) = val_main_v8 (F := F) (V (Proc.devRef .tc main_arg0))
    ∧ W78 V (Proc.devRef .tc main_v10) = val_main_v10 (F := F) (V (Proc.devRef .tc main_arg0))
    ∧ W78 V (Proc.devRef .tc main_call7_v12) = val_main_call7_v12 (F := F) (V (Proc.devRef .tc main_arg0))
    ∧ W78 V (Proc.devRef .tc main_call7_v13) = val_main_call7_v13 (F := F) (V (Proc.devRef .tc main_arg0))
    ∧ W78 V (Proc.devRef .tc main_call7_cst) = val_main_call7_cst (F := F) := by
  obtain ⟨h_main_arg0, h_main_v1, h_main_v4, h_main_v6, h_main_v8, h_main_v10, h_main_call7_v12, h_main_call7_v13⟩ := spec_77 V
  unfold W78
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13]
  · unfold val_main_call7_cst
    generalize W77 V = U
    (simp (disch := decide) only [nullary_result', unary_result', binary_result', ternary_result', reshape_result', nullary_result_ne', unary_result_ne', binary_result_ne', ternary_result_ne', reshape_result_ne']) <;> rfl

theorem spec_79 (V : Valuation τ sig (Elt F)) :
    W79 V (Proc.devRef .tc main_arg0) = (V (Proc.devRef .tc main_arg0))
    ∧ W79 V (Proc.devRef .tc main_v1) = val_main_v1 (F := F) (V (Proc.devRef .tc main_arg0))
    ∧ W79 V (Proc.devRef .tc main_v4) = val_main_v4 (F := F)
    ∧ W79 V (Proc.devRef .tc main_v6) = val_main_v6 (F := F) (V (Proc.devRef .tc main_arg0))
    ∧ W79 V (Proc.devRef .tc main_v8) = val_main_v8 (F := F) (V (Proc.devRef .tc main_arg0))
    ∧ W79 V (Proc.devRef .tc main_v10) = val_main_v10 (F := F) (V (Proc.devRef .tc main_arg0))
    ∧ W79 V (Proc.devRef .tc main_call7_v12) = val_main_call7_v12 (F := F) (V (Proc.devRef .tc main_arg0))
    ∧ W79 V (Proc.devRef .tc main_call7_v13) = val_main_call7_v13 (F := F) (V (Proc.devRef .tc main_arg0))
    ∧ W79 V (Proc.devRef .tc main_call7_v14) = val_main_call7_v14 (F := F) := by
  obtain ⟨h_main_arg0, h_main_v1, h_main_v4, h_main_v6, h_main_v8, h_main_v10, h_main_call7_v12, h_main_call7_v13, h_main_call7_cst⟩ := spec_78 V
  unfold W79
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_cst]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_cst]
  · unfold val_main_call7_v14
    rw [← h_main_call7_cst]
    generalize W78 V = U
    (simp (disch := decide) only [nullary_result', unary_result', binary_result', ternary_result', reshape_result', nullary_result_ne', unary_result_ne', binary_result_ne', ternary_result_ne', reshape_result_ne']) <;> rfl

theorem spec_80 (V : Valuation τ sig (Elt F)) :
    W80 V (Proc.devRef .tc main_arg0) = (V (Proc.devRef .tc main_arg0))
    ∧ W80 V (Proc.devRef .tc main_v1) = val_main_v1 (F := F) (V (Proc.devRef .tc main_arg0))
    ∧ W80 V (Proc.devRef .tc main_v4) = val_main_v4 (F := F)
    ∧ W80 V (Proc.devRef .tc main_v6) = val_main_v6 (F := F) (V (Proc.devRef .tc main_arg0))
    ∧ W80 V (Proc.devRef .tc main_v8) = val_main_v8 (F := F) (V (Proc.devRef .tc main_arg0))
    ∧ W80 V (Proc.devRef .tc main_v10) = val_main_v10 (F := F) (V (Proc.devRef .tc main_arg0))
    ∧ W80 V (Proc.devRef .tc main_v12) = val_main_v12 (F := F) (V (Proc.devRef .tc main_arg0)) := by
  obtain ⟨h_main_arg0, h_main_v1, h_main_v4, h_main_v6, h_main_v8, h_main_v10, h_main_call7_v12, h_main_call7_v13, h_main_call7_v14⟩ := spec_79 V
  unfold W80
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_call7_v12, h_main_call7_v13, h_main_call7_v14]
  · unfold val_main_v12
    rw [← h_main_call7_v12, ← h_main_call7_v13, ← h_main_call7_v14]
    generalize W79 V = U
    (simp (disch := decide) only [nullary_result', unary_result', binary_result', ternary_result', reshape_result', nullary_result_ne', unary_result_ne', binary_result_ne', ternary_result_ne', reshape_result_ne']) <;> rfl

theorem spec_81 (V : Valuation τ sig (Elt F)) :
    W81 V (Proc.devRef .tc main_arg0) = (V (Proc.devRef .tc main_arg0))
    ∧ W81 V (Proc.devRef .tc main_v1) = val_main_v1 (F := F) (V (Proc.devRef .tc main_arg0))
    ∧ W81 V (Proc.devRef .tc main_v4) = val_main_v4 (F := F)
    ∧ W81 V (Proc.devRef .tc main_v6) = val_main_v6 (F := F) (V (Proc.devRef .tc main_arg0))
    ∧ W81 V (Proc.devRef .tc main_v8) = val_main_v8 (F := F) (V (Proc.devRef .tc main_arg0))
    ∧ W81 V (Proc.devRef .tc main_v10) = val_main_v10 (F := F) (V (Proc.devRef .tc main_arg0))
    ∧ W81 V (Proc.devRef .tc main_v12) = val_main_v12 (F := F) (V (Proc.devRef .tc main_arg0))
    ∧ W81 V (Proc.devRef .tc main_c_5) = val_main_c_5 (F := F) := by
  obtain ⟨h_main_arg0, h_main_v1, h_main_v4, h_main_v6, h_main_v8, h_main_v10, h_main_v12⟩ := spec_80 V
  unfold W81
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12]
  · unfold val_main_c_5
    generalize W80 V = U
    (simp (disch := decide) only [nullary_result', unary_result', binary_result', ternary_result', reshape_result', nullary_result_ne', unary_result_ne', binary_result_ne', ternary_result_ne', reshape_result_ne']) <;> rfl

theorem spec_82 (V : Valuation τ sig (Elt F)) :
    W82 V (Proc.devRef .tc main_arg0) = (V (Proc.devRef .tc main_arg0))
    ∧ W82 V (Proc.devRef .tc main_v1) = val_main_v1 (F := F) (V (Proc.devRef .tc main_arg0))
    ∧ W82 V (Proc.devRef .tc main_v4) = val_main_v4 (F := F)
    ∧ W82 V (Proc.devRef .tc main_v6) = val_main_v6 (F := F) (V (Proc.devRef .tc main_arg0))
    ∧ W82 V (Proc.devRef .tc main_v8) = val_main_v8 (F := F) (V (Proc.devRef .tc main_arg0))
    ∧ W82 V (Proc.devRef .tc main_v10) = val_main_v10 (F := F) (V (Proc.devRef .tc main_arg0))
    ∧ W82 V (Proc.devRef .tc main_v12) = val_main_v12 (F := F) (V (Proc.devRef .tc main_arg0))
    ∧ W82 V (Proc.devRef .tc main_v13) = val_main_v13 (F := F) := by
  obtain ⟨h_main_arg0, h_main_v1, h_main_v4, h_main_v6, h_main_v8, h_main_v10, h_main_v12, h_main_c_5⟩ := spec_81 V
  unfold W82
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_c_5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_c_5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_c_5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_c_5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_c_5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_c_5]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_c_5]
  · unfold val_main_v13
    rw [← h_main_c_5]
    generalize W81 V = U
    (simp (disch := decide) only [nullary_result', unary_result', binary_result', ternary_result', reshape_result', nullary_result_ne', unary_result_ne', binary_result_ne', ternary_result_ne', reshape_result_ne']) <;> rfl

theorem spec_83 (V : Valuation τ sig (Elt F)) :
    W83 V (Proc.devRef .tc main_arg0) = (V (Proc.devRef .tc main_arg0))
    ∧ W83 V (Proc.devRef .tc main_v1) = val_main_v1 (F := F) (V (Proc.devRef .tc main_arg0))
    ∧ W83 V (Proc.devRef .tc main_v4) = val_main_v4 (F := F)
    ∧ W83 V (Proc.devRef .tc main_v6) = val_main_v6 (F := F) (V (Proc.devRef .tc main_arg0))
    ∧ W83 V (Proc.devRef .tc main_v8) = val_main_v8 (F := F) (V (Proc.devRef .tc main_arg0))
    ∧ W83 V (Proc.devRef .tc main_v10) = val_main_v10 (F := F) (V (Proc.devRef .tc main_arg0))
    ∧ W83 V (Proc.devRef .tc main_v12) = val_main_v12 (F := F) (V (Proc.devRef .tc main_arg0))
    ∧ W83 V (Proc.devRef .tc main_v14) = val_main_v14 (F := F) (V (Proc.devRef .tc main_arg0)) := by
  obtain ⟨h_main_arg0, h_main_v1, h_main_v4, h_main_v6, h_main_v8, h_main_v10, h_main_v12, h_main_v13⟩ := spec_82 V
  unfold W83
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v13]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v13]
  · unfold val_main_v14
    rw [← h_main_v6, ← h_main_v13]
    generalize W82 V = U
    (simp (disch := decide) only [nullary_result', unary_result', binary_result', ternary_result', reshape_result', nullary_result_ne', unary_result_ne', binary_result_ne', ternary_result_ne', reshape_result_ne']) <;> rfl

theorem spec_84 (V : Valuation τ sig (Elt F)) :
    W84 V (Proc.devRef .tc main_arg0) = (V (Proc.devRef .tc main_arg0))
    ∧ W84 V (Proc.devRef .tc main_v1) = val_main_v1 (F := F) (V (Proc.devRef .tc main_arg0))
    ∧ W84 V (Proc.devRef .tc main_v4) = val_main_v4 (F := F)
    ∧ W84 V (Proc.devRef .tc main_v6) = val_main_v6 (F := F) (V (Proc.devRef .tc main_arg0))
    ∧ W84 V (Proc.devRef .tc main_v8) = val_main_v8 (F := F) (V (Proc.devRef .tc main_arg0))
    ∧ W84 V (Proc.devRef .tc main_v10) = val_main_v10 (F := F) (V (Proc.devRef .tc main_arg0))
    ∧ W84 V (Proc.devRef .tc main_v12) = val_main_v12 (F := F) (V (Proc.devRef .tc main_arg0))
    ∧ W84 V (Proc.devRef .tc main_v14) = val_main_v14 (F := F) (V (Proc.devRef .tc main_arg0))
    ∧ W84 V (Proc.devRef .tc main_c_6) = val_main_c_6 (F := F) := by
  obtain ⟨h_main_arg0, h_main_v1, h_main_v4, h_main_v6, h_main_v8, h_main_v10, h_main_v12, h_main_v14⟩ := spec_83 V
  unfold W84
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14]
  · unfold val_main_c_6
    generalize W83 V = U
    (simp (disch := decide) only [nullary_result', unary_result', binary_result', ternary_result', reshape_result', nullary_result_ne', unary_result_ne', binary_result_ne', ternary_result_ne', reshape_result_ne']) <;> rfl

theorem spec_85 (V : Valuation τ sig (Elt F)) :
    W85 V (Proc.devRef .tc main_arg0) = (V (Proc.devRef .tc main_arg0))
    ∧ W85 V (Proc.devRef .tc main_v1) = val_main_v1 (F := F) (V (Proc.devRef .tc main_arg0))
    ∧ W85 V (Proc.devRef .tc main_v4) = val_main_v4 (F := F)
    ∧ W85 V (Proc.devRef .tc main_v6) = val_main_v6 (F := F) (V (Proc.devRef .tc main_arg0))
    ∧ W85 V (Proc.devRef .tc main_v8) = val_main_v8 (F := F) (V (Proc.devRef .tc main_arg0))
    ∧ W85 V (Proc.devRef .tc main_v10) = val_main_v10 (F := F) (V (Proc.devRef .tc main_arg0))
    ∧ W85 V (Proc.devRef .tc main_v12) = val_main_v12 (F := F) (V (Proc.devRef .tc main_arg0))
    ∧ W85 V (Proc.devRef .tc main_v14) = val_main_v14 (F := F) (V (Proc.devRef .tc main_arg0))
    ∧ W85 V (Proc.devRef .tc main_v15) = val_main_v15 (F := F) := by
  obtain ⟨h_main_arg0, h_main_v1, h_main_v4, h_main_v6, h_main_v8, h_main_v10, h_main_v12, h_main_v14, h_main_c_6⟩ := spec_84 V
  unfold W85
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_c_6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_c_6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_c_6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_c_6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_c_6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_c_6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_c_6]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_c_6]
  · unfold val_main_v15
    rw [← h_main_c_6]
    generalize W84 V = U
    (simp (disch := decide) only [nullary_result', unary_result', binary_result', ternary_result', reshape_result', nullary_result_ne', unary_result_ne', binary_result_ne', ternary_result_ne', reshape_result_ne']) <;> rfl

theorem spec_86 (V : Valuation τ sig (Elt F)) :
    W86 V (Proc.devRef .tc main_arg0) = (V (Proc.devRef .tc main_arg0))
    ∧ W86 V (Proc.devRef .tc main_v1) = val_main_v1 (F := F) (V (Proc.devRef .tc main_arg0))
    ∧ W86 V (Proc.devRef .tc main_v4) = val_main_v4 (F := F)
    ∧ W86 V (Proc.devRef .tc main_v6) = val_main_v6 (F := F) (V (Proc.devRef .tc main_arg0))
    ∧ W86 V (Proc.devRef .tc main_v8) = val_main_v8 (F := F) (V (Proc.devRef .tc main_arg0))
    ∧ W86 V (Proc.devRef .tc main_v10) = val_main_v10 (F := F) (V (Proc.devRef .tc main_arg0))
    ∧ W86 V (Proc.devRef .tc main_v12) = val_main_v12 (F := F) (V (Proc.devRef .tc main_arg0))
    ∧ W86 V (Proc.devRef .tc main_v14) = val_main_v14 (F := F) (V (Proc.devRef .tc main_arg0))
    ∧ W86 V (Proc.devRef .tc main_v16) = val_main_v16 (F := F) (V (Proc.devRef .tc main_arg0)) := by
  obtain ⟨h_main_arg0, h_main_v1, h_main_v4, h_main_v6, h_main_v8, h_main_v10, h_main_v12, h_main_v14, h_main_v15⟩ := spec_85 V
  unfold W86
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v15]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v15]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v15]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v15]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v15]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v15]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v15]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v15]
  · unfold val_main_v16
    rw [← h_main_v8, ← h_main_v15]
    generalize W85 V = U
    (simp (disch := decide) only [nullary_result', unary_result', binary_result', ternary_result', reshape_result', nullary_result_ne', unary_result_ne', binary_result_ne', ternary_result_ne', reshape_result_ne']) <;> rfl

theorem spec_87 (V : Valuation τ sig (Elt F)) :
    W87 V (Proc.devRef .tc main_arg0) = (V (Proc.devRef .tc main_arg0))
    ∧ W87 V (Proc.devRef .tc main_v1) = val_main_v1 (F := F) (V (Proc.devRef .tc main_arg0))
    ∧ W87 V (Proc.devRef .tc main_v4) = val_main_v4 (F := F)
    ∧ W87 V (Proc.devRef .tc main_v6) = val_main_v6 (F := F) (V (Proc.devRef .tc main_arg0))
    ∧ W87 V (Proc.devRef .tc main_v8) = val_main_v8 (F := F) (V (Proc.devRef .tc main_arg0))
    ∧ W87 V (Proc.devRef .tc main_v10) = val_main_v10 (F := F) (V (Proc.devRef .tc main_arg0))
    ∧ W87 V (Proc.devRef .tc main_v12) = val_main_v12 (F := F) (V (Proc.devRef .tc main_arg0))
    ∧ W87 V (Proc.devRef .tc main_v14) = val_main_v14 (F := F) (V (Proc.devRef .tc main_arg0))
    ∧ W87 V (Proc.devRef .tc main_v16) = val_main_v16 (F := F) (V (Proc.devRef .tc main_arg0))
    ∧ W87 V (Proc.devRef .tc main_v17) = val_main_v17 (F := F) (V (Proc.devRef .tc main_arg0)) := by
  obtain ⟨h_main_arg0, h_main_v1, h_main_v4, h_main_v6, h_main_v8, h_main_v10, h_main_v12, h_main_v14, h_main_v16⟩ := spec_86 V
  unfold W87
  refine ⟨?_, ?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16]
  · unfold val_main_v17
    rw [← h_main_v14, ← h_main_v10, ← h_main_v12]
    generalize W86 V = U
    (simp (disch := decide) only [nullary_result', unary_result', binary_result', ternary_result', reshape_result', nullary_result_ne', unary_result_ne', binary_result_ne', ternary_result_ne', reshape_result_ne']) <;> rfl

theorem spec_88 (V : Valuation τ sig (Elt F)) :
    W88 V (Proc.devRef .tc main_arg0) = (V (Proc.devRef .tc main_arg0))
    ∧ W88 V (Proc.devRef .tc main_v1) = val_main_v1 (F := F) (V (Proc.devRef .tc main_arg0))
    ∧ W88 V (Proc.devRef .tc main_v4) = val_main_v4 (F := F)
    ∧ W88 V (Proc.devRef .tc main_v6) = val_main_v6 (F := F) (V (Proc.devRef .tc main_arg0))
    ∧ W88 V (Proc.devRef .tc main_v8) = val_main_v8 (F := F) (V (Proc.devRef .tc main_arg0))
    ∧ W88 V (Proc.devRef .tc main_v14) = val_main_v14 (F := F) (V (Proc.devRef .tc main_arg0))
    ∧ W88 V (Proc.devRef .tc main_v16) = val_main_v16 (F := F) (V (Proc.devRef .tc main_arg0))
    ∧ W88 V (Proc.devRef .tc main_v17) = val_main_v17 (F := F) (V (Proc.devRef .tc main_arg0))
    ∧ W88 V (Proc.devRef .tc main_v18) = val_main_v18 (F := F) (V (Proc.devRef .tc main_arg0)) := by
  obtain ⟨h_main_arg0, h_main_v1, h_main_v4, h_main_v6, h_main_v8, h_main_v10, h_main_v12, h_main_v14, h_main_v16, h_main_v17⟩ := spec_87 V
  unfold W88
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16, h_main_v17]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16, h_main_v17]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16, h_main_v17]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16, h_main_v17]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16, h_main_v17]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16, h_main_v17]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16, h_main_v17]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v10, h_main_v12, h_main_v14, h_main_v16, h_main_v17]
  · unfold val_main_v18
    rw [← h_main_v16, ← h_main_v12, ← h_main_v10]
    generalize W87 V = U
    (simp (disch := decide) only [nullary_result', unary_result', binary_result', ternary_result', reshape_result', nullary_result_ne', unary_result_ne', binary_result_ne', ternary_result_ne', reshape_result_ne']) <;> rfl

theorem spec_89 (V : Valuation τ sig (Elt F)) :
    W89 V (Proc.devRef .tc main_arg0) = (V (Proc.devRef .tc main_arg0))
    ∧ W89 V (Proc.devRef .tc main_v4) = val_main_v4 (F := F)
    ∧ W89 V (Proc.devRef .tc main_v6) = val_main_v6 (F := F) (V (Proc.devRef .tc main_arg0))
    ∧ W89 V (Proc.devRef .tc main_v8) = val_main_v8 (F := F) (V (Proc.devRef .tc main_arg0))
    ∧ W89 V (Proc.devRef .tc main_v14) = val_main_v14 (F := F) (V (Proc.devRef .tc main_arg0))
    ∧ W89 V (Proc.devRef .tc main_v16) = val_main_v16 (F := F) (V (Proc.devRef .tc main_arg0))
    ∧ W89 V (Proc.devRef .tc main_v17) = val_main_v17 (F := F) (V (Proc.devRef .tc main_arg0))
    ∧ W89 V (Proc.devRef .tc main_v18) = val_main_v18 (F := F) (V (Proc.devRef .tc main_arg0))
    ∧ W89 V (Proc.devRef .tc main_v19) = val_main_v19 (F := F) (V (Proc.devRef .tc main_arg0)) := by
  obtain ⟨h_main_arg0, h_main_v1, h_main_v4, h_main_v6, h_main_v8, h_main_v14, h_main_v16, h_main_v17, h_main_v18⟩ := spec_88 V
  unfold W89
  refine ⟨?_, ?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v14, h_main_v16, h_main_v17, h_main_v18]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v14, h_main_v16, h_main_v17, h_main_v18]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v14, h_main_v16, h_main_v17, h_main_v18]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v14, h_main_v16, h_main_v17, h_main_v18]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v14, h_main_v16, h_main_v17, h_main_v18]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v14, h_main_v16, h_main_v17, h_main_v18]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v14, h_main_v16, h_main_v17, h_main_v18]
  · simp (disch := decide) only [nullary_result', unary_result', binary_result', ternary_result', reshape_result', nullary_result_ne', unary_result_ne', binary_result_ne', ternary_result_ne', reshape_result_ne', h_main_arg0, h_main_v1, h_main_v4, h_main_v6, h_main_v8, h_main_v14, h_main_v16, h_main_v17, h_main_v18]
  · unfold val_main_v19
    rw [← h_main_v1]
    generalize W88 V = U
    (simp (disch := decide) only [nullary_result', unary_result', binary_result', ternary_result', reshape_result', nullary_result_ne', unary_result_ne', binary_result_ne', ternary_result_ne', reshape_result_ne']) <;> rfl

theorem spec_90 (V : Valuation τ sig (Elt F)) :
    W90 V (Proc.devRef .tc main_arg0) = (V (Proc.devRef .tc main_arg0))
    ∧ W90 V (Proc.devRef .tc main_v4) = val_main_v4 (F := F)
    ∧ W90 V (Proc.devRef .tc main_v6) = val_main_v6 (F := F) (V (Proc.devRef .tc main_arg0))
    ∧ W90 V (Proc.devRef .tc main_v8) = val_main_v8 (F := F) (V (Proc.devRef .tc main_arg0))
    ∧ W90 V (Proc.devRef .tc main_v16) = val_main_v16 (F := F) (V (Proc.devRef .tc main_arg0))
    ∧ W90 V (Proc.devRef .tc main_v17) = val_main_v17 (F := F) (V (Proc.devRef .tc main_arg0))
    ∧ W90 V (Proc.devRef .tc main_v18) = val_main_v18 (F := F) (V (Proc.devRef .tc main_arg0))
    ∧ W90 V (Proc.devRef .tc main_v20) = val_main_v20 (F := F) (V (Proc.devRef .tc main_arg0)) := by
  obtain ⟨h_main_arg0, h_main_v4, h_main_v6, h_main_v8, h_main_v14, h_main_v16, h_main_v17, h_main_v18, h_main_v19⟩ := spec_89 V
  unfold W90
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v4, h_main_v6, h_main_v8, h_main_v14, h_main_v16, h_main_v17, h_main_v18, h_main_v19]
  · simp (disch := decide) only [nullary_result', unary_result', binary_result', ternary_result', reshape_result', nullary_result_ne', unary_result_ne', binary_result_ne', ternary_result_ne', reshape_result_ne', h_main_arg0, h_main_v4, h_main_v6, h_main_v8, h_main_v14, h_main_v16, h_main_v17, h_main_v18, h_main_v19]
  · simp (disch := decide) only [nullary_result', unary_result', binary_result', ternary_result', reshape_result', nullary_result_ne', unary_result_ne', binary_result_ne', ternary_result_ne', reshape_result_ne', h_main_arg0, h_main_v4, h_main_v6, h_main_v8, h_main_v14, h_main_v16, h_main_v17, h_main_v18, h_main_v19]
  · simp (disch := decide) only [nullary_result', unary_result', binary_result', ternary_result', reshape_result', nullary_result_ne', unary_result_ne', binary_result_ne', ternary_result_ne', reshape_result_ne', h_main_arg0, h_main_v4, h_main_v6, h_main_v8, h_main_v14, h_main_v16, h_main_v17, h_main_v18, h_main_v19]
  · simp (disch := decide) only [nullary_result', unary_result', binary_result', ternary_result', reshape_result', nullary_result_ne', unary_result_ne', binary_result_ne', ternary_result_ne', reshape_result_ne', h_main_arg0, h_main_v4, h_main_v6, h_main_v8, h_main_v14, h_main_v16, h_main_v17, h_main_v18, h_main_v19]
  · simp (disch := decide) only [nullary_result', unary_result', binary_result', ternary_result', reshape_result', nullary_result_ne', unary_result_ne', binary_result_ne', ternary_result_ne', reshape_result_ne', h_main_arg0, h_main_v4, h_main_v6, h_main_v8, h_main_v14, h_main_v16, h_main_v17, h_main_v18, h_main_v19]
  · simp (disch := decide) only [nullary_result', unary_result', binary_result', ternary_result', reshape_result', nullary_result_ne', unary_result_ne', binary_result_ne', ternary_result_ne', reshape_result_ne', h_main_arg0, h_main_v4, h_main_v6, h_main_v8, h_main_v14, h_main_v16, h_main_v17, h_main_v18, h_main_v19]
  · unfold val_main_v20
    rw [← h_main_v19, ← h_main_v14]
    generalize W89 V = U
    (simp (disch := decide) only [nullary_result', unary_result', binary_result', ternary_result', reshape_result', nullary_result_ne', unary_result_ne', binary_result_ne', ternary_result_ne', reshape_result_ne']) <;> rfl

theorem spec_91 (V : Valuation τ sig (Elt F)) :
    W91 V (Proc.devRef .tc main_arg0) = (V (Proc.devRef .tc main_arg0))
    ∧ W91 V (Proc.devRef .tc main_v4) = val_main_v4 (F := F)
    ∧ W91 V (Proc.devRef .tc main_v6) = val_main_v6 (F := F) (V (Proc.devRef .tc main_arg0))
    ∧ W91 V (Proc.devRef .tc main_v8) = val_main_v8 (F := F) (V (Proc.devRef .tc main_arg0))
    ∧ W91 V (Proc.devRef .tc main_v17) = val_main_v17 (F := F) (V (Proc.devRef .tc main_arg0))
    ∧ W91 V (Proc.devRef .tc main_v18) = val_main_v18 (F := F) (V (Proc.devRef .tc main_arg0))
    ∧ W91 V (Proc.devRef .tc main_v21) = val_main_v21 (F := F) (V (Proc.devRef .tc main_arg0)) := by
  obtain ⟨h_main_arg0, h_main_v4, h_main_v6, h_main_v8, h_main_v16, h_main_v17, h_main_v18, h_main_v20⟩ := spec_90 V
  unfold W91
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v4, h_main_v6, h_main_v8, h_main_v16, h_main_v17, h_main_v18, h_main_v20]
  · simp (disch := decide) only [nullary_result', unary_result', binary_result', ternary_result', reshape_result', nullary_result_ne', unary_result_ne', binary_result_ne', ternary_result_ne', reshape_result_ne', h_main_arg0, h_main_v4, h_main_v6, h_main_v8, h_main_v16, h_main_v17, h_main_v18, h_main_v20]
  · simp (disch := decide) only [nullary_result', unary_result', binary_result', ternary_result', reshape_result', nullary_result_ne', unary_result_ne', binary_result_ne', ternary_result_ne', reshape_result_ne', h_main_arg0, h_main_v4, h_main_v6, h_main_v8, h_main_v16, h_main_v17, h_main_v18, h_main_v20]
  · simp (disch := decide) only [nullary_result', unary_result', binary_result', ternary_result', reshape_result', nullary_result_ne', unary_result_ne', binary_result_ne', ternary_result_ne', reshape_result_ne', h_main_arg0, h_main_v4, h_main_v6, h_main_v8, h_main_v16, h_main_v17, h_main_v18, h_main_v20]
  · simp (disch := decide) only [nullary_result', unary_result', binary_result', ternary_result', reshape_result', nullary_result_ne', unary_result_ne', binary_result_ne', ternary_result_ne', reshape_result_ne', h_main_arg0, h_main_v4, h_main_v6, h_main_v8, h_main_v16, h_main_v17, h_main_v18, h_main_v20]
  · simp (disch := decide) only [nullary_result', unary_result', binary_result', ternary_result', reshape_result', nullary_result_ne', unary_result_ne', binary_result_ne', ternary_result_ne', reshape_result_ne', h_main_arg0, h_main_v4, h_main_v6, h_main_v8, h_main_v16, h_main_v17, h_main_v18, h_main_v20]
  · unfold val_main_v21
    rw [← h_main_v20, ← h_main_v16]
    generalize W90 V = U
    (simp (disch := decide) only [nullary_result', unary_result', binary_result', ternary_result', reshape_result', nullary_result_ne', unary_result_ne', binary_result_ne', ternary_result_ne', reshape_result_ne']) <;> rfl

theorem spec_92 (V : Valuation τ sig (Elt F)) :
    W92 V (Proc.devRef .tc main_arg0) = (V (Proc.devRef .tc main_arg0))
    ∧ W92 V (Proc.devRef .tc main_v4) = val_main_v4 (F := F)
    ∧ W92 V (Proc.devRef .tc main_v6) = val_main_v6 (F := F) (V (Proc.devRef .tc main_arg0))
    ∧ W92 V (Proc.devRef .tc main_v17) = val_main_v17 (F := F) (V (Proc.devRef .tc main_arg0))
    ∧ W92 V (Proc.devRef .tc main_v18) = val_main_v18 (F := F) (V (Proc.devRef .tc main_arg0))
    ∧ W92 V (Proc.devRef .tc main_v21) = val_main_v21 (F := F) (V (Proc.devRef .tc main_arg0))
    ∧ W92 V (Proc.devRef .tc main_v22) = val_main_v22 (F := F) (V (Proc.devRef .tc main_arg0)) := by
  obtain ⟨h_main_arg0, h_main_v4, h_main_v6, h_main_v8, h_main_v17, h_main_v18, h_main_v21⟩ := spec_91 V
  unfold W92
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v4, h_main_v6, h_main_v8, h_main_v17, h_main_v18, h_main_v21]
  · simp (disch := decide) only [nullary_result', unary_result', binary_result', ternary_result', reshape_result', nullary_result_ne', unary_result_ne', binary_result_ne', ternary_result_ne', reshape_result_ne', h_main_arg0, h_main_v4, h_main_v6, h_main_v8, h_main_v17, h_main_v18, h_main_v21]
  · simp (disch := decide) only [nullary_result', unary_result', binary_result', ternary_result', reshape_result', nullary_result_ne', unary_result_ne', binary_result_ne', ternary_result_ne', reshape_result_ne', h_main_arg0, h_main_v4, h_main_v6, h_main_v8, h_main_v17, h_main_v18, h_main_v21]
  · simp (disch := decide) only [nullary_result', unary_result', binary_result', ternary_result', reshape_result', nullary_result_ne', unary_result_ne', binary_result_ne', ternary_result_ne', reshape_result_ne', h_main_arg0, h_main_v4, h_main_v6, h_main_v8, h_main_v17, h_main_v18, h_main_v21]
  · simp (disch := decide) only [nullary_result', unary_result', binary_result', ternary_result', reshape_result', nullary_result_ne', unary_result_ne', binary_result_ne', ternary_result_ne', reshape_result_ne', h_main_arg0, h_main_v4, h_main_v6, h_main_v8, h_main_v17, h_main_v18, h_main_v21]
  · simp (disch := decide) only [nullary_result', unary_result', binary_result', ternary_result', reshape_result', nullary_result_ne', unary_result_ne', binary_result_ne', ternary_result_ne', reshape_result_ne', h_main_arg0, h_main_v4, h_main_v6, h_main_v8, h_main_v17, h_main_v18, h_main_v21]
  · unfold val_main_v22
    rw [← h_main_v8, ← h_main_v6]
    generalize W91 V = U
    (simp (disch := decide) only [nullary_result', unary_result', binary_result', ternary_result', reshape_result', nullary_result_ne', unary_result_ne', binary_result_ne', ternary_result_ne', reshape_result_ne']) <;> rfl

theorem spec_93 (V : Valuation τ sig (Elt F)) :
    W93 V (Proc.devRef .tc main_arg0) = (V (Proc.devRef .tc main_arg0))
    ∧ W93 V (Proc.devRef .tc main_v4) = val_main_v4 (F := F)
    ∧ W93 V (Proc.devRef .tc main_v6) = val_main_v6 (F := F) (V (Proc.devRef .tc main_arg0))
    ∧ W93 V (Proc.devRef .tc main_v17) = val_main_v17 (F := F) (V (Proc.devRef .tc main_arg0))
    ∧ W93 V (Proc.devRef .tc main_v18) = val_main_v18 (F := F) (V (Proc.devRef .tc main_arg0))
    ∧ W93 V (Proc.devRef .tc main_v21) = val_main_v21 (F := F) (V (Proc.devRef .tc main_arg0))
    ∧ W93 V (Proc.devRef .tc main_v22) = val_main_v22 (F := F) (V (Proc.devRef .tc main_arg0))
    ∧ W93 V (Proc.devRef .tc main_c_7) = val_main_c_7 (F := F) := by
  obtain ⟨h_main_arg0, h_main_v4, h_main_v6, h_main_v17, h_main_v18, h_main_v21, h_main_v22⟩ := spec_92 V
  unfold W93
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22]
  · unfold val_main_c_7
    generalize W92 V = U
    (simp (disch := decide) only [nullary_result', unary_result', binary_result', ternary_result', reshape_result', nullary_result_ne', unary_result_ne', binary_result_ne', ternary_result_ne', reshape_result_ne']) <;> rfl

theorem spec_94 (V : Valuation τ sig (Elt F)) :
    W94 V (Proc.devRef .tc main_arg0) = (V (Proc.devRef .tc main_arg0))
    ∧ W94 V (Proc.devRef .tc main_v4) = val_main_v4 (F := F)
    ∧ W94 V (Proc.devRef .tc main_v6) = val_main_v6 (F := F) (V (Proc.devRef .tc main_arg0))
    ∧ W94 V (Proc.devRef .tc main_v17) = val_main_v17 (F := F) (V (Proc.devRef .tc main_arg0))
    ∧ W94 V (Proc.devRef .tc main_v18) = val_main_v18 (F := F) (V (Proc.devRef .tc main_arg0))
    ∧ W94 V (Proc.devRef .tc main_v21) = val_main_v21 (F := F) (V (Proc.devRef .tc main_arg0))
    ∧ W94 V (Proc.devRef .tc main_v22) = val_main_v22 (F := F) (V (Proc.devRef .tc main_arg0))
    ∧ W94 V (Proc.devRef .tc main_v23) = val_main_v23 (F := F) := by
  obtain ⟨h_main_arg0, h_main_v4, h_main_v6, h_main_v17, h_main_v18, h_main_v21, h_main_v22, h_main_c_7⟩ := spec_93 V
  unfold W94
  refine ⟨?_, ?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_c_7]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_c_7]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_c_7]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_c_7]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_c_7]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_c_7]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_c_7]
  · unfold val_main_v23
    rw [← h_main_c_7]
    generalize W93 V = U
    (simp (disch := decide) only [nullary_result', unary_result', binary_result', ternary_result', reshape_result', nullary_result_ne', unary_result_ne', binary_result_ne', ternary_result_ne', reshape_result_ne']) <;> rfl

theorem spec_95 (V : Valuation τ sig (Elt F)) :
    W95 V (Proc.devRef .tc main_arg0) = (V (Proc.devRef .tc main_arg0))
    ∧ W95 V (Proc.devRef .tc main_v4) = val_main_v4 (F := F)
    ∧ W95 V (Proc.devRef .tc main_v6) = val_main_v6 (F := F) (V (Proc.devRef .tc main_arg0))
    ∧ W95 V (Proc.devRef .tc main_v17) = val_main_v17 (F := F) (V (Proc.devRef .tc main_arg0))
    ∧ W95 V (Proc.devRef .tc main_v18) = val_main_v18 (F := F) (V (Proc.devRef .tc main_arg0))
    ∧ W95 V (Proc.devRef .tc main_v21) = val_main_v21 (F := F) (V (Proc.devRef .tc main_arg0))
    ∧ W95 V (Proc.devRef .tc main_v24) = val_main_v24 (F := F) (V (Proc.devRef .tc main_arg0)) := by
  obtain ⟨h_main_arg0, h_main_v4, h_main_v6, h_main_v17, h_main_v18, h_main_v21, h_main_v22, h_main_v23⟩ := spec_94 V
  unfold W95
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_v23]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_v23]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_v23]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_v23]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_v23]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v22, h_main_v23]
  · unfold val_main_v24
    rw [← h_main_v22, ← h_main_v23]
    generalize W94 V = U
    (simp (disch := decide) only [nullary_result', unary_result', binary_result', ternary_result', reshape_result', nullary_result_ne', unary_result_ne', binary_result_ne', ternary_result_ne', reshape_result_ne']) <;> rfl

theorem spec_96 (V : Valuation τ sig (Elt F)) :
    W96 V (Proc.devRef .tc main_arg0) = (V (Proc.devRef .tc main_arg0))
    ∧ W96 V (Proc.devRef .tc main_v4) = val_main_v4 (F := F)
    ∧ W96 V (Proc.devRef .tc main_v6) = val_main_v6 (F := F) (V (Proc.devRef .tc main_arg0))
    ∧ W96 V (Proc.devRef .tc main_v17) = val_main_v17 (F := F) (V (Proc.devRef .tc main_arg0))
    ∧ W96 V (Proc.devRef .tc main_v18) = val_main_v18 (F := F) (V (Proc.devRef .tc main_arg0))
    ∧ W96 V (Proc.devRef .tc main_v21) = val_main_v21 (F := F) (V (Proc.devRef .tc main_arg0))
    ∧ W96 V (Proc.devRef .tc main_v25) = val_main_v25 (F := F) (V (Proc.devRef .tc main_arg0)) := by
  obtain ⟨h_main_arg0, h_main_v4, h_main_v6, h_main_v17, h_main_v18, h_main_v21, h_main_v24⟩ := spec_95 V
  unfold W96
  refine ⟨?_, ?_, ?_, ?_, ?_, ?_, ?_⟩
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v24]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v24]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v24]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v24]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v24]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v24]
  · unfold val_main_v25
    rw [← h_main_v24]
    generalize W95 V = U
    (simp (disch := decide) only [nullary_result', unary_result', binary_result', ternary_result', reshape_result', nullary_result_ne', unary_result_ne', binary_result_ne', ternary_result_ne', reshape_result_ne']) <;> rfl

theorem spec_97 (V : Valuation τ sig (Elt F)) :
    W97 V (Proc.devRef .tc main_arg0) = (V (Proc.devRef .tc main_arg0))
    ∧ W97 V (Proc.devRef .tc main_v17) = val_main_v17 (F := F) (V (Proc.devRef .tc main_arg0))
    ∧ W97 V (Proc.devRef .tc main_v18) = val_main_v18 (F := F) (V (Proc.devRef .tc main_arg0))
    ∧ W97 V (Proc.devRef .tc main_v21) = val_main_v21 (F := F) (V (Proc.devRef .tc main_arg0))
    ∧ W97 V (Proc.devRef .tc main_v25) = val_main_v25 (F := F) (V (Proc.devRef .tc main_arg0))
    ∧ W97 V (Proc.devRef .tc main_v26) = val_main_v26 (F := F) (V (Proc.devRef .tc main_arg0)) := by
  obtain ⟨h_main_arg0, h_main_v4, h_main_v6, h_main_v17, h_main_v18, h_main_v21, h_main_v25⟩ := spec_96 V
  unfold W97
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v25]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v25]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v25]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v25]
  · simp (disch := decide) only [nullary_result', unary_result', binary_result', ternary_result', reshape_result', nullary_result_ne', unary_result_ne', binary_result_ne', ternary_result_ne', reshape_result_ne', h_main_arg0, h_main_v4, h_main_v6, h_main_v17, h_main_v18, h_main_v21, h_main_v25]
  · unfold val_main_v26
    rw [← h_main_v4, ← h_main_v6]
    generalize W96 V = U
    (simp (disch := decide) only [nullary_result', unary_result', binary_result', ternary_result', reshape_result', nullary_result_ne', unary_result_ne', binary_result_ne', ternary_result_ne', reshape_result_ne']) <;> rfl

theorem spec_98 (V : Valuation τ sig (Elt F)) :
    W98 V (Proc.devRef .tc main_arg0) = (V (Proc.devRef .tc main_arg0))
    ∧ W98 V (Proc.devRef .tc main_v17) = val_main_v17 (F := F) (V (Proc.devRef .tc main_arg0))
    ∧ W98 V (Proc.devRef .tc main_v18) = val_main_v18 (F := F) (V (Proc.devRef .tc main_arg0))
    ∧ W98 V (Proc.devRef .tc main_v21) = val_main_v21 (F := F) (V (Proc.devRef .tc main_arg0))
    ∧ W98 V (Proc.devRef .tc main_v25) = val_main_v25 (F := F) (V (Proc.devRef .tc main_arg0))
    ∧ W98 V (Proc.devRef .tc main_v27) = val_main_v27 (F := F) (V (Proc.devRef .tc main_arg0)) := by
  obtain ⟨h_main_arg0, h_main_v17, h_main_v18, h_main_v21, h_main_v25, h_main_v26⟩ := spec_97 V
  unfold W98
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v17, h_main_v18, h_main_v21, h_main_v25, h_main_v26]
  · simp (disch := decide) only [nullary_result', unary_result', binary_result', ternary_result', reshape_result', nullary_result_ne', unary_result_ne', binary_result_ne', ternary_result_ne', reshape_result_ne', h_main_arg0, h_main_v17, h_main_v18, h_main_v21, h_main_v25, h_main_v26]
  · simp (disch := decide) only [nullary_result', unary_result', binary_result', ternary_result', reshape_result', nullary_result_ne', unary_result_ne', binary_result_ne', ternary_result_ne', reshape_result_ne', h_main_arg0, h_main_v17, h_main_v18, h_main_v21, h_main_v25, h_main_v26]
  · simp (disch := decide) only [nullary_result', unary_result', binary_result', ternary_result', reshape_result', nullary_result_ne', unary_result_ne', binary_result_ne', ternary_result_ne', reshape_result_ne', h_main_arg0, h_main_v17, h_main_v18, h_main_v21, h_main_v25, h_main_v26]
  · simp (disch := decide) only [nullary_result', unary_result', binary_result', ternary_result', reshape_result', nullary_result_ne', unary_result_ne', binary_result_ne', ternary_result_ne', reshape_result_ne', h_main_arg0, h_main_v17, h_main_v18, h_main_v21, h_main_v25, h_main_v26]
  · unfold val_main_v27
    rw [← h_main_v26]
    generalize W97 V = U
    (simp (disch := decide) only [nullary_result', unary_result', binary_result', ternary_result', reshape_result', nullary_result_ne', unary_result_ne', binary_result_ne', ternary_result_ne', reshape_result_ne']) <;> rfl

theorem spec_99 (V : Valuation τ sig (Elt F)) :
    W99 V (Proc.devRef .tc main_arg0) = (V (Proc.devRef .tc main_arg0))
    ∧ W99 V (Proc.devRef .tc main_v17) = val_main_v17 (F := F) (V (Proc.devRef .tc main_arg0))
    ∧ W99 V (Proc.devRef .tc main_v18) = val_main_v18 (F := F) (V (Proc.devRef .tc main_arg0))
    ∧ W99 V (Proc.devRef .tc main_v21) = val_main_v21 (F := F) (V (Proc.devRef .tc main_arg0))
    ∧ W99 V (Proc.devRef .tc main_v28) = val_main_v28 (F := F) (V (Proc.devRef .tc main_arg0)) := by
  obtain ⟨h_main_arg0, h_main_v17, h_main_v18, h_main_v21, h_main_v25, h_main_v27⟩ := spec_98 V
  unfold W99
  refine ⟨?_, ?_, ?_, ?_, ?_⟩
  · simp (disch := decide) only [nullary_result', unary_result', binary_result', ternary_result', reshape_result', nullary_result_ne', unary_result_ne', binary_result_ne', ternary_result_ne', reshape_result_ne', h_main_arg0, h_main_v17, h_main_v18, h_main_v21, h_main_v25, h_main_v27]
  · simp (disch := decide) only [nullary_result', unary_result', binary_result', ternary_result', reshape_result', nullary_result_ne', unary_result_ne', binary_result_ne', ternary_result_ne', reshape_result_ne', h_main_arg0, h_main_v17, h_main_v18, h_main_v21, h_main_v25, h_main_v27]
  · simp (disch := decide) only [nullary_result', unary_result', binary_result', ternary_result', reshape_result', nullary_result_ne', unary_result_ne', binary_result_ne', ternary_result_ne', reshape_result_ne', h_main_arg0, h_main_v17, h_main_v18, h_main_v21, h_main_v25, h_main_v27]
  · simp (disch := decide) only [nullary_result', unary_result', binary_result', ternary_result', reshape_result', nullary_result_ne', unary_result_ne', binary_result_ne', ternary_result_ne', reshape_result_ne', h_main_arg0, h_main_v17, h_main_v18, h_main_v21, h_main_v25, h_main_v27]
  · unfold val_main_v28
    rw [← h_main_v27, ← h_main_v25]
    generalize W98 V = U
    (simp (disch := decide) only [nullary_result', unary_result', binary_result', ternary_result', reshape_result', nullary_result_ne', unary_result_ne', binary_result_ne', ternary_result_ne', reshape_result_ne']) <;> rfl

theorem spec_100 (V : Valuation τ sig (Elt F)) :
    W100 V (Proc.devRef .tc main_arg0) = (V (Proc.devRef .tc main_arg0))
    ∧ W100 V (Proc.devRef .tc main_v17) = val_main_v17 (F := F) (V (Proc.devRef .tc main_arg0))
    ∧ W100 V (Proc.devRef .tc main_v18) = val_main_v18 (F := F) (V (Proc.devRef .tc main_arg0))
    ∧ W100 V (Proc.devRef .tc main_v21) = val_main_v21 (F := F) (V (Proc.devRef .tc main_arg0))
    ∧ W100 V (Proc.devRef .tc main_v28) = val_main_v28 (F := F) (V (Proc.devRef .tc main_arg0))
    ∧ W100 V (Proc.devRef .tc main_cst_8) = val_main_cst_8 (F := F) := by
  obtain ⟨h_main_arg0, h_main_v17, h_main_v18, h_main_v21, h_main_v28⟩ := spec_99 V
  unfold W100
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v17, h_main_v18, h_main_v21, h_main_v28]
  · simp (disch := decide) only [nullary_result', unary_result', binary_result', ternary_result', reshape_result', nullary_result_ne', unary_result_ne', binary_result_ne', ternary_result_ne', reshape_result_ne', h_main_arg0, h_main_v17, h_main_v18, h_main_v21, h_main_v28]
  · simp (disch := decide) only [nullary_result', unary_result', binary_result', ternary_result', reshape_result', nullary_result_ne', unary_result_ne', binary_result_ne', ternary_result_ne', reshape_result_ne', h_main_arg0, h_main_v17, h_main_v18, h_main_v21, h_main_v28]
  · simp (disch := decide) only [nullary_result', unary_result', binary_result', ternary_result', reshape_result', nullary_result_ne', unary_result_ne', binary_result_ne', ternary_result_ne', reshape_result_ne', h_main_arg0, h_main_v17, h_main_v18, h_main_v21, h_main_v28]
  · simp (disch := decide) only [nullary_result', unary_result', binary_result', ternary_result', reshape_result', nullary_result_ne', unary_result_ne', binary_result_ne', ternary_result_ne', reshape_result_ne', h_main_arg0, h_main_v17, h_main_v18, h_main_v21, h_main_v28]
  · unfold val_main_cst_8
    generalize W99 V = U
    (simp (disch := decide) only [nullary_result', unary_result', binary_result', ternary_result', reshape_result', nullary_result_ne', unary_result_ne', binary_result_ne', ternary_result_ne', reshape_result_ne']) <;> rfl

theorem spec_101 (V : Valuation τ sig (Elt F)) :
    W101 V (Proc.devRef .tc main_arg0) = (V (Proc.devRef .tc main_arg0))
    ∧ W101 V (Proc.devRef .tc main_v17) = val_main_v17 (F := F) (V (Proc.devRef .tc main_arg0))
    ∧ W101 V (Proc.devRef .tc main_v18) = val_main_v18 (F := F) (V (Proc.devRef .tc main_arg0))
    ∧ W101 V (Proc.devRef .tc main_v21) = val_main_v21 (F := F) (V (Proc.devRef .tc main_arg0))
    ∧ W101 V (Proc.devRef .tc main_v28) = val_main_v28 (F := F) (V (Proc.devRef .tc main_arg0))
    ∧ W101 V (Proc.devRef .tc main_call10_v0) = val_main_call10_v0 (F := F) := by
  obtain ⟨h_main_arg0, h_main_v17, h_main_v18, h_main_v21, h_main_v28, h_main_cst_8⟩ := spec_100 V
  unfold W101
  refine ⟨?_, ?_, ?_, ?_, ?_, ?_⟩
  · simp (disch := decide) only [nullary_result', unary_result', binary_result', ternary_result', reshape_result', nullary_result_ne', unary_result_ne', binary_result_ne', ternary_result_ne', reshape_result_ne', h_main_arg0, h_main_v17, h_main_v18, h_main_v21, h_main_v28, h_main_cst_8]
  · simp (disch := decide) only [nullary_result', unary_result', binary_result', ternary_result', reshape_result', nullary_result_ne', unary_result_ne', binary_result_ne', ternary_result_ne', reshape_result_ne', h_main_arg0, h_main_v17, h_main_v18, h_main_v21, h_main_v28, h_main_cst_8]
  · simp (disch := decide) only [nullary_result', unary_result', binary_result', ternary_result', reshape_result', nullary_result_ne', unary_result_ne', binary_result_ne', ternary_result_ne', reshape_result_ne', h_main_arg0, h_main_v17, h_main_v18, h_main_v21, h_main_v28, h_main_cst_8]
  · simp (disch := decide) only [nullary_result', unary_result', binary_result', ternary_result', reshape_result', nullary_result_ne', unary_result_ne', binary_result_ne', ternary_result_ne', reshape_result_ne', h_main_arg0, h_main_v17, h_main_v18, h_main_v21, h_main_v28, h_main_cst_8]
  · simp (disch := decide) only [nullary_result', unary_result', binary_result', ternary_result', reshape_result', nullary_result_ne', unary_result_ne', binary_result_ne', ternary_result_ne', reshape_result_ne', h_main_arg0, h_main_v17, h_main_v18, h_main_v21, h_main_v28, h_main_cst_8]
  · unfold val_main_call10_v0
    rw [← h_main_cst_8]
    generalize W100 V = U
    (simp (disch := decide) only [nullary_result', unary_result', binary_result', ternary_result', reshape_result', nullary_result_ne', unary_result_ne', binary_result_ne', ternary_result_ne', reshape_result_ne']) <;> rfl

theorem spec_102 (V : Valuation τ sig (Elt F)) :
    W102 V (Proc.devRef .tc main_arg0) = (V (Proc.devRef .tc main_arg0))
    ∧ W102 V (Proc.devRef .tc main_v17) = val_main_v17 (F := F) (V (Proc.devRef .tc main_arg0))
    ∧ W102 V (Proc.devRef .tc main_v18) = val_main_v18 (F := F) (V (Proc.devRef .tc main_arg0))
    ∧ W102 V (Proc.devRef .tc main_v29) = val_main_v29 (F := F) (V (Proc.devRef .tc main_arg0)) := by
  obtain ⟨h_main_arg0, h_main_v17, h_main_v18, h_main_v21, h_main_v28, h_main_call10_v0⟩ := spec_101 V
  unfold W102
  refine ⟨?_, ?_, ?_, ?_⟩
  · simp (disch := decide) only [nullary_result', unary_result', binary_result', ternary_result', reshape_result', nullary_result_ne', unary_result_ne', binary_result_ne', ternary_result_ne', reshape_result_ne', h_main_arg0, h_main_v17, h_main_v18, h_main_v21, h_main_v28, h_main_call10_v0]
  · simp (disch := decide) only [nullary_result', unary_result', binary_result', ternary_result', reshape_result', nullary_result_ne', unary_result_ne', binary_result_ne', ternary_result_ne', reshape_result_ne', h_main_arg0, h_main_v17, h_main_v18, h_main_v21, h_main_v28, h_main_call10_v0]
  · simp (disch := decide) only [nullary_result', unary_result', binary_result', ternary_result', reshape_result', nullary_result_ne', unary_result_ne', binary_result_ne', ternary_result_ne', reshape_result_ne', h_main_arg0, h_main_v17, h_main_v18, h_main_v21, h_main_v28, h_main_call10_v0]
  · unfold val_main_v29
    rw [← h_main_v21, ← h_main_v28, ← h_main_call10_v0]
    generalize W101 V = U
    (simp (disch := decide) only [nullary_result', unary_result', binary_result', ternary_result', reshape_result', nullary_result_ne', unary_result_ne', binary_result_ne', ternary_result_ne', reshape_result_ne']) <;> rfl

theorem spec_103 (V : Valuation τ sig (Elt F)) :
    W103 V (Proc.devRef .tc main_arg0) = (V (Proc.devRef .tc main_arg0))
    ∧ W103 V (Proc.devRef .tc main_v17) = val_main_v17 (F := F) (V (Proc.devRef .tc main_arg0))
    ∧ W103 V (Proc.devRef .tc main_v29) = val_main_v29 (F := F) (V (Proc.devRef .tc main_arg0))
    ∧ W103 V (Proc.devRef .tc main_v30) = val_main_v30 (F := F) (V (Proc.devRef .tc main_arg0)) := by
  obtain ⟨h_main_arg0, h_main_v17, h_main_v18, h_main_v29⟩ := spec_102 V
  unfold W103
  refine ⟨?_, ?_, ?_, ?_⟩
  · simp (disch := decide) only [nullary_result', unary_result', binary_result', ternary_result', reshape_result', nullary_result_ne', unary_result_ne', binary_result_ne', ternary_result_ne', reshape_result_ne', h_main_arg0, h_main_v17, h_main_v18, h_main_v29]
  · simp (disch := decide) only [nullary_result', unary_result', binary_result', ternary_result', reshape_result', nullary_result_ne', unary_result_ne', binary_result_ne', ternary_result_ne', reshape_result_ne', h_main_arg0, h_main_v17, h_main_v18, h_main_v29]
  · simp (disch := decide) only [nullary_result', unary_result', binary_result', ternary_result', reshape_result', nullary_result_ne', unary_result_ne', binary_result_ne', ternary_result_ne', reshape_result_ne', h_main_arg0, h_main_v17, h_main_v18, h_main_v29]
  · unfold val_main_v30
    rw [← h_main_v18, ← h_main_v17]
    generalize W102 V = U
    (simp (disch := decide) only [nullary_result', unary_result', binary_result', ternary_result', reshape_result', nullary_result_ne', unary_result_ne', binary_result_ne', ternary_result_ne', reshape_result_ne']) <;> rfl

theorem spec_104 (V : Valuation τ sig (Elt F)) :
    W104 V (Proc.devRef .tc main_arg0) = (V (Proc.devRef .tc main_arg0))
    ∧ W104 V (Proc.devRef .tc main_v17) = val_main_v17 (F := F) (V (Proc.devRef .tc main_arg0))
    ∧ W104 V (Proc.devRef .tc main_v31) = val_main_v31 (F := F) (V (Proc.devRef .tc main_arg0)) := by
  obtain ⟨h_main_arg0, h_main_v17, h_main_v29, h_main_v30⟩ := spec_103 V
  unfold W104
  refine ⟨?_, ?_, ?_⟩
  · simp (disch := decide) only [nullary_result', unary_result', binary_result', ternary_result', reshape_result', nullary_result_ne', unary_result_ne', binary_result_ne', ternary_result_ne', reshape_result_ne', h_main_arg0, h_main_v17, h_main_v29, h_main_v30]
  · simp (disch := decide) only [nullary_result', unary_result', binary_result', ternary_result', reshape_result', nullary_result_ne', unary_result_ne', binary_result_ne', ternary_result_ne', reshape_result_ne', h_main_arg0, h_main_v17, h_main_v29, h_main_v30]
  · unfold val_main_v31
    rw [← h_main_v29, ← h_main_v30]
    generalize W103 V = U
    (simp (disch := decide) only [nullary_result', unary_result', binary_result', ternary_result', reshape_result', nullary_result_ne', unary_result_ne', binary_result_ne', ternary_result_ne', reshape_result_ne']) <;> rfl

theorem spec_105 (V : Valuation τ sig (Elt F)) :
    W105 V (Proc.devRef .tc main_arg0) = (V (Proc.devRef .tc main_arg0))
    ∧ W105 V (Proc.devRef .tc main_v32) = val_main_v32 (F := F) (V (Proc.devRef .tc main_arg0)) := by
  obtain ⟨h_main_arg0, h_main_v17, h_main_v31⟩ := spec_104 V
  unfold W105
  refine ⟨?_, ?_⟩
  · simp (disch := decide) only [nullary_result', unary_result', binary_result', ternary_result', reshape_result', nullary_result_ne', unary_result_ne', binary_result_ne', ternary_result_ne', reshape_result_ne', h_main_arg0, h_main_v17, h_main_v31]
  · unfold val_main_v32
    rw [← h_main_v17, ← h_main_v31]
    generalize W104 V = U
    (simp (disch := decide) only [nullary_result', unary_result', binary_result', ternary_result', reshape_result', nullary_result_ne', unary_result_ne', binary_result_ne', ternary_result_ne', reshape_result_ne']) <;> rfl

/-- Running the whole list is the last of those definitions. -/
theorem after_eq (V : Valuation τ sig (Elt F)) : after (ops (F := F)) V = W105 V := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 65536 in
theorem ops_sub : (ops : List (HloOp τ sig (Elt F))).Forall fun op => op.bufs ⊆ tcRefs τ sig :=
  ⟨nullary_bufs_sub .., unary_bufs_sub .., binary_bufs_sub .., nullary_bufs_sub .., unary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., ternary_bufs_sub .., unary_bufs_sub .., binary_bufs_sub .., binary_bufs_sub .., binary_bufs_sub .., nullary_bufs_sub .., unary_bufs_sub .., binary_bufs_sub .., unary_bufs_sub .., binary_bufs_sub .., unary_bufs_sub .., binary_bufs_sub .., nullary_bufs_sub .., unary_bufs_sub .., ternary_bufs_sub .., binary_bufs_sub .., binary_bufs_sub .., binary_bufs_sub ..⟩

set_option maxRecDepth 65536 in
set_option maxHeartbeats 4000000 in
/-- On every device, for any float values, from any memory with zero counters: every weakly fair execution of the
    program terminates with its result at the last stage of its argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = val_main_v32 (F := F) (m ((c.tc : Thread nD τ).loc main_arg0))
      ∧ r.2.mem ((c.tc : Thread nD τ).loc main_arg0) = m ((c.tc : Thread nD τ).loc main_arg0) :=
  (θ_run defs _ _).mono (fun _ h c =>
      ⟨(h c main_v32).trans ((congrFun (after_eq _) _).trans (spec_105 (launchContents m c)).2),
        (h c main_arg0).trans ((congrFun (after_eq _) _).trans (spec_105 (launchContents m c)).1)⟩)
    (run_seq scopedRefs_eq scopedSems_eq defs main (fun _ => ops) main_eq (fun _ => ops_sub) m ρ)

end Cert.Interp.RefRun2

end
-- ==== Proof.Spec.lean ====
/-
  Run-length linear interpolation along the time axis, as one function of the argument array.

  For a column `col` of 4096 extended reals, an entry is a GAP when it equals 0. `prevJ nz n` is the
  largest index below `n` that is not a gap (or -1), `nextJ nz T t` the least index from `t` on, below
  `T`, that is not a gap (or `T`). The result at row `t` joins the value at the previous non-gap and the
  value at the next non-gap by the line through them, a leading run is filled with the next value and a
  trailing run with the previous one.
-/
import Mathlib
import Idealize.ShloMosaic.PureOps.Ideal
import Idealize.ShloMosaic.Lib.ValueIdx

noncomputable section

namespace Cert.Interp

open Idealize.ShloMosaic Idealize.ShloMosaic.ValueIdx

/-- The largest index `s < n` with `nz s`, or `-1` when there is none. -/
def prevJ (nz : ℕ → Prop) [DecidablePred nz] : ℕ → ℤ
  | 0 => -1
  | n + 1 => if nz n then (n : ℤ) else prevJ nz n

/-- The least index `s` with `T - k ≤ s < T` and `nz s`, or `T` when there is none. -/
def nextUp (nz : ℕ → Prop) [DecidablePred nz] (T : ℕ) : ℕ → ℤ
  | 0 => (T : ℤ)
  | k + 1 => if nz (T - (k + 1)) then ((T - (k + 1) : ℕ) : ℤ) else nextUp nz T k

/-- The least index `s` with `t ≤ s < T` and `nz s`, or `T` when there is none. -/
def nextJ (nz : ℕ → Prop) [DecidablePred nz] (T t : ℕ) : ℤ := nextUp nz T (T - t)

theorem prevJ_ge (nz : ℕ → Prop) [DecidablePred nz] (n : ℕ) : -1 ≤ prevJ nz n := by
  induction n with
  | zero => simp [prevJ]
  | succ n ih => unfold prevJ; split <;> omega

theorem prevJ_lt (nz : ℕ → Prop) [DecidablePred nz] (n : ℕ) : prevJ nz n < n := by
  induction n with
  | zero => simp [prevJ]
  | succ n ih => unfold prevJ; split <;> push_cast <;> omega

theorem nextUp_le (nz : ℕ → Prop) [DecidablePred nz] (T k : ℕ) : nextUp nz T k ≤ T := by
  induction k with
  | zero => simp [nextUp]
  | succ k ih => unfold nextUp; split <;> omega

theorem nextUp_ge (nz : ℕ → Prop) [DecidablePred nz] (T k : ℕ) (hk : k ≤ T) : ((T - k : ℕ) : ℤ) ≤ nextUp nz T k := by
  induction k with
  | zero => simp [nextUp]
  | succ k ih => unfold nextUp; split
                 · exact le_refl _
                 · have := ih (by omega); omega

theorem nextJ_le (nz : ℕ → Prop) [DecidablePred nz] (T t : ℕ) : nextJ nz T t ≤ T := nextUp_le nz T _

theorem nextJ_ge (nz : ℕ → Prop) [DecidablePred nz] (T t : ℕ) (ht : t ≤ T) : (t : ℤ) ≤ nextJ nz T t := by
  have := nextUp_ge nz T (T - t) (by omega)
  unfold nextJ; omega

/-- The interpolated value at row `t` of a column. -/
def outAt (col : ℕ → EReal) (t : ℕ) : EReal :=
  let P : ℤ := prevJ (fun s => col s ≠ 0) (t + 1)
  let N : ℤ := nextJ (fun s => col s ≠ 0) 4096 t
  let sv : EReal := col P.toNat
  let ev : EReal := col (min N 4095).toNat
  let st : EReal := if 0 ≤ P then sv else ev
  let en : EReal := if N < 4096 then ev else sv
  let w : EReal := if col t = 0 ∧ 0 ≤ P ∧ N < 4096 then
      Ideal.div ((((t : ℤ) - P : ℤ) : ℝ) : EReal) (((max (N - P) 1 : ℤ) : ℝ) : EReal) else 0
  st + w * (en - st)

/-- The column of the array through `(b, ·, d)`. -/
def colOf (x : (⟨3, ![8, 4096, 512]⟩ : Shape).Idx → EReal) (b : Fin 8) (d : Fin 512) : ℕ → EReal :=
  fun s => if h : s < 4096 then x (ix3 b ⟨s, h⟩ d) else 0

/-- The whole result: every column interpolated. -/
def G (x : (⟨3, ![8, 4096, 512]⟩ : Shape).Idx → EReal) : (⟨3, ![8, 4096, 512]⟩ : Shape).Idx → EReal :=
  fun i => outAt (colOf x (i 0) (i 2)) (i 1).val

end Cert.Interp

end
-- ==== Proof.RefValue.lean ====
/-
  The reference program read as one function of its argument.

  Along the time axis of every column the reference computes, for each row, the index of the last
  entry at or before it that is not a gap (a running maximum of "index if not a gap, else -1") and the
  index of the first entry at or after it that is not a gap (a running minimum, from the far end, of
  "index if not a gap, else 4096"), reads the column at those two indices clipped into range, and
  joins the two values by the line through them. This module reads each of those stages at an index
  and shows that the last stage is the interpolation `Cert.Interp.G` of the argument array.
-/
import proofs.«173454_j55009941127452_2_alg».proof.Proof.RefRead
import proofs.«173454_j55009941127452_2_alg».proof.Proof.Spec
import Idealize.ShloMosaic.PureOps.Ideal.Laws

noncomputable section

namespace Cert.Interp.Ref

open Cert.ReferenceIdeal Cert.ReferenceIdeal.Gen Cert.ReferenceIdeal.Read Idealize.ShloMosaic Idealize.ShloMosaic.ValueIdx

/-! ## Signed 32-bit words as integers -/

/-- The signed maximum of two words is the maximum of the integers they denote. -/
theorem toInt_maxsi (x y : BitVec 32) : (IntOp.maxsi x y).toInt = max x.toInt y.toInt := by
  unfold IntOp.maxsi
  by_cases h : y.toInt < x.toInt
  · rw [if_pos (by simp [BitVec.slt, h])]; omega
  · rw [if_neg (by simp [BitVec.slt, h])]; omega

/-- The signed minimum of two words is the minimum of the integers they denote. -/
theorem toInt_minsi (x y : BitVec 32) : (IntOp.minsi x y).toInt = min x.toInt y.toInt := by
  unfold IntOp.minsi
  by_cases h : x.toInt < y.toInt
  · rw [if_pos (by simp [BitVec.slt, h])]; omega
  · rw [if_neg (by simp [BitVec.slt, h])]; omega

/-- A word built from a small natural number denotes that number. -/
theorem toInt_ofNat_small (n : ℕ) (h : n < 2147483648) : (BitVec.ofNat 32 n).toInt = (n : ℤ) := by
  have h1 : (BitVec.ofNat 32 n).toNat = n := by rw [BitVec.toNat_ofNat]; omega
  rw [BitVec.toInt_eq_toNat_cond, h1]; split <;> omega

/-! ## The running maximum: a fold of signed maxima over the window's positions -/

/-- A left fold of signed maxima over positions `0 … k-1`, where position `n` of the window of row `t`
    holds padding (the least word) while `t + n < 4095` and afterwards the entry "index if not a gap,
    else -1" at index `t + n - 4095`: once the window has reached the column it is the index of the
    last entry seen that is not a gap. -/
theorem cummax_fold (nz : ℕ → Prop) [DecidablePred nz] (t : ℕ) (ht : t < 4096) (e : ℕ → BitVec 32) (v : BitVec 32)
    (hv : v.toInt = -2147483648)
    (he : ∀ n, n < 4096 → (e n).toInt =
      if t + n < 4095 then -2147483648 else if nz (t + n - 4095) then ((t + n - 4095 : ℕ) : ℤ) else -1) :
    ∀ k, k ≤ 4096 → ((List.range k).foldl (fun r n => IntOp.maxsi r (e n)) v).toInt
        = if t + k < 4096 then -2147483648 else prevJ nz (t + k - 4095) := by
  intro k
  induction k with
  | zero =>
    intro _
    rw [List.range_zero, List.foldl_nil, hv]
    rw [if_pos (by omega)]
  | succ k ih =>
    intro hk
    rw [List.range_succ, List.foldl_append, List.foldl_cons, List.foldl_nil, toInt_maxsi, ih (by omega),
      he k (by omega)]
    rcases Nat.lt_or_ge (t + k) 4095 with h | h
    · rw [if_pos (by omega), if_pos h, if_pos (by omega)]; simp
    · obtain ⟨m, hm⟩ : ∃ m, t + k = 4095 + m := ⟨t + k - 4095, by omega⟩
      have e1 : t + k - 4095 = m := by omega
      have e2 : t + (k + 1) - 4095 = m + 1 := by omega
      rw [if_neg (by omega : ¬ t + k < 4095), if_neg (by omega : ¬ t + (k + 1) < 4096), e1, e2]
      have hge := prevJ_ge nz m
      have hlt := prevJ_lt nz m
      rw [prevJ]
      by_cases hz : nz m
      · rw [if_pos hz, if_pos hz]; split <;> omega
      · rw [if_neg hz, if_neg hz]; split <;> omega

/-! ## The running minimum from the far end -/

/-- The least index in `[a, a + k)` that is not a gap, or 4096: the minimum of "index if not a gap, else
    4096" over those indices, taken one more index at a time. -/
def fwd (nz : ℕ → Prop) [DecidablePred nz] (a : ℕ) : ℕ → ℤ
  | 0 => 4096
  | k + 1 => min (fwd nz a k) (if nz (a + k) then ((a + k : ℕ) : ℤ) else 4096)

/-- The same minimum with the first index split off instead of the last. -/
theorem fwd_front (nz : ℕ → Prop) [DecidablePred nz] (a k : ℕ) :
    fwd nz a (k + 1) = min (if nz a then (a : ℤ) else 4096) (fwd nz (a + 1) k) := by
  induction k with
  | zero => simp only [fwd, Nat.add_zero]; exact min_comm _ _
  | succ k ih =>
    rw [fwd, ih, fwd, min_assoc]
    have e : a + 1 + k = a + (k + 1) := by omega
    rw [e]

/-- Over the last `k` indices below 4096 that minimum is the first index from there on that is not a gap. -/
theorem fwd_eq_nextUp (nz : ℕ → Prop) [DecidablePred nz] (k : ℕ) (hk : k ≤ 4096) :
    fwd nz (4096 - k) k = nextUp nz 4096 k := by
  induction k with
  | zero => rfl
  | succ k ih =>
    have e : 4096 - (k + 1) + 1 = 4096 - k := by omega
    rw [fwd_front, e, ih (by omega), nextUp]
    have h1 := nextUp_le nz 4096 k
    have h2 := nextUp_ge nz 4096 k (by omega)
    by_cases hz : nz (4096 - (k + 1))
    · rw [if_pos hz, if_pos hz]; omega
    · rw [if_neg hz, if_neg hz]; omega

/-- A left fold of signed minima over positions `0 … k-1`, where position `n` of the window of row `t`
    holds the entry "index if not a gap, else 4096" at index `t + n` while that is inside the column and
    padding (the greatest word) afterwards: it is the minimum of those entries inside the column. -/
theorem cummin_fold (nz : ℕ → Prop) [DecidablePred nz] (t : ℕ) (ht : t < 4096) (e : ℕ → BitVec 32) (v : BitVec 32)
    (hv : v.toInt = 2147483647)
    (he : ∀ n, n < 4096 → (e n).toInt =
      if t + n < 4096 then (if nz (t + n) then ((t + n : ℕ) : ℤ) else 4096) else 2147483647) :
    ∀ k, k ≤ 4096 → ((List.range k).foldl (fun r n => IntOp.minsi r (e n)) v).toInt
        = if k = 0 then 2147483647 else fwd nz t (min k (4096 - t)) := by
  intro k
  induction k with
  | zero => intro _; rw [List.range_zero, List.foldl_nil, hv, if_pos rfl]
  | succ k ih =>
    intro hk
    rw [List.range_succ, List.foldl_append, List.foldl_cons, List.foldl_nil, toInt_minsi, ih (by omega),
      he k (by omega), if_neg (Nat.succ_ne_zero k)]
    have hle : ∀ j, fwd nz t j ≤ 4096 := by
      intro j; induction j with
      | zero => exact le_refl _
      | succ j ihj => rw [fwd]; exact le_trans (min_le_left _ _) ihj
    rcases Nat.lt_or_ge (t + k) 4096 with h | h
    · have e1 : min (k + 1) (4096 - t) = k + 1 := by omega
      have e2 : min k (4096 - t) = k := by omega
      rw [if_pos h, e1, e2, fwd]
      by_cases hk0 : k = 0
      · subst hk0; rw [if_pos rfl, fwd]; split <;> omega
      · rw [if_neg hk0]
    · have e1 : min (k + 1) (4096 - t) = 4096 - t := by omega
      have e2 : min k (4096 - t) = 4096 - t := by omega
      have hk0 : k ≠ 0 := by omega
      rw [if_neg (by omega : ¬ t + k < 4096), e1, e2, if_neg hk0]
      have := hle (4096 - t)
      omega

/-! ## A fold over the positions of a window with one long axis -/

/-- A left fold over `Fin N` whose step reads only the position's number is the fold over `0 … N-1`. -/
theorem foldl_finRange_eq_range {α : Type} (N : ℕ) (g : α → Fin N → α) (G : α → ℕ → α)
    (h : ∀ r (n : Fin N), g r n = G r n.val) (v : α) :
    (List.finRange N).foldl g v = (List.range N).foldl G v := by
  have e : g = fun r n => G r n.val := by funext r n; exact h r n
  rw [e, ← List.map_coe_finRange_eq_range, List.foldl_map]

/-- A left fold of `and` over one-bit words that are all 1, from 1, is 1. -/
theorem foldl_andi_ones {ι : Type} (g : ι → BitVec 1) (hg : ∀ n, g n = 1#1) :
    ∀ l : List ι, l.foldl (fun r n => IntOp.andi r (g n)) 1#1 = 1#1
  | [] => rfl
  | a :: l => by
    rw [List.foldl_cons, hg a]
    exact foldl_andi_ones g hg l

/-- The window shape `[1, 4096, 1]` has 4096 positions. -/
theorem numel_window : (⟨3, ![1, 4096, 1]⟩ : Shape).numel = 4096 := by
  simp [Shape.numel, Fin.prod_univ_succ]

/-- Position `n` of the window `[1, 4096, 1]` in row-major order is `(0, n, 0)`. -/
theorem window_pos (n : Fin (⟨3, ![1, 4096, 1]⟩ : Shape).numel) :
    (((⟨3, ![1, 4096, 1]⟩ : Shape).rowMajor.symm n) 0).val = 0 ∧
    (((⟨3, ![1, 4096, 1]⟩ : Shape).rowMajor.symm n) 1).val = n.val ∧
    (((⟨3, ![1, 4096, 1]⟩ : Shape).rowMajor.symm n) 2).val = 0 := by
  have h := congrArg Fin.val ((⟨3, ![1, 4096, 1]⟩ : Shape).rowMajor.apply_symm_apply n)
  rw [Shape.rowMajor_val_three] at h
  have h0 : (((⟨3, ![1, 4096, 1]⟩ : Shape).rowMajor.symm n) 0).val < 1 := (((⟨3, ![1, 4096, 1]⟩ : Shape).rowMajor.symm n) 0).isLt
  have h2 : (((⟨3, ![1, 4096, 1]⟩ : Shape).rowMajor.symm n) 2).val < 1 := (((⟨3, ![1, 4096, 1]⟩ : Shape).rowMajor.symm n) 2).isLt
  have e1 : (![1, 4096, 1] : Fin 3 → ℕ) 1 = 4096 := rfl
  have e2 : (![1, 4096, 1] : Fin 3 → ℕ) 2 = 1 := rfl
  rw [e1, e2] at h
  omega

/-- Two dependent conditionals with equivalent conditions, equal branches and the same default agree. -/
theorem dite_congr_cond {α : Type} {c c' : Prop} {dc : Decidable c} {dc' : Decidable c'} (hcc : c ↔ c') (A : c → α)
    (A' : c' → α) (B : α) (hA : ∀ h h', A h = A' h') :
    @dite α c dc A (fun _ => B) = @dite α c' dc' A' (fun _ => B) := by
  by_cases h : c
  · rw [dif_pos h, dif_pos (hcc.mp h)]; exact hA _ _
  · rw [dif_neg h, dif_neg (fun h' => h (hcc.mpr h'))]

/-- A windowed fold of an array `[8, 4096, 512]` with the window `[1, 4096, 1]`, strides one and padding
    `L` before the time axis, at `(b, t, d)`: the fold over the 4096 positions `n` of the window, position
    `n` holding the entry `(b, t + n - L, d)` where that is inside the array and the initial value elsewhere. -/
theorem reduceWindow_col {α : Type} (f : α → α → α) (L : ℕ) (hi : Fin 3 → ℕ)
    (x : (⟨3, ![8, 4096, 512]⟩ : Shape).Idx → α) (init : (⟨0, ![]⟩ : Shape).Idx → α)
    (h : (⟨3, ![8, 4096, 512]⟩ : Shape).ReduceWindows (![1, 4096, 1] : Fin 3 → ℕ) ![1, 1, 1] ![0, L, 0] hi
      ⟨3, ![8, 4096, 512]⟩)
    (hu : 0 < (⟨0, ![]⟩ : Shape).numel) (b : Fin 8) (t : Fin 4096) (d : Fin 512) :
    Host.reduceWindow f ![1, 4096, 1] ![1, 1, 1] ![0, L, 0] hi x init h hu (ix3 b t d)
      = (List.range 4096).foldl (fun r n => f r (if hin : L ≤ t.val + n ∧ t.val + n - L < 4096
          then x (ix3 b ⟨t.val + n - L, hin.2⟩ d) else init ix0)) (init ix0) := by
  unfold Host.reduceWindow
  dsimp only
  have hfirst : (Shape.Idx.first hu : (⟨0, ![]⟩ : Shape).Idx) = ix0 := funext fun a => a.elim0
  rw [hfirst]
  rw [foldl_finRange_eq_range _ _ (fun r n => f r (if hin : L ≤ t.val + n ∧ t.val + n - L < 4096
          then x (ix3 b ⟨t.val + n - L, hin.2⟩ d) else init ix0)), numel_window]
  intro r n
  obtain ⟨p0, p1, p2⟩ := window_pos n
  have hb := b.isLt
  have hd := d.isLt
  congr 1
  refine dite_congr_cond ⟨fun hin => ?_, fun hc a => ?_⟩ _ _ _ (fun hin hc => ?_)
  · have h1 := hin ⟨1, by decide⟩
    change L ≤ t.val * 1 + (((⟨3, ![1, 4096, 1]⟩ : Shape).rowMajor.symm n) 1).val ∧
      t.val * 1 + (((⟨3, ![1, 4096, 1]⟩ : Shape).rowMajor.symm n) 1).val - L < 4096 at h1
    rw [p1] at h1
    omega
  · match a with
    | ⟨0, _⟩ =>
      show 0 ≤ b.val * 1 + (((⟨3, ![1, 4096, 1]⟩ : Shape).rowMajor.symm n) 0).val ∧
        b.val * 1 + (((⟨3, ![1, 4096, 1]⟩ : Shape).rowMajor.symm n) 0).val - 0 < 8
      rw [p0]; omega
    | ⟨1, _⟩ =>
      show L ≤ t.val * 1 + (((⟨3, ![1, 4096, 1]⟩ : Shape).rowMajor.symm n) 1).val ∧
        t.val * 1 + (((⟨3, ![1, 4096, 1]⟩ : Shape).rowMajor.symm n) 1).val - L < 4096
      rw [p1]; omega
    | ⟨2, _⟩ =>
      show 0 ≤ d.val * 1 + (((⟨3, ![1, 4096, 1]⟩ : Shape).rowMajor.symm n) 2).val ∧
        d.val * 1 + (((⟨3, ![1, 4096, 1]⟩ : Shape).rowMajor.symm n) 2).val - 0 < 512
      rw [p2]; omega
  · congr 1
    funext a
    match a with
    | ⟨0, _⟩ =>
      refine Fin.ext ?_
      show b.val * 1 + (((⟨3, ![1, 4096, 1]⟩ : Shape).rowMajor.symm n) 0).val - 0 = b.val
      rw [p0]; omega
    | ⟨1, _⟩ =>
      refine Fin.ext ?_
      show t.val * 1 + (((⟨3, ![1, 4096, 1]⟩ : Shape).rowMajor.symm n) 1).val - L = t.val + n.val - L
      rw [p1]; omega
    | ⟨2, _⟩ =>
      refine Fin.ext ?_
      show d.val * 1 + (((⟨3, ![1, 4096, 1]⟩ : Shape).rowMajor.symm n) 2).val - 0 = d.val
      rw [p2]; omega

/-! ## The gather along the time axis -/

/-- `take_along_axis` along the time axis: result element `(b, t, d)` is the operand at `(b, k, d)`, where `k`
    is the start index at `(b, t, d, 0)` read as a signed integer and clamped into `[0, 4095]`. -/
theorem gather_col {α : Type} {w : ℕ} (x : S8x4096x512.Idx → α) (idx : IVec S8x4096x512x1 w)
    (b : Fin 8) (t : Fin 4096) (d : Fin 512) :
    Host.gather gather_S8x4096x512_S8x4096x512x1_S8x4096x512_n_1_02_02_1_3_111 x idx (ix3 b t d)
      = x (ix3 b ⟨min (idx (ix4 b t d (0 : Fin 1))).toInt.toNat 4095, by omega⟩ d) := by
  unfold Host.gather
  congr 1
  funext a
  refine Fin.ext ?_
  match a with
  | ⟨0, _⟩ =>
    show gather_S8x4096x512_S8x4096x512x1_S8x4096x512_n_1_02_02_1_3_111.start (ix3 b t d) idx ⟨0, by decide⟩ + gather_S8x4096x512_S8x4096x512x1_S8x4096x512_n_1_02_02_1_3_111.batchCoord (ix3 b t d) ⟨0, by decide⟩
      + gather_S8x4096x512_S8x4096x512x1_S8x4096x512_n_1_02_02_1_3_111.offCoord (ix3 b t d) ⟨0, by decide⟩ = b.val
    rw [GatherDims.start_batching _ _ _ _ (by decide),
      GatherDims.offCoord_eq_zero _ _ _ (fun h => ((GatherDims.mem_sKept _ _).mp h).2 (by decide))]
    unfold GatherDims.batchCoord
    rw [dif_pos (by decide)]
    simp only [Nat.zero_add, Nat.add_zero]
    rfl
  | ⟨1, _⟩ =>
    show gather_S8x4096x512_S8x4096x512x1_S8x4096x512_n_1_02_02_1_3_111.start (ix3 b t d) idx ⟨1, by decide⟩ + gather_S8x4096x512_S8x4096x512x1_S8x4096x512_n_1_02_02_1_3_111.batchCoord (ix3 b t d) ⟨1, by decide⟩
      + gather_S8x4096x512_S8x4096x512x1_S8x4096x512_n_1_02_02_1_3_111.offCoord (ix3 b t d) ⟨1, by decide⟩ = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    have hsi : gather_S8x4096x512_S8x4096x512x1_S8x4096x512_n_1_02_02_1_3_111.siIdx (ix3 b t d)
        ⟨List.idxOf (⟨1, by decide⟩ : Fin S8x4096x512.rank) gather_S8x4096x512_S8x4096x512x1_S8x4096x512_n_1_02_02_1_3_111.startIndexMap,
          List.idxOf_lt_length_iff.2 (by decide)⟩ = ix4 b t d (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    show gather_S8x4096x512_S8x4096x512x1_S8x4096x512_n_1_02_02_1_3_111.start (ix3 b t d) idx ⟨2, by decide⟩ + gather_S8x4096x512_S8x4096x512x1_S8x4096x512_n_1_02_02_1_3_111.batchCoord (ix3 b t d) ⟨2, by decide⟩
      + gather_S8x4096x512_S8x4096x512x1_S8x4096x512_n_1_02_02_1_3_111.offCoord (ix3 b t d) ⟨2, by decide⟩ = d.val
    rw [GatherDims.start_batching _ _ _ _ (by decide),
      GatherDims.offCoord_eq_zero _ _ _ (fun h => ((GatherDims.mem_sKept _ _).mp h).2 (by decide))]
    unfold GatherDims.batchCoord
    rw [dif_pos (by decide)]
    simp only [Nat.zero_add, Nat.add_zero]
    rfl

/-! ## One-bit words and signed comparisons -/

/-- A select on a decided proposition's bit is the conditional. -/
theorem select_decide {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- The conjunction of two decided bits. -/
theorem andi_decide (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The complement of a decided bit. -/
theorem not_decide (p : Prop) [Decidable p] : ~~~(BitVec.ofBool (decide p)) = BitVec.ofBool (decide (¬ p)) := by
  by_cases hp : p <;> simp [hp]

theorem cmpi_sge_eq (a c : BitVec 32) : IntOp.cmpi .sge a c = BitVec.ofBool (decide (c.toInt ≤ a.toInt)) := rfl
theorem cmpi_slt_eq (a c : BitVec 32) : IntOp.cmpi .slt a c = BitVec.ofBool (decide (a.toInt < c.toInt)) := rfl
theorem cmpi_sle_eq (a c : BitVec 32) : IntOp.cmpi .sle a c = BitVec.ofBool (decide (a.toInt ≤ c.toInt)) := rfl

/-- The column through `(b, ·, d)` at an index inside the array is the array's entry. -/
theorem colOf_eq (x : S8x4096x512.Idx → EReal) (b : Fin 8) (d : Fin 512) (s : ℕ) (k : Fin 4096) (hk : k.val = s) :
    colOf x b d s = x (ix3 b k d) := by
  subst hk
  unfold colOf
  rw [dif_pos k.isLt]

/-! ## The first stages at an index -/

/-- "The entry is not a gap", as a bit. -/
theorem v1_at (x : S8x4096x512.Idx → EReal) (j : S8x4096x512.Idx) :
    val_main_v1 (F := Ideal) x j = BitVec.ofBool (decide (x j ≠ 0)) := by
  rw [val_main_v1_apply, val_main_v0_apply, val_main_cst_apply]
  show BitVec.ofBool (decide (x j ≠ Ideal.ofBits .f32 0x00000000#32)) = _
  rw [Ideal.ofBits_zero_f32]

/-- The time index as a word. -/
theorem v4_at (b : Fin 8) (t : Fin 4096) (d : Fin 512) :
    val_main_v4 (F := Ideal) (ix3 b t d) = BitVec.ofNat 32 t.val := by
  rw [val_main_v4_apply, val_main_v3_apply, val_main_v2_apply]

/-- "Index if not a gap, else -1". -/
theorem v5_at (x : S8x4096x512.Idx → EReal) (b : Fin 8) (t : Fin 4096) (d : Fin 512) :
    val_main_v5 (F := Ideal) x (ix3 b t d) = if x (ix3 b t d) ≠ 0 then BitVec.ofNat 32 t.val else 4294967295#32 := by
  rw [val_main_v5_apply, v1_at, v4_at, val_main_call0_v1_apply, val_main_call0_v0_apply, val_main_c_apply, select_decide]

/-- "Index if not a gap, else 4096". -/
theorem v7_at (x : S8x4096x512.Idx → EReal) (b : Fin 8) (t : Fin 4096) (d : Fin 512) :
    val_main_v7 (F := Ideal) x (ix3 b t d) = if x (ix3 b t d) ≠ 0 then BitVec.ofNat 32 t.val else 4096#32 := by
  rw [val_main_v7_apply, v1_at, v4_at, val_main_call2_v1_apply, val_main_call2_v0_apply, val_main_c_0_apply, select_decide]

/-! ## The two running extrema at an index -/

/-- The running maximum at `(b, t, d)` is the index of the last entry at or before row `t` that is not a gap, or -1. -/
theorem v6_toInt (x : S8x4096x512.Idx → EReal) (b : Fin 8) (t : Fin 4096) (d : Fin 512) :
    (val_main_v6 (F := Ideal) x (ix3 b t d)).toInt = prevJ (fun s => colOf x b d s ≠ 0) (t.val + 1) := by
  unfold val_main_v6
  rw [reduceWindow_col]
  have ht := t.isLt
  have hv : (val_main_call1_v0 (F := Ideal) ix0).toInt = -2147483648 := by
    rw [val_main_call1_v0_apply, val_main_call1_c_apply]; decide
  refine (cummax_fold (fun s => colOf x b d s ≠ 0) t.val ht _ _ hv ?_ 4096 (le_refl _)).trans ?_
  · intro n hn
    by_cases h : t.val + n < 4095
    · rw [dif_neg (by omega), if_pos h, hv]
    · have hin : 4095 ≤ t.val + n ∧ t.val + n - 4095 < 4096 := ⟨by omega, by omega⟩
      rw [dif_pos hin, if_neg h, v5_at, colOf_eq x b d (t.val + n - 4095) ⟨t.val + n - 4095, hin.2⟩ rfl]
      by_cases hz : x (ix3 b ⟨t.val + n - 4095, hin.2⟩ d) ≠ 0
      · rw [if_pos hz, if_pos hz, toInt_ofNat_small _ (by omega)]
      · rw [if_neg hz, if_neg hz]; decide
  · have e : t.val + 4096 - 4095 = t.val + 1 := by omega
    rw [if_neg (by omega), e]

/-- The running minimum from the far end at `(b, t, d)` is the index of the first entry at or after row `t` that is
    not a gap, or 4096. -/
theorem v8_toInt (x : S8x4096x512.Idx → EReal) (b : Fin 8) (t : Fin 4096) (d : Fin 512) :
    (val_main_v8 (F := Ideal) x (ix3 b t d)).toInt = nextJ (fun s => colOf x b d s ≠ 0) 4096 t.val := by
  unfold val_main_v8
  rw [reduceWindow_col]
  have ht := t.isLt
  have hv : (val_main_call3_v0 (F := Ideal) ix0).toInt = 2147483647 := by
    rw [val_main_call3_v0_apply, val_main_call3_c_apply]; decide
  refine (cummin_fold (fun s => colOf x b d s ≠ 0) t.val ht _ _ hv ?_ 4096 (le_refl _)).trans ?_
  · intro n hn
    by_cases h : t.val + n < 4096
    · have hin : 0 ≤ t.val + n ∧ t.val + n - 0 < 4096 := ⟨by omega, by omega⟩
      rw [dif_pos hin, if_pos h, v7_at, colOf_eq x b d (t.val + n) ⟨t.val + n - 0, hin.2⟩ rfl]
      by_cases hz : x (ix3 b ⟨t.val + n - 0, hin.2⟩ d) ≠ 0
      · rw [if_pos hz, if_pos hz, toInt_ofNat_small _ (by omega)]; rfl
      · rw [if_neg hz, if_neg hz]; decide
    · rw [dif_neg (by omega), if_neg h, hv]
  · have e1 : min 4096 (4096 - t.val) = 4096 - t.val := by omega
    have e2 := fwd_eq_nextUp (fun s => colOf x b d s ≠ 0) (4096 - t.val) (by omega)
    have e3 : 4096 - (4096 - t.val) = t.val := by omega
    rw [e3] at e2
    rw [if_neg (by decide), e1, e2]
    rfl

/-! ## The clipped indices and the two gathers -/

theorem toInt_zero32 : (0#32 : BitVec 32).toInt = 0 := by decide
theorem toInt_one32 : (1#32 : BitVec 32).toInt = 1 := by decide
theorem toInt_4095 : (4095#32 : BitVec 32).toInt = 4095 := by decide
theorem toInt_4096 : (4096#32 : BitVec 32).toInt = 4096 := by decide

/-- The running maximum clipped into `[0, 4095]`. -/
theorem v9_toInt (x : S8x4096x512.Idx → EReal) (j : S8x4096x512.Idx) :
    (val_main_v9 (F := Ideal) x j).toInt = min 4095 (max 0 (val_main_v6 (F := Ideal) x j).toInt) := by
  rw [val_main_v9_apply, toInt_minsi, val_main_call4_v2_apply, toInt_maxsi, val_main_call4_v4_apply,
    val_main_call4_v3_apply, val_main_c_2_apply, val_main_call4_v1_apply, val_main_call4_v0_apply, val_main_c_1_apply,
    toInt_4095, toInt_zero32]

/-- The running minimum clipped into `[0, 4095]`. -/
theorem v11_toInt (x : S8x4096x512.Idx → EReal) (j : S8x4096x512.Idx) :
    (val_main_v11 (F := Ideal) x j).toInt = min 4095 (max 0 (val_main_v8 (F := Ideal) x j).toInt) := by
  rw [val_main_v11_apply, toInt_minsi, val_main_call6_v2_apply, toInt_maxsi, val_main_call6_v4_apply,
    val_main_call6_v3_apply, val_main_c_4_apply, val_main_call6_v1_apply, val_main_call6_v0_apply, val_main_c_3_apply,
    toInt_4095, toInt_zero32]

/-- A clipped index is not negative, so the wrap-around of negative indices leaves it alone. -/
theorem call5_v4_at (x : S8x4096x512.Idx → EReal) (j : S8x4096x512.Idx) :
    val_main_call5_v4 (F := Ideal) x j = val_main_v9 (F := Ideal) x j := by
  rw [val_main_call5_v4_apply, val_main_call5_v1_apply, cmpi_slt_eq, select_decide, if_neg]
  rw [val_main_call5_v0_apply, val_main_call5_c_apply, v9_toInt, toInt_zero32]
  omega

theorem call7_v4_at (x : S8x4096x512.Idx → EReal) (j : S8x4096x512.Idx) :
    val_main_call7_v4 (F := Ideal) x j = val_main_v11 (F := Ideal) x j := by
  rw [val_main_call7_v4_apply, val_main_call7_v1_apply, cmpi_slt_eq, select_decide, if_neg]
  rw [val_main_call7_v0_apply, val_main_call7_c_apply, v11_toInt, toInt_zero32]
  omega

/-- A clipped index is inside the column: every in-bounds bit of the first gather is 1 … -/
theorem call5_v11_at (x : S8x4096x512.Idx → EReal) (j : S8x4096x512x1.Idx) :
    val_main_call5_v11 (F := Ideal) x j = 1#1 := by
  rw [val_main_call5_v11_apply, val_main_call5_v7_apply, val_main_call5_v10_apply, cmpi_sge_eq, cmpi_sle_eq, andi_decide,
    val_main_call5_v5_apply, call5_v4_at, val_main_call5_v6_apply, val_main_call5_c_2_apply, val_main_call5_v9_apply,
    val_main_call5_v8_apply, val_main_call5_c_1_apply, v9_toInt, toInt_zero32, toInt_4095, decide_eq_true (by omega)]
  rfl

/-- … and of the second. -/
theorem call7_v11_at (x : S8x4096x512.Idx → EReal) (j : S8x4096x512x1.Idx) :
    val_main_call7_v11 (F := Ideal) x j = 1#1 := by
  rw [val_main_call7_v11_apply, val_main_call7_v7_apply, val_main_call7_v10_apply, cmpi_sge_eq, cmpi_sle_eq, andi_decide,
    val_main_call7_v5_apply, call7_v4_at, val_main_call7_v6_apply, val_main_call7_c_2_apply, val_main_call7_v9_apply,
    val_main_call7_v8_apply, val_main_call7_c_1_apply, v11_toInt, toInt_zero32, toInt_4095, decide_eq_true (by omega)]
  rfl

/-- So the in-bounds test of each gather, the `and` of those bits over the unit axis, is 1. -/
theorem call5_v12_at (x : S8x4096x512.Idx → EReal) (j : S8x4096x512.Idx) :
    val_main_call5_v12 (F := Ideal) x j = 1#1 := by
  unfold val_main_call5_v12 Host.reduce
  exact foldl_andi_ones (fun n => val_main_call5_v11 (F := Ideal) x (S8x4096x512x1.rowMajor.symm n))
    (fun n => call5_v11_at x _) _

theorem call7_v12_at (x : S8x4096x512.Idx → EReal) (j : S8x4096x512.Idx) :
    val_main_call7_v12 (F := Ideal) x j = 1#1 := by
  unfold val_main_call7_v12 Host.reduce
  exact foldl_andi_ones (fun n => val_main_call7_v11 (F := Ideal) x (S8x4096x512x1.rowMajor.symm n))
    (fun n => call7_v11_at x _) _

/-- The reshape `[8, 4096, 512] → [8, 4096, 512, 1]` reads `(b, t, d)` at `(b, t, d, 0)`. -/
theorem idx5_at (b : Fin 8) (t : Fin 4096) (d : Fin 512) : idx_main_call5_v5 (ix4 b t d (0 : Fin 1)) = ix3 b t d := by
  have hb := b.isLt
  have ht := t.isLt
  have hd := d.isLt
  funext a
  match a with
  | ⟨0, _⟩ => exact Fin.ext (by show (((b.val * 4096 + t.val) * 512 + d.val) * 1 + 0) / 2097152 = b.val; omega)
  | ⟨1, _⟩ => exact Fin.ext (by show (((b.val * 4096 + t.val) * 512 + d.val) * 1 + 0) / 512 % 4096 = t.val; omega)
  | ⟨2, _⟩ => exact Fin.ext (by show (((b.val * 4096 + t.val) * 512 + d.val) * 1 + 0) % 512 = d.val; omega)

theorem idx7_at (b : Fin 8) (t : Fin 4096) (d : Fin 512) : idx_main_call7_v5 (ix4 b t d (0 : Fin 1)) = ix3 b t d :=
  idx5_at b t d

/-- The first gathered value: the column at the index of the last entry at or before row `t` that is not a gap
    (at index 0 when there is none). -/
theorem v10_at (x : S8x4096x512.Idx → EReal) (b : Fin 8) (t : Fin 4096) (d : Fin 512) :
    val_main_v10 (F := Ideal) x (ix3 b t d)
      = colOf x b d (prevJ (fun s => colOf x b d s ≠ 0) (t.val + 1)).toNat := by
  rw [val_main_v10_apply, call5_v12_at, select_one]
  unfold val_main_call5_v13
  rw [gather_col]
  refine (colOf_eq x b d _ _ rfl).symm.trans ?_
  refine congrArg (colOf x b d) ?_
  show min (val_main_call5_v5 (F := Ideal) x (ix4 b t d (0 : Fin 1))).toInt.toNat 4095 = _
  rw [val_main_call5_v5_apply, idx5_at, call5_v4_at, v9_toInt, v6_toInt]
  have h1 := prevJ_ge (fun s => colOf x b d s ≠ 0) (t.val + 1)
  have h2 := prevJ_lt (fun s => colOf x b d s ≠ 0) (t.val + 1)
  have ht := t.isLt
  omega

/-- The second gathered value: the column at the index of the first entry at or after row `t` that is not a gap
    (at index 4095 when there is none). -/
theorem v12_at (x : S8x4096x512.Idx → EReal) (b : Fin 8) (t : Fin 4096) (d : Fin 512) :
    val_main_v12 (F := Ideal) x (ix3 b t d)
      = colOf x b d (min (nextJ (fun s => colOf x b d s ≠ 0) 4096 t.val) 4095).toNat := by
  rw [val_main_v12_apply, call7_v12_at, select_one]
  unfold val_main_call7_v13
  rw [gather_col]
  refine (colOf_eq x b d _ _ rfl).symm.trans ?_
  refine congrArg (colOf x b d) ?_
  show min (val_main_call7_v5 (F := Ideal) x (ix4 b t d (0 : Fin 1))).toInt.toNat 4095 = _
  rw [val_main_call7_v5_apply, idx7_at, call7_v4_at, v11_toInt, v8_toInt]
  have h1 := nextJ_le (fun s => colOf x b d s ≠ 0) 4096 t.val
  have h2 := nextJ_ge (fun s => colOf x b d s ≠ 0) 4096 t.val (by have := t.isLt; omega)
  omega

/-! ## The pointwise tail -/

/-- A difference of two words whose integer difference fits in 32 bits denotes that difference. -/
theorem toInt_subi_small (a c : BitVec 32) (h1 : -2147483648 ≤ a.toInt - c.toInt) (h2 : a.toInt - c.toInt < 2147483648) :
    (IntOp.subi a c).toInt = a.toInt - c.toInt := by
  unfold IntOp.subi
  rw [BitVec.toInt_sub, Int.bmod_def]
  split <;> omega

/-- A signed word converted to a float is, at the ideal instance, the integer it denotes. -/
theorem sitofp_eq (w : BitVec 32) : FloatOps.sitofp (F := Ideal) .f32 w = ((w.toInt : ℝ) : EReal) := rfl

/-- "There is an entry at or before this row that is not a gap", as a bit. -/
theorem v14_at (x : S8x4096x512.Idx → EReal) (j : S8x4096x512.Idx) :
    val_main_v14 (F := Ideal) x j = BitVec.ofBool (decide (0 ≤ (val_main_v6 (F := Ideal) x j).toInt)) := by
  rw [val_main_v14_apply, cmpi_sge_eq, val_main_v13_apply, val_main_c_5_apply, toInt_zero32]

/-- "There is an entry at or after this row that is not a gap", as a bit. -/
theorem v16_at (x : S8x4096x512.Idx → EReal) (j : S8x4096x512.Idx) :
    val_main_v16 (F := Ideal) x j = BitVec.ofBool (decide ((val_main_v8 (F := Ideal) x j).toInt < 4096)) := by
  rw [val_main_v16_apply, cmpi_slt_eq, val_main_v15_apply, val_main_c_6_apply, toInt_4096]

/-- "This entry is a gap strictly inside the column's support", as a bit. -/
theorem v21_at (x : S8x4096x512.Idx → EReal) (j : S8x4096x512.Idx) :
    val_main_v21 (F := Ideal) x j = BitVec.ofBool (decide (x j = 0 ∧ 0 ≤ (val_main_v6 (F := Ideal) x j).toInt
      ∧ (val_main_v8 (F := Ideal) x j).toInt < 4096)) := by
  rw [val_main_v21_apply, val_main_v20_apply, val_main_v19_apply, v1_at, v14_at, v16_at, not_decide, andi_decide, andi_decide]
  refine congrArg BitVec.ofBool (decide_eq_decide.mpr ⟨fun h => ⟨not_not.mp h.1.1, h.1.2, h.2⟩, fun h => ⟨⟨not_not.mpr h.1, h.2.1⟩, h.2.2⟩⟩)

/-- The weight of the far end in the join: the distance from the previous entry over the distance between the two
    entries (at least 1). -/
theorem v28_at (x : S8x4096x512.Idx → EReal) (b : Fin 8) (t : Fin 4096) (d : Fin 512) :
    val_main_v28 (F := Ideal) x (ix3 b t d)
      = Ideal.div ((((t.val : ℤ) - prevJ (fun s => colOf x b d s ≠ 0) (t.val + 1) : ℤ) : ℝ) : EReal)
          (((max (nextJ (fun s => colOf x b d s ≠ 0) 4096 t.val - prevJ (fun s => colOf x b d s ≠ 0) (t.val + 1)) 1 : ℤ) : ℝ) : EReal) := by
  have hP := v6_toInt x b t d
  have hN := v8_toInt x b t d
  have h1 := prevJ_ge (fun s => colOf x b d s ≠ 0) (t.val + 1)
  have h2 := prevJ_lt (fun s => colOf x b d s ≠ 0) (t.val + 1)
  have h3 := nextJ_le (fun s => colOf x b d s ≠ 0) 4096 t.val
  have h4 := nextJ_ge (fun s => colOf x b d s ≠ 0) 4096 t.val (by have := t.isLt; omega)
  have ht := t.isLt
  have ht' : (BitVec.ofNat 32 t.val).toInt = (t.val : ℤ) := toInt_ofNat_small _ (by omega)
  rw [val_main_v28_apply, val_main_v27_apply, val_main_v26_apply, val_main_v25_apply, val_main_v24_apply, val_main_v22_apply,
    val_main_v23_apply, val_main_c_7_apply, v4_at, sitofp_eq, sitofp_eq, toInt_maxsi,
    toInt_subi_small _ _ (by rw [ht', hP]; omega) (by rw [ht', hP]; omega),
    toInt_subi_small _ _ (by rw [hN, hP]; omega) (by rw [hN, hP]; omega), ht', hP, hN, toInt_one32]
  rfl

/-- THE REFERENCE AT AN INDEX: the last stage at `(b, t, d)` is the interpolated value of the column at row `t`. -/
theorem ref_at (x : S8x4096x512.Idx → EReal) (b : Fin 8) (t : Fin 4096) (d : Fin 512) :
    val_main_v32 (F := Ideal) x (ix3 b t d) = outAt (colOf x b d) t.val := by
  have hP := v6_toInt x b t d
  have hN := v8_toInt x b t d
  rw [val_main_v32_apply, val_main_v31_apply, val_main_v30_apply, val_main_v29_apply, val_main_v17_apply, val_main_v18_apply,
    val_main_call10_v0_apply, val_main_cst_8_apply, v21_at, v14_at, v16_at, v28_at, v10_at, v12_at,
    select_decide, select_decide, select_decide, hP, hN]
  unfold outAt
  rw [colOf_eq x b d t.val t rfl]
  rw [Ideal.ofBits_def, Ideal.ofBits_zero_f32]
  try rfl

/-- THE REFERENCE IS THE INTERPOLATION: the last stage of the reference program, at the ideal instance, is `G` of the
    argument array. -/
theorem ref_eq (x : (⟨Cert.ReferenceIdeal.S8x4096x512, .f32⟩ : BufTy).Contents (Elt Ideal)) :
    Cert.ReferenceIdeal.Read.val_main_v32 (F := Ideal) x = Cert.Interp.G x := by
  funext i
  obtain ⟨b, t, d, rfl⟩ : ∃ (b : Fin 8) (t : Fin 4096) (d : Fin 512), i = ix3 b t d := ⟨i 0, i 1, i 2, eq_ix3 i⟩
  exact ref_at x b t d

end Cert.Interp.Ref

end
-- ==== Proof.KFinal.lean ====
/-
  From blocks to the array.

  The grid has 8 × 4 points; point `t` handles batch row `t / 4` and the 128 lanes from `128 (t % 4)` on: its
  input block is that full-height slab of the argument array and what it writes back is the same slab of the
  result. The 32 slabs tile the array, so when every point's block is the slab of one whole-array function, the
  result array is that function.
-/
import proofs.«173454_j55009941127452_2_alg».proof.Proof.ValueKI
import proofs.«173454_j55009941127452_2_alg».proof.Proof.Spec
import Idealize.ShloMosaic.Lib.Pipeline.Value
import Idealize.ShloMosaic.Lib.ValueIdx

set_option maxRecDepth 16384

noncomputable section

namespace Cert.Interp.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The batch row of grid point `t`. -/
def brow (t : Fin cfg0.N) : Fin 8 :=
  ⟨t.val / 4, by have h : t.val < 32 := lt_of_lt_of_eq t.isLt N_0; omega⟩
/-- The first lane of grid point `t`, plus `l`. -/
def lane (t : Fin cfg0.N) (l : Fin 128) : Fin 512 := ⟨128 * (t.val % 4) + l.val, by have := l.isLt; omega⟩

/-- The block indices of both windows at point `t`: batch row `t / 4`, the whole height, lane block `t % 4`. -/
theorem idx_in : ∀ t : Fin cfg0.N, win0_0.index t (0 : Fin 3) = t.val / 4 ∧ win0_0.index t (1 : Fin 3) = 0
    ∧ win0_0.index t (2 : Fin 3) = t.val % 4 :=
  (by decide +kernel : ∀ t : Fin grid0.N, _)

theorem idx_out : ∀ t : Fin cfg0.N, win0_1.index t (0 : Fin 3) = t.val / 4 ∧ win0_1.index t (1 : Fin 3) = 0
    ∧ win0_1.index t (2 : Fin 3) = t.val % 4 :=
  (by decide +kernel : ∀ t : Fin grid0.N, _)

/-- The input block of point `t` is the argument array's slab. -/
theorem iblk_apply (c : Dev nD) (t : Fin cfg0.N) (r : Fin 4096) (l : Fin 128) :
    iblk (F := Ideal) m c 0 t (ix3 0 r l)
      = m ((c.tc : Thread nD τ).loc main_arg0) (ix3 (brow t) r (lane t l)) := by
  obtain ⟨e0, e1, e2⟩ := idx_in t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = t.val / 4; omega
  | ⟨1, _⟩ => show win0_0.index t (1 : Fin 3) * 4096 + 1 * r.val = r.val; omega
  | ⟨2, _⟩ => show win0_0.index t (2 : Fin 3) * 128 + 1 * l.val = 128 * (t.val % 4) + l.val; omega

/-- A block whose entries are those of the slab of `Gx` at point `t` agrees with `Gx` wherever the array index
    is the block index moved into the slab. -/
theorem slab_eq (t : Fin cfg0.N) (X : S1x4096x128.Idx → EReal) (Gx : S8x4096x512.Idx → EReal)
    (h : ∀ (r : Fin 4096) (l : Fin 128), X (ix3 0 r l) = Gx (ix3 (brow t) r (lane t l)))
    (j : S1x4096x128.Idx) (i : S8x4096x512.Idx)
    (h0 : (i 0).val = t.val / 4) (h1 : (i 1).val = (j 1).val)
    (h2 : (i 2).val = 128 * (t.val % 4) + (j 2).val) : X j = Gx i := by
  have hj : j = ix3 0 (j 1) (j 2) := by
    funext a
    match a with
    | ⟨0, _⟩ => exact Fin.ext (by have h00 : (j 0).val < 1 := (j 0).isLt; show (j 0).val = 0; omega)
    | ⟨1, _⟩ => rfl
    | ⟨2, _⟩ => rfl
  have hi : i = ix3 (brow t) (j 1) (lane t (j 2)) := by
    funext a
    apply Fin.ext
    match a with
    | ⟨0, _⟩ => exact h0
    | ⟨1, _⟩ => exact h1
    | ⟨2, _⟩ => exact h2
  rw [hi]
  exact (congrArg X hj).trans (h (j 1) (j 2))

/-- What point `t` writes back is its block of `Gx`. -/
theorem flushed_eq (c : Dev nD) (Gx : S8x4096x512.Idx → EReal)
    (h : ∀ (t : Fin cfg0.N) (r : Fin 4096) (l : Fin 128),
      outsAt0 (F := Ideal) m c t (ix3 0 r l) = Gx (ix3 (brow t) r (lane t l))) (t : Fin cfg0.N) :
    (dats (F := Ideal) m 0 c).flushed 1 t = ((cfg0.win 1).blk t).view.read (Elt Ideal) Gx := by
  rw [Cert.KernelIdeal.Value.flushed1]
  obtain ⟨e0, e1, e2⟩ := idx_out t
  funext j
  show outsAt0 (F := Ideal) m c t j = Gx (((cfg0.win 1).blk t).view.emb j)
  refine slab_eq t (outsAt0 (F := Ideal) m c t) Gx (h t) j _ ?_ ?_ ?_
  · show win0_1.index t (0 : Fin 3) * 1 + 1 * (j 0).val = t.val / 4
    have h00 : (j 0).val < 1 := (j 0).isLt
    omega
  · show win0_1.index t (1 : Fin 3) * 4096 + 1 * (j 1).val = (j 1).val
    omega
  · show win0_1.index t (2 : Fin 3) * 128 + 1 * (j 2).val = 128 * (t.val % 4) + (j 2).val
    omega

/-- An index of the array is in point `t`'s block iff each coordinate is in the block's range on its axis. -/
theorem mem_blk (t : Fin cfg0.N) (i : S8x4096x512.Idx) :
    i ∈ ((cfg0.win 1).blk t).view.set ↔ ∀ a : Fin 3, win0_1.index t a * S1x4096x128.size a ≤ (i a).val
      ∧ (i a).val < win0_1.index t a * S1x4096x128.size a + S1x4096x128.size a := by
  show i ∈ ((View.whole main_v0).slice (win0_1.rect t)).set ↔ _
  rw [View.set_slice_whole, Rect.mem_set_unit]
  exact Iff.rfl

/-- The 32 slabs tile the array: index `(b, r, d)` lies in the block of point `4 b + d / 128`. -/
theorem cover (i : S8x4096x512.Idx) :
    ∃ t : Fin cfg0.N, (cfg0.win 1).flush t = true ∧ i ∈ ((cfg0.win 1).blk t).view.set := by
  have hi0 : (i 0).val < 8 := (i 0).isLt
  have hi1 : (i 1).val < 4096 := (i 1).isLt
  have hi2 : (i 2).val < 512 := (i 2).isLt
  have hN : 4 * (i 0).val + (i 2).val / 128 < cfg0.N := lt_of_lt_of_eq (by omega) N_0.symm
  refine ⟨⟨4 * (i 0).val + (i 2).val / 128, hN⟩, flush0_1 _, ?_⟩
  obtain ⟨e0, e1, e2⟩ := idx_out ⟨4 * (i 0).val + (i 2).val / 128, hN⟩
  rw [mem_blk]
  intro a
  match a with
  | ⟨0, _⟩ =>
    show win0_1.index _ (0 : Fin 3) * 1 ≤ (i 0).val ∧ (i 0).val < win0_1.index _ (0 : Fin 3) * 1 + 1
    rw [e0]; dsimp only; omega
  | ⟨1, _⟩ =>
    show win0_1.index _ (1 : Fin 3) * 4096 ≤ (i 1).val ∧ (i 1).val < win0_1.index _ (1 : Fin 3) * 4096 + 4096
    rw [e1]; omega
  | ⟨2, _⟩ =>
    show win0_1.index _ (2 : Fin 3) * 128 ≤ (i 2).val ∧ (i 2).val < win0_1.index _ (2 : Fin 3) * 128 + 128
    rw [e2]; dsimp only; omega

/-- If every point leaves in the output's staging buffer the slab of one whole-array function `Gx`, the result
    array after the run is `Gx`. -/
theorem final_of_blocks (c : Dev nD) (Gx : S8x4096x512.Idx → EReal)
    (h : ∀ (t : Fin cfg0.N) (r : Fin 4096) (l : Fin 128),
      outsAt0 (F := Ideal) m c t (ix3 0 r l) = Gx (ix3 (brow t) r (lane t l))) :
    (dats (F := Ideal) m 0 c).arrAt 1 cfg0.N = Gx :=
  (dats (F := Ideal) m 0 c).arrAt_eq_of_cover 1 Gx (fun t _ => flushed_eq m c Gx h t) cover

end Cert.Interp.Blocks

end
-- ==== Proof.Scan.lean ====
/-
  The prefix scans by doubling shifts, as pure mathematics over integer positions of one column.

  A block of 256 rows starting at row `start` holds at row `r` the pair (position, value): the row's own
  global index and its value where the row is not a gap, the bottom position -1 (forward) or the top position
  4096 (backward) where it is. One doubling step with shift `s` replaces the pair at `r` by the pair `s` rows
  before (forward; after, backward) when that one's position is larger (smaller). After the shifts
  1, 2, 4, …, 128 every row holds the nearest non-gap of its block at or before (at or after) it, and a row
  whose block prefix (suffix) has none takes the pair carried in from the blocks before (after).
-/
import proofs.«173454_j55009941127452_2_alg».proof.Proof.Spec

noncomputable section

namespace Cert.Interp

variable {α : Type}

/-- One doubling step of the forward scan over rows `0 … 255`: the pair `s` rows before, masked to the bottom
    position above the first `s` rows, replaces the row's own when its position is larger. The value that comes
    with a masked row is the rotation's wrapped one; it is never taken. -/
def fstep (s : ℕ) (PV : ℕ → ℤ × α) : ℕ → ℤ × α := fun r =>
  let rp : ℤ := if s ≤ r then (PV (r - s)).1 else -1
  if rp > (PV r).1 then (rp, (PV ((r + 256 - s) % 256)).2) else PV r

/-- One doubling step of the backward scan: the pair `s` rows after, masked to the top position on the last
    `s` rows, replaces the row's own when its position is smaller. -/
def bstep (s : ℕ) (PV : ℕ → ℤ × α) : ℕ → ℤ × α := fun r =>
  let rp : ℤ := if r < 256 - s then (PV (r + s)).1 else 4096
  if rp < (PV r).1 then (rp, (PV ((r + s) % 256)).2) else PV r

/-- A block's rows before the forward scan. -/
def finit (nz : ℕ → Prop) [DecidablePred nz] (col : ℕ → α) (start : ℕ) : ℕ → ℤ × α := fun r =>
  (if nz (start + r) then ((start + r : ℕ) : ℤ) else -1, col (start + r))

/-- A block's rows before the backward scan. -/
def binit (nz : ℕ → Prop) [DecidablePred nz] (col : ℕ → α) (start : ℕ) : ℕ → ℤ × α := fun r =>
  (if nz (start + r) then ((start + r : ℕ) : ℤ) else 4096, col (start + r))

/-- The eight forward steps. -/
def fscan (PV : ℕ → ℤ × α) : ℕ → ℤ × α :=
  fstep 128 (fstep 64 (fstep 32 (fstep 16 (fstep 8 (fstep 4 (fstep 2 (fstep 1 PV)))))))

/-- The eight backward steps. -/
def bscan (PV : ℕ → ℤ × α) : ℕ → ℤ × α :=
  bstep 128 (bstep 64 (bstep 32 (bstep 16 (bstep 8 (bstep 4 (bstep 2 (bstep 1 PV)))))))

/-- The value at the previous non-gap below `n`, or `z` when there is none. -/
def pvalAt (nz : ℕ → Prop) [DecidablePred nz] (col : ℕ → α) (z : α) (n : ℕ) : α :=
  if 0 ≤ prevJ nz n then col (prevJ nz n).toNat else z

/-- The value at the next non-gap from `t` on, or `z` when there is none. -/
def nvalAt (nz : ℕ → Prop) [DecidablePred nz] (col : ℕ → α) (z : α) (t : ℕ) : α :=
  if nextJ nz 4096 t < 4096 then col (nextJ nz 4096 t).toNat else z

/-! ### The forward scan -/

/-- The maximum of `p` over those of the `w` rows ending at `r` that exist, with bottom `-1`. -/
def win (p : ℕ → ℤ) (r : ℕ) : ℕ → ℤ
  | 0 => -1
  | w + 1 => max (win p r w) (if w ≤ r then p (r - w) else -1)

theorem win_zero (p : ℕ → ℤ) (r : ℕ) : win p r 0 = -1 := rfl

theorem win_succ (p : ℕ → ℤ) (r w : ℕ) :
    win p r (w + 1) = max (win p r w) (if w ≤ r then p (r - w) else -1) := rfl

theorem win_ge (p : ℕ → ℤ) (r w : ℕ) : -1 ≤ win p r w := by
  induction w with
  | zero => rw [win_zero]
  | succ w ih => rw [win_succ]; exact le_trans ih (le_max_left _ _)

/-- A window of width `a + b` is the window of width `a` joined with the window of width `b` ending
    `a` rows before. -/
theorem win_add (p : ℕ → ℤ) (r a b : ℕ) :
    win p r (a + b) = max (win p r a) (if a ≤ r then win p (r - a) b else -1) := by
  induction b with
  | zero =>
    have h := win_ge p r a
    rw [Nat.add_zero, win_zero]
    split_ifs <;> omega
  | succ b ih =>
    rw [← Nat.add_assoc, win_succ, ih, win_succ]
    by_cases ha : a ≤ r
    · by_cases hb : b ≤ r - a
      · have h1 : a + b ≤ r := by omega
        have h2 : r - (a + b) = r - a - b := by omega
        rw [if_pos ha, if_pos ha, if_pos hb, if_pos h1, h2, max_assoc]
      · have h1 : ¬ a + b ≤ r := by omega
        rw [if_pos ha, if_pos ha, if_neg hb, if_neg h1, max_assoc]
    · have h1 : ¬ a + b ≤ r := by omega
      rw [if_neg ha, if_neg ha, if_neg h1, max_assoc, max_self]

/-- Once the window reaches row 0 it stops growing. -/
theorem win_stable (p : ℕ → ℤ) (r w : ℕ) (h : r + 1 ≤ w) : win p r w = win p r (r + 1) := by
  induction w, h using Nat.le_induction with
  | base => rfl
  | succ w hw ih =>
    rw [win_succ, if_neg (by omega), ih]
    exact max_eq_left (win_ge p r (r + 1))

/-- The full window ending one row later is the new row joined with the full window before. -/
theorem win_top (p : ℕ → ℤ) (r : ℕ) (hp : -1 ≤ p (r + 1)) :
    win p (r + 1) (r + 1 + 1) = max (p (r + 1)) (win p r (r + 1)) := by
  have h := win_add p (r + 1) 1 (r + 1)
  rw [show 1 + (r + 1) = r + 1 + 1 by omega] at h
  rw [h, win_succ, win_zero, if_pos (Nat.zero_le _), if_pos (by omega), Nat.sub_zero,
    Nat.add_sub_cancel, max_eq_right hp]

/-- The position a forward step leaves at a row. -/
theorem fstep_fst (s : ℕ) (PV : ℕ → ℤ × α) (r : ℕ) :
    (fstep s PV r).1 = max (PV r).1 (if s ≤ r then (PV (r - s)).1 else -1) := by
  dsimp only [fstep]
  split_ifs with h1 h2 h2 <;> (try dsimp only) <;> omega

/-- A forward step with shift `s` doubles a window of width `s`. -/
theorem fstep_win (p : ℕ → ℤ) (s : ℕ) (PV : ℕ → ℤ × α) (h : ∀ r, (PV r).1 = win p r s) :
    ∀ r, (fstep s PV r).1 = win p r (s + s) := by
  intro r
  rw [fstep_fst, win_add, h r]
  split_ifs with hs
  · rw [h (r - s)]
  · rfl

/-- After the eight steps every row holds the maximum over the 256 rows ending at it. -/
theorem fscan_fst (PV : ℕ → ℤ × α) (hp : ∀ r, -1 ≤ (PV r).1) (r : ℕ) :
    (fscan PV r).1 = win (fun r => (PV r).1) r 256 := by
  have h1 : ∀ r, (PV r).1 = win (fun r => (PV r).1) r 1 := by
    intro r
    rw [win_succ, win_zero, if_pos (Nat.zero_le _), Nat.sub_zero]
    exact (max_eq_right (hp r)).symm
  have h2 := fstep_win _ 1 _ h1
  have h4 := fstep_win _ 2 _ h2
  have h8 := fstep_win _ 4 _ h4
  have h16 := fstep_win _ 8 _ h8
  have h32 := fstep_win _ 16 _ h16
  have h64 := fstep_win _ 32 _ h32
  have h128 := fstep_win _ 64 _ h64
  have h256 := fstep_win _ 128 _ h128
  exact h256 r

/-- Every row's position is at least the bottom, and a row with a position holds the column's value there. -/
def FGood (col : ℕ → α) (PV : ℕ → ℤ × α) : Prop :=
  ∀ r, r < 256 → -1 ≤ (PV r).1 ∧ (0 ≤ (PV r).1 → (PV r).2 = col (PV r).1.toNat)

theorem fstep_good (col : ℕ → α) (s : ℕ) (PV : ℕ → ℤ × α) (h : FGood col PV) :
    FGood col (fstep s PV) := by
  intro r hr
  obtain ⟨h1, h2⟩ := h r hr
  dsimp only [fstep]
  by_cases hc : (if s ≤ r then (PV (r - s)).1 else -1) > (PV r).1
  · rw [if_pos hc]
    by_cases hs : s ≤ r
    · rw [if_pos hs] at hc ⊢
      have hm : (r + 256 - s) % 256 = r - s := by omega
      rw [hm]
      obtain ⟨h3, h4⟩ := h (r - s) (by omega)
      exact ⟨h3, h4⟩
    · rw [if_neg hs] at hc; omega
  · rw [if_neg hc]; exact ⟨h1, h2⟩

theorem fscan_good (col : ℕ → α) (PV : ℕ → ℤ × α) (h : FGood col PV) : FGood col (fscan PV) := by
  unfold fscan
  exact fstep_good col _ _ (fstep_good col _ _ (fstep_good col _ _ (fstep_good col _ _
    (fstep_good col _ _ (fstep_good col _ _ (fstep_good col _ _ (fstep_good col _ _ h)))))))

/-- The positions of a block before the forward scan. -/
def fpos (nz : ℕ → Prop) [DecidablePred nz] (start : ℕ) : ℕ → ℤ := fun r =>
  if nz (start + r) then ((start + r : ℕ) : ℤ) else -1

theorem fpos_ge (nz : ℕ → Prop) [DecidablePred nz] (start r : ℕ) : -1 ≤ fpos nz start r := by
  unfold fpos; split_ifs <;> omega

theorem finit_good (nz : ℕ → Prop) [DecidablePred nz] (col : ℕ → α) (start : ℕ) :
    FGood col (finit nz col start) := by
  intro r _
  dsimp only [finit]
  split_ifs with h
  · exact ⟨by omega, fun _ => by rw [Int.toNat_natCast]⟩
  · exact ⟨le_refl _, fun h0 => by omega⟩

theorem prevJ_succ (nz : ℕ → Prop) [DecidablePred nz] (n : ℕ) :
    prevJ nz (n + 1) = if nz n then (n : ℤ) else prevJ nz n := rfl

/-- The previous non-gap below row `start + r + 1` is the maximum over the block's rows up to `r` when
    there is one, and the previous non-gap below the block otherwise. -/
theorem prevJ_win (nz : ℕ → Prop) [DecidablePred nz] (start r : ℕ) :
    prevJ nz (start + r + 1) =
      if 0 ≤ win (fpos nz start) r (r + 1) then win (fpos nz start) r (r + 1) else prevJ nz start := by
  induction r with
  | zero =>
    rw [win_succ, win_zero, if_pos (le_refl _), Nat.sub_zero, max_eq_right (fpos_ge nz start 0),
      prevJ_succ]
    unfold fpos
    simp only [Nat.add_zero]
    split_ifs <;> omega
  | succ r ih =>
    have hlt := prevJ_lt nz (start + r + 1)
    have hge := win_ge (fpos nz start) r (r + 1)
    rw [win_top _ _ (fpos_ge nz start (r + 1)), ← Nat.add_assoc, prevJ_succ]
    unfold fpos at ih hge ⊢
    rw [← Nat.add_assoc]
    split_ifs at ih ⊢ <;> omega

/-! ### The backward scan -/

/-- The minimum of `p` over those of the `w` rows from `r` on that lie in the block, with top `4096`. -/
def bwin (p : ℕ → ℤ) (r : ℕ) : ℕ → ℤ
  | 0 => 4096
  | w + 1 => min (bwin p r w) (if r + w < 256 then p (r + w) else 4096)

theorem bwin_zero (p : ℕ → ℤ) (r : ℕ) : bwin p r 0 = 4096 := rfl

theorem bwin_succ (p : ℕ → ℤ) (r w : ℕ) :
    bwin p r (w + 1) = min (bwin p r w) (if r + w < 256 then p (r + w) else 4096) := rfl

theorem bwin_le (p : ℕ → ℤ) (r w : ℕ) : bwin p r w ≤ 4096 := by
  induction w with
  | zero => rw [bwin_zero]
  | succ w ih => rw [bwin_succ]; exact le_trans (min_le_left _ _) ih

/-- A window of width `a + b` is the window of width `a` joined with the window of width `b` starting
    `a` rows after. -/
theorem bwin_add (p : ℕ → ℤ) (r a b : ℕ) :
    bwin p r (a + b) = min (bwin p r a) (if r + a < 256 then bwin p (r + a) b else 4096) := by
  induction b with
  | zero =>
    have h := bwin_le p r a
    rw [Nat.add_zero, bwin_zero]
    split_ifs <;> omega
  | succ b ih =>
    rw [← Nat.add_assoc, bwin_succ, ih, bwin_succ]
    by_cases ha : r + a < 256
    · rw [if_pos ha, if_pos ha, show r + (a + b) = r + a + b by omega, min_assoc]
    · have h1 : ¬ r + (a + b) < 256 := by omega
      rw [if_neg ha, if_neg ha, if_neg h1, min_assoc, min_self]

/-- Once the window reaches the block's last row it stops growing. -/
theorem bwin_stable (p : ℕ → ℤ) (r w : ℕ) (h : 256 - r ≤ w) : bwin p r w = bwin p r (256 - r) := by
  induction w, h using Nat.le_induction with
  | base => rfl
  | succ w hw ih =>
    rw [bwin_succ, if_neg (by omega), ih]
    exact min_eq_left (bwin_le p r (256 - r))

/-- A window starting one row earlier is the new row joined with the window after. -/
theorem bwin_bot (p : ℕ → ℤ) (r d : ℕ) (hr : r < 256) (hp : p r ≤ 4096) (hd : r + 1 < 256 ∨ d = 0) :
    bwin p r (d + 1) = min (p r) (bwin p (r + 1) d) := by
  have h := bwin_add p r 1 d
  rw [show 1 + d = d + 1 by omega] at h
  rw [h, bwin_succ, bwin_zero, Nat.add_zero, if_pos hr, min_eq_right hp]
  rcases hd with hd | hd
  · rw [if_pos hd]
  · subst hd
    rw [bwin_zero]
    split_ifs <;> rfl

/-- The position a backward step leaves at a row. -/
theorem bstep_fst (s : ℕ) (PV : ℕ → ℤ × α) (r : ℕ) :
    (bstep s PV r).1 = min (PV r).1 (if r + s < 256 then (PV (r + s)).1 else 4096) := by
  dsimp only [bstep]
  split_ifs <;> (try dsimp only) <;> omega

/-- A backward step with shift `s` doubles a window of width `s`. -/
theorem bstep_win (p : ℕ → ℤ) (s : ℕ) (PV : ℕ → ℤ × α) (h : ∀ r, r < 256 → (PV r).1 = bwin p r s) :
    ∀ r, r < 256 → (bstep s PV r).1 = bwin p r (s + s) := by
  intro r hr
  rw [bstep_fst, bwin_add, h r hr]
  split_ifs with hs
  · rw [h (r + s) hs]
  · rfl

/-- After the eight steps every row holds the minimum over the block's rows from it on. -/
theorem bscan_fst (PV : ℕ → ℤ × α) (hp : ∀ r, r < 256 → (PV r).1 ≤ 4096) (r : ℕ) (hr : r < 256) :
    (bscan PV r).1 = bwin (fun r => (PV r).1) r 256 := by
  have h1 : ∀ r, r < 256 → (PV r).1 = bwin (fun r => (PV r).1) r 1 := by
    intro r hr
    rw [bwin_succ, bwin_zero, Nat.add_zero, if_pos hr]
    exact (min_eq_right (hp r hr)).symm
  have h2 := bstep_win _ 1 _ h1
  have h4 := bstep_win _ 2 _ h2
  have h8 := bstep_win _ 4 _ h4
  have h16 := bstep_win _ 8 _ h8
  have h32 := bstep_win _ 16 _ h16
  have h64 := bstep_win _ 32 _ h32
  have h128 := bstep_win _ 64 _ h64
  have h256 := bstep_win _ 128 _ h128
  exact h256 r hr

/-- Every row's position is at most the top, and a row with a position holds the column's value there. -/
def BGood (col : ℕ → α) (PV : ℕ → ℤ × α) : Prop :=
  ∀ r, r < 256 → (PV r).1 ≤ 4096 ∧ ((PV r).1 < 4096 → (PV r).2 = col (PV r).1.toNat)

theorem bstep_good (col : ℕ → α) (s : ℕ) (PV : ℕ → ℤ × α) (h : BGood col PV) :
    BGood col (bstep s PV) := by
  intro r hr
  obtain ⟨h1, h2⟩ := h r hr
  dsimp only [bstep]
  by_cases hc : (if r < 256 - s then (PV (r + s)).1 else 4096) < (PV r).1
  · rw [if_pos hc]
    by_cases hs : r < 256 - s
    · rw [if_pos hs] at hc ⊢
      have hm : (r + s) % 256 = r + s := by omega
      rw [hm]
      obtain ⟨h3, h4⟩ := h (r + s) (by omega)
      exact ⟨h3, h4⟩
    · rw [if_neg hs] at hc; omega
  · rw [if_neg hc]; exact ⟨h1, h2⟩

theorem bscan_good (col : ℕ → α) (PV : ℕ → ℤ × α) (h : BGood col PV) : BGood col (bscan PV) := by
  unfold bscan
  exact bstep_good col _ _ (bstep_good col _ _ (bstep_good col _ _ (bstep_good col _ _
    (bstep_good col _ _ (bstep_good col _ _ (bstep_good col _ _ (bstep_good col _ _ h)))))))

/-- The positions of a block before the backward scan. -/
def bpos (nz : ℕ → Prop) [DecidablePred nz] (start : ℕ) : ℕ → ℤ := fun r =>
  if nz (start + r) then ((start + r : ℕ) : ℤ) else 4096

theorem bpos_le (nz : ℕ → Prop) [DecidablePred nz] (start r : ℕ) (h : start + r ≤ 4096) :
    bpos nz start r ≤ 4096 := by
  unfold bpos; split_ifs <;> omega

theorem binit_good (nz : ℕ → Prop) [DecidablePred nz] (col : ℕ → α) (start : ℕ)
    (hs : start + 256 ≤ 4096) : BGood col (binit nz col start) := by
  intro r hr
  dsimp only [binit]
  split_ifs with h
  · exact ⟨by omega, fun _ => by rw [Int.toNat_natCast]⟩
  · exact ⟨le_refl _, fun h0 => by omega⟩

theorem nextUp_succ (nz : ℕ → Prop) [DecidablePred nz] (T k : ℕ) :
    nextUp nz T (k + 1) = if nz (T - (k + 1)) then ((T - (k + 1) : ℕ) : ℤ) else nextUp nz T k := rfl

/-- The next non-gap from `t` on is `t` itself when it is not a gap, and the next one from `t + 1` on
    otherwise. -/
theorem nextJ_step (nz : ℕ → Prop) [DecidablePred nz] (T t : ℕ) (h : t < T) :
    nextJ nz T t = if nz t then (t : ℤ) else nextJ nz T (t + 1) := by
  unfold nextJ
  rw [show T - t = (T - (t + 1)) + 1 by omega, nextUp_succ,
    show T - (T - (t + 1) + 1) = t by omega]

/-- The next non-gap from row `start + r` on is the minimum over the block's rows from `r` on when there
    is one, and the next non-gap after the block otherwise. -/
theorem nextJ_bwin (nz : ℕ → Prop) [DecidablePred nz] (start : ℕ) (hs : start + 256 ≤ 4096) (d : ℕ) :
    ∀ r, r + d = 256 → nextJ nz 4096 (start + r) =
      if bwin (bpos nz start) r d < 4096 then bwin (bpos nz start) r d
      else nextJ nz 4096 (start + 256) := by
  induction d with
  | zero =>
    intro r hr
    rw [Nat.add_zero] at hr
    subst hr
    rw [bwin_zero, if_neg (lt_irrefl _)]
  | succ d ih =>
    intro r hr
    have hge := nextJ_ge nz 4096 (start + (r + 1)) (by omega)
    have hle := bwin_le (bpos nz start) (r + 1) d
    have hi := ih (r + 1) (by omega)
    rw [bwin_bot _ r d (by omega) (bpos_le nz start r (by omega)) (by omega),
      nextJ_step nz 4096 (start + r) (by omega)]
    rw [show start + r + 1 = start + (r + 1) by omega]
    unfold bpos at hi hle ⊢
    split_ifs at hi ⊢ <;> omega

/-- FORWARD BLOCK: with the pair of the rows before the block carried in, every row of the block ends with the
    previous non-gap at or before it in the whole column, and its value. -/
theorem fwd_block (nz : ℕ → Prop) [DecidablePred nz] (col : ℕ → α) (z : α) (start r : ℕ) (hr : r < 256) :
    (if 0 ≤ (fscan (finit nz col start) r).1 then fscan (finit nz col start) r
      else (prevJ nz start, pvalAt nz col z start))
      = (prevJ nz (start + r + 1), pvalAt nz col z (start + r + 1)) := by
  have hg := fscan_good col _ (finit_good nz col start) r hr
  have hp := fscan_fst (finit nz col start) (fun r => fpos_ge nz start r) r
  have hw : win (fun r => (finit nz col start r).1) r 256 = win (fpos nz start) r (r + 1) :=
    win_stable (fpos nz start) r 256 (by omega)
  have hj := prevJ_win nz start r
  rw [hw] at hp
  obtain ⟨hg1, hg2⟩ := hg
  unfold pvalAt
  rw [hj]
  generalize fscan (finit nz col start) r = X at hp hg1 hg2 ⊢
  obtain ⟨P, V⟩ := X
  dsimp only at hp hg1 hg2 ⊢
  subst hp
  by_cases h0 : 0 ≤ win (fpos nz start) r (r + 1)
  · rw [if_pos h0, if_pos h0, if_pos h0, hg2 h0]
  · rw [if_neg h0, if_neg h0]

/-- BACKWARD BLOCK: with the pair of the rows after the block carried in, every row of the block ends with the
    next non-gap at or after it in the whole column, and its value. -/
theorem bwd_block (nz : ℕ → Prop) [DecidablePred nz] (col : ℕ → α) (z : α) (start r : ℕ) (hr : r < 256)
    (hs : start + 256 ≤ 4096) :
    (if (bscan (binit nz col start) r).1 < 4096 then bscan (binit nz col start) r
      else (nextJ nz 4096 (start + 256), nvalAt nz col z (start + 256)))
      = (nextJ nz 4096 (start + r), nvalAt nz col z (start + r)) := by
  have hg := bscan_good col _ (binit_good nz col start hs) r hr
  have hp := bscan_fst (binit nz col start) (fun r hr => bpos_le nz start r (by omega)) r hr
  have hw : bwin (fun r => (binit nz col start r).1) r 256 = bwin (bpos nz start) r (256 - r) :=
    bwin_stable (bpos nz start) r 256 (by omega)
  have hj := nextJ_bwin nz start hs (256 - r) r (by omega)
  rw [hw] at hp
  obtain ⟨hg1, hg2⟩ := hg
  unfold nvalAt
  rw [hj]
  generalize bscan (binit nz col start) r = X at hp hg1 hg2 ⊢
  obtain ⟨P, V⟩ := X
  dsimp only at hp hg1 hg2 ⊢
  subst hp
  by_cases h0 : bwin (bpos nz start) r (256 - r) < 4096
  · rw [if_pos h0, if_pos h0, if_pos h0, hg2 h0]
  · rw [if_neg h0, if_neg h0]

end Cert.Interp

end
-- ==== Proof.FwdPay.lean ====
/-
  One trip of the first loop, read at a row and a lane.

  The trip loads the chunk of 256 rows at `256 k`, runs the eight doubling steps of the forward scan on the
  pairs (position, value), and where a row's chunk prefix holds no non-gap it takes the pair carried in. It stores
  the positions and the values, and carries the last row's pair to the next trip.
-/
import proofs.«173454_j55009941127452_2_alg».proof.Proof.Gen.KernelIdeal.Skeleton
import proofs.«173454_j55009941127452_2_alg».proof.Proof.Scan
import Idealize.ShloMosaic.Lib.ValueIdx
import Idealize.ShloMosaic.Lib.Pipeline.Value
import Idealize.ShloMosaic.Lib.KernelVsHost
import Idealize.ShloMosaic.Lib.ValueLayout

noncomputable section

namespace Cert.Interp.Fwd

open Idealize.ShloMosaic Idealize.ShloMosaic.ValueIdx Cert.KernelIdeal Cert.KernelIdeal.Gen

/-- The positions the trip stores. -/
def tpos (k : Fin k0_t1_loop.trips) (v11 : Vec Ideal S1x256x128 .f32) (a7 : IVec S1x128 32) : IVec S256x128 32 :=
  let v13 : IVec S256x128 32 := iota .tc S256x128 32 [0] iota_S256x128_d0_w32
  let v45 := k0_pay32 (F := Ideal) 0#32 1#32 k v11
  let v47 := k0_pay34 (F := Ideal) 0#32 1#32 k v11
  k0_pay7 a7 (k0_pay46 v13 v45 v47) (k0_pay49 v13 v45 v47) (k0_pay50 v13 v45 v47)

/-- The values the trip stores. -/
def tval (k : Fin k0_t1_loop.trips) (v11 : Vec Ideal S1x256x128 .f32) (a8 : FVec Ideal S1x128 .f32) : FVec Ideal S256x128 .f32 :=
  let v13 : IVec S256x128 32 := iota .tc S256x128 32 [0] iota_S256x128_d0_w32
  let v45 := k0_pay32 (F := Ideal) 0#32 1#32 k v11
  let v46 := k0_pay33 (F := Ideal) 0#32 1#32 k v11
  let v47 := k0_pay34 (F := Ideal) 0#32 1#32 k v11
  k0_pay8 a8 (k0_pay46 v13 v45 v47) (k0_pay47 v13 v45 v46 v47 8#32) (k0_pay48 v13 v45 v46 v47 8#32) (k0_pay49 v13 v45 v47) (k0_pay50 v13 v45 v47)

/-- The position row the trip carries on. -/
def tcpos (k : Fin k0_t1_loop.trips) (v11 : Vec Ideal S1x256x128 .f32) (a7 : IVec S1x128 32) : IVec S1x128 32 :=
  let v13 : IVec S256x128 32 := iota .tc S256x128 32 [0] iota_S256x128_d0_w32
  let v45 := k0_pay32 (F := Ideal) 0#32 1#32 k v11
  let v47 := k0_pay34 (F := Ideal) 0#32 1#32 k v11
  k0_pay9 a7 (k0_pay46 v13 v45 v47) (k0_pay49 v13 v45 v47) (k0_pay50 v13 v45 v47)

/-- The value row the trip carries on. -/
def tcval (k : Fin k0_t1_loop.trips) (v11 : Vec Ideal S1x256x128 .f32) (a8 : FVec Ideal S1x128 .f32) : FVec Ideal S1x128 .f32 :=
  let v13 : IVec S256x128 32 := iota .tc S256x128 32 [0] iota_S256x128_d0_w32
  let v45 := k0_pay32 (F := Ideal) 0#32 1#32 k v11
  let v46 := k0_pay33 (F := Ideal) 0#32 1#32 k v11
  let v47 := k0_pay34 (F := Ideal) 0#32 1#32 k v11
  k0_pay10 a8 (k0_pay46 v13 v45 v47) (k0_pay47 v13 v45 v46 v47 8#32) (k0_pay48 v13 v45 v46 v47 8#32) (k0_pay49 v13 v45 v47) (k0_pay50 v13 v45 v47)

/-- The chunk's scan in lane `l`: the eight steps from the chunk's rows, over the column `col`. -/
def chunkScan (col : ℕ → EReal) (k : ℕ) : ℕ → ℤ × EReal :=
  fscan (finit (fun s => col s ≠ 0) col (256 * k))

/-! ### Words and integers -/

/-- A small integer is read back from its 32-bit word. -/
theorem toInt_ofInt_small (z : ℤ) (h1 : -1 ≤ z) (h2 : z ≤ 4096) : (BitVec.ofInt 32 z).toInt = z := by
  have e : (2 : ℤ) ^ (32 - 1) = 2147483648 := by norm_num
  exact BitVec.toInt_ofInt_eq_self (by decide) (by rw [e]; omega) (by rw [e]; omega)

/-- The signed "greater than" of two small integers' words, under a select. -/
theorem select_sgt {α : Type} (x y : BitVec 32) (a b : ℤ) (hx : x = BitVec.ofInt 32 a) (hy : y = BitVec.ofInt 32 b)
    (ha : -1 ≤ a ∧ a ≤ 4096) (hb : -1 ≤ b ∧ b ≤ 4096) (X Y : α) :
    Scalar.select (IntOp.cmpi .sgt x y) X Y = if b < a then X else Y := by
  subst hx hy
  have h : IntOp.cmpi .sgt (BitVec.ofInt 32 a) (BitVec.ofInt 32 b) = BitVec.ofBool (decide (b < a)) := by
    show BitVec.ofBool ((BitVec.ofInt 32 b).slt (BitVec.ofInt 32 a)) = _
    rw [BitVec.slt_eq_decide, toInt_ofInt_small a ha.1 ha.2, toInt_ofInt_small b hb.1 hb.2]
  rw [h]
  by_cases hc : b < a
  · rw [decide_eq_true hc, if_pos hc]; exact select_one X Y
  · rw [decide_eq_false hc, if_neg hc]; exact select_zero X Y

/-- The signed "greater or equal" of two small integers' words, under a select. -/
theorem select_sge {α : Type} (x y : BitVec 32) (a b : ℤ) (hx : x = BitVec.ofInt 32 a) (hy : y = BitVec.ofInt 32 b)
    (ha : -1 ≤ a ∧ a ≤ 4096) (hb : -1 ≤ b ∧ b ≤ 4096) (X Y : α) :
    Scalar.select (IntOp.cmpi .sge x y) X Y = if b ≤ a then X else Y := by
  subst hx hy
  have h : IntOp.cmpi .sge (BitVec.ofInt 32 a) (BitVec.ofInt 32 b) = BitVec.ofBool (decide (b ≤ a)) := by
    show BitVec.ofBool ((BitVec.ofInt 32 b).sle (BitVec.ofInt 32 a)) = _
    rw [BitVec.sle_eq_decide, toInt_ofInt_small a ha.1 ha.2, toInt_ofInt_small b hb.1 hb.2]
  rw [h]
  by_cases hc : b ≤ a
  · rw [decide_eq_true hc, if_pos hc]; exact select_one X Y
  · rw [decide_eq_false hc, if_neg hc]; exact select_zero X Y

/-! ### The row counter and the rotation, read at a row -/

/-- The row counter holds the row. -/
theorem iota_row (r : Fin 256) (l : Fin 128) :
    iota .tc S256x128 32 [0] iota_S256x128_d0_w32 (ix2 r l) = BitVec.ofInt 32 (r.val : ℤ) := by
  show BitVec.ofNat 32 (0 * 256 + r.val) = BitVec.ofNat 32 r.val
  rw [Nat.zero_mul, Nat.zero_add]

/-- A rotation down the rows by `s ≤ 128` reads the row `s` before, around the end. -/
theorem rot_row {α : Type} (s : ℕ) (hs : s ≤ 128) (x : S256x128.Idx → α) (r : Fin 256) (l : Fin 128) :
    dynamicRotate 0 (BitVec.ofNat 32 s) none x rotates_S256x128_d0 (ix2 r l)
      = x (ix2 (⟨(r.val + 256 - s) % 256, Nat.mod_lt _ (by omega)⟩ : Fin 256) l) := by
  have hsn : (BitVec.ofNat 32 s).toNat % 256 = s := by
    rw [BitVec.toNat_ofNat]; omega
  refine dynamicRotate_apply (0 : Fin 2) (BitVec.ofNat 32 s) x rotates_S256x128_d0 (ix2 r l)
    (ix2 (⟨(r.val + 256 - s) % 256, Nat.mod_lt _ (by omega)⟩ : Fin 256) l) ?_
  intro b
  match b with
  | ⟨0, _⟩ =>
    show (r.val + 256 - s) % 256 = (r.val + 256 - (BitVec.ofNat 32 s).toNat % 256) % 256
    rw [hsn]
  | ⟨1, _⟩ => rfl

/-! ### One doubling step on the vectors -/

/-- The positions `s` rows before, the bottom position above the first `s` rows. -/
def rolledPos (s : ℕ) (pos : IVec S256x128 32) : IVec S256x128 32 :=
  select (cmpi .sge (iota .tc S256x128 32 [0] iota_S256x128_d0_w32) (broadcast S256x128 (BitVec.ofNat 32 s)))
    (dynamicRotate 0 (BitVec.ofNat 32 s) none pos rotates_S256x128_d0) (broadcast S256x128 4294967295#32)

/-- Where the rolled position is the larger. -/
def takeBit (s : ℕ) (pos : IVec S256x128 32) : IVec S256x128 1 := cmpi .sgt (rolledPos s pos) pos

/-- The positions after the step. -/
def stepPos (s : ℕ) (pos : IVec S256x128 32) : IVec S256x128 32 := select (takeBit s pos) (rolledPos s pos) pos

/-- The values after the step. -/
def stepVal (s : ℕ) (pos : IVec S256x128 32) (val : FVec Ideal S256x128 .f32) : FVec Ideal S256x128 .f32 :=
  select (takeBit s pos) (dynamicRotate 0 (BitVec.ofNat 32 s) none val rotates_S256x128_d0) val

/-- In lane `l` the two vectors hold, row by row, the pairs of `PV`, with positions between the bottom and the top. -/
def Holds (l : Fin 128) (pos : IVec S256x128 32) (val : FVec Ideal S256x128 .f32) (PV : ℕ → ℤ × EReal) : Prop :=
  ∀ r : Fin 256, (-1 ≤ (PV r.val).1 ∧ (PV r.val).1 ≤ 4096) ∧ pos (ix2 r l) = BitVec.ofInt 32 (PV r.val).1
    ∧ val (ix2 r l) = (PV r.val).2

/-- The rolled positions at a row. -/
theorem rolledPos_row (l : Fin 128) (s : ℕ) (hs : s ≤ 128) (pos : IVec S256x128 32) (p : ℕ → ℤ)
    (hp : ∀ r : Fin 256, pos (ix2 r l) = BitVec.ofInt 32 (p r.val)) (r : Fin 256) :
    rolledPos s pos (ix2 r l) = BitVec.ofInt 32 (if s ≤ r.val then p (r.val - s) else -1) := by
  have hr := r.isLt
  show Scalar.select (IntOp.cmpi .sge (iota .tc S256x128 32 [0] iota_S256x128_d0_w32 (ix2 r l)) (BitVec.ofNat 32 s))
    (dynamicRotate 0 (BitVec.ofNat 32 s) none pos rotates_S256x128_d0 (ix2 r l)) 4294967295#32 = _
  rw [select_sge _ (BitVec.ofNat 32 s) (r.val : ℤ) (s : ℤ) (iota_row r l) rfl (by omega) (by omega), rot_row s hs pos r l, hp]
  by_cases h : s ≤ r.val
  · have e : (r.val + 256 - s) % 256 = r.val - s := by omega
    rw [if_pos (by omega), if_pos h]
    show BitVec.ofInt 32 (p ((r.val + 256 - s) % 256)) = _
    rw [e]
  · rw [if_neg (by omega), if_neg h]
    rfl

/-- ONE STEP: the vectors after the step hold the pairs after the step. -/
theorem step_holds (l : Fin 128) (s : ℕ) (hs : s ≤ 128) (pos : IVec S256x128 32) (val : FVec Ideal S256x128 .f32)
    (PV : ℕ → ℤ × EReal) (h : Holds l pos val PV) : Holds l (stepPos s pos) (stepVal s pos val) (fstep s PV) := by
  intro r
  have hr := r.isLt
  obtain ⟨hb, hpos, hval⟩ := h r
  have hrp := rolledPos_row l s hs pos (fun n => (PV n).1) (fun q => (h q).2.1) r
  have hbq : -1 ≤ (if s ≤ r.val then (PV (r.val - s)).1 else -1) ∧ (if s ≤ r.val then (PV (r.val - s)).1 else -1) ≤ 4096 := by
    by_cases hc : s ≤ r.val
    · rw [if_pos hc]; exact (h ⟨r.val - s, by omega⟩).1
    · rw [if_neg hc]; omega
  have hP : stepPos s pos (ix2 r l)
      = if (PV r.val).1 < (if s ≤ r.val then (PV (r.val - s)).1 else -1)
        then BitVec.ofInt 32 (if s ≤ r.val then (PV (r.val - s)).1 else -1) else BitVec.ofInt 32 (PV r.val).1 := by
    show Scalar.select (IntOp.cmpi .sgt (rolledPos s pos (ix2 r l)) (pos (ix2 r l))) (rolledPos s pos (ix2 r l)) (pos (ix2 r l)) = _
    rw [select_sgt _ _ _ _ hrp hpos hbq hb, hrp, hpos]
  have hV : stepVal s pos val (ix2 r l)
      = if (PV r.val).1 < (if s ≤ r.val then (PV (r.val - s)).1 else -1)
        then (PV ((r.val + 256 - s) % 256)).2 else (PV r.val).2 := by
    show Scalar.select (IntOp.cmpi .sgt (rolledPos s pos (ix2 r l)) (pos (ix2 r l)))
      (dynamicRotate 0 (BitVec.ofNat 32 s) none val rotates_S256x128_d0 (ix2 r l)) (val (ix2 r l)) = _
    rw [select_sgt _ _ _ _ hrp hpos hbq hb, rot_row s hs val r l, hval]
    rw [(h ⟨(r.val + 256 - s) % 256, Nat.mod_lt _ (by omega)⟩).2.2]
  rw [hP, hV]
  dsimp only [fstep]
  by_cases hc : (PV r.val).1 < (if s ≤ r.val then (PV (r.val - s)).1 else -1)
  · rw [if_pos hc, if_pos hc, if_pos hc]
    exact ⟨hbq, rfl, rfl⟩
  · rw [if_neg hc, if_neg hc, if_neg hc]
    exact ⟨hb, rfl, rfl⟩

/-! ### The trip's payloads are the eight steps -/

/-- The row counter. -/
abbrev rows : IVec S256x128 32 := iota .tc S256x128 32 [0] iota_S256x128_d0_w32

/-- The rotation by eight rows the trip's first half hands to its second. -/
abbrev rot8 (p : IVec S256x128 32) : IVec S256x128 32 := dynamicRotate 0 8#32 none p rotates_S256x128_d0

section FirstHalf
variable (k : Fin k0_t1_loop.trips) (v11 : Vec Ideal S1x256x128 .f32)

theorem pay26_eq : k0_pay26 (F := Ideal) 0#32 1#32 k v11 = stepPos 1 (k0_pay23 (F := Ideal) 0#32 1#32 k v11) := rfl
theorem pay29_eq : k0_pay29 (F := Ideal) 0#32 1#32 k v11 = stepPos 2 (k0_pay26 (F := Ideal) 0#32 1#32 k v11) := rfl
theorem pay32_eq : k0_pay32 (F := Ideal) 0#32 1#32 k v11 = stepPos 4 (k0_pay29 (F := Ideal) 0#32 1#32 k v11) := rfl
theorem pay33_eq : k0_pay33 (F := Ideal) 0#32 1#32 k v11
    = stepVal 4 (k0_pay29 (F := Ideal) 0#32 1#32 k v11) (stepVal 2 (k0_pay26 (F := Ideal) 0#32 1#32 k v11)
        (stepVal 1 (k0_pay23 (F := Ideal) 0#32 1#32 k v11) (k0_pay22 v11))) := rfl
theorem pay34_eq : k0_pay34 (F := Ideal) 0#32 1#32 k v11 = rot8 (k0_pay32 (F := Ideal) 0#32 1#32 k v11) := rfl

end FirstHalf

section SecondHalf
variable (p : IVec S256x128 32) (w : FVec Ideal S256x128 .f32)

theorem pay37_eq : k0_pay37 rows p (rot8 p) = stepPos 8 p := rfl
theorem pay40_eq : k0_pay40 rows p (rot8 p) = stepPos 16 (k0_pay37 rows p (rot8 p)) := rfl
theorem pay43_eq : k0_pay43 rows p (rot8 p) = stepPos 32 (k0_pay40 rows p (rot8 p)) := rfl
theorem pay46_eq : k0_pay46 rows p (rot8 p) = stepPos 64 (k0_pay43 rows p (rot8 p)) := rfl
theorem pay47_eq : k0_pay47 (F := Ideal) rows p w (rot8 p) 8#32
    = stepVal 64 (k0_pay43 rows p (rot8 p)) (stepVal 32 (k0_pay40 rows p (rot8 p))
        (stepVal 16 (k0_pay37 rows p (rot8 p)) (stepVal 8 p w))) := rfl
theorem pay49_eq : k0_pay49 rows p (rot8 p) = rolledPos 128 (k0_pay46 rows p (rot8 p)) := rfl
theorem pay50_eq : k0_pay50 rows p (rot8 p) = takeBit 128 (k0_pay46 rows p (rot8 p)) := rfl

end SecondHalf

/-! ### The chunk's rows before the scan -/

/-- A select on "the value is not zero". -/
theorem select_ne_zero {α : Type} (x : EReal) (X Y : α) :
    Scalar.select (Ideal.cmp .one x (Ideal.ofBits .f32 0x00000000#32)) X Y = if x ≠ 0 then X else Y := by
  rw [Ideal.ofBits_zero_f32]
  have h : Ideal.cmp .one x 0 = BitVec.ofBool (decide (x ≠ 0)) := rfl
  rw [h]
  by_cases hc : x ≠ 0
  · rw [decide_eq_true hc, if_pos hc]; exact select_one X Y
  · rw [decide_eq_false hc, if_neg hc]; exact select_zero X Y

/-- The chunk's first row, as the kernel computes its word. -/
theorem start_word : ∀ k : Fin k0_t1_loop.trips,
    Scalar.muli (Scf.iv 0#32 1#32 k) 256#32 = BitVec.ofNat 32 (256 * k.val) := by decide +kernel

/-- Before the scan the vectors hold the chunk's rows. -/
theorem init_holds (k : Fin k0_t1_loop.trips) (v11 : Vec Ideal S1x256x128 .f32) (l : Fin 128) (col : ℕ → EReal)
    (hcol : ∀ r : Fin 256, v11 (ix3 0 r l) = col (256 * k.val + r.val)) :
    Holds l (k0_pay23 (F := Ideal) 0#32 1#32 k v11) (k0_pay22 v11)
      (finit (fun s => col s ≠ 0) col (256 * k.val)) := by
  intro r
  have hr := r.isLt
  have hk : k.val < 16 := Nat.lt_of_lt_of_le k.isLt k0_t1_abs.2.1
  have hv : k0_pay22 v11 (ix2 r l) = col (256 * k.val + r.val) := by
    rw [← hcol r]
    exact shapeCast_1ab_ab_apply v11 shapeCasts_S1x256x128_S256x128 r l
  have hpos : k0_pay23 (F := Ideal) 0#32 1#32 k v11 (ix2 r l)
      = Scalar.select (Ideal.cmp .one (k0_pay22 v11 (ix2 r l)) (Ideal.ofBits .f32 0x00000000#32))
          (IntOp.addi (iota .tc S256x128 32 [0] iota_S256x128_d0_w32 (ix2 r l)) (Scalar.muli (Scf.iv 0#32 1#32 k) 256#32))
          4294967295#32 := rfl
  have hadd : IntOp.addi (BitVec.ofInt 32 (r.val : ℤ)) (BitVec.ofNat 32 (256 * k.val))
      = BitVec.ofInt 32 ((256 * k.val + r.val : ℕ) : ℤ) := by
    show BitVec.ofNat 32 r.val + BitVec.ofNat 32 (256 * k.val) = BitVec.ofNat 32 (256 * k.val + r.val)
    rw [← BitVec.ofNat_add, Nat.add_comm]
  rw [hpos, hv, select_ne_zero, iota_row, start_word k, hadd]
  dsimp only [finit]
  by_cases hnz : col (256 * k.val + r.val) ≠ 0
  · rw [if_pos hnz, if_pos hnz]
    exact ⟨⟨by omega, by omega⟩, rfl, rfl⟩
  · rw [if_neg hnz, if_neg hnz]
    exact ⟨⟨by omega, by omega⟩, rfl, rfl⟩

/-! ### The first seven steps -/

/-- The positions after the first seven steps. -/
def pos7 (k : Fin k0_t1_loop.trips) (v11 : Vec Ideal S1x256x128 .f32) : IVec S256x128 32 :=
  k0_pay46 rows (k0_pay32 (F := Ideal) 0#32 1#32 k v11) (rot8 (k0_pay32 (F := Ideal) 0#32 1#32 k v11))

/-- The values after the first seven steps. -/
def val7 (k : Fin k0_t1_loop.trips) (v11 : Vec Ideal S1x256x128 .f32) : FVec Ideal S256x128 .f32 :=
  k0_pay47 (F := Ideal) rows (k0_pay32 (F := Ideal) 0#32 1#32 k v11) (k0_pay33 (F := Ideal) 0#32 1#32 k v11)
    (rot8 (k0_pay32 (F := Ideal) 0#32 1#32 k v11)) 8#32

theorem holds7 (k : Fin k0_t1_loop.trips) (v11 : Vec Ideal S1x256x128 .f32) (l : Fin 128) (col : ℕ → EReal)
    (hcol : ∀ r : Fin 256, v11 (ix3 0 r l) = col (256 * k.val + r.val)) :
    Holds l (pos7 k v11) (val7 k v11)
      (fstep 64 (fstep 32 (fstep 16 (fstep 8 (fstep 4 (fstep 2 (fstep 1
        (finit (fun s => col s ≠ 0) col (256 * k.val))))))))) := by
  have h0 := init_holds k v11 l col hcol
  have h1 := step_holds l 1 (by omega) _ _ _ h0
  have h2 := step_holds l 2 (by omega) _ _ _ h1
  have h3 := step_holds l 4 (by omega) _ _ _ h2
  have h4 := step_holds l 8 (by omega) _ _ _ h3
  have h5 := step_holds l 16 (by omega) _ _ _ h4
  have h6 := step_holds l 32 (by omega) _ _ _ h5
  have h7 := step_holds l 64 (by omega) _ _ _ h6
  unfold pos7 val7
  rw [pay46_eq, pay43_eq, pay40_eq, pay37_eq, pay47_eq, pay43_eq, pay40_eq, pay37_eq, pay33_eq, pay32_eq, pay29_eq,
    pay26_eq]
  exact h7

/-! ### The last step, and the pair carried in -/

/-- The carried row, broadcast down the rows, read at a row. -/
theorem carried_row {α : Type} (a : S1x128.Idx → α) (r : Fin 256) (l : Fin 128) :
    broadcastTo S256x128 (shapeCast S1x128 a shapeCasts_S1x128_S1x128) broadcasts_S1x128_S256x128 (ix2 r l)
      = a (ix2 0 l) := by
  rw [shapeCast_self]
  exact broadcastTo_1b_ab_apply a broadcasts_S1x128_S256x128 r l

theorem tail_pos (l : Fin 128) (a7 : IVec S1x128 32) (cp : ℤ) (hcp : a7 (ix2 0 l) = BitVec.ofInt 32 cp)
    (p7 : IVec S256x128 32) (v7 : FVec Ideal S256x128 .f32) (PV : ℕ → ℤ × EReal) (h : Holds l p7 v7 PV) (r : Fin 256) :
    k0_pay5 a7 p7 (rolledPos 128 p7) (takeBit 128 p7) (ix2 r l)
      = BitVec.ofInt 32 (if 0 ≤ (fstep 128 PV r.val).1 then (fstep 128 PV r.val).1 else cp) := by
  obtain ⟨hb, hpos, -⟩ := step_holds l 128 (le_refl _) p7 v7 PV h r
  show Scalar.select (IntOp.cmpi .sge (stepPos 128 p7 (ix2 r l)) 0#32) (stepPos 128 p7 (ix2 r l))
    (broadcastTo S256x128 (shapeCast S1x128 a7 shapeCasts_S1x128_S1x128) broadcasts_S1x128_S256x128 (ix2 r l)) = _
  rw [select_sge _ 0#32 _ 0 hpos rfl hb (by omega), carried_row, hpos, hcp]
  exact (apply_ite (BitVec.ofInt 32) _ _ _).symm

theorem tail_val (l : Fin 128) (a8 : FVec Ideal S1x128 .f32) (cv : EReal) (hcv : a8 (ix2 0 l) = cv)
    (p7 : IVec S256x128 32) (v7 : FVec Ideal S256x128 .f32) (PV : ℕ → ℤ × EReal) (h : Holds l p7 v7 PV) (r : Fin 256) :
    k0_pay6 (F := Ideal) a8 p7 v7 (dynamicRotate 0 128#32 none v7 rotates_S256x128_d0) (rolledPos 128 p7) (takeBit 128 p7)
        (ix2 r l)
      = if 0 ≤ (fstep 128 PV r.val).1 then (fstep 128 PV r.val).2 else cv := by
  obtain ⟨hb, hpos, hval⟩ := step_holds l 128 (le_refl _) p7 v7 PV h r
  show Scalar.select (IntOp.cmpi .sge (stepPos 128 p7 (ix2 r l)) 0#32) (stepVal 128 p7 v7 (ix2 r l))
    (broadcastTo S256x128 (shapeCast S1x128 a8 shapeCasts_S1x128_S1x128) broadcasts_S1x128_S256x128 (ix2 r l)) = _
  rw [select_sge _ 0#32 _ 0 hpos rfl hb (by omega), carried_row, hval, hcv]

/-! ### The stored vectors -/

theorem tpos_eq (k : Fin k0_t1_loop.trips) (v11 : Vec Ideal S1x256x128 .f32) (a7 : IVec S1x128 32) :
    tpos k v11 a7 = shapeCast S256x128
      (k0_pay5 a7 (pos7 k v11) (rolledPos 128 (pos7 k v11)) (takeBit 128 (pos7 k v11))) shapeCasts_S256x128_S256x128 := rfl

theorem tval_eq (k : Fin k0_t1_loop.trips) (v11 : Vec Ideal S1x256x128 .f32) (a8 : FVec Ideal S1x128 .f32) :
    tval k v11 a8 = shapeCast S256x128
      (k0_pay6 (F := Ideal) a8 (pos7 k v11) (val7 k v11) (dynamicRotate 0 128#32 none (val7 k v11) rotates_S256x128_d0)
        (rolledPos 128 (pos7 k v11)) (takeBit 128 (pos7 k v11))) shapeCasts_S256x128_S256x128 := rfl

theorem tcpos_eq (k : Fin k0_t1_loop.trips) (v11 : Vec Ideal S1x256x128 .f32) (a7 : IVec S1x128 32) :
    tcpos k v11 a7 = extractStridedSlice S1x128 ![255, 0]
      (k0_pay5 a7 (pos7 k v11) (rolledPos 128 (pos7 k v11)) (takeBit 128 (pos7 k v11))) slices_S256x128_o255_0_S1x128 := rfl

theorem tcval_eq (k : Fin k0_t1_loop.trips) (v11 : Vec Ideal S1x256x128 .f32) (a8 : FVec Ideal S1x128 .f32) :
    tcval k v11 a8 = extractStridedSlice S1x128 ![255, 0]
      (k0_pay6 (F := Ideal) a8 (pos7 k v11) (val7 k v11) (dynamicRotate 0 128#32 none (val7 k v11) rotates_S256x128_d0)
        (rolledPos 128 (pos7 k v11)) (takeBit 128 (pos7 k v11))) slices_S256x128_o255_0_S1x128 := rfl

variable (k : Fin k0_t1_loop.trips) (v11 : Vec Ideal S1x256x128 .f32) (a7 : IVec S1x128 32) (a8 : FVec Ideal S1x128 .f32)
  (l : Fin 128) (col : ℕ → EReal) (cp : ℤ) (cv : EReal)

/-- The stored position at row `r`, lane `l`: the scan's, or the carried one where the scan found none. -/
theorem tpos_apply (hcol : ∀ r : Fin 256, v11 (ix3 0 r l) = col (256 * k.val + r.val))
    (hcp : a7 (ix2 0 l) = BitVec.ofInt 32 cp) (hcp1 : -1 ≤ cp) (hcp2 : cp < 4096) (r : Fin 256) :
    tpos k v11 a7 (ix2 r l)
      = BitVec.ofInt 32 (if 0 ≤ (chunkScan col k.val r.val).1 then (chunkScan col k.val r.val).1 else cp) := by
  rw [tpos_eq, shapeCast_self]
  unfold chunkScan fscan
  exact tail_pos l a7 cp hcp _ _ _ (holds7 k v11 l col hcol) r

/-- The stored value at row `r`, lane `l`. -/
theorem tval_apply (hcol : ∀ r : Fin 256, v11 (ix3 0 r l) = col (256 * k.val + r.val))
    (hcv : a8 (ix2 0 l) = cv) (r : Fin 256) :
    tval k v11 a8 (ix2 r l)
      = (if 0 ≤ (chunkScan col k.val r.val).1 then (chunkScan col k.val r.val).2 else cv) := by
  rw [tval_eq, shapeCast_self]
  unfold chunkScan fscan
  exact tail_val l a8 cv hcv _ _ _ (holds7 k v11 l col hcol) r

/-- The carried rows are the stored ones at the chunk's last row. -/
theorem tcpos_apply : tcpos k v11 a7 (ix2 0 l) = tpos k v11 a7 (ix2 255 l) := by
  rw [tcpos_eq, tpos_eq, shapeCast_self]
  exact slice2_axis0_apply 255 _ slices_S256x128_o255_0_S1x128 (0 : Fin 1) l (255 : Fin 256) (by decide)

theorem tcval_apply : tcval k v11 a8 (ix2 0 l) = tval k v11 a8 (ix2 255 l) := by
  rw [tcval_eq, tval_eq, shapeCast_self]
  exact slice2_axis0_apply 255 _ slices_S256x128_o255_0_S1x128 (0 : Fin 1) l (255 : Fin 256) (by decide)

end Cert.Interp.Fwd

end
-- ==== Proof.Join.lean ====
/-
  The two spellings of the interpolated value are one function.

  One spelling carries, beside the positions of the previous and the next non-gap, their VALUES with 0 standing
  in where there is none; the other reads the column at the positions clipped into range. They differ only where
  a position is missing, and there the missing side is never used — or the whole column is gaps, and then every
  entry read is 0.
-/
import proofs.«173454_j55009941127452_2_alg».proof.Proof.Scan

noncomputable section

namespace Cert.Interp

open Idealize.ShloMosaic

/-- The interpolated value from the two positions and the two carried values. -/
def kOut (I pp np : ℤ) (pv nv : EReal) : EReal :=
  let st : EReal := if 0 ≤ pp then pv else nv
  let en : EReal := if np < 4096 then nv else pv
  let w : EReal := if pp ≠ I ∧ 0 ≤ pp ∧ np < 4096 then
      Ideal.div (((I - pp : ℤ) : ℝ) : EReal) (((max (np - pp) 1 : ℤ) : ℝ) : EReal) else 0
  st + w * (en - st)

theorem prevJ_zero (nz : ℕ → Prop) [DecidablePred nz] : prevJ nz 0 = -1 := rfl

theorem nextUp_zero (nz : ℕ → Prop) [DecidablePred nz] (T : ℕ) : nextUp nz T 0 = (T : ℤ) := rfl

/-- The previous non-gap below `t + 1` is `t` exactly when `t` is not a gap. -/
theorem prevJ_eq_iff (nz : ℕ → Prop) [DecidablePred nz] (t : ℕ) : prevJ nz (t + 1) = (t : ℤ) ↔ nz t := by
  have h := prevJ_lt nz t
  rw [prevJ_succ]
  split_ifs with hz
  · exact ⟨fun _ => hz, fun _ => rfl⟩
  · exact ⟨fun he => by omega, fun hz' => absurd hz' hz⟩

/-- A previous non-gap, when there is one, is not a gap. -/
theorem prevJ_nz (nz : ℕ → Prop) [DecidablePred nz] (n : ℕ) (h : 0 ≤ prevJ nz n) :
    nz (prevJ nz n).toNat := by
  induction n with
  | zero => rw [prevJ_zero] at h; omega
  | succ n ih =>
    rw [prevJ_succ] at h ⊢
    split_ifs at h ⊢ with hz
    · rw [Int.toNat_natCast]; exact hz
    · exact ih h

/-- When there is no previous non-gap, every row below is a gap. -/
theorem prevJ_none (nz : ℕ → Prop) [DecidablePred nz] (n : ℕ) (h : prevJ nz n < 0) :
    ∀ s, s < n → ¬ nz s := by
  induction n with
  | zero => intro s hs; omega
  | succ n ih =>
    rw [prevJ_succ] at h
    split_ifs at h with hz
    · omega
    · intro s hs
      rcases Nat.lt_succ_iff_lt_or_eq.mp hs with h1 | h1
      · exact ih h s h1
      · subst h1; exact hz

theorem nextUp_nz (nz : ℕ → Prop) [DecidablePred nz] (T k : ℕ) (h : nextUp nz T k < T) :
    nz (nextUp nz T k).toNat := by
  induction k with
  | zero => rw [nextUp_zero] at h; omega
  | succ k ih =>
    rw [nextUp_succ] at h ⊢
    split_ifs at h ⊢ with hz
    · rw [Int.toNat_natCast]; exact hz
    · exact ih h

theorem nextUp_none (nz : ℕ → Prop) [DecidablePred nz] (T k : ℕ) (h : nextUp nz T k = T) :
    ∀ s, T - k ≤ s → s < T → ¬ nz s := by
  induction k with
  | zero => intro s h1 h2; omega
  | succ k ih =>
    rw [nextUp_succ] at h
    split_ifs at h with hz
    · intro s h1 h2; omega
    · intro s h1 h2
      by_cases hs : T - k ≤ s
      · exact ih h s hs h2
      · have he : s = T - (k + 1) := by omega
        subst he; exact hz

/-- A next non-gap, when there is one, is not a gap. -/
theorem nextJ_nz (nz : ℕ → Prop) [DecidablePred nz] (T t : ℕ) (h : nextJ nz T t < T) :
    nz (nextJ nz T t).toNat := nextUp_nz nz T (T - t) h

/-- When there is no next non-gap, every row from `t` on is a gap. -/
theorem nextJ_none (nz : ℕ → Prop) [DecidablePred nz] (T t : ℕ) (h : nextJ nz T t = T) :
    ∀ s, t ≤ s → s < T → ¬ nz s := by
  intro s h1 h2
  exact nextUp_none nz T (T - t) h s (by omega) h2

/-- With the positions and carried values of the column, it is the specification's value. -/
theorem kOut_eq (col : ℕ → EReal) (hcol : ∀ s, 4096 ≤ s → col s = 0) (t : ℕ) (ht : t < 4096) :
    kOut (t : ℤ) (prevJ (fun s => col s ≠ 0) (t + 1)) (nextJ (fun s => col s ≠ 0) 4096 t)
        (pvalAt (fun s => col s ≠ 0) col 0 (t + 1)) (nvalAt (fun s => col s ≠ 0) col 0 t)
      = outAt col t := by
  have hN1 := nextJ_le (fun s => col s ≠ 0) 4096 t
  have hPt := prevJ_eq_iff (fun s => col s ≠ 0) t
  have hPn := prevJ_none (fun s => col s ≠ 0) (t + 1)
  have hNn := nextJ_none (fun s => col s ≠ 0) 4096 t
  unfold kOut outAt pvalAt nvalAt
  dsimp only
  generalize prevJ (fun s => col s ≠ 0) (t + 1) = P at *
  generalize nextJ (fun s => col s ≠ 0) 4096 t = N at *
  by_cases hp : 0 ≤ P
  · by_cases hn : N < 4096
    · have hm : min N 4095 = N := by omega
      have hw : P ≠ (t : ℤ) ↔ col t = 0 := by rw [Ne, hPt, not_not]
      simp only [hp, hn, hm, hw, if_true]
    · simp only [hp, hn, if_true, if_false, and_false]
  · by_cases hn : N < 4096
    · have hm : min N 4095 = N := by omega
      simp only [hp, hn, hm, if_true, if_false, false_and, and_false]
    · have hN : N = ((4096 : ℕ) : ℤ) := by omega
      have hz : ∀ s, s < 4096 → col s = 0 := by
        intro s hs
        by_cases h1 : s < t + 1
        · exact not_not.mp (hPn (by omega) s h1)
        · exact not_not.mp (hNn hN s (by omega) hs)
      have hz1 : col (min N 4095).toNat = 0 := hz _ (by omega)
      have hz2 : col P.toNat = 0 := hz _ (by omega)
      simp only [hp, hn, hz1, hz2, if_false, false_and, and_false]

end Cert.Interp

end
-- ==== Proof.BwdPay.lean ====
/-
  One trip of the second loop, read at a row and a lane.

  The trip loads the chunk of 256 rows at `256 (15 - k)`, runs the eight doubling steps of the backward scan on
  the pairs (position, value), and where a row's chunk suffix holds no non-gap it takes the pair carried in from
  the chunks below. With the positions and values of the previous non-gap read back from the scratch buffers it
  stores the interpolated rows, and carries the first row's pair to the next trip.
-/
import proofs.«173454_j55009941127452_2_alg».proof.Proof.Gen.KernelIdeal.Skeleton
import proofs.«173454_j55009941127452_2_alg».proof.Proof.Join
import Idealize.ShloMosaic.Lib.ValueIdx
import Idealize.ShloMosaic.Lib.Pipeline.Value
import Idealize.ShloMosaic.Lib.KernelVsHost

noncomputable section

namespace Cert.Interp.Bwd

open Idealize.ShloMosaic Idealize.ShloMosaic.ValueIdx Cert.KernelIdeal Cert.KernelIdeal.Gen

/-- The rows the trip stores into the output block. -/
def tout (k : Fin k0_t2_loop.trips) (v12 : Vec Ideal S1x256x128 .f32) (a7 : IVec S1x128 32) (a8 : FVec Ideal S1x128 .f32)
    (v104 : Vec Ideal S256x128 .i32) (v106 : Vec Ideal S256x128 .f32) : FVec Ideal S1x256x128 .f32 :=
  let v14 : IVec S256x128 32 := iota .tc S256x128 32 [0] iota_S256x128_d0_w32
  let v16 := k0_pay52 0#32 1#32 k
  let v46 := k0_pay62 (F := Ideal) 0#32 1#32 k v12
  let v47 := k0_pay63 (F := Ideal) 0#32 1#32 k v12
  k0_pay21 a7 a8 v16 (k0_pay75 v14 v46 248#32) (k0_pay76 v14 v46 v47 248#32) (k0_pay77 v14 v46 248#32)
    (k0_pay78 v14 v46 v47 248#32) (k0_pay79 v14) k0_pay80 v104 v106

/-- The position row the trip carries on. -/
def tcpos (k : Fin k0_t2_loop.trips) (v12 : Vec Ideal S1x256x128 .f32) (a7 : IVec S1x128 32) : IVec S1x128 32 :=
  let v14 : IVec S256x128 32 := iota .tc S256x128 32 [0] iota_S256x128_d0_w32
  let v46 := k0_pay62 (F := Ideal) 0#32 1#32 k v12
  k0_pay19 a7 (k0_pay75 v14 v46 248#32) (k0_pay77 v14 v46 248#32) (k0_pay79 v14) k0_pay80

/-- The value row the trip carries on. -/
def tcval (k : Fin k0_t2_loop.trips) (v12 : Vec Ideal S1x256x128 .f32) (a8 : FVec Ideal S1x128 .f32) : FVec Ideal S1x128 .f32 :=
  let v14 : IVec S256x128 32 := iota .tc S256x128 32 [0] iota_S256x128_d0_w32
  let v46 := k0_pay62 (F := Ideal) 0#32 1#32 k v12
  let v47 := k0_pay63 (F := Ideal) 0#32 1#32 k v12
  k0_pay20 a8 (k0_pay75 v14 v46 248#32) (k0_pay76 v14 v46 v47 248#32) (k0_pay77 v14 v46 248#32)
    (k0_pay78 v14 v46 v47 248#32) (k0_pay79 v14) k0_pay80

/-- The chunk's backward scan in one lane: the eight steps from the chunk's rows, over the column `col`. -/
def chunkScan (col : ℕ → EReal) (start : ℕ) : ℕ → ℤ × EReal :=
  bscan (binit (fun s => col s ≠ 0) col start)

variable (k : Fin k0_t2_loop.trips) (v12 : Vec Ideal S1x256x128 .f32) (a7 : IVec S1x128 32) (a8 : FVec Ideal S1x128 .f32)
  (v104 : Vec Ideal S256x128 .i32) (v106 : Vec Ideal S256x128 .f32)
  (l : Fin 128) (col : ℕ → EReal) (cp : ℤ) (cv : EReal)

/-- The next non-gap's position at row `r` of the chunk: the scan's, or the carried one. -/
def npos (start : ℕ) (r : ℕ) : ℤ :=
  if (chunkScan col start r).1 < 4096 then (chunkScan col start r).1 else cp

/-- The next non-gap's value at row `r` of the chunk. -/
def nval (start : ℕ) (r : ℕ) : EReal :=
  if (chunkScan col start r).1 < 4096 then (chunkScan col start r).2 else cv

/-! ### Words and integers -/

/-- A small natural's word reads back signed as the number. -/
theorem toInt_ofNat_small (n : ℕ) (h : n < 2147483648) : (BitVec.ofNat 32 n).toInt = (n : ℤ) := by
  rw [BitVec.toInt_eq_toNat_bmod, BitVec.toNat_ofNat]
  unfold Int.bmod
  norm_num
  omega

/-- A small integer's word reads back signed as the integer. -/
theorem toInt_ofInt_small (z : ℤ) (h1 : -2147483648 ≤ z) (h2 : z < 2147483648) :
    (BitVec.ofInt 32 z).toInt = z := by
  rw [BitVec.toInt_ofInt]
  unfold Int.bmod
  norm_num
  omega

/-- A select on a signed less-than is the `if` on the integers the words read as. -/
theorem select_slt {α : Type} (x y : BitVec 32) (A B : α) :
    Scalar.select (IntOp.cmpi .slt x y) A B = if x.toInt < y.toInt then A else B := by
  unfold Scalar.select IntOp.cmpi
  by_cases h : x.toInt < y.toInt
  · rw [if_pos h, if_pos]
    simp [BitVec.slt, h]
  · rw [if_neg h, if_neg]
    simp [BitVec.slt, h]

/-- An integer comparison at an index compares the elements. -/
theorem cmpi_apply {s : Shape} {w : ℕ} (p : CmpIPredicate) (a b : IVec s w) (i : s.Idx) :
    cmpi p a b i = IntOp.cmpi p (a i) (b i) := rfl

/-! ### The row counter and the rotation at an index -/

/-- The row counter. -/
abbrev V14 : IVec S256x128 32 := iota .tc S256x128 32 [0] iota_S256x128_d0_w32

theorem V14_apply (r : Fin 256) (l : Fin 128) : V14 (ix2 r l) = BitVec.ofNat 32 r.val := by
  show BitVec.ofNat 32 (0 * 256 + r.val) = _
  rw [Nat.zero_mul, Nat.zero_add]

/-- A rotation along the rows by `sb` reads, at row `r`, the row `(r + 256 - sb) mod 256`. -/
theorem rot_apply {α : Type} (sb : BitVec 32) (x : S256x128.Idx → α) (r r' : Fin 256) (l : Fin 128)
    (h : r'.val = (r.val + 256 - sb.toNat % 256) % 256) :
    dynamicRotate 0 sb none x rotates_S256x128_d0 (ix2 r l) = x (ix2 r' l) :=
  dynamicRotate_apply 0 sb x rotates_S256x128_d0 (ix2 r l) (ix2 r' l) (fun b =>
    match b with
    | ⟨0, _⟩ => h
    | ⟨1, _⟩ => rfl)

/-! ### One doubling step on the vectors -/

/-- The rotated positions, masked to the top position on the last `s` rows. -/
def stepM (s : ℕ) (pos : IVec S256x128 32) : IVec S256x128 32 :=
  select (cmpi .slt V14 (broadcast S256x128 (BitVec.ofNat 32 (256 - s))))
    (dynamicRotate 0 (BitVec.ofNat 32 (256 - s)) none pos rotates_S256x128_d0) (broadcast S256x128 4096#32)

/-- The positions after the step. -/
def stepP (s : ℕ) (pos : IVec S256x128 32) : IVec S256x128 32 :=
  select (cmpi .slt (stepM s pos) pos) (stepM s pos) pos

/-- The values after the step. -/
def stepV (s : ℕ) (pos : IVec S256x128 32) (val : FVec Ideal S256x128 .f32) : FVec Ideal S256x128 .f32 :=
  select (cmpi .slt (stepM s pos) pos) (dynamicRotate 0 (BitVec.ofNat 32 (256 - s)) none val rotates_S256x128_d0) val

/-- Lane `l` of the vectors holds the pairs `PV`: positions read signed, values as they are. -/
def Rel (l : Fin 128) (pos : IVec S256x128 32) (val : FVec Ideal S256x128 .f32) (PV : ℕ → ℤ × EReal) : Prop :=
  ∀ r : Fin 256, (pos (ix2 r l)).toInt = (PV r.val).1 ∧ val (ix2 r l) = (PV r.val).2

theorem stepM_toInt (l : Fin 128) (s : ℕ) (hs : 0 < s) (hs2 : s ≤ 128) (pos : IVec S256x128 32)
    (P : ℕ → ℤ) (h : ∀ r : Fin 256, (pos (ix2 r l)).toInt = P r.val) (r : Fin 256) :
    (stepM s pos (ix2 r l)).toInt = if r.val < 256 - s then P (r.val + s) else 4096 := by
  have hr := r.isLt
  have hr' : (r.val + s) % 256 < 256 := Nat.mod_lt _ (by norm_num)
  have hrot : dynamicRotate 0 (BitVec.ofNat 32 (256 - s)) none pos rotates_S256x128_d0 (ix2 r l)
      = pos (ix2 ⟨(r.val + s) % 256, hr'⟩ l) :=
    rot_apply _ pos r _ l (by
      rw [BitVec.toNat_ofNat]
      show (r.val + s) % 256 = _
      omega)
  unfold stepM
  rw [select_apply, cmpi_apply, select_slt, V14_apply, broadcast_apply, broadcast_apply,
    toInt_ofNat_small _ (by omega), toInt_ofNat_small _ (by omega), hrot]
  by_cases hc : r.val < 256 - s
  · rw [if_pos hc, if_pos (by omega), h ⟨(r.val + s) % 256, hr'⟩]
    show P ((r.val + s) % 256) = _
    rw [Nat.mod_eq_of_lt (by omega)]
  · rw [if_neg hc, if_neg (by omega)]
    decide

/-- ONE STEP: the step's printed operations carry the pairs of lane `l` to their backward step. -/
theorem step_rel (l : Fin 128) (s : ℕ) (hs : 0 < s) (hs2 : s ≤ 128) (pos : IVec S256x128 32)
    (val : FVec Ideal S256x128 .f32) (PV : ℕ → ℤ × EReal) (h : Rel l pos val PV) :
    Rel l (stepP s pos) (stepV s pos val) (bstep s PV) := by
  intro r
  have hr := r.isLt
  obtain ⟨hp, hv⟩ := h r
  have hr' : (r.val + s) % 256 < 256 := Nat.mod_lt _ (by norm_num)
  have hm := stepM_toInt l s hs hs2 pos (fun r => (PV r).1) (fun r => (h r).1) r
  have hrot : dynamicRotate 0 (BitVec.ofNat 32 (256 - s)) none val rotates_S256x128_d0 (ix2 r l)
      = val (ix2 ⟨(r.val + s) % 256, hr'⟩ l) :=
    rot_apply _ val r _ l (by
      rw [BitVec.toNat_ofNat]
      show (r.val + s) % 256 = _
      omega)
  constructor
  · unfold stepP
    rw [select_apply, cmpi_apply, select_slt, hm, hp]
    dsimp only [bstep]
    by_cases hc : (if r.val < 256 - s then (PV (r.val + s)).1 else 4096) < (PV r.val).1
    · rw [if_pos hc, if_pos hc, hm]
    · rw [if_neg hc, if_neg hc, hp]
  · unfold stepV
    rw [select_apply, cmpi_apply, select_slt, hm, hp, hrot]
    dsimp only [bstep]
    by_cases hc : (if r.val < 256 - s then (PV (r.val + s)).1 else 4096) < (PV r.val).1
    · rw [if_pos hc, if_pos hc]
      exact (h ⟨(r.val + s) % 256, hr'⟩).2
    · rw [if_neg hc, if_neg hc, hv]

/-! ### The chunk's rows before the scan -/

/-- A select on "is not the zero word's value" is the `if` on the value. -/
theorem select_one_zero {α : Type} (x : EReal) (A B : α) :
    Scalar.select (FloatOps.cmpf (F := Ideal) (φ := .f32) .one x (Scalar.ofBits .f32 0x00000000#32)) A B
      = if x ≠ 0 then A else B := by
  show Scalar.select (Ideal.cmp .one x (Ideal.ofBits .f32 0x00000000#32)) A B = _
  rw [Ideal.ofBits_zero_f32]
  unfold Ideal.cmp Scalar.select
  by_cases h : x ≠ 0
  · rw [if_pos h, if_pos]
    simp [h]
  · rw [if_neg h, if_neg]
    simp [h]

theorem trips_lt (k : Fin k0_t2_loop.trips) : k.val < 16 := Nat.lt_of_lt_of_le k.isLt k0_t2_abs.2.1

/-- The loaded chunk, as rows and lanes. -/
theorem pay51_apply (v12 : Vec Ideal S1x256x128 .f32) (r : Fin 256) (l : Fin 128) :
    k0_pay51 v12 (ix2 r l) = v12 (ix3 0 r l) :=
  shapeCast_apply v12 shapeCasts_S1x256x128_S256x128 (ix2 r l) (ix3 0 r l) (by
    rw [Shape.rowMajor_val_three, Shape.rowMajor_val_two]
    show (0 * 256 + r.val) * 128 + l.val = r.val * 128 + l.val
    omega)

/-- The rows' global indices: the chunk's start `256 (15 - k)` plus the row. -/
theorem pay52_apply (k : Fin k0_t2_loop.trips) (r : Fin 256) (l : Fin 128) :
    k0_pay52 0#32 1#32 k (ix2 r l) = BitVec.ofNat 32 (256 * (15 - k.val) + r.val) := by
  have hk := trips_lt k
  have hr := r.isLt
  show IntOp.addi (V14 (ix2 r l)) (Scalar.muli (Scalar.subi 15#32 (Scf.iv 0#32 1#32 k.val)) 256#32) = _
  rw [V14_apply]
  unfold IntOp.addi Scalar.muli Scalar.subi IntOp.muli IntOp.subi Scf.iv
  apply BitVec.eq_of_toNat_eq
  simp only [BitVec.toNat_add, BitVec.toNat_mul, BitVec.toNat_sub, BitVec.toNat_ofNat]
  omega

theorem pay52_toInt (k : Fin k0_t2_loop.trips) (r : Fin 256) (l : Fin 128) :
    (k0_pay52 0#32 1#32 k (ix2 r l)).toInt = ((256 * (15 - k.val) + r.val : ℕ) : ℤ) := by
  have hk := trips_lt k
  have hr := r.isLt
  rw [pay52_apply, toInt_ofNat_small _ (by omega)]

/-- THE INITIAL ROWS: lane `l` of the chunk's positions and values before the scan. -/
theorem init_rel (k : Fin k0_t2_loop.trips) (v12 : Vec Ideal S1x256x128 .f32) (l : Fin 128) (col : ℕ → EReal)
    (hcol : ∀ r : Fin 256, v12 (ix3 0 r l) = col (256 * (15 - k.val) + r.val)) :
    Rel l (k0_pay53 (F := Ideal) 0#32 1#32 k v12) (k0_pay51 v12)
      (binit (fun s => col s ≠ 0) col (256 * (15 - k.val))) := by
  intro r
  have hv : k0_pay51 v12 (ix2 r l) = col (256 * (15 - k.val) + r.val) := by rw [pay51_apply, hcol]
  constructor
  · unfold k0_pay53
    rw [select_apply, cmpf_apply, broadcast_apply, broadcast_apply, hv, select_one_zero]
    dsimp only [binit]
    by_cases hc : col (256 * (15 - k.val) + r.val) ≠ 0
    · rw [if_pos hc, if_pos hc, pay52_toInt]
    · rw [if_neg hc, if_neg hc]
      decide
  · rw [hv]
    rfl

/-! ### The eight steps -/

section Chain
variable (k : Fin k0_t2_loop.trips) (v12 : Vec Ideal S1x256x128 .f32)

/-- The positions after the first three steps. -/
abbrev Q3 : IVec S256x128 32 := k0_pay62 (F := Ideal) 0#32 1#32 k v12
/-- The values after the first three steps. -/
abbrev W3 : FVec Ideal S256x128 .f32 := k0_pay63 (F := Ideal) 0#32 1#32 k v12
/-- The positions after seven steps. -/
abbrev Q7 : IVec S256x128 32 := k0_pay75 V14 (Q3 k v12) 248#32
/-- The values after seven steps. -/
abbrev W7 : FVec Ideal S256x128 .f32 := k0_pay76 V14 (Q3 k v12) (W3 k v12) 248#32
/-- The positions after the scan. -/
abbrev Q8 : IVec S256x128 32 :=
  k0_pay15 (Q7 k v12) (k0_pay77 V14 (Q3 k v12) 248#32) (k0_pay79 V14) k0_pay80
/-- The values after the scan. -/
abbrev W8 : FVec Ideal S256x128 .f32 :=
  select (k0_pay14 (Q7 k v12) (k0_pay77 V14 (Q3 k v12) 248#32) (k0_pay79 V14) k0_pay80)
    (k0_pay78 V14 (Q3 k v12) (W3 k v12) 248#32) (W7 k v12)

/-- The first three steps. -/
theorem rel3 (l : Fin 128) (PV : ℕ → ℤ × EReal)
    (h0 : Rel l (k0_pay53 (F := Ideal) 0#32 1#32 k v12) (k0_pay51 v12) PV) :
    Rel l (Q3 k v12) (W3 k v12) (bstep 4 (bstep 2 (bstep 1 PV))) := by
  have h1 : Rel l (k0_pay56 (F := Ideal) 0#32 1#32 k v12)
      (stepV 1 (k0_pay53 (F := Ideal) 0#32 1#32 k v12) (k0_pay51 v12)) (bstep 1 PV) :=
    step_rel l 1 (by norm_num) (by norm_num) _ _ _ h0
  have h2 : Rel l (k0_pay59 (F := Ideal) 0#32 1#32 k v12)
      (stepV 2 (k0_pay56 (F := Ideal) 0#32 1#32 k v12)
        (stepV 1 (k0_pay53 (F := Ideal) 0#32 1#32 k v12) (k0_pay51 v12))) (bstep 2 (bstep 1 PV)) :=
    step_rel l 2 (by norm_num) (by norm_num) _ _ _ h1
  exact step_rel l 4 (by norm_num) (by norm_num) _ _ _ h2

/-- The next four steps, from any vectors. -/
theorem rel7 (l : Fin 128) (v46 : IVec S256x128 32) (v47 : FVec Ideal S256x128 .f32) (PV : ℕ → ℤ × EReal)
    (h3 : Rel l v46 v47 PV) :
    Rel l (k0_pay75 V14 v46 248#32) (k0_pay76 V14 v46 v47 248#32)
      (bstep 64 (bstep 32 (bstep 16 (bstep 8 PV)))) := by
  have h4 : Rel l (k0_pay66 V14 v46 248#32) (stepV 8 v46 v47) (bstep 8 PV) :=
    step_rel l 8 (by norm_num) (by norm_num) _ _ _ h3
  have h5 : Rel l (k0_pay69 V14 v46 248#32) (stepV 16 (k0_pay66 V14 v46 248#32) (stepV 8 v46 v47))
      (bstep 16 (bstep 8 PV)) :=
    step_rel l 16 (by norm_num) (by norm_num) _ _ _ h4
  have h6 : Rel l (k0_pay72 V14 v46 248#32)
      (stepV 32 (k0_pay69 V14 v46 248#32) (stepV 16 (k0_pay66 V14 v46 248#32) (stepV 8 v46 v47)))
      (bstep 32 (bstep 16 (bstep 8 PV))) :=
    step_rel l 32 (by norm_num) (by norm_num) _ _ _ h5
  exact step_rel l 64 (by norm_num) (by norm_num) _ _ _ h6

/-- The last step's masked positions, positions and values are the step's. -/
theorem m8_eq (v46 : IVec S256x128 32) :
    k0_pay13 (k0_pay77 V14 v46 248#32) (k0_pay79 V14) k0_pay80 = stepM 128 (k0_pay75 V14 v46 248#32) := rfl

theorem q8_eq (v46 : IVec S256x128 32) :
    k0_pay15 (k0_pay75 V14 v46 248#32) (k0_pay77 V14 v46 248#32) (k0_pay79 V14) k0_pay80
      = stepP 128 (k0_pay75 V14 v46 248#32) := by
  unfold k0_pay15 k0_pay14 stepP
  rw [m8_eq]

theorem w8_eq (v46 : IVec S256x128 32) (v47 : FVec Ideal S256x128 .f32) :
    select (k0_pay14 (k0_pay75 V14 v46 248#32) (k0_pay77 V14 v46 248#32) (k0_pay79 V14) k0_pay80)
        (k0_pay78 V14 v46 v47 248#32) (k0_pay76 V14 v46 v47 248#32)
      = stepV 128 (k0_pay75 V14 v46 248#32) (k0_pay76 V14 v46 v47 248#32) := by
  unfold k0_pay14 stepV
  rw [m8_eq]
  rfl

/-- THE SCAN: the eight steps carry lane `l` of the chunk's rows to their backward scan. -/
theorem rel8 (l : Fin 128) (PV : ℕ → ℤ × EReal)
    (h0 : Rel l (k0_pay53 (F := Ideal) 0#32 1#32 k v12) (k0_pay51 v12) PV) :
    Rel l (Q8 k v12) (W8 k v12) (bscan PV) := by
  have h7 := rel7 l _ _ _ (rel3 k v12 l PV h0)
  have h8 := step_rel l 128 (by norm_num) (by norm_num) _ _ _ h7
  rw [← q8_eq, ← w8_eq] at h8
  exact h8

end Chain

/-! ### The carried pair, and the pair of the next non-gap -/

theorem toInt_4096 : (4096#32 : BitVec 32).toInt = 4096 := by decide
theorem toInt_zero32 : (0#32 : BitVec 32).toInt = 0 := by decide
theorem toInt_one32 : (1#32 : BitVec 32).toInt = 1 := by decide

/-- The carried row, broadcast down the rows. -/
theorem carry_apply {α : Type} (a : S1x128.Idx → α) (r : Fin 256) (l : Fin 128) :
    broadcastTo S256x128 (shapeCast S1x128 a shapeCasts_S1x128_S1x128) broadcasts_S1x128_S256x128 (ix2 r l)
      = a (ix2 0 l) := by
  rw [shapeCast_self]
  exact broadcastTo_apply a broadcasts_S1x128_S256x128 (ix2 r l) (ix2 0 l) (fun b =>
    match b with
    | ⟨0, _⟩ => rfl
    | ⟨1, _⟩ => rfl)

/-- The position of the next non-gap: the scan's where the chunk's suffix has one, the carried one otherwise. -/
theorem pay17_apply (a7 : IVec S1x128 32) (v82 v84 : IVec S256x128 32) (v87 : IVec S256x128 1)
    (v88 : IVec S256x128 32) (r : Fin 256) (l : Fin 128) :
    k0_pay17 a7 v82 v84 v87 v88 (ix2 r l)
      = if (k0_pay15 v82 v84 v87 v88 (ix2 r l)).toInt < 4096 then k0_pay15 v82 v84 v87 v88 (ix2 r l)
        else a7 (ix2 0 l) := by
  unfold k0_pay17 k0_pay16
  rw [select_apply, cmpi_apply, select_slt, broadcast_apply, carry_apply, toInt_4096]

/-- The value of the next non-gap. -/
theorem pay18_apply (a8 : FVec Ideal S1x128 .f32) (v82 : IVec S256x128 32) (v83 : FVec Ideal S256x128 .f32)
    (v84 : IVec S256x128 32) (v85 : FVec Ideal S256x128 .f32) (v87 : IVec S256x128 1)
    (v88 : IVec S256x128 32) (r : Fin 256) (l : Fin 128) :
    k0_pay18 a8 v82 v83 v84 v85 v87 v88 (ix2 r l)
      = if (k0_pay15 v82 v84 v87 v88 (ix2 r l)).toInt < 4096
          then select (k0_pay14 v82 v84 v87 v88) v85 v83 (ix2 r l)
        else a8 (ix2 0 l) := by
  unfold k0_pay18 k0_pay16
  rw [select_apply, cmpi_apply, select_slt, broadcast_apply, carry_apply, toInt_4096]

/-- A backward step keeps positions non-negative. -/
theorem bstep_nonneg (s : ℕ) (PV : ℕ → ℤ × EReal) (h : ∀ r, 0 ≤ (PV r).1) : ∀ r, 0 ≤ (bstep s PV r).1 := by
  intro r
  have h1 := h r
  have h2 := h (r + s)
  rw [bstep_fst]
  split_ifs <;> omega

theorem chunkScan_nonneg (col : ℕ → EReal) (start r : ℕ) : 0 ≤ (chunkScan col start r).1 := by
  have h0 : ∀ r, 0 ≤ (binit (fun s => col s ≠ 0) col start r).1 := by
    intro r
    dsimp only [binit]
    split_ifs <;> omega
  unfold chunkScan bscan
  exact bstep_nonneg _ _ (bstep_nonneg _ _ (bstep_nonneg _ _ (bstep_nonneg _ _ (bstep_nonneg _ _
    (bstep_nonneg _ _ (bstep_nonneg _ _ (bstep_nonneg _ _ h0))))))) r

theorem npos_bounds (col : ℕ → EReal) (cp : ℤ) (hcp1 : 0 ≤ cp) (hcp2 : cp ≤ 4096) (start r : ℕ) :
    0 ≤ npos col cp start r ∧ npos col cp start r ≤ 4096 := by
  have h := chunkScan_nonneg col start r
  unfold npos
  split_ifs <;> omega

section Next
variable (k : Fin k0_t2_loop.trips) (v12 : Vec Ideal S1x256x128 .f32) (l : Fin 128) (col : ℕ → EReal)
  (hcol : ∀ r : Fin 256, v12 (ix3 0 r l) = col (256 * (15 - k.val) + r.val))
include hcol

theorem scan_rel : Rel l (Q8 k v12) (W8 k v12) (chunkScan col (256 * (15 - k.val))) :=
  rel8 k v12 l _ (init_rel k v12 l col hcol)

/-- The next non-gap's position, read signed. -/
theorem next_pos (a7 : IVec S1x128 32) (cp : ℤ) (hcp : a7 (ix2 0 l) = BitVec.ofInt 32 cp) (hcp1 : 0 ≤ cp)
    (hcp2 : cp ≤ 4096) (r : Fin 256) :
    (k0_pay17 a7 (Q7 k v12) (k0_pay77 V14 (Q3 k v12) 248#32) (k0_pay79 V14) k0_pay80 (ix2 r l)).toInt
      = npos col cp (256 * (15 - k.val)) r.val := by
  have hp : (k0_pay15 (Q7 k v12) (k0_pay77 V14 (Q3 k v12) 248#32) (k0_pay79 V14) k0_pay80 (ix2 r l)).toInt
      = (chunkScan col (256 * (15 - k.val)) r.val).1 := (scan_rel k v12 l col hcol r).1
  rw [pay17_apply, hp]
  unfold npos
  by_cases hc : (chunkScan col (256 * (15 - k.val)) r.val).1 < 4096
  · rw [if_pos hc, if_pos hc, hp]
  · rw [if_neg hc, if_neg hc, hcp, toInt_ofInt_small _ (by omega) (by omega)]

/-- The next non-gap's value. -/
theorem next_val (a8 : FVec Ideal S1x128 .f32) (cv : EReal) (hcv : a8 (ix2 0 l) = cv) (r : Fin 256) :
    k0_pay18 a8 (Q7 k v12) (W7 k v12) (k0_pay77 V14 (Q3 k v12) 248#32) (k0_pay78 V14 (Q3 k v12) (W3 k v12) 248#32)
        (k0_pay79 V14) k0_pay80 (ix2 r l)
      = nval col cv (256 * (15 - k.val)) r.val := by
  have hp : (k0_pay15 (Q7 k v12) (k0_pay77 V14 (Q3 k v12) 248#32) (k0_pay79 V14) k0_pay80 (ix2 r l)).toInt
      = (chunkScan col (256 * (15 - k.val)) r.val).1 := (scan_rel k v12 l col hcol r).1
  have hv : select (k0_pay14 (Q7 k v12) (k0_pay77 V14 (Q3 k v12) 248#32) (k0_pay79 V14) k0_pay80)
      (k0_pay78 V14 (Q3 k v12) (W3 k v12) 248#32) (W7 k v12) (ix2 r l)
      = (chunkScan col (256 * (15 - k.val)) r.val).2 := (scan_rel k v12 l col hcol r).2
  rw [pay18_apply, hp, hv, hcv]
  rfl

end Next

/-! ### The epilogue on one element -/

theorem cmpi_eq_ofBool (x y : BitVec 32) :
    IntOp.cmpi .eq x y = BitVec.ofBool (decide (x.toInt = y.toInt)) := by
  unfold IntOp.cmpi
  by_cases h : x = y
  · subst h
    simp
  · have h' : x.toInt ≠ y.toInt := fun hh => h (BitVec.toInt_inj.mp hh)
    have hb : (x == y) = false := beq_eq_false_iff_ne.mpr h
    simp [hb, h']

theorem select_ofBool {α : Type} (p : Prop) [Decidable p] (A B : α) :
    Scalar.select (BitVec.ofBool (decide p)) A B = if p then A else B := by
  unfold Scalar.select
  by_cases h : p
  · rw [if_pos h, if_pos]
    simp [h]
  · rw [if_neg h, if_neg]
    simp [h]

/-- The select on "not `a`, and `b`, and `c`" of three decided bits. -/
theorem select_and3 {α : Type} (a b c : Prop) [Decidable a] [Decidable b] [Decidable c] (X Y : α) :
    Scalar.select (IntOp.andi (IntOp.andi (IntOp.xori (BitVec.ofBool (decide a)) 1#1) (BitVec.ofBool (decide b)))
        (BitVec.ofBool (decide c))) X Y = if ¬a ∧ b ∧ c then X else Y := by
  unfold Scalar.select IntOp.andi IntOp.xori
  by_cases ha : a <;> by_cases hb : b <;> by_cases hc : c <;> simp [ha, hb, hc]

/-- A difference of words that does not wrap reads signed as the difference. -/
theorem toInt_subi (a b : BitVec 32) (h1 : -2147483648 ≤ a.toInt - b.toInt) (h2 : a.toInt - b.toInt < 2147483648) :
    (IntOp.subi a b).toInt = a.toInt - b.toInt := by
  unfold IntOp.subi
  rw [BitVec.toInt_sub]
  unfold Int.bmod
  norm_num
  omega

/-- The signed maximum of words reads signed as the maximum. -/
theorem toInt_maxsi (x y : BitVec 32) : (IntOp.maxsi x y).toInt = max x.toInt y.toInt := by
  unfold IntOp.maxsi
  by_cases h : y.toInt < x.toInt
  · rw [if_pos (by simp [BitVec.slt, h]), max_eq_left (le_of_lt h)]
  · rw [if_neg (by simp [BitVec.slt, h]), max_eq_right (not_lt.mp h)]

/-- THE EPILOGUE on one element: from the words of the previous and the next non-gap's positions and of the row's
    own index, and the two values, the printed arithmetic is the interpolated value. -/
theorem epi_elem (wpp wnp wI : BitVec 32) (pv nv : EReal) (pp np I : ℤ)
    (hpp : wpp.toInt = pp) (hnp : wnp.toInt = np) (hI : wI.toInt = I)
    (hpp1 : -1 ≤ pp) (hpp2 : pp < 4096) (hnp1 : 0 ≤ np) (hnp2 : np ≤ 4096) (hI1 : 0 ≤ I) (hI2 : I < 4096) :
    Scalar.select (IntOp.cmpi .sge wpp 0#32) pv nv
      + Scalar.select (IntOp.andi (IntOp.andi (IntOp.xori (IntOp.cmpi .eq wpp wI) 1#1) (IntOp.cmpi .sge wpp 0#32))
            (IntOp.cmpi .slt wnp 4096#32))
          (Ideal.div (((IntOp.subi wI wpp).toInt : ℝ) : EReal)
            (((IntOp.maxsi (IntOp.subi wnp wpp) 1#32).toInt : ℝ) : EReal))
          (Scalar.ofBits (F := Ideal) .f32 0x00000000#32)
        * (Scalar.select (IntOp.cmpi .slt wnp 4096#32) nv pv - Scalar.select (IntOp.cmpi .sge wpp 0#32) pv nv)
      = Cert.Interp.kOut I pp np pv nv := by
  have e1 : IntOp.cmpi .sge wpp 0#32 = BitVec.ofBool (decide (0 ≤ pp)) := by
    rw [← hpp, ← toInt_zero32]; rfl
  have e2 : IntOp.cmpi .slt wnp 4096#32 = BitVec.ofBool (decide (np < 4096)) := by
    rw [← hnp, ← toInt_4096]; rfl
  have e3 : IntOp.cmpi .eq wpp wI = BitVec.ofBool (decide (pp = I)) := by
    rw [cmpi_eq_ofBool, hpp, hI]
  have e4 : (IntOp.subi wI wpp).toInt = I - pp := by
    rw [toInt_subi _ _ (by omega) (by omega), hI, hpp]
  have e5 : (IntOp.maxsi (IntOp.subi wnp wpp) 1#32).toInt = max (np - pp) 1 := by
    rw [toInt_maxsi, toInt_subi _ _ (by omega) (by omega), hnp, hpp, toInt_one32]
  have e6 : (Scalar.ofBits (F := Ideal) .f32 0x00000000#32 : EReal) = 0 := Ideal.ofBits_zero_f32
  rw [e1, e2, e3, e4, e5, e6, select_and3, select_ofBool, select_ofBool]
  rfl

/-! ### The trip's stored and carried vectors -/

/-- The stored block at row `r`, lane `l`: the epilogue's arithmetic on the elements there. -/
theorem pay21_apply (a7 : IVec S1x128 32) (a8 : FVec Ideal S1x128 .f32) (v16 v82 : IVec S256x128 32)
    (v83 : FVec Ideal S256x128 .f32) (v84 : IVec S256x128 32) (v85 : FVec Ideal S256x128 .f32)
    (v87 : IVec S256x128 1) (v88 : IVec S256x128 32) (v104 : Vec Ideal S256x128 .i32)
    (v106 : Vec Ideal S256x128 .f32) (r : Fin 256) (l : Fin 128) :
    k0_pay21 (F := Ideal) a7 a8 v16 v82 v83 v84 v85 v87 v88 v104 v106 (ix3 0 r l)
      = Scalar.select (IntOp.cmpi .sge (v104 (ix2 r l)) 0#32) (v106 (ix2 r l))
            (k0_pay18 a8 v82 v83 v84 v85 v87 v88 (ix2 r l))
        + Scalar.select (IntOp.andi (IntOp.andi (IntOp.xori (IntOp.cmpi .eq (v104 (ix2 r l)) (v16 (ix2 r l))) 1#1)
              (IntOp.cmpi .sge (v104 (ix2 r l)) 0#32))
              (IntOp.cmpi .slt (k0_pay17 a7 v82 v84 v87 v88 (ix2 r l)) 4096#32))
            (Ideal.div (((IntOp.subi (v16 (ix2 r l)) (v104 (ix2 r l))).toInt : ℝ) : EReal)
              (((IntOp.maxsi (IntOp.subi (k0_pay17 a7 v82 v84 v87 v88 (ix2 r l)) (v104 (ix2 r l))) 1#32).toInt : ℝ)
                : EReal))
            (Scalar.ofBits (F := Ideal) .f32 0x00000000#32)
          * (Scalar.select (IntOp.cmpi .slt (k0_pay17 a7 v82 v84 v87 v88 (ix2 r l)) 4096#32)
                (k0_pay18 a8 v82 v83 v84 v85 v87 v88 (ix2 r l)) (v106 (ix2 r l))
              - Scalar.select (IntOp.cmpi .sge (v104 (ix2 r l)) 0#32) (v106 (ix2 r l))
                (k0_pay18 a8 v82 v83 v84 v85 v87 v88 (ix2 r l))) := by
  unfold k0_pay21
  refine (shapeCast_apply _ shapeCasts_S256x128_S1x256x128 (ix3 0 r l) (ix2 r l) (by
    rw [Shape.rowMajor_val_three, Shape.rowMajor_val_two]
    show r.val * 128 + l.val = (0 * 256 + r.val) * 128 + l.val
    omega)).trans ?_
  rfl

/-- The stored row `r`, lane `l`: the interpolated value from the previous non-gap's position `pp` and value
    `pv` (read back from the scratch buffers) and the next non-gap's. -/
theorem tout_apply (hcol : ∀ r : Fin 256, v12 (ix3 0 r l) = col (256 * (15 - k.val) + r.val))
    (hcp : a7 (ix2 0 l) = BitVec.ofInt 32 cp) (hcp1 : 0 ≤ cp) (hcp2 : cp ≤ 4096) (hcv : a8 (ix2 0 l) = cv)
    (r : Fin 256) (pp : ℤ) (pv : EReal) (hpp : v104 (ix2 r l) = BitVec.ofInt 32 pp) (hpp1 : -1 ≤ pp) (hpp2 : pp < 4096)
    (hpv : v106 (ix2 r l) = pv) :
    tout k v12 a7 a8 v104 v106 (ix3 0 r l)
      = Cert.Interp.kOut ((256 * (15 - k.val) + r.val : ℕ) : ℤ) pp (npos col cp (256 * (15 - k.val)) r.val) pv
          (nval col cv (256 * (15 - k.val)) r.val) := by
  have hk := trips_lt k
  have hr := r.isLt
  have hnb := npos_bounds col cp hcp1 hcp2 (256 * (15 - k.val)) r.val
  have hnp := next_pos k v12 l col hcol a7 cp hcp hcp1 hcp2 r
  have hnv := next_val k v12 l col hcol a8 cv hcv r
  have hI := pay52_toInt k r l
  have hppw : (v104 (ix2 r l)).toInt = pp := by rw [hpp, toInt_ofInt_small _ (by omega) (by omega)]
  show k0_pay21 a7 a8 (k0_pay52 0#32 1#32 k) (Q7 k v12) (W7 k v12) (k0_pay77 V14 (Q3 k v12) 248#32)
    (k0_pay78 V14 (Q3 k v12) (W3 k v12) 248#32) (k0_pay79 V14) k0_pay80 v104 v106 (ix3 0 r l) = _
  rw [pay21_apply, hnv, hpv]
  exact epi_elem _ _ _ _ _ pp _ _ hppw hnp hI hpp1 hpp2 hnb.1 hnb.2 (by omega) (by omega)

/-- The carried rows are the next non-gap's pair at the chunk's first row. -/
theorem tcpos_apply (hcol : ∀ r : Fin 256, v12 (ix3 0 r l) = col (256 * (15 - k.val) + r.val))
    (hcp : a7 (ix2 0 l) = BitVec.ofInt 32 cp) (hcp1 : 0 ≤ cp) (hcp2 : cp ≤ 4096) :
    tcpos k v12 a7 (ix2 0 l) = BitVec.ofInt 32 (npos col cp (256 * (15 - k.val)) 0) := by
  have hnp := next_pos k v12 l col hcol a7 cp hcp hcp1 hcp2 0
  show k0_pay19 a7 (Q7 k v12) (k0_pay77 V14 (Q3 k v12) 248#32) (k0_pay79 V14) k0_pay80 (ix2 0 l) = _
  unfold k0_pay19
  refine (extractStridedSlice_apply _ _ slices_S256x128_o0_0_S1x128 (ix2 0 l) (ix2 0 l) (fun b =>
    match b with
    | ⟨0, _⟩ => rfl
    | ⟨1, _⟩ => (Nat.zero_add _).symm)).trans ?_
  exact (BitVec.ofInt_toInt).symm.trans (congrArg (BitVec.ofInt 32) hnp)

theorem tcval_apply (hcol : ∀ r : Fin 256, v12 (ix3 0 r l) = col (256 * (15 - k.val) + r.val))
    (hcv : a8 (ix2 0 l) = cv) :
    tcval k v12 a8 (ix2 0 l) = nval col cv (256 * (15 - k.val)) 0 := by
  have hnv := next_val k v12 l col hcol a8 cv hcv 0
  show k0_pay20 a8 (Q7 k v12) (W7 k v12) (k0_pay77 V14 (Q3 k v12) 248#32)
    (k0_pay78 V14 (Q3 k v12) (W3 k v12) 248#32) (k0_pay79 V14) k0_pay80 (ix2 0 l) = _
  unfold k0_pay20
  refine (extractStridedSlice_apply _ _ slices_S256x128_o0_0_S1x128 (ix2 0 l) (ix2 0 l) (fun b =>
    match b with
    | ⟨0, _⟩ => rfl
    | ⟨1, _⟩ => (Nat.zero_add _).symm)).trans ?_
  exact hnv

end Cert.Interp.Bwd

end
-- ==== Proof.KValue.lean ====
/-
  The kernel's block at one grid point, read row by row.

  At a grid point the body sees one input block of 4096 rows by 128 lanes. Lane by lane the block is a column;
  the first loop leaves in the two scratch buffers, at every row, the position and the value of the nearest
  non-gap at or before the row, and the second loop leaves in the output block the interpolated value of the
  column at every row. Both are shown by induction over the loop's trips: a trip's stores are the chunk's scan
  joined with the pair carried in, and the pair it carries on is the one the next chunk needs.
-/
import proofs.«173454_j55009941127452_2_alg».proof.Proof.ValueKI
import proofs.«173454_j55009941127452_2_alg».proof.Proof.FwdPay
import proofs.«173454_j55009941127452_2_alg».proof.Proof.BwdPay
import proofs.«173454_j55009941127452_2_alg».proof.Proof.KFinal
import Idealize.ShloMosaic.Lib.WritesUnit
import Idealize.ShloMosaic.Lib.Pipeline.Value
import Idealize.ShloMosaic.Lib.Pipeline.FrameBody
import Idealize.ShloMosaic.Lib.ValueIdx

set_option maxRecDepth 16384

noncomputable section

namespace Cert.Interp.KV

open Cert.KernelIdeal Cert.KernelIdeal.Gen Idealize.ShloMosaic Idealize.ShloMosaic.TcCoe Idealize.ShloMosaic.Tactic
open Idealize.SL Idealize.SL.Sem Idealize.ShloMosaic.ValueIdx

variable (𝒱 : Variants) (c : Dev nD) (bd : Option 𝒱.V) (i : grid0.Coords) (arg2 : Memref sig .tc .vmem S1x4096x128 .f32) (harg2 : arg2.IsWhole) (arg3 : Memref sig .tc .vmem S1x4096x128 .f32) (harg3 : arg3.IsWhole) (arg4 : Memref sig .tc .vmem S4096x128 .i32) (harg4 : arg4.IsWhole) (arg5 : Memref sig .tc .vmem S4096x128 .f32) (harg5 : arg5.IsWhole)

/-- The chunk of the input block a trip of the first loop loads. -/
def chunk1 (X : BufTy.Contents (Elt Ideal) arg2.view.ty) (k : Fin k0_t1_loop.trips) : Vec Ideal S1x256x128 .f32 :=
  View.readAt (Elt Ideal) arg2.view (Rect.unit (s := S1x4096x128) (k0_off1 k) S1x256x128.size (k0_off1_inb k)).toLoadRect X

/-- The chunk of the input block a trip of the second loop loads. -/
def chunk3 (X : BufTy.Contents (Elt Ideal) arg2.view.ty) (k : Fin k0_t2_loop.trips) : Vec Ideal S1x256x128 .f32 :=
  View.readAt (Elt Ideal) arg2.view (Rect.unit (s := S1x4096x128) (k0_off3 k) S1x256x128.size (k0_off3_inb k)).toLoadRect X

/-- What a trip of the first loop carries on: the scan's last row joined with the carried pair. -/
theorem tripR1 (X : BufTy.Contents (Elt Ideal) arg2.view.ty) (k : Fin k0_t1_loop.trips) (acc : IVec S1x128 32 × FVec Ideal S1x128 .f32) :
    tripR_k0_t1 (F := Ideal) 𝒱 c bd i arg2 harg2 arg3 harg3 arg4 harg4 arg5 harg5 X k acc
      = (Fwd.tcpos k (chunk1 arg2 X k) acc.1, Fwd.tcval k (chunk1 arg2 X k) acc.2) := by
  unfold tripR_k0_t1 trip_k0_t1
  dsimp only
  sl_unfold_words
  rfl

/-- What a trip of the first loop stores: the chunk's positions and values, at the chunk's rows. -/
theorem tripL1 (X : BufTy.Contents (Elt Ideal) arg2.view.ty) (k : Fin k0_t1_loop.trips) (acc : IVec S1x128 32 × FVec Ideal S1x128 .f32) :
    tripL_k0_t1 (F := Ideal) 𝒱 c bd i arg2 harg2 arg3 harg3 arg4 harg4 arg5 harg5 X k acc
      = ([⟨Rect.unit (s := S4096x128) (k0_off2 k) S256x128.size (k0_off2_inb k), Fwd.tpos k (chunk1 arg2 X k) acc.1⟩],
         [⟨Rect.unit (s := S4096x128) (k0_off2 k) S256x128.size (k0_off2_inb k), Fwd.tval k (chunk1 arg2 X k) acc.2⟩]) := by
  unfold tripL_k0_t1 trip_k0_t1
  dsimp only
  sl_unfold_words
  rfl

/-- What a trip of the second loop carries on. -/
theorem tripR2 (X : BufTy.Contents (Elt Ideal) arg2.view.ty) (X4 : BufTy.Contents (Elt Ideal) arg4.view.ty) (X5 : BufTy.Contents (Elt Ideal) arg5.view.ty)
    (k : Fin k0_t2_loop.trips) (acc : IVec S1x128 32 × FVec Ideal S1x128 .f32) :
    tripR_k0_t2 (F := Ideal) 𝒱 c bd i arg2 harg2 arg3 harg3 arg4 harg4 arg5 harg5 X X4 X5 k acc
      = (Bwd.tcpos k (chunk3 arg2 X k) acc.1, Bwd.tcval k (chunk3 arg2 X k) acc.2) := by
  unfold tripR_k0_t2 trip_k0_t2
  dsimp only
  sl_unfold_words
  rfl

/-- What a trip of the second loop stores: the chunk's interpolated rows, from the scratch buffers' rows. -/
theorem tripL2 (X : BufTy.Contents (Elt Ideal) arg2.view.ty) (X4 : BufTy.Contents (Elt Ideal) arg4.view.ty) (X5 : BufTy.Contents (Elt Ideal) arg5.view.ty)
    (k : Fin k0_t2_loop.trips) (acc : IVec S1x128 32 × FVec Ideal S1x128 .f32) :
    tripL_k0_t2 (F := Ideal) 𝒱 c bd i arg2 harg2 arg3 harg3 arg4 harg4 arg5 harg5 X X4 X5 k acc
      = [⟨Rect.unit (s := S1x4096x128) (k0_off3 k) S1x256x128.size (k0_off3_inb k),
          Bwd.tout k (chunk3 arg2 X k) acc.1 acc.2
            (View.readAt (Elt Ideal) arg4.view (Rect.unit (s := S4096x128) (k0_off4 k) S256x128.size (k0_off4_inb k)).toLoadRect X4)
            (View.readAt (Elt Ideal) arg5.view (Rect.unit (s := S4096x128) (k0_off4 k) S256x128.size (k0_off4_inb k)).toLoadRect X5)⟩] := by
  unfold tripL_k0_t2 trip_k0_t2
  dsimp only
  sl_unfold_words
  rfl

/-! ## The column of a lane, and the chunks as pieces of it -/

/-- The column of the block through lane `l` (0 past the block's 4096 rows). -/
def colL (x0 : Vec Ideal S1x4096x128 .f32) (l : Fin 128) : ℕ → EReal :=
  fun s => if h : s < 4096 then x0 (ix3 0 ⟨s, h⟩ l) else 0

theorem colL_high (x0 : Vec Ideal S1x4096x128 .f32) (l : Fin 128) (s : ℕ) (hs : 4096 ≤ s) : colL x0 l s = 0 := by
  unfold colL; rw [dif_neg (by omega)]

theorem trips1 : Scf.trips k0_t1_loop.lb k0_t1_loop.ub k0_t1_loop.st = 16 := by decide
theorem trips2 : Scf.trips k0_t2_loop.lb k0_t2_loop.ub k0_t2_loop.st = 16 := by decide

/-- A chunk of the first loop, read at a row and a lane, is the column at the chunk's row. -/
theorem chunk1_apply (x0 : Vec Ideal S1x4096x128 .f32) (k : Fin k0_t1_loop.trips) (r : Fin 256) (l : Fin 128) :
    chunk1 arg2 (harg2.unread x0) k (ix3 0 r l) = colL x0 l (256 * k.val + r.val) := by
  have hk : k.val < 16 := Nat.lt_of_lt_of_le k.isLt k0_t1_abs.2.1
  unfold chunk1
  rw [View.readAt_eq_ld, harg2.read_unread]
  unfold colL
  rw [dif_pos (by omega)]
  show x0 _ = x0 _
  congr 1
  funext a
  apply Fin.ext
  match a with
  | ⟨0, _⟩ => show (k0_off1 k) 0 + 1 * 0 = 0; rw [k0_off1_eq]; rfl
  | ⟨1, _⟩ => show (k0_off1 k) 1 + 1 * r.val = 256 * k.val + r.val; rw [k0_off1_eq]; show 256 * k.val + 1 * r.val = _; omega
  | ⟨2, _⟩ => show (k0_off1 k) 2 + 1 * l.val = l.val; rw [k0_off1_eq]; show 0 + 1 * l.val = _; omega

/-- A chunk of the second loop, read at a row and a lane: the chunks come from the bottom up. -/
theorem chunk3_apply (x0 : Vec Ideal S1x4096x128 .f32) (k : Fin k0_t2_loop.trips) (r : Fin 256) (l : Fin 128) :
    chunk3 arg2 (harg2.unread x0) k (ix3 0 r l) = colL x0 l (256 * (15 - k.val) + r.val) := by
  have hk : k.val < 16 := Nat.lt_of_lt_of_le k.isLt k0_t2_abs.2.1
  unfold chunk3
  rw [View.readAt_eq_ld, harg2.read_unread]
  unfold colL
  rw [dif_pos (by omega)]
  show x0 _ = x0 _
  congr 1
  funext a
  apply Fin.ext
  match a with
  | ⟨0, _⟩ => show (k0_off3 k) 0 + 1 * 0 = 0; rw [k0_off3_eq]; rfl
  | ⟨1, _⟩ => show (k0_off3 k) 1 + 1 * r.val = 256 * (15 - k.val) + r.val; rw [k0_off3_eq]; show 3840 - 256 * k.val + 1 * r.val = _; omega
  | ⟨2, _⟩ => show (k0_off3 k) 2 + 1 * l.val = l.val; rw [k0_off3_eq]; show 0 + 1 * l.val = _; omega

/-! ## The first loop: positions and values of the previous non-gap, chunk by chunk -/

section Loop1

variable (x0 : Vec Ideal S1x4096x128 .f32)

/-- The first loop's state before trip `n`: the carried rows and the stores so far. -/
abbrev S1 (n : ℕ) :=
  st_k0_t1 (F := Ideal) Variants.none c none i arg2 harg2 arg3 harg3 arg4 harg4 arg5 harg5 (harg2.unread x0) (k0_pay1, k0_pay2) n

theorem trips1' : k0_t1_loop.trips = 16 := by decide
theorem trips2' : k0_t2_loop.trips = 16 := by decide

/-- One trip: the carried rows and one more store in each scratch buffer. -/
theorem S1_succ (k : ℕ) (hk : k < k0_t1_loop.trips) :
    S1 c i arg2 harg2 arg3 harg3 arg4 harg4 arg5 harg5 x0 (k + 1)
      = ((Fwd.tcpos ⟨k, hk⟩ (chunk1 arg2 (harg2.unread x0) ⟨k, hk⟩) (S1 c i arg2 harg2 arg3 harg3 arg4 harg4 arg5 harg5 x0 k).1.1,
          Fwd.tcval ⟨k, hk⟩ (chunk1 arg2 (harg2.unread x0) ⟨k, hk⟩) (S1 c i arg2 harg2 arg3 harg3 arg4 harg4 arg5 harg5 x0 k).1.2),
         (⟨Rect.unit (s := S4096x128) (k0_off2 ⟨k, hk⟩) S256x128.size (k0_off2_inb ⟨k, hk⟩),
            Fwd.tpos ⟨k, hk⟩ (chunk1 arg2 (harg2.unread x0) ⟨k, hk⟩) (S1 c i arg2 harg2 arg3 harg3 arg4 harg4 arg5 harg5 x0 k).1.1⟩
            :: (S1 c i arg2 harg2 arg3 harg3 arg4 harg4 arg5 harg5 x0 k).2.1,
          ⟨Rect.unit (s := S4096x128) (k0_off2 ⟨k, hk⟩) S256x128.size (k0_off2_inb ⟨k, hk⟩),
            Fwd.tval ⟨k, hk⟩ (chunk1 arg2 (harg2.unread x0) ⟨k, hk⟩) (S1 c i arg2 harg2 arg3 harg3 arg4 harg4 arg5 harg5 x0 k).1.2⟩
            :: (S1 c i arg2 harg2 arg3 harg3 arg4 harg4 arg5 harg5 x0 k).2.2)) := by
  have h := st_k0_t1_succ (F := Ideal) Variants.none c none i arg2 harg2 arg3 harg3 arg4 harg4 arg5 harg5 (harg2.unread x0) (k0_pay1, k0_pay2) ⟨k, hk⟩
  rw [tripR1, tripL1] at h
  exact h

/-- THE FIRST LOOP's invariant in lane `l`: before trip `n` the carried pair is the previous non-gap below row
    `256 n` (position and value), and the rows below `256 n` of the two scratch buffers hold, row by row, the
    previous non-gap at or before the row. -/
theorem inv1 (l : Fin 128) (n : ℕ) (hn : n ≤ 16) :
    (S1 c i arg2 harg2 arg3 harg3 arg4 harg4 arg5 harg5 x0 n).1.1 (ix2 0 l)
        = BitVec.ofInt 32 (prevJ (fun s => colL x0 l s ≠ 0) (256 * n))
    ∧ (S1 c i arg2 harg2 arg3 harg3 arg4 harg4 arg5 harg5 x0 n).1.2 (ix2 0 l)
        = pvalAt (fun s => colL x0 l s ≠ 0) (colL x0 l) 0 (256 * n)
    ∧ (∀ (v : View sig .tc .vmem S4096x128 .i32) (f : v.ty.Contents (Elt Ideal)) (R : Fin 4096), R.val < 256 * n →
        v.read (Elt Ideal) (v.writes (Elt Ideal) f (S1 c i arg2 harg2 arg3 harg3 arg4 harg4 arg5 harg5 x0 n).2.1) (ix2 R l)
          = BitVec.ofInt 32 (prevJ (fun s => colL x0 l s ≠ 0) (R.val + 1)))
    ∧ (∀ (v : View sig .tc .vmem S4096x128 .f32) (f : v.ty.Contents (Elt Ideal)) (R : Fin 4096), R.val < 256 * n →
        v.read (Elt Ideal) (v.writes (Elt Ideal) f (S1 c i arg2 harg2 arg3 harg3 arg4 harg4 arg5 harg5 x0 n).2.2) (ix2 R l)
          = pvalAt (fun s => colL x0 l s ≠ 0) (colL x0 l) 0 (R.val + 1)) := by
  induction n with
  | zero =>
    refine ⟨?_, ?_, fun v f R hR => absurd hR (by omega), fun v f R hR => absurd hR (by omega)⟩
    · show (k0_pay1 : IVec S1x128 32) (ix2 0 l) = _
      unfold k0_pay1
      simp only [prevJ, Nat.mul_zero]
      rfl
    · show (k0_pay2 (F := Ideal)) (ix2 0 l) = _
      have hneg : ¬ (0 ≤ prevJ (fun s => colL x0 l s ≠ 0) (256 * 0)) := by show ¬ ((0 : ℤ) ≤ -1); decide
      unfold pvalAt
      rw [if_neg hneg]
      exact Ideal.ofBits_zero_f32
  | succ k ih =>
    have hk : k < k0_t1_loop.trips := by rw [trips1']; omega
    obtain ⟨ih1, ih2, ih3, ih4⟩ := ih (by omega)
    rw [S1_succ c i arg2 harg2 arg3 harg3 arg4 harg4 arg5 harg5 x0 k hk]
    have hcol : ∀ r : Fin 256, chunk1 arg2 (harg2.unread x0) ⟨k, hk⟩ (ix3 0 r l) = colL x0 l (256 * k + r.val) :=
      fun r => chunk1_apply arg2 harg2 x0 ⟨k, hk⟩ r l
    have hp1 := prevJ_ge (fun s => colL x0 l s ≠ 0) (256 * k)
    have hp2 := prevJ_lt (fun s => colL x0 l s ≠ 0) (256 * k)
    have hpos : ∀ r : Fin 256, Fwd.tpos ⟨k, hk⟩ (chunk1 arg2 (harg2.unread x0) ⟨k, hk⟩)
        (S1 c i arg2 harg2 arg3 harg3 arg4 harg4 arg5 harg5 x0 k).1.1 (ix2 r l)
          = BitVec.ofInt 32 (prevJ (fun s => colL x0 l s ≠ 0) (256 * k + r.val + 1)) := fun r => by
      rw [Fwd.tpos_apply ⟨k, hk⟩ _ _ l (colL x0 l) _ hcol ih1 hp1 (by omega) r]
      have hb := congrArg Prod.fst (fwd_block (fun s => colL x0 l s ≠ 0) (colL x0 l) (0 : EReal) (256 * k) r.val r.isLt)
      rw [apply_ite Prod.fst] at hb
      exact congrArg (BitVec.ofInt 32) hb
    have hval : ∀ r : Fin 256, Fwd.tval ⟨k, hk⟩ (chunk1 arg2 (harg2.unread x0) ⟨k, hk⟩)
        (S1 c i arg2 harg2 arg3 harg3 arg4 harg4 arg5 harg5 x0 k).1.2 (ix2 r l)
          = pvalAt (fun s => colL x0 l s ≠ 0) (colL x0 l) 0 (256 * k + r.val + 1) := fun r => by
      rw [Fwd.tval_apply ⟨k, hk⟩ _ _ l (colL x0 l) _ hcol ih2 r]
      have hb := congrArg Prod.snd (fwd_block (fun s => colL x0 l s ≠ 0) (colL x0 l) (0 : EReal) (256 * k) r.val r.isLt)
      rw [apply_ite Prod.snd] at hb
      exact hb
    refine ⟨?_, ?_, fun v f R hR => ?_, fun v f R hR => ?_⟩
    · dsimp only
      rw [Fwd.tcpos_apply, hpos 255]
      show BitVec.ofInt 32 (prevJ _ (256 * k + 255 + 1)) = BitVec.ofInt 32 (prevJ _ (256 * (k + 1)))
      rw [show 256 * k + 255 + 1 = 256 * (k + 1) by omega]
    · dsimp only
      rw [Fwd.tcval_apply, hval 255]
      show pvalAt _ _ _ (256 * k + 255 + 1) = pvalAt _ _ _ (256 * (k + 1))
      rw [show 256 * k + 255 + 1 = 256 * (k + 1) by omega]
    · dsimp only
      by_cases hlt : R.val < 256 * k
      · rw [View.read_writes_cons_unit_of_not_mem v f (off := k0_off2 ⟨k, hk⟩) (size := S256x128.size) (k0_off2_inb ⟨k, hk⟩) _ _ (ix2 R l) (k0_off2_eq ⟨k, hk⟩) (0 : Fin 2) (Or.inl hlt)]
        exact ih3 v f R hlt
      · have hr : R.val - 256 * k < 256 := by omega
        refine (View.read_writes_cons_unit_of_mem v f (off := k0_off2 ⟨k, hk⟩) (size := S256x128.size) (k0_off2_inb ⟨k, hk⟩) _ _ (ix2 R l)
          (ix2 (⟨R.val - 256 * k, hr⟩ : Fin 256) l) (k0_off2_eq ⟨k, hk⟩)
          (fun a => by match a with
            | ⟨0, _⟩ => show R.val = 256 * k + (R.val - 256 * k); omega
            | ⟨1, _⟩ => show l.val = 0 + l.val; omega)).trans ?_
        refine (hpos ⟨R.val - 256 * k, hr⟩).trans ?_
        show BitVec.ofInt 32 (prevJ _ (256 * k + (R.val - 256 * k) + 1)) = _
        rw [show 256 * k + (R.val - 256 * k) + 1 = R.val + 1 by omega]
    · dsimp only
      by_cases hlt : R.val < 256 * k
      · rw [View.read_writes_cons_unit_of_not_mem v f (off := k0_off2 ⟨k, hk⟩) (size := S256x128.size) (k0_off2_inb ⟨k, hk⟩) _ _ (ix2 R l) (k0_off2_eq ⟨k, hk⟩) (0 : Fin 2) (Or.inl hlt)]
        exact ih4 v f R hlt
      · have hr : R.val - 256 * k < 256 := by omega
        refine (View.read_writes_cons_unit_of_mem v f (off := k0_off2 ⟨k, hk⟩) (size := S256x128.size) (k0_off2_inb ⟨k, hk⟩) _ _ (ix2 R l)
          (ix2 (⟨R.val - 256 * k, hr⟩ : Fin 256) l) (k0_off2_eq ⟨k, hk⟩)
          (fun a => by match a with
            | ⟨0, _⟩ => show R.val = 256 * k + (R.val - 256 * k); omega
            | ⟨1, _⟩ => show l.val = 0 + l.val; omega)).trans ?_
        refine (hval ⟨R.val - 256 * k, hr⟩).trans ?_
        show pvalAt _ _ _ (256 * k + (R.val - 256 * k) + 1) = _
        rw [show 256 * k + (R.val - 256 * k) + 1 = R.val + 1 by omega]

end Loop1

/-! ## The second loop: the interpolated rows, chunk by chunk from the bottom -/

section Loop2

variable (x0 : Vec Ideal S1x4096x128 .f32)

/-- The position scratch buffer as the first loop leaves it. -/
abbrev X4 : BufTy.Contents (Elt Ideal) arg4.view.ty :=
  arg4.view.writes (Elt Ideal) arg4.view.junk (S1 c i arg2 harg2 arg3 harg3 arg4 harg4 arg5 harg5 x0 16).2.1
/-- The value scratch buffer as the first loop leaves it. -/
abbrev X5 : BufTy.Contents (Elt Ideal) arg5.view.ty :=
  arg5.view.writes (Elt Ideal) arg5.view.junk (S1 c i arg2 harg2 arg3 harg3 arg4 harg4 arg5 harg5 x0 16).2.2

/-- The second loop's state before trip `n`. -/
abbrev S2 (n : ℕ) :=
  st_k0_t2 (F := Ideal) Variants.none c none i arg2 harg2 arg3 harg3 arg4 harg4 arg5 harg5 (harg2.unread x0)
    (X4 c i arg2 harg2 arg3 harg3 arg4 harg4 arg5 harg5 x0) (X5 c i arg2 harg2 arg3 harg3 arg4 harg4 arg5 harg5 x0) (k0_pay11, k0_pay12) n

/-- One trip: the carried rows and one more store in the output block. -/
theorem S2_succ (k : ℕ) (hk : k < k0_t2_loop.trips) :
    S2 c i arg2 harg2 arg3 harg3 arg4 harg4 arg5 harg5 x0 (k + 1)
      = ((Bwd.tcpos ⟨k, hk⟩ (chunk3 arg2 (harg2.unread x0) ⟨k, hk⟩) (S2 c i arg2 harg2 arg3 harg3 arg4 harg4 arg5 harg5 x0 k).1.1,
          Bwd.tcval ⟨k, hk⟩ (chunk3 arg2 (harg2.unread x0) ⟨k, hk⟩) (S2 c i arg2 harg2 arg3 harg3 arg4 harg4 arg5 harg5 x0 k).1.2),
         ⟨Rect.unit (s := S1x4096x128) (k0_off3 ⟨k, hk⟩) S1x256x128.size (k0_off3_inb ⟨k, hk⟩),
            Bwd.tout ⟨k, hk⟩ (chunk3 arg2 (harg2.unread x0) ⟨k, hk⟩) (S2 c i arg2 harg2 arg3 harg3 arg4 harg4 arg5 harg5 x0 k).1.1 (S2 c i arg2 harg2 arg3 harg3 arg4 harg4 arg5 harg5 x0 k).1.2
              (View.readAt (Elt Ideal) arg4.view (Rect.unit (s := S4096x128) (k0_off4 ⟨k, hk⟩) S256x128.size (k0_off4_inb ⟨k, hk⟩)).toLoadRect (X4 c i arg2 harg2 arg3 harg3 arg4 harg4 arg5 harg5 x0))
              (View.readAt (Elt Ideal) arg5.view (Rect.unit (s := S4096x128) (k0_off4 ⟨k, hk⟩) S256x128.size (k0_off4_inb ⟨k, hk⟩)).toLoadRect (X5 c i arg2 harg2 arg3 harg3 arg4 harg4 arg5 harg5 x0))⟩
            :: (S2 c i arg2 harg2 arg3 harg3 arg4 harg4 arg5 harg5 x0 k).2) := by
  have h := st_k0_t2_succ (F := Ideal) Variants.none c none i arg2 harg2 arg3 harg3 arg4 harg4 arg5 harg5 (harg2.unread x0)
    (X4 c i arg2 harg2 arg3 harg3 arg4 harg4 arg5 harg5 x0) (X5 c i arg2 harg2 arg3 harg3 arg4 harg4 arg5 harg5 x0) (k0_pay11, k0_pay12) ⟨k, hk⟩
  rw [tripR2, tripL2] at h
  exact h

/-- A row of the position scratch buffer read back by the second loop. -/
theorem X4_apply (l : Fin 128) (k : Fin k0_t2_loop.trips) (r : Fin 256) :
    View.readAt (Elt Ideal) arg4.view (Rect.unit (s := S4096x128) (k0_off4 k) S256x128.size (k0_off4_inb k)).toLoadRect (X4 c i arg2 harg2 arg3 harg3 arg4 harg4 arg5 harg5 x0) (ix2 r l)
      = BitVec.ofInt 32 (prevJ (fun s => colL x0 l s ≠ 0) (256 * (15 - k.val) + r.val + 1)) := by
  have hk : k.val < 16 := Nat.lt_of_lt_of_le k.isLt k0_t2_abs.2.1
  rw [View.readAt_eq_ld]
  have hR : 256 * (15 - k.val) + r.val < 4096 := by omega
  have h := (inv1 c i arg2 harg2 arg3 harg3 arg4 harg4 arg5 harg5 x0 l 16 le_rfl).2.2.1 arg4.view arg4.view.junk ⟨256 * (15 - k.val) + r.val, hR⟩ (by show 256 * (15 - k.val) + r.val < 256 * 16; omega)
  refine Eq.trans ?_ h
  show arg4.view.read (Elt Ideal) _ _ = arg4.view.read (Elt Ideal) _ _
  congr 1
  funext a
  apply Fin.ext
  match a with
  | ⟨0, _⟩ => show (k0_off4 k) 0 + 1 * r.val = 256 * (15 - k.val) + r.val; rw [k0_off4_eq]; show 3840 - 256 * k.val + 1 * r.val = _; omega
  | ⟨1, _⟩ => show (k0_off4 k) 1 + 1 * l.val = l.val; rw [k0_off4_eq]; show 0 + 1 * l.val = _; omega

/-- A row of the value scratch buffer read back by the second loop. -/
theorem X5_apply (l : Fin 128) (k : Fin k0_t2_loop.trips) (r : Fin 256) :
    View.readAt (Elt Ideal) arg5.view (Rect.unit (s := S4096x128) (k0_off4 k) S256x128.size (k0_off4_inb k)).toLoadRect (X5 c i arg2 harg2 arg3 harg3 arg4 harg4 arg5 harg5 x0) (ix2 r l)
      = pvalAt (fun s => colL x0 l s ≠ 0) (colL x0 l) 0 (256 * (15 - k.val) + r.val + 1) := by
  have hk : k.val < 16 := Nat.lt_of_lt_of_le k.isLt k0_t2_abs.2.1
  rw [View.readAt_eq_ld]
  have hR : 256 * (15 - k.val) + r.val < 4096 := by omega
  have h := (inv1 c i arg2 harg2 arg3 harg3 arg4 harg4 arg5 harg5 x0 l 16 le_rfl).2.2.2 arg5.view arg5.view.junk ⟨256 * (15 - k.val) + r.val, hR⟩ (by show 256 * (15 - k.val) + r.val < 256 * 16; omega)
  refine Eq.trans ?_ h
  show arg5.view.read (Elt Ideal) _ _ = arg5.view.read (Elt Ideal) _ _
  congr 1
  funext a
  apply Fin.ext
  match a with
  | ⟨0, _⟩ => show (k0_off4 k) 0 + 1 * r.val = 256 * (15 - k.val) + r.val; rw [k0_off4_eq]; show 3840 - 256 * k.val + 1 * r.val = _; omega
  | ⟨1, _⟩ => show (k0_off4 k) 1 + 1 * l.val = l.val; rw [k0_off4_eq]; show 0 + 1 * l.val = _; omega

/-- THE SECOND LOOP's invariant in lane `l`: before trip `n` the carried pair is the next non-gap from row
    `4096 - 256 n` on, and the rows from there on of the output block hold the interpolated column. -/
theorem inv2 (l : Fin 128) (n : ℕ) (hn : n ≤ 16) :
    (S2 c i arg2 harg2 arg3 harg3 arg4 harg4 arg5 harg5 x0 n).1.1 (ix2 0 l)
        = BitVec.ofInt 32 (nextJ (fun s => colL x0 l s ≠ 0) 4096 (4096 - 256 * n))
    ∧ (S2 c i arg2 harg2 arg3 harg3 arg4 harg4 arg5 harg5 x0 n).1.2 (ix2 0 l)
        = nvalAt (fun s => colL x0 l s ≠ 0) (colL x0 l) 0 (4096 - 256 * n)
    ∧ (∀ (v : View sig .tc .vmem S1x4096x128 .f32) (f : v.ty.Contents (Elt Ideal)) (R : Fin 4096), 4096 - 256 * n ≤ R.val →
        v.read (Elt Ideal) (v.writes (Elt Ideal) f (S2 c i arg2 harg2 arg3 harg3 arg4 harg4 arg5 harg5 x0 n).2) (ix3 0 R l)
          = outAt (colL x0 l) R.val) := by
  induction n with
  | zero =>
    refine ⟨?_, ?_, fun v f R hR => absurd R.isLt (by omega)⟩
    · show (k0_pay11 : IVec S1x128 32) (ix2 0 l) = _
      have h0 : nextJ (fun s => colL x0 l s ≠ 0) 4096 (4096 - 256 * 0) = 4096 := by
        show nextUp _ 4096 (4096 - (4096 - 256 * 0)) = 4096
        rfl
      rw [h0]
      rfl
    · show (k0_pay12 (F := Ideal)) (ix2 0 l) = _
      have hneg : ¬ (nextJ (fun s => colL x0 l s ≠ 0) 4096 (4096 - 256 * 0) < 4096) := by
        have h0 : nextJ (fun s => colL x0 l s ≠ 0) 4096 (4096 - 256 * 0) = 4096 := by
          show nextUp _ 4096 (4096 - (4096 - 256 * 0)) = 4096
          rfl
        rw [h0]; decide
      unfold nvalAt
      rw [if_neg hneg]
      exact Ideal.ofBits_zero_f32
  | succ k ih =>
    have hk : k < k0_t2_loop.trips := by rw [trips2']; omega
    have hk16 : k < 16 := by omega
    obtain ⟨ih1, ih2, ih3⟩ := ih (by omega)
    rw [S2_succ c i arg2 harg2 arg3 harg3 arg4 harg4 arg5 harg5 x0 k hk]
    have hst : 4096 - 256 * k = 256 * (15 - k) + 256 := by omega
    have hst' : 4096 - 256 * (k + 1) = 256 * (15 - k) := by omega
    rw [hst] at ih1 ih2
    have hcol : ∀ r : Fin 256, chunk3 arg2 (harg2.unread x0) ⟨k, hk⟩ (ix3 0 r l) = colL x0 l (256 * (15 - k) + r.val) :=
      fun r => chunk3_apply arg2 harg2 x0 ⟨k, hk⟩ r l
    have hn1 := nextJ_le (fun s => colL x0 l s ≠ 0) 4096 (256 * (15 - k) + 256)
    have hn2 := nextJ_ge (fun s => colL x0 l s ≠ 0) 4096 (256 * (15 - k) + 256) (by omega)
    have hnp : ∀ r : Fin 256, Bwd.npos (colL x0 l) (nextJ (fun s => colL x0 l s ≠ 0) 4096 (256 * (15 - k) + 256)) (256 * (15 - k)) r.val
        = nextJ (fun s => colL x0 l s ≠ 0) 4096 (256 * (15 - k) + r.val) := fun r => by
      have hb := congrArg Prod.fst (bwd_block (fun s => colL x0 l s ≠ 0) (colL x0 l) (0 : EReal) (256 * (15 - k)) r.val r.isLt (by omega))
      rw [apply_ite Prod.fst] at hb
      exact hb
    have hnv : ∀ r : Fin 256, Bwd.nval (colL x0 l) (nvalAt (fun s => colL x0 l s ≠ 0) (colL x0 l) 0 (256 * (15 - k) + 256)) (256 * (15 - k)) r.val
        = nvalAt (fun s => colL x0 l s ≠ 0) (colL x0 l) 0 (256 * (15 - k) + r.val) := fun r => by
      have hb := congrArg Prod.snd (bwd_block (fun s => colL x0 l s ≠ 0) (colL x0 l) (0 : EReal) (256 * (15 - k)) r.val r.isLt (by omega))
      rw [apply_ite Prod.snd] at hb
      exact hb
    have hout : ∀ r : Fin 256, Bwd.tout ⟨k, hk⟩ (chunk3 arg2 (harg2.unread x0) ⟨k, hk⟩) (S2 c i arg2 harg2 arg3 harg3 arg4 harg4 arg5 harg5 x0 k).1.1 (S2 c i arg2 harg2 arg3 harg3 arg4 harg4 arg5 harg5 x0 k).1.2
        (View.readAt (Elt Ideal) arg4.view (Rect.unit (s := S4096x128) (k0_off4 ⟨k, hk⟩) S256x128.size (k0_off4_inb ⟨k, hk⟩)).toLoadRect (X4 c i arg2 harg2 arg3 harg3 arg4 harg4 arg5 harg5 x0))
        (View.readAt (Elt Ideal) arg5.view (Rect.unit (s := S4096x128) (k0_off4 ⟨k, hk⟩) S256x128.size (k0_off4_inb ⟨k, hk⟩)).toLoadRect (X5 c i arg2 harg2 arg3 harg3 arg4 harg4 arg5 harg5 x0))
        (ix3 0 r l) = outAt (colL x0 l) (256 * (15 - k) + r.val) := fun r => by
      have hp1 := prevJ_ge (fun s => colL x0 l s ≠ 0) (256 * (15 - k) + r.val + 1)
      have hp2 := prevJ_lt (fun s => colL x0 l s ≠ 0) (256 * (15 - k) + r.val + 1)
      have hr := r.isLt
      rw [Bwd.tout_apply ⟨k, hk⟩ _ _ _ _ _ l (colL x0 l) _ _ hcol ih1 (by omega) hn1 ih2 r _ _
        (X4_apply c i arg2 harg2 arg3 harg3 arg4 harg4 arg5 harg5 x0 l ⟨k, hk⟩ r) hp1 (show prevJ (fun s => colL x0 l s ≠ 0) (256 * (15 - k) + r.val + 1) < 4096 by omega) (X5_apply c i arg2 harg2 arg3 harg3 arg4 harg4 arg5 harg5 x0 l ⟨k, hk⟩ r)]
      have e1 := hnp r
      have e2 := hnv r
      dsimp only at e1 e2 ⊢
      rw [e1, e2]
      exact kOut_eq (colL x0 l) (colL_high x0 l) (256 * (15 - k) + r.val) (by omega)
    refine ⟨?_, ?_, fun v f R hR => ?_⟩
    · dsimp only
      rw [Bwd.tcpos_apply ⟨k, hk⟩ _ _ l (colL x0 l) _ hcol ih1 (by omega) hn1]
      have e1 : Bwd.npos (colL x0 l) (nextJ (fun s => colL x0 l s ≠ 0) 4096 (256 * (15 - k) + 256)) (256 * (15 - k)) 0
          = nextJ (fun s => colL x0 l s ≠ 0) 4096 (256 * (15 - k) + 0) := hnp 0
      rw [e1, hst', Nat.add_zero]
    · dsimp only
      rw [Bwd.tcval_apply ⟨k, hk⟩ _ _ l (colL x0 l) _ hcol ih2]
      have e2 : Bwd.nval (colL x0 l) (nvalAt (fun s => colL x0 l s ≠ 0) (colL x0 l) 0 (256 * (15 - k) + 256)) (256 * (15 - k)) 0
          = nvalAt (fun s => colL x0 l s ≠ 0) (colL x0 l) 0 (256 * (15 - k) + 0) := hnv 0
      rw [e2, hst', Nat.add_zero]
    · dsimp only
      by_cases hge : 256 * (15 - k) + 256 ≤ R.val
      · rw [View.read_writes_cons_unit_of_not_mem v f (off := k0_off3 ⟨k, hk⟩) (size := S1x256x128.size) (k0_off3_inb ⟨k, hk⟩) _ _ (ix3 0 R l) (k0_off3_eq ⟨k, hk⟩) (1 : Fin 3) (Or.inr (by show 3840 - 256 * k + 256 ≤ R.val; omega))]
        exact ih3 v f R (by omega)
      · have hr : R.val - 256 * (15 - k) < 256 := by omega
        refine (View.read_writes_cons_unit_of_mem v f (off := k0_off3 ⟨k, hk⟩) (size := S1x256x128.size) (k0_off3_inb ⟨k, hk⟩) _ _ (ix3 0 R l)
          (ix3 (0 : Fin 1) (⟨R.val - 256 * (15 - k), hr⟩ : Fin 256) l) (k0_off3_eq ⟨k, hk⟩)
          (fun a => by match a with
            | ⟨0, _⟩ => rfl
            | ⟨1, _⟩ => show R.val = 3840 - 256 * k + (R.val - 256 * (15 - k)); omega
            | ⟨2, _⟩ => show l.val = 0 + l.val; omega)).trans ?_
        refine (hout ⟨R.val - 256 * (15 - k), hr⟩).trans ?_
        show outAt _ (256 * (15 - k) + (R.val - 256 * (15 - k))) = _
        rw [show 256 * (15 - k) + (R.val - 256 * (15 - k)) = R.val by omega]

end Loop2

/-! ## The block a grid point leaves -/

section Block

variable (x0 : Vec Ideal S1x4096x128 .f32)

/-- The pieces the body's run leaves in the output block are the second loop's sixteen stores. -/
theorem run_pieces :
    (kernelRun0_A (F := Ideal) c i arg2 harg2 arg3 harg3 arg4 harg4 arg5 harg5 x0).1 = (S2 c i arg2 harg2 arg3 harg3 arg4 harg4 arg5 harg5 x0 16).2 := by
  unfold kernelRun0_A
  have e : Scf.trips (0#32 : BitVec 32) (Scalar.addi 0#32 16#32) 1#32 = 16 := by decide
  simp only [st1, e]

/-- The output block a grid point leaves, read at a row and a lane: the lane's column interpolated. -/
theorem out_apply (R : Fin 4096) (l : Fin 128) :
    out0_A_1 (F := Ideal) c i arg2 harg2 arg3 harg3 arg4 harg4 arg5 harg5 x0 (ix3 0 R l) = outAt (colL x0 l) R.val := by
  unfold out0_A_1
  rw [run_pieces]
  exact (inv2 c i arg2 harg2 arg3 harg3 arg4 harg4 arg5 harg5 x0 l 16 le_rfl).2.2 VO0_1 VO0_1.junk R (by omega)

end Block

/-- WHAT POINT `t` LEAVES in the output's staging buffer is the slab of the specification's array: at row `r`,
    lane `l` the interpolated value of the argument array's column through (batch row of `t`, ·, lane of `t`). -/
theorem block_eq (m : (ℓ : Loc nD τ sig) → Buf (Elt Ideal) ℓ) (c : Dev nD) (t : Fin cfg0.N) (r : Fin 4096) (l : Fin 128) :
    outsAt0 (F := Ideal) m c t (ix3 0 r l)
      = Cert.Interp.G (m ((c.tc : Thread nD τ).loc main_arg0)) (ix3 (Blocks.brow t) r (Blocks.lane t l)) := by
  unfold outsAt0
  rw [out_apply]
  show outAt _ r.val = outAt (colOf (m ((c.tc : Thread nD τ).loc main_arg0)) (Blocks.brow t) (Blocks.lane t l)) r.val
  congr 1
  funext s
  unfold colL colOf
  by_cases h : s < 4096
  · rw [dif_pos h, dif_pos h]
    exact Blocks.iblk_apply m c t ⟨s, h⟩ l
  · rw [dif_neg h, dif_neg h]

end Cert.Interp.KV

end
-- ==== Proof.Assemble.lean ====
/-
  The certificate's five claims.

  The kernel fills the gaps (zero entries) of every column of an array [8, 4096, 512] along its second axis by the
  line through the nearest entries that are not gaps, a leading run of gaps with the next value and a trailing run with
  the previous one; the reference computes the same interpolation with running extrema and two gathers. Both
  are shown equal to ONE function of the argument array, `Cert.Interp.G`: the reference's last stage is `G` of its
  argument, and every grid point of the kernel leaves in the output's staging buffer its slab of `G` of the kernel's
  argument, the 32 slabs tiling the result array. The three frame claims are the programs' runs with the result
  dropped; the idealization rewrote no operation.
-/
import proofs.«173454_j55009941127452_2_alg».proof.Defs
import proofs.«173454_j55009941127452_2_alg».proof.Proof.Gen.Kernel
import proofs.«173454_j55009941127452_2_alg».proof.Proof.FrameK
import proofs.«173454_j55009941127452_2_alg».proof.Proof.Gen.KernelIdeal
import proofs.«173454_j55009941127452_2_alg».proof.Proof.FrameKI
import proofs.«173454_j55009941127452_2_alg».proof.Proof.ValueKI
import proofs.«173454_j55009941127452_2_alg».proof.Proof.Gen.ReferenceIdeal
import proofs.«173454_j55009941127452_2_alg».proof.Proof.Gen.Pre_finite_inputs
import proofs.«173454_j55009941127452_2_alg».proof.Proof.RefRun2
import proofs.«173454_j55009941127452_2_alg».proof.Proof.RefValue
import proofs.«173454_j55009941127452_2_alg».proof.Proof.Spec
import proofs.«173454_j55009941127452_2_alg».proof.Proof.KFinal
import proofs.«173454_j55009941127452_2_alg».proof.Proof.KValue

set_option maxRecDepth 16384

noncomputable section

/-! ## The claims -/

namespace Cert.Interp.Claims

open Idealize.ShloMosaic Idealize.ShloMosaic.TcCoe Idealize.SL.Sem

/-- The kernel as printed runs and leaves its argument as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its argument as launched: its run with the result dropped. -/
theorem frame_ri : Cert.frame_ReferenceIdeal := fun m ρ _ =>
  (θ_run Cert.ReferenceIdeal.defs _ _).mono (fun _ h c => (h c).2) (Cert.Interp.RefRun2.run (F := Ideal) m ρ)

/-- The idealization rewrote no operation. -/
theorem preserves : Cert.preserves_Kernel_KernelIdeal := trivial

/-- The kernel's run over the extended reals ends with the interpolation of its argument in the result array: every
    grid point leaves the slab of the interpolation in the staging buffer, and the slabs tile the array. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v0)
          = Cert.Interp.G (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0) :=
  (θ_run Cert.KernelIdeal.defs _ _).mono
    (fun r h c => ⟨(h c).1.trans (Cert.Interp.Blocks.final_of_blocks m c _ (Cert.Interp.KV.block_eq m c)), (h c).2⟩)
    (Cert.KernelIdeal.Value.run_blocks (F := Ideal) m ρ)

/-- Over the extended reals the kernel and the reference, started on the same argument, both end with the
    interpolation of that argument. -/
theorem algebraic : Cert.algebraic_KernelIdeal_ReferenceIdeal := by
  intro m ρ m' ρ' _ hagree
  refine ⟨fun c => Cert.Interp.G (m ((c.tc : Thread Cert.KernelIdeal.nD Cert.KernelIdeal.τ).loc Cert.KernelIdeal.main_arg0)),
    kernel_run m ρ, ?_⟩
  refine (θ_run Cert.ReferenceIdeal.defs _ _).mono (fun _ h c => ⟨?_, (h c).2⟩)
    (Cert.Interp.RefRun2.run (F := Ideal) m' ρ')
  rw [(h c).1, Cert.Interp.Ref.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Interp.Claims

end
-- ==== Proof.lean ====
/-
  Run-length linear interpolation along the time axis: the kernel against its reference, over the extended reals.

  Every column of the argument f32[8, 4096, 512] (through a batch row and a feature lane) is treated alone: an entry
  equal to 0 is a gap, and a run of gaps is filled by the line through the nearest non-gaps on either side, a leading
  run by the next value and a trailing run by the previous one. The kernel finds the nearest non-gaps by prefix scans
  with doubling shifts inside chunks of 256 rows, carrying one (position, value) pair from chunk to chunk, first top
  to bottom into two scratch buffers and then bottom to top, where it also interpolates; the reference uses a
  running maximum, a reversed running minimum and two gathers. Both are the one whole-array function
  `Cert.Interp.G` of the argument (Proof/Spec.lean), so their results are equal element by element; the claims are
  assembled in Proof/Assemble.lean.
-/
import proofs.«173454_j55009941127452_2_alg».proof.Defs
import proofs.«173454_j55009941127452_2_alg».proof.Proof.Assemble

noncomputable section

namespace Cert.Proof

theorem claim : Cert.Claim := Cert.Interp.Claims.claim

end Cert.Proof

end
